-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x128 : Shape := ⟨2, ![30000, 128]⟩
abbrev S480000x64 : Shape := ⟨2, ![480000, 64]⟩
abbrev S480000 : Shape := ⟨1, ![480000]⟩
abbrev S8192 : Shape := ⟨1, ![8192]⟩
abbrev S128 : Shape := ⟨1, ![128]⟩
abbrev S1048576x64 : Shape := ⟨2, ![1048576, 64]⟩
abbrev S8192x128 : Shape := ⟨2, ![8192, 128]⟩
abbrev S192x128 : Shape := ⟨2, ![192, 128]⟩
abbrev S256x256 : Shape := ⟨2, ![256, 256]⟩
abbrev S256 : Shape := ⟨1, ![256]⟩
abbrev S384x64 : Shape := ⟨2, ![384, 64]⟩
abbrev S64 : Shape := ⟨1, ![64]⟩
abbrev S320x256 : Shape := ⟨2, ![320, 256]⟩
abbrev S128x256 : Shape := ⟨2, ![128, 256]⟩
abbrev S256x64 : Shape := ⟨2, ![256, 64]⟩
abbrev S8192x10 : Shape := ⟨2, ![8192, 10]⟩
abbrev S10 : Shape := ⟨1, ![10]⟩
abbrev S_ : Shape := ⟨0, ![]⟩

class Facts : Prop where
  bcast_S_S30000x128 : S_.BroadcastsInDim S30000x128 (![] : Fin 0 → Fin S30000x128.rank)
  reducesTo_S30000x128_S_d0_1 : S30000x128.ReducesTo [0, 1] S_
  h_S_ : 0 < S_.numel
  bcast_S_S480000x64 : S_.BroadcastsInDim S480000x64 (![] : Fin 0 → Fin S480000x64.rank)
  reducesTo_S480000x64_S_d0_1 : S480000x64.ReducesTo [0, 1] S_
  bcast_S_S1048576x64 : S_.BroadcastsInDim S1048576x64 (![] : Fin 0 → Fin S1048576x64.rank)
  reducesTo_S1048576x64_S_d0_1 : S1048576x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S320x256 : S_.BroadcastsInDim S320x256 (![] : Fin 0 → Fin S320x256.rank)
  reducesTo_S320x256_S_d0_1 : S320x256.ReducesTo [0, 1] S_
  bcast_S_S128x256 : S_.BroadcastsInDim S128x256 (![] : Fin 0 → Fin S128x256.rank)
  reducesTo_S128x256_S_d0_1 : S128x256.ReducesTo [0, 1] S_
  bcast_S_S256x64 : S_.BroadcastsInDim S256x64 (![] : Fin 0 → Fin S256x64.rank)
  reducesTo_S256x64_S_d0_1 : S256x64.ReducesTo [0, 1] S_
  bcast_S_S8192x10 : S_.BroadcastsInDim S8192x10 (![] : Fin 0 → Fin S8192x10.rank)
  reducesTo_S8192x10_S_d0_1 : S8192x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg26 : FVec F S10 .f32) (main_v98 : IVec S_ 1) (main_v101 : IVec S8192x10 1) (main_c_39 : IVec S_ 1) : IVec S_ 1 :=
  let main_v102 : IVec S_ 1 := (fun x v => Host.reduce IntOp.andi x v reducesTo_S8192x10_S_d0_1 h_S_) main_v101 main_c_39
  let main_v103 : IVec S_ 1 := andi main_v98 main_v102
  let main_v104 : FVec F S10 .f32 := Host.absf main_arg26
  let main_cst_40 : FVec F S_ .f32 := constant S_ .f32 0x7F800000#32
  let main_v105 : FVec F S10 .f32 := broadcastInDim S10 ![] bcast_S_S10 main_cst_40
  let main_v106 : IVec S10 1 := cmpf .olt main_v104 main_v105
  let main_c_41 : IVec S_ 1 := constantI S_ 1 1#1
  let main_v107 : IVec S_ 1 := (fun x v => Host.reduce IntOp.andi x v reducesTo_S10_S_d0 h_S_) main_v106 main_c_41
  let main_v108 : IVec S_ 1 := andi main_v103 main_v107
  main_v108

def fn_part5 {F : FTy → Type} [FloatOps F] (main_arg23 : FVec F S256x64 .f32) (main_arg24 : FVec F S64 .f32) (main_arg25 : FVec F S8192x10 .f32) (main_arg26 : FVec F S10 .f32) (main_v83 : IVec S_ 1) (main_v84 : FVec F S256x64 .f32) (main_cst_32 : FVec F S_ .f32) : IVec S_ 1 :=
  let main_v85 : FVec F S256x64 .f32 := broadcastInDim S256x64 ![] bcast_S_S256x64 main_cst_32
  let main_v86 : IVec S256x64 1 := cmpf .olt main_v84 main_v85
  let main_c_33 : IVec S_ 1 := constantI S_ 1 1#1
  let main_v87 : IVec S_ 1 := (fun x v => Host.reduce IntOp.andi x v reducesTo_S256x64_S_d0_1 h_S_) main_v86 main_c_33
  let main_v88 : IVec S_ 1 := andi main_v83 main_v87
  let main_v89 : FVec F S256x64 .f32 := Host.absf main_arg23
  let main_cst_34 : FVec F S_ .f32 := constant S_ .f32 0x7F800000#32
  let main_v90 : FVec F S256x64 .f32 := broadcastInDim S256x64 ![] bcast_S_S256x64 main_cst_34
  let main_v91 : IVec S256x64 1 := cmpf .olt main_v89 main_v90
  let main_c_35 : IVec S_ 1 := constantI S_ 1 1#1
  let main_v92 : IVec S_ 1 := (fun x v => Host.reduce IntOp.andi x v reducesTo_S256x64_S_d0_1 h_S_) main_v91 main_c_35
  let main_v93 : IVec S_ 1 := andi main_v88 main_v92
  let main_v94 : FVec F S64 .f32 := Host.absf main_arg24
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S8192x10 .f32 := Host.absf main_arg25
  let main_cst_38 : FVec F S_ .f32 := constant S_ .f32 0x7F800000#32
  let main_v100 : FVec F S8192x10 .f32 := broadcastInDim S8192x10 ![] bcast_S_S8192x10 main_cst_38
  let main_v101 : IVec S8192x10 1 := cmpf .olt main_v99 main_v100
  let main_c_39 : IVec S_ 1 := constantI S_ 1 1#1
  fn_part6 (F := F) main_arg26 main_v98 main_v101 main_c_39

def fn_part4 {F : FTy → Type} [FloatOps F] (main_arg19 : FVec F S256x256 .f32) (main_arg20 : FVec F S256x256 .f32) (main_arg21 : FVec F S256 .f32) (main_arg22 : FVec F S256x64 .f32) (main_arg23 : FVec F S256x64 .f32) (main_arg24 : FVec F S64 .f32) (main_arg25 : FVec F S8192x10 .f32) (main_arg26 : FVec F S10 .f32) (main_v63 : IVec S_ 1) (main_v67 : IVec S_ 1) : IVec S_ 1 :=
  let main_v68 : IVec S_ 1 := andi main_v63 main_v67
  let main_v69 : FVec F S256x256 .f32 := Host.absf main_arg19
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256x256 .f32 := Host.absf main_arg20
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg21
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x64 .f32 := Host.absf main_arg22
  let main_cst_32 : FVec F S_ .f32 := constant S_ .f32 0x7F800000#32
  fn_part5 (F := F) main_arg23 main_arg24 main_arg25 main_arg26 main_v83 main_v84 main_cst_32

def fn_part3 {F : FTy → Type} [FloatOps F] (main_arg16 : FVec F S128x256 .f32) (main_arg17 : FVec F S256x256 .f32) (main_arg18 : FVec F S256x256 .f32) (main_arg19 : FVec F S256x256 .f32) (main_arg20 : FVec F S256x256 .f32) (main_arg21 : FVec F S256 .f32) (main_arg22 : FVec F S256x64 .f32) (main_arg23 : FVec F S256x64 .f32) (main_arg24 : FVec F S64 .f32) (main_arg25 : FVec F S8192x10 .f32) (main_arg26 : FVec F S10 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S128x256 .f32 := Host.absf main_arg16
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S256x256 .f32 := Host.absf main_arg17
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x256 .f32 := Host.absf main_arg18
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg19 main_arg20 main_arg21 main_arg22 main_arg23 main_arg24 main_arg25 main_arg26 main_v63 main_v67

def fn_part2 {F : FTy → Type} [FloatOps F] (main_arg12 : FVec F S384x64 .f32) (main_arg13 : FVec F S64 .f32) (main_arg14 : FVec F S320x256 .f32) (main_arg15 : FVec F S256 .f32) (main_arg16 : FVec F S128x256 .f32) (main_arg17 : FVec F S256x256 .f32) (main_arg18 : FVec F S256x256 .f32) (main_arg19 : FVec F S256x256 .f32) (main_arg20 : FVec F S256x256 .f32) (main_arg21 : FVec F S256 .f32) (main_arg22 : FVec F S256x64 .f32) (main_arg23 : FVec F S256x64 .f32) (main_arg24 : FVec F S64 .f32) (main_arg25 : FVec F S8192x10 .f32) (main_arg26 : FVec F S10 .f32) (main_v33 : IVec S_ 1) : IVec S_ 1 :=
  let main_v34 : FVec F S384x64 .f32 := Host.absf main_arg12
  let main_cst_12 : FVec F S_ .f32 := constant S_ .f32 0x7F800000#32
  let main_v35 : FVec F S384x64 .f32 := broadcastInDim S384x64 ![] bcast_S_S384x64 main_cst_12
  let main_v36 : IVec S384x64 1 := cmpf .olt main_v34 main_v35
  let main_c_13 : IVec S_ 1 := constantI S_ 1 1#1
  let main_v37 : IVec S_ 1 := (fun x v => Host.reduce IntOp.andi x v reducesTo_S384x64_S_d0_1 h_S_) main_v36 main_c_13
  let main_v38 : IVec S_ 1 := andi main_v33 main_v37
  let main_v39 : FVec F S64 .f32 := Host.absf main_arg13
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S320x256 .f32 := Host.absf main_arg14
  let main_cst_16 : FVec F S_ .f32 := constant S_ .f32 0x7F800000#32
  let main_v45 : FVec F S320x256 .f32 := broadcastInDim S320x256 ![] bcast_S_S320x256 main_cst_16
  let main_v46 : IVec S320x256 1 := cmpf .olt main_v44 main_v45
  let main_c_17 : IVec S_ 1 := constantI S_ 1 1#1
  let main_v47 : IVec S_ 1 := (fun x v => Host.reduce IntOp.andi x v reducesTo_S320x256_S_d0_1 h_S_) main_v46 main_c_17
  let main_v48 : IVec S_ 1 := andi main_v43 main_v47
  let main_v49 : FVec F S256 .f32 := Host.absf main_arg15
  let main_cst_18 : FVec F S_ .f32 := constant S_ .f32 0x7F800000#32
  let main_v50 : FVec F S256 .f32 := broadcastInDim S256 ![] bcast_S_S256 main_cst_18
  fn_part3 (F := F) main_arg16 main_arg17 main_arg18 main_arg19 main_arg20 main_arg21 main_arg22 main_arg23 main_arg24 main_arg25 main_arg26 main_v48 main_v49 main_v50

def fn_part1 {F : FTy → Type} [FloatOps F] (main_arg9 : FVec F S128 .f32) (main_arg10 : FVec F S256x256 .f32) (main_arg11 : FVec F S256 .f32) (main_arg12 : FVec F S384x64 .f32) (main_arg13 : FVec F S64 .f32) (main_arg14 : FVec F S320x256 .f32) (main_arg15 : FVec F S256 .f32) (main_arg16 : FVec F S128x256 .f32) (main_arg17 : FVec F S256x256 .f32) (main_arg18 : FVec F S256x256 .f32) (main_arg19 : FVec F S256x256 .f32) (main_arg20 : FVec F S256x256 .f32) (main_arg21 : FVec F S256 .f32) (main_arg22 : FVec F S256x64 .f32) (main_arg23 : FVec F S256x64 .f32) (main_arg24 : FVec F S64 .f32) (main_arg25 : FVec F S8192x10 .f32) (main_arg26 : FVec F S10 .f32) (main_v13 : IVec S_ 1) (main_v16 : IVec S192x128 1) : IVec S_ 1 :=
  let main_c_5 : IVec S_ 1 := constantI S_ 1 1#1
  let main_v17 : IVec S_ 1 := (fun x v => Host.reduce IntOp.andi x v reducesTo_S192x128_S_d0_1 h_S_) main_v16 main_c_5
  let main_v18 : IVec S_ 1 := andi main_v13 main_v17
  let main_v19 : FVec F S128 .f32 := Host.absf main_arg9
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x256 .f32 := Host.absf main_arg10
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg11
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S30000x128 .f32) (main_arg1 : FVec F S480000x64 .f32) (main_arg2 : IVec S480000 32) (main_arg3 : IVec S480000 32) (main_arg4 : IVec S8192 32) (main_arg5 : IVec S128 32) (main_arg6 : FVec F S1048576x64 .f32) (main_arg7 : IVec S8192x128 1) (main_arg8 : FVec F S192x128 .f32) (main_arg9 : FVec F S128 .f32) (main_arg10 : FVec F S256x256 .f32) (main_arg11 : FVec F S256 .f32) (main_arg12 : FVec F S384x64 .f32) (main_arg13 : FVec F S64 .f32) (main_arg14 : FVec F S320x256 .f32) (main_arg15 : FVec F S256 .f32) (main_arg16 : FVec F S128x256 .f32) (main_arg17 : FVec F S256x256 .f32) (main_arg18 : FVec F S256x256 .f32) (main_arg19 : FVec F S256x256 .f32) (main_arg20 : FVec F S256x256 .f32) (main_arg21 : FVec F S256 .f32) (main_arg22 : FVec F S256x64 .f32) (main_arg23 : FVec F S256x64 .f32) (main_arg24 : FVec F S64 .f32) (main_arg25 : FVec F S8192x10 .f32) (main_arg26 : FVec F S10 .f32) : IVec S_ 1 :=
  let main_v0 : FVec F S30000x128 .f32 := Host.absf main_arg0
  let main_cst : FVec F S_ .f32 := constant S_ .f32 0x7F800000#32
  let main_v1 : FVec F S30000x128 .f32 := broadcastInDim S30000x128 ![] bcast_S_S30000x128 main_cst
  let main_v2 : IVec S30000x128 1 := cmpf .olt main_v0 main_v1
  let main_c : IVec S_ 1 := constantI S_ 1 1#1
  let main_v3 : IVec S_ 1 := (fun x v => Host.reduce IntOp.andi x v reducesTo_S30000x128_S_d0_1 h_S_) main_v2 main_c
  let main_v4 : FVec F S480000x64 .f32 := Host.absf main_arg1
  let main_cst_0 : FVec F S_ .f32 := constant S_ .f32 0x7F800000#32
  let main_v5 : FVec F S480000x64 .f32 := broadcastInDim S480000x64 ![] bcast_S_S480000x64 main_cst_0
  let main_v6 : IVec S480000x64 1 := cmpf .olt main_v4 main_v5
  let main_c_1 : IVec S_ 1 := constantI S_ 1 1#1
  let main_v7 : IVec S_ 1 := (fun x v => Host.reduce IntOp.andi x v reducesTo_S480000x64_S_d0_1 h_S_) main_v6 main_c_1
  let main_v8 : IVec S_ 1 := andi main_v3 main_v7
  let main_v9 : FVec F S1048576x64 .f32 := Host.absf main_arg6
  let main_cst_2 : FVec F S_ .f32 := constant S_ .f32 0x7F800000#32
  let main_v10 : FVec F S1048576x64 .f32 := broadcastInDim S1048576x64 ![] bcast_S_S1048576x64 main_cst_2
  let main_v11 : IVec S1048576x64 1 := cmpf .olt main_v9 main_v10
  let main_c_3 : IVec S_ 1 := constantI S_ 1 1#1
  let main_v12 : IVec S_ 1 := (fun x v => Host.reduce IntOp.andi x v reducesTo_S1048576x64_S_d0_1 h_S_) main_v11 main_c_3
  let main_v13 : IVec S_ 1 := andi main_v8 main_v12
  let main_v14 : FVec F S192x128 .f32 := Host.absf main_arg8
  let main_cst_4 : FVec F S_ .f32 := constant S_ .f32 0x7F800000#32
  let main_v15 : FVec F S192x128 .f32 := broadcastInDim S192x128 ![] bcast_S_S192x128 main_cst_4
  let main_v16 : IVec S192x128 1 := cmpf .olt main_v14 main_v15
  fn_part1 (F := F) main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S30000x128 : Shape := ⟨2, ![30000, 128]⟩
abbrev S480000x64 : Shape := ⟨2, ![480000, 64]⟩
abbrev S480000 : Shape := ⟨1, ![480000]⟩
abbrev S8192 : Shape := ⟨1, ![8192]⟩
abbrev S128 : Shape := ⟨1, ![128]⟩
abbrev S1048576x64 : Shape := ⟨2, ![1048576, 64]⟩
abbrev S8192x128 : Shape := ⟨2, ![8192, 128]⟩
abbrev S192x128 : Shape := ⟨2, ![192, 128]⟩
abbrev S256x256 : Shape := ⟨2, ![256, 256]⟩
abbrev S256 : Shape := ⟨1, ![256]⟩
abbrev S384x64 : Shape := ⟨2, ![384, 64]⟩
abbrev S64 : Shape := ⟨1, ![64]⟩
abbrev S320x256 : Shape := ⟨2, ![320, 256]⟩
abbrev S128x256 : Shape := ⟨2, ![128, 256]⟩
abbrev S256x64 : Shape := ⟨2, ![256, 64]⟩
abbrev S8192x10 : Shape := ⟨2, ![8192, 10]⟩
abbrev S10 : Shape := ⟨1, ![10]⟩
abbrev S_ : Shape := ⟨0, ![]⟩
abbrev S480000x1 : Shape := ⟨2, ![480000, 1]⟩
abbrev S480000x128 : Shape := ⟨2, ![480000, 128]⟩
abbrev S480000x192 : Shape := ⟨2, ![480000, 192]⟩
abbrev S8000x192 : Shape := ⟨2, ![8000, 192]⟩
abbrev S8000x128 : Shape := ⟨2, ![8000, 128]⟩
abbrev S1x128 : Shape := ⟨2, ![1, 128]⟩
abbrev S30000x1 : Shape := ⟨2, ![30000, 1]⟩
abbrev S30000x256 : Shape := ⟨2, ![30000, 256]⟩
abbrev S5000x256 : Shape := ⟨2, ![5000, 256]⟩
abbrev S1x256 : Shape := ⟨2, ![1, 256]⟩
abbrev S128x1 : Shape := ⟨2, ![128, 1]⟩
abbrev S480000x256 : Shape := ⟨2, ![480000, 256]⟩
abbrev S480000x384 : Shape := ⟨2, ![480000, 384]⟩
abbrev S8000x384 : Shape := ⟨2, ![8000, 384]⟩
abbrev S8000x64 : Shape := ⟨2, ![8000, 64]⟩
abbrev S1x64 : Shape := ⟨2, ![1, 64]⟩
abbrev S30000x64 : Shape := ⟨2, ![30000, 64]⟩
abbrev S30000x320 : Shape := ⟨2, ![30000, 320]⟩
abbrev S5000x320 : Shape := ⟨2, ![5000, 320]⟩
abbrev S8192x1 : Shape := ⟨2, ![8192, 1]⟩
abbrev S8192x256 : Shape := ⟨2, ![8192, 256]⟩
abbrev S256x128 : Shape := ⟨2, ![256, 128]⟩
abbrev S128x128 : Shape := ⟨2, ![128, 128]⟩
abbrev S8192x64 : Shape := ⟨2, ![8192, 64]⟩
abbrev S128x64 : Shape := ⟨2, ![128, 64]⟩
abbrev S8192x128x64 : Shape := ⟨3, ![8192, 128, 64]⟩
abbrev S128x128x64 : Shape := ⟨3, ![128, 128, 64]⟩
abbrev S128x1x64 : Shape := ⟨3, ![128, 1, 64]⟩
abbrev S1x128x64 : Shape := ⟨3, ![1, 128, 64]⟩
abbrev S1x1x64 : Shape := ⟨3, ![1, 1, 64]⟩
abbrev S128x128x1 : Shape := ⟨3, ![128, 128, 1]⟩
abbrev S8192x8192 : Shape := ⟨2, ![8192, 8192]⟩
abbrev S256x8192 : Shape := ⟨2, ![256, 8192]⟩
abbrev S256x10 : Shape := ⟨2, ![256, 10]⟩
abbrev S1x10 : Shape := ⟨2, ![1, 10]⟩
abbrev S256x1 : Shape := ⟨2, ![256, 1]⟩

abbrev nBuf : Space → Nat
  | .hbm => 149
  | .vmem => 42
  | .smem => 0
  | _ => 0

abbrev hbmTy0_0 (i : Nat) : BufTy := match i % 128 with
  | 0 => ⟨S30000x128, .f32⟩
  | 1 => ⟨S480000x64, .f32⟩
  | 2 => ⟨S480000, .i32⟩
  | 3 => ⟨S480000, .i32⟩
  | 4 => ⟨S8192, .i32⟩
  | 5 => ⟨S128, .i32⟩
  | 6 => ⟨S1048576x64, .f32⟩
  | 7 => ⟨S8192x128, .i1⟩
  | 8 => ⟨S192x128, .f32⟩
  | 9 => ⟨S128, .f32⟩
  | 10 => ⟨S256x256, .f32⟩
  | 11 => ⟨S256, .f32⟩
  | 12 => ⟨S384x64, .f32⟩
  | 13 => ⟨S64, .f32⟩
  | 14 => ⟨S320x256, .f32⟩
  | 15 => ⟨S256, .f32⟩
  | 16 => ⟨S128x256, .f32⟩
  | 17 => ⟨S256x256, .f32⟩
  | 18 => ⟨S256x256, .f32⟩
  | 19 => ⟨S256x256, .f32⟩
  | 20 => ⟨S256x256, .f32⟩
  | 21 => ⟨S256, .f32⟩
  | 22 => ⟨S256x64, .f32⟩
  | 23 => ⟨S256x64, .f32⟩
  | 24 => ⟨S64, .f32⟩
  | 25 => ⟨S8192x10, .f32⟩
  | 26 => ⟨S10, .f32⟩
  | 27 => ⟨S_, .i32⟩
  | 28 => ⟨S480000, .i32⟩
  | 29 => ⟨S480000, .i1⟩
  | 30 => ⟨S_, .i32⟩
  | 31 => ⟨S480000, .i32⟩
  | 32 => ⟨S480000, .i32⟩
  | 33 => ⟨S480000, .i32⟩
  | 34 => ⟨S480000x1, .i32⟩
  | 35 => ⟨S480000x128, .f32⟩
  | 36 => ⟨S480000x192, .f32⟩
  | 37 => ⟨S480000x128, .f32⟩
  | 38 => ⟨S_, .f32⟩
  | 39 => ⟨S30000x128, .f32⟩
  | 40 => ⟨S480000x1, .i32⟩
  | 41 => ⟨S30000x128, .f32⟩
  | 42 => ⟨S_, .f32⟩
  | 43 => ⟨S480000x1, .f32⟩
  | 44 => ⟨S_, .f32⟩
  | 45 => ⟨S30000x1, .f32⟩
  | 46 => ⟨S480000x1, .i32⟩
  | 47 => ⟨S30000x1, .f32⟩
  | 48 => ⟨S_, .f32⟩
  | 49 => ⟨S30000x1, .f32⟩
  | 50 => ⟨S30000x1, .f32⟩
  | 51 => ⟨S30000x128, .f32⟩
  | 52 => ⟨S30000x128, .f32⟩
  | 53 => ⟨S30000x256, .f32⟩
  | 54 => ⟨S30000x256, .f32⟩
  | 55 => ⟨S_, .i32⟩
  | 56 => ⟨S128, .i32⟩
  | 57 => ⟨S128, .i1⟩
  | 58 => ⟨S_, .i32⟩
  | 59 => ⟨S128, .i32⟩
  | 60 => ⟨S128, .i32⟩
  | 61 => ⟨S128, .i32⟩
  | 62 => ⟨S128x1, .i32⟩
  | 63 => ⟨S128x256, .f32⟩
  | 64 => ⟨S_, .i32⟩
  | 65 => ⟨S480000, .i32⟩
  | 66 => ⟨S480000, .i1⟩
  | 67 => ⟨S_, .i32⟩
  | 68 => ⟨S480000, .i32⟩
  | 69 => ⟨S480000, .i32⟩
  | 70 => ⟨S480000, .i32⟩
  | 71 => ⟨S480000x1, .i32⟩
  | 72 => ⟨S480000x256, .f32⟩
  | 73 => ⟨S480000x384, .f32⟩
  | 74 => ⟨S480000x64, .f32⟩
  | 75 => ⟨S_, .f32⟩
  | 76 => ⟨S30000x64, .f32⟩
  | 77 => ⟨S480000x1, .i32⟩
  | 78 => ⟨S30000x64, .f32⟩
  | 79 => ⟨S_, .f32⟩
  | 80 => ⟨S480000x1, .f32⟩
  | 81 => ⟨S_, .f32⟩
  | 82 => ⟨S30000x1, .f32⟩
  | 83 => ⟨S480000x1, .i32⟩
  | 84 => ⟨S30000x1, .f32⟩
  | 85 => ⟨S_, .f32⟩
  | 86 => ⟨S30000x1, .f32⟩
  | 87 => ⟨S30000x1, .f32⟩
  | 88 => ⟨S30000x64, .f32⟩
  | 89 => ⟨S30000x64, .f32⟩
  | 90 => ⟨S30000x320, .f32⟩
  | 91 => ⟨S30000x256, .f32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S8192x256, .f32⟩
  | 101 => ⟨S128x256, .f32⟩
  | 102 => ⟨S128x256, .f32⟩
  | 103 => ⟨S128x256, .f32⟩
  | 104 => ⟨S128x256, .f32⟩
  | 105 => ⟨S256x128, .f32⟩
  | 106 => ⟨S128x128, .f32⟩
  | 107 => ⟨S_, .f32⟩
  | 108 => ⟨S128x128, .f32⟩
  | 109 => ⟨S128x128, .f32⟩
  | 110 => ⟨S_, .f32⟩
  | 111 => ⟨S128, .f32⟩
  | 112 => ⟨S_, .f32⟩
  | 113 => ⟨S128, .f32⟩
  | 114 => ⟨S128, .f32⟩
  | 115 => ⟨S128x1, .f32⟩
  | 116 => ⟨S128x128, .f32⟩
  | 117 => ⟨S128x128, .f32⟩
  | 118 => ⟨S128x128, .f32⟩
  | 119 => ⟨S_, .f32⟩
  | 120 => ⟨S128, .f32⟩
  | 121 => ⟨S128x1, .f32⟩
  | 122 => ⟨S128x128, .f32⟩
  | 123 => ⟨S128x128, .f32⟩
  | 124 => ⟨S128x256, .f32⟩
  | 125 => ⟨S_, .f32⟩
  | 126 => ⟨S128x256, .f32⟩
  | 127 => ⟨S128x256, .f32⟩
  | _ => ⟨S30000x128, .f32⟩

abbrev hbmTy0_1 (i : Nat) : BufTy := match i % 128 with
  | 0 => ⟨S128x256, .f32⟩
  | 1 => ⟨S1x256, .f32⟩
  | 2 => ⟨S128x256, .f32⟩
  | 3 => ⟨S128x256, .f32⟩
  | 4 => ⟨S128x256, .f32⟩
  | 5 => ⟨S128x256, .f32⟩
  | 6 => ⟨S_, .f32⟩
  | 7 => ⟨S128x256, .f32⟩
  | 8 => ⟨S128x256, .f32⟩
  | 9 => ⟨S_, .f32⟩
  | 10 => ⟨S128x256, .f32⟩
  | 11 => ⟨S128x256, .f32⟩
  | 12 => ⟨S8192x64, .f32⟩
  | 13 => ⟨S128x64, .f32⟩
  | 14 => ⟨S8192x128x64, .f32⟩
  | 15 => ⟨S8192x128, .i32⟩
  | 16 => ⟨S8192x128x64, .f32⟩
  | 17 => ⟨S8192x128x64, .f32⟩
  | 18 => ⟨S1048576x64, .f32⟩
  | 19 => ⟨S8192x8192, .f32⟩
  | 20 => ⟨S8192x10, .f32⟩
  | _ => ⟨S30000x128, .f32⟩

abbrev hbmTy (i : Nat) : BufTy := match i / 128 with
  | 0 => hbmTy0_0 i
  | 1 => hbmTy0_1 i
  | _ => ⟨S30000x128, .f32⟩

abbrev bufTy : (tb : Table) → Fin (tcTables nBuf tb) → BufTy
  | .hbm, ⟨i, _⟩ => hbmTy i
  | .local _ .vmem, ⟨0, _⟩ => ⟨S8000x192, .f32⟩
  | .local _ .vmem, ⟨1, _⟩ => ⟨S8000x192, .f32⟩
  | .local _ .vmem, ⟨2, _⟩ => ⟨S192x128, .f32⟩
  | .local _ .vmem, ⟨3, _⟩ => ⟨S128, .f32⟩
  | .local _ .vmem, ⟨4, _⟩ => ⟨S8000x128, .f32⟩
  | .local _ .vmem, ⟨5, _⟩ => ⟨S8000x128, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S256, .f32⟩
  | .local _ .vmem, ⟨10, _⟩ => ⟨S5000x256, .f32⟩
  | .local _ .vmem, ⟨11, _⟩ => ⟨S5000x256, .f32⟩
  | .local _ .vmem, ⟨12, _⟩ => ⟨S8000x384, .f32⟩
  | .local _ .vmem, ⟨13, _⟩ => ⟨S8000x384, .f32⟩
  | .local _ .vmem, ⟨14, _⟩ => ⟨S384x64, .f32⟩
  | .local _ .vmem, ⟨15, _⟩ => ⟨S64, .f32⟩
  | .local _ .vmem, ⟨16, _⟩ => ⟨S8000x64, .f32⟩
  | .local _ .vmem, ⟨17, _⟩ => ⟨S8000x64, .f32⟩
  | .local _ .vmem, ⟨18, _⟩ => ⟨S5000x320, .f32⟩
  | .local _ .vmem, ⟨19, _⟩ => ⟨S5000x320, .f32⟩
  | .local _ .vmem, ⟨20, _⟩ => ⟨S320x256, .f32⟩
  | .local _ .vmem, ⟨21, _⟩ => ⟨S256, .f32⟩
  | .local _ .vmem, ⟨22, _⟩ => ⟨S5000x256, .f32⟩
  | .local _ .vmem, ⟨23, _⟩ => ⟨S5000x256, .f32⟩
  | .local _ .vmem, ⟨24, _⟩ => ⟨S128x64, .f32⟩
  | .local _ .vmem, ⟨25, _⟩ => ⟨S128x64, .f32⟩
  | .local _ .vmem, ⟨26, _⟩ => ⟨S128x64, .f32⟩
  | .local _ .vmem, ⟨27, _⟩ => ⟨S64, .f32⟩
  | .local _ .vmem, ⟨28, _⟩ => ⟨S128x128, .i32⟩
  | .local _ .vmem, ⟨29, _⟩ => ⟨S128x128, .i32⟩
  | .local _ .vmem, ⟨30, _⟩ => ⟨S128x128x64, .f32⟩
  | .local _ .vmem, ⟨31, _⟩ => ⟨S128x128x64, .f32⟩
  | .local _ .vmem, ⟨32, _⟩ => ⟨S128x128x64, .f32⟩
  | .local _ .vmem, ⟨33, _⟩ => ⟨S128x128x64, .f32⟩
  | .local _ .vmem, ⟨34, _⟩ => ⟨S128x128x64, .f32⟩
  | .local _ .vmem, ⟨35, _⟩ => ⟨S128x128x64, .f32⟩
  | .local _ .vmem, ⟨36, _⟩ => ⟨S256x8192, .f32⟩
  | .local _ .vmem, ⟨37, _⟩ => ⟨S256x8192, .f32⟩
  | .local _ .vmem, ⟨38, _⟩ => ⟨S8192x10, .f32⟩
  | .local _ .vmem, ⟨39, _⟩ => ⟨S10, .f32⟩
  | .local _ .vmem, ⟨40, _⟩ => ⟨S256x10, .f32⟩
  | .local _ .vmem, ⟨41, _⟩ => ⟨S256x10, .f32⟩
  | _, _ => ⟨S30000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_cst_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_3 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c_4 : Ref sig .tc := ⟨.hbm, 55, rfl⟩
abbrev main_v22 : Ref sig .tc := ⟨.hbm, 56, rfl⟩
abbrev main_v23 : Ref sig .tc := ⟨.hbm, 57, rfl⟩
abbrev main_c_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_6 : Ref sig .tc := ⟨.hbm, 64, rfl⟩
abbrev main_v29 : Ref sig .tc := ⟨.hbm, 65, rfl⟩
abbrev main_v30 : Ref sig .tc := ⟨.hbm, 66, rfl⟩
abbrev main_c_7 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_8 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_9 : Ref sig .tc := ⟨.hbm, 79, rfl⟩
abbrev main_v41 : Ref sig .tc := ⟨.hbm, 80, rfl⟩
abbrev main_cst_10 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_11 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_c_12 : Ref sig .tc := ⟨.hbm, 92, rfl⟩
abbrev main_v51 : Ref sig .tc := ⟨.hbm, 93, rfl⟩
abbrev main_v52 : Ref sig .tc := ⟨.hbm, 94, rfl⟩
abbrev main_c_13 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_14 : Ref sig .tc := ⟨.hbm, 107, rfl⟩
abbrev main_v64 : Ref sig .tc := ⟨.hbm, 108, rfl⟩
abbrev main_v65 : Ref sig .tc := ⟨.hbm, 109, rfl⟩
abbrev main_cst_15 : Ref sig .tc := ⟨.hbm, 110, rfl⟩
abbrev main_v66 : Ref sig .tc := ⟨.hbm, 111, rfl⟩
abbrev main_cst_16 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_17 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_18 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_19 : Ref sig .tc := ⟨.hbm, 134, rfl⟩
abbrev main_v86 : Ref sig .tc := ⟨.hbm, 135, rfl⟩
abbrev main_v87 : Ref sig .tc := ⟨.hbm, 136, rfl⟩
abbrev main_cst_20 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94_0 : Ref sig .tc := ⟨.hbm, 144, rfl⟩
abbrev main_v94_1 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc4_stg4_0 : Ref sig .tc := ⟨.vmem, 30, rfl⟩
abbrev cc4_stg4_1 : Ref sig .tc := ⟨.vmem, 31, rfl⟩
abbrev cc4_stg5_0 : Ref sig .tc := ⟨.vmem, 32, rfl⟩
abbrev cc4_stg5_1 : Ref sig .tc := ⟨.vmem, 33, rfl⟩
abbrev cc4_stg6_0 : Ref sig .tc := ⟨.vmem, 34, rfl⟩
abbrev cc4_stg6_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc4_sem4_0 : DmaSem sig := 30
abbrev cc4_sem4_1 : DmaSem sig := 31
abbrev cc4_sem5_0 : DmaSem sig := 32
abbrev cc4_sem5_1 : DmaSem sig := 33
abbrev cc4_sem6_0 : DmaSem sig := 34
abbrev cc4_sem6_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![60], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x320 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S320x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S128x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S128x128 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S128x128x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S128x128x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S128x128x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x8192 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8192x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S256x10 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S480000 : S_.BroadcastsInDim S480000 (![] : Fin 0 → Fin S480000.rank)
  bcast_S480000_S480000x1_0 : S480000.BroadcastsInDim S480000x1 (![0] : Fin 1 → Fin S480000x1.rank)
  concatenates_S480000x128_S480000x64_S480000x192_d1 : Shape.Concatenates [S480000x128, S480000x64] S480000x192 1
  inb_S8000x192_S8000x192_0_0 : ∀ a, (![0, 0] : Fin 2 → Nat) a + S8000x192.size a ≤ S8000x192.size a
  h_S8000x192 : 0 < S8000x192.numel
  shapeCasts_S8000x192_S8000x192 : S8000x192.ShapeCasts S8000x192
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S30000x128 : S_.BroadcastsInDim S30000x128 (![] : Fin 0 → Fin S30000x128.rank)
  bcast_S_S480000x1 : S_.BroadcastsInDim S480000x1 (![] : Fin 0 → Fin S480000x1.rank)
  bcast_S_S30000x1 : S_.BroadcastsInDim S30000x1 (![] : Fin 0 → Fin S30000x1.rank)
  bcast_S30000x1_S30000x128_0_1 : S30000x1.BroadcastsInDim S30000x128 (![0, 1] : Fin 2 → Fin S30000x128.rank)
  concatenates_S30000x128_S30000x128_S30000x256_d1 : Shape.Concatenates [S30000x128, S30000x128] S30000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  bcast_S_S128 : S_.BroadcastsInDim S128 (![] : Fin 0 → Fin S128.rank)
  bcast_S128_S128x1_0 : S128.BroadcastsInDim S128x1 (![0] : Fin 1 → Fin S128x1.rank)
  concatenates_S480000x256_S480000x128_S480000x384_d1 : Shape.Concatenates [S480000x256, S480000x128] S480000x384 1
  inb_S8000x384_S8000x384_0_0 : ∀ a, (![0, 0] : Fin 2 → Nat) a + S8000x384.size a ≤ S8000x384.size a
  h_S8000x384 : 0 < S8000x384.numel
  shapeCasts_S8000x384_S8000x384 : S8000x384.ShapeCasts S8000x384
  inb_S384x64_S384x64_0_0 : ∀ a, (![0, 0] : Fin 2 → Nat) a + S384x64.size a ≤ S384x64.size a
  h_S384x64 : 0 < S384x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  bcast_S_S30000x64 : S_.BroadcastsInDim S30000x64 (![] : Fin 0 → Fin S30000x64.rank)
  bcast_S30000x1_S30000x64_0_1 : S30000x1.BroadcastsInDim S30000x64 (![0, 1] : Fin 2 → Fin S30000x64.rank)
  concatenates_S30000x256_S30000x64_S30000x320_d1 : Shape.Concatenates [S30000x256, S30000x64] S30000x320 1
  inb_S5000x320_S5000x320_0_0 : ∀ a, (![0, 0] : Fin 2 → Nat) a + S5000x320.size a ≤ S5000x320.size a
  h_S5000x320 : 0 < S5000x320.numel
  shapeCasts_S5000x320_S5000x320 : S5000x320.ShapeCasts S5000x320
  inb_S320x256_S320x256_0_0 : ∀ a, (![0, 0] : Fin 2 → Nat) a + S320x256.size a ≤ S320x256.size a
  h_S320x256 : 0 < S320x256.numel
  bcast_S_S8192 : S_.BroadcastsInDim S8192 (![] : Fin 0 → Fin S8192.rank)
  bcast_S8192_S8192x1_0 : S8192.BroadcastsInDim S8192x1 (![0] : Fin 1 → Fin S8192x1.rank)
  transposes_S128x256_S256x128_1_0 : S128x256.Transposes [1, 0] S256x128
  bcast_S_S128x128 : S_.BroadcastsInDim S128x128 (![] : Fin 0 → Fin S128x128.rank)
  reducesTo_S128x128_S128_d1 : S128x128.ReducesTo [1] S128
  h_S_ : 0 < S_.numel
  bcast_S128x1_S128x128_0_1 : S128x1.BroadcastsInDim S128x128 (![0, 1] : Fin 2 → Fin S128x128.rank)
  bcast_S_S128x256 : S_.BroadcastsInDim S128x256 (![] : Fin 0 → Fin S128x256.rank)
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  shapeCasts_S1048576x64_S8192x128x64 : S1048576x64.ShapeCasts S8192x128x64
  natLt_1_32 : 1 < 32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  shapeCasts_S64_S1x1x64 : S64.ShapeCasts S1x1x64
  broadcasts_S1x1x64_S128x128x64 : S1x1x64.Broadcasts S128x128x64
  inb_S128x128_S128x128_0_0 : ∀ a, (![0, 0] : Fin 2 → Nat) a + S128x128.size a ≤ S128x128.size a
  h_S128x128 : 0 < S128x128.numel
  shapeCasts_S128x128_S128x128x1 : S128x128.ShapeCasts S128x128x1
  inb_S128x128x64_S128x128x64_0_0_0 : ∀ a, (![0, 0, 0] : Fin 3 → Nat) a + S128x128x64.size a ≤ S128x128x64.size a
  h_S128x128x64 : 0 < S128x128x64.numel
  shapeCasts_S128x128x64_S128x128x64 : S128x128x64.ShapeCasts S128x128x64
  broadcasts_S128x128x1_S128x128x64 : S128x128x1.Broadcasts S128x128x64
  shapeCasts_S8192x128x64_S1048576x64 : S8192x128x64.ShapeCasts S1048576x64
  shapeCasts_S8192x128x64_S8192x8192 : S8192x128x64.ShapeCasts S8192x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S8192x10_S8192x10_0_0 : ∀ a, (![0, 0] : Fin 2 → Nat) a + S8192x10.size a ≤ S8192x10.size a
  h_S8192x10 : 0 < S8192x10.numel
  inb_S10_S10_0 : ∀ a, (![0] : Fin 1 → Nat) a + S10.size a ≤ S10.size a
  h_S10 : 0 < S10.numel
  shapeCasts_S10_S1x10 : S10.ShapeCasts S1x10
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  inb_S256x10_S256x10_0_0 : ∀ a, (![0, 0] : Fin 2 → Nat) a + S256x10.size a ≤ S256x10.size a
  h_S256x10 : 0 < S256x10.numel
  gather_S30000x128_S480000x1_S480000x128_1_0_n_n_0_1_1128_wf : GatherDims.WF S30000x128 S480000x1 S480000x128 [1] [0] [] [0] [] 1 ![1, 128]
  dot_S8000x192_S192x128_S8000x128_1_0_0_1_n_n_wf : DotDims.WF S8000x192 S192x128 S8000x128 [1] [0] [0] [1] [] []
  scatter_S30000x128_S480000x1_S480000x128_1_0_0_1_wf : ScatterDims.WF S30000x128 S480000x1 S480000x128 [1] [0] [0] 1
  scatter_S30000x1_S480000x1_S480000x1_1_0_0_1_wf : ScatterDims.WF S30000x1 S480000x1 S480000x1 [1] [0] [0] 1
  dot_S5000x256_S256x256_S5000x256_1_0_0_1_n_n_wf : DotDims.WF S5000x256 S256x256 S5000x256 [1] [0] [0] [1] [] []
  gather_S30000x256_S128x1_S128x256_1_0_n_n_0_1_1256_wf : GatherDims.WF S30000x256 S128x1 S128x256 [1] [0] [] [0] [] 1 ![1, 256]
  gather_S30000x256_S480000x1_S480000x256_1_0_n_n_0_1_1256_wf : GatherDims.WF S30000x256 S480000x1 S480000x256 [1] [0] [] [0] [] 1 ![1, 256]
  dot_S8000x384_S384x64_S8000x64_1_0_0_1_n_n_wf : DotDims.WF S8000x384 S384x64 S8000x64 [1] [0] [0] [1] [] []
  scatter_S30000x64_S480000x1_S480000x64_1_0_0_1_wf : ScatterDims.WF S30000x64 S480000x1 S480000x64 [1] [0] [0] 1
  dot_S5000x320_S320x256_S5000x256_1_0_0_1_n_n_wf : DotDims.WF S5000x320 S320x256 S5000x256 [1] [0] [0] [1] [] []
  gather_S30000x256_S8192x1_S8192x256_1_0_n_n_0_1_1256_wf : GatherDims.WF S30000x256 S8192x1 S8192x256 [1] [0] [] [0] [] 1 ![1, 256]
  dot_S128x256_S256x256_S128x256_1_0_0_1_n_n_wf : DotDims.WF S128x256 S256x256 S128x256 [1] [0] [0] [1] [] []
  dot_S128x256_S256x128_S128x128_1_0_0_1_n_n_wf : DotDims.WF S128x256 S256x128 S128x128 [1] [0] [0] [1] [] []
  dot_S128x128_S128x256_S128x256_1_0_0_1_n_n_wf : DotDims.WF S128x128 S128x256 S128x256 [1] [0] [0] [1] [] []
  dot_S8192x256_S256x64_S8192x64_1_0_0_1_n_n_wf : DotDims.WF S8192x256 S256x64 S8192x64 [1] [0] [0] [1] [] []
  dot_S128x256_S256x64_S128x64_1_0_0_1_n_n_wf : DotDims.WF S128x256 S256x64 S128x64 [1] [0] [0] [1] [] []
  dot_S256x8192_S8192x10_S256x10_1_0_0_1_n_n_wf : DotDims.WF S256x8192 S8192x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x192.size a ≤ S480000x192.size a
  hwx0_0 : ∀ i : grid0.Coords, EltTy.bits .f32 = 32 ∨ (Rect.block (s := S480000x192) S8000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x128.size a ≤ S192x128.size a
  hwx0_1 : ∀ i : grid0.Coords, EltTy.bits .f32 = 32 ∨ (Rect.block (s := S192x128) S192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S480000x128.size a
  hwx0_3 : ∀ i : grid0.Coords, EltTy.bits .f32 = 32 ∨ (Rect.block (s := S480000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S30000x256.size a
  hwx1_0 : ∀ i : grid1.Coords, EltTy.bits .f32 = 32 ∨ (Rect.block (s := S30000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S30000x256.size a
  hwx1_3 : ∀ i : grid1.Coords, EltTy.bits .f32 = 32 ∨ (Rect.block (s := S30000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x384.size a ≤ S480000x384.size a
  hwx2_0 : ∀ i : grid2.Coords, EltTy.bits .f32 = 32 ∨ (Rect.block (s := S480000x384) S8000x384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x64.size a ≤ S384x64.size a
  hwx2_1 : ∀ i : grid2.Coords, EltTy.bits .f32 = 32 ∨ (Rect.block (s := S384x64) S384x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x64.size a ≤ S480000x64.size a
  hwx2_3 : ∀ i : grid2.Coords, EltTy.bits .f32 = 32 ∨ (Rect.block (s := S480000x64) S8000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x320.size a ≤ S30000x320.size a
  hwx3_0 : ∀ i : grid3.Coords, EltTy.bits .f32 = 32 ∨ (Rect.block (s := S30000x320) S5000x320.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S320x256.size a ≤ S320x256.size a
  hwx3_1 : ∀ i : grid3.Coords, EltTy.bits .f32 = 32 ∨ (Rect.block (s := S320x256) S320x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x256.size a ≤ S30000x256.size a
  hwx3_3 : ∀ i : grid3.Coords, EltTy.bits .f32 = 32 ∨ (Rect.block (s := S30000x256) S5000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x64.size a ≤ S8192x64.size a
  hwx4_0 : ∀ i : grid4.Coords, EltTy.bits .f32 = 32 ∨ (Rect.block (s := S8192x64) S128x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S8192x128.size a
  hwx4_3 : ∀ i : grid4.Coords, EltTy.bits .i32 = 32 ∨ (Rect.block (s := S8192x128) S128x128.size (cc4_transform_3 i) (hinb4_3 i)).WholeWords (EltTy.packing .i32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S128x128x64.size a ≤ S8192x128x64.size a
  hwx4_4 : ∀ i : grid4.Coords, EltTy.bits .f32 = 32 ∨ (Rect.block (s := S8192x128x64) S128x128x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S128x128x64.size a ≤ S8192x128x64.size a
  hwx4_5 : ∀ i : grid4.Coords, EltTy.bits .f32 = 32 ∨ (Rect.block (s := S8192x128x64) S128x128x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S128x128x64.size a ≤ S8192x128x64.size a
  hwx4_6 : ∀ i : grid4.Coords, EltTy.bits .f32 = 32 ∨ (Rect.block (s := S8192x128x64) S128x128x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x8192.size a ≤ S8192x8192.size a
  hwx5_0 : ∀ i : grid5.Coords, EltTy.bits .f32 = 32 ∨ (Rect.block (s := S8192x8192) S256x8192.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S8192x10.size a ≤ S8192x10.size a
  hwx5_1 : ∀ i : grid5.Coords, EltTy.bits .f32 = 32 ∨ (Rect.block (s := S8192x10) S8192x10.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S10.size a ≤ S10.size a
  hwx5_2 : ∀ i : grid5.Coords, EltTy.bits .f32 = 32 ∨ (Rect.block (s := S10) S10.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x10.size a ≤ S8192x10.size a
  hwx5_3 : ∀ i : grid5.Coords, EltTy.bits .f32 = 32 ∨ (Rect.block (s := S8192x10) S256x10.size (cc5_transform_3 i) (hinb5_3 i)).WholeWords (EltTy.packing .f32)

variable [Facts₀]

def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def dot_S8000x192_S192x128_S8000x128_1_0_0_1_n_n : DotDims S8000x192 S192x128 S8000x128 where
  lhsContracting := [1]
  rhsContracting := [0]
  lhsNonContracting := [0]
  rhsNonContracting := [1]
  lhsBatch := []
  rhsBatch := []
  wf := dot_S8000x192_S192x128_S8000x128_1_0_0_1_n_n_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def scatter_S30000x1_S480000x1_S480000x1_1_0_0_1 : ScatterDims S30000x1 S480000x1 S480000x1 where
  updateWindowDims := [1]
  insertedWindowDims := [0]
  scatterDimsToOperandDims := [0]
  indexVectorDim := 1
  wf := scatter_S30000x1_S480000x1_S480000x1_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S30000x256_S128x1_S128x256_1_0_n_n_0_1_1256 : GatherDims S30000x256 S128x1 S128x256 where
  offsetDims := [1]
  collapsedSliceDims := [0]
  operandBatchingDims := []
  startIndicesBatchingDims := []
  startIndexMap := [0]
  indexVectorDim := 1
  sliceSizes := ![1, 256]
  wf := gather_S30000x256_S128x1_S128x256_1_0_n_n_0_1_1256_wf
def gather_S30000x256_S480000x1_S480000x256_1_0_n_n_0_1_1256 : GatherDims S30000x256 S480000x1 S480000x256 where
  offsetDims := [1]
  collapsedSliceDims := [0]
  operandBatchingDims := []
  startIndicesBatchingDims := []
  startIndexMap := [0]
  indexVectorDim := 1
  sliceSizes := ![1, 256]
  wf := gather_S30000x256_S480000x1_S480000x256_1_0_n_n_0_1_1256_wf
def dot_S8000x384_S384x64_S8000x64_1_0_0_1_n_n : DotDims S8000x384 S384x64 S8000x64 where
  lhsContracting := [1]
  rhsContracting := [0]
  lhsNonContracting := [0]
  rhsNonContracting := [1]
  lhsBatch := []
  rhsBatch := []
  wf := dot_S8000x384_S384x64_S8000x64_1_0_0_1_n_n_wf
def scatter_S30000x64_S480000x1_S480000x64_1_0_0_1 : ScatterDims S30000x64 S480000x1 S480000x64 where
  updateWindowDims := [1]
  insertedWindowDims := [0]
  scatterDimsToOperandDims := [0]
  indexVectorDim := 1
  wf := scatter_S30000x64_S480000x1_S480000x64_1_0_0_1_wf
def dot_S5000x320_S320x256_S5000x256_1_0_0_1_n_n : DotDims S5000x320 S320x256 S5000x256 where
  lhsContracting := [1]
  rhsContracting := [0]
  lhsNonContracting := [0]
  rhsNonContracting := [1]
  lhsBatch := []
  rhsBatch := []
  wf := dot_S5000x320_S320x256_S5000x256_1_0_0_1_n_n_wf
def gather_S30000x256_S8192x1_S8192x256_1_0_n_n_0_1_1256 : GatherDims S30000x256 S8192x1 S8192x256 where
  offsetDims := [1]
  collapsedSliceDims := [0]
  operandBatchingDims := []
  startIndicesBatchingDims := []
  startIndexMap := [0]
  indexVectorDim := 1
  sliceSizes := ![1, 256]
  wf := gather_S30000x256_S8192x1_S8192x256_1_0_n_n_0_1_1256_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf
def dot_S256x8192_S8192x10_S256x10_1_0_0_1_n_n : DotDims S256x8192 S8192x10 S256x10 where
  lhsContracting := [1]
  rhsContracting := [0]
  lhsNonContracting := [0]
  rhsNonContracting := [1]
  lhsBatch := []
  rhsBatch := []
  wf := dot_S256x8192_S8192x10_S256x10_1_0_0_1_n_n_wf

abbrev win0_0 : Pipeline.Window sig grid0 :=
  Pipeline.Window.ofSpec (Memref.whole main_v7) S8000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S8000x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S384x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S8000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v49) S5000x320.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S320x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S5000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v90) S128x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg24) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S128x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v92) S128x128x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v94_0) S128x128x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v94_1) S128x128x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v96) S256x8192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg25) S8192x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg26) S10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v97) S256x10.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S30000x128 : Shape := ⟨2, ![30000, 128]⟩
abbrev S480000x64 : Shape := ⟨2, ![480000, 64]⟩
abbrev S480000 : Shape := ⟨1, ![480000]⟩
abbrev S8192 : Shape := ⟨1, ![8192]⟩
abbrev S128 : Shape := ⟨1, ![128]⟩
abbrev S1048576x64 : Shape := ⟨2, ![1048576, 64]⟩
abbrev S8192x128 : Shape := ⟨2, ![8192, 128]⟩
abbrev S192x128 : Shape := ⟨2, ![192, 128]⟩
abbrev S256x256 : Shape := ⟨2, ![256, 256]⟩
abbrev S256 : Shape := ⟨1, ![256]⟩
abbrev S384x64 : Shape := ⟨2, ![384, 64]⟩
abbrev S64 : Shape := ⟨1, ![64]⟩
abbrev S320x256 : Shape := ⟨2, ![320, 256]⟩
abbrev S128x256 : Shape := ⟨2, ![128, 256]⟩
abbrev S256x64 : Shape := ⟨2, ![256, 64]⟩
abbrev S8192x10 : Shape := ⟨2, ![8192, 10]⟩
abbrev S10 : Shape := ⟨1, ![10]⟩
abbrev S_ : Shape := ⟨0, ![]⟩
abbrev S480000x1 : Shape := ⟨2, ![480000, 1]⟩
abbrev S480000x128 : Shape := ⟨2, ![480000, 128]⟩
abbrev S480000x192 : Shape := ⟨2, ![480000, 192]⟩
abbrev S1x128 : Shape := ⟨2, ![1, 128]⟩
abbrev S30000x1 : Shape := ⟨2, ![30000, 1]⟩
abbrev S30000x256 : Shape := ⟨2, ![30000, 256]⟩
abbrev S1x256 : Shape := ⟨2, ![1, 256]⟩
abbrev S128x1 : Shape := ⟨2, ![128, 1]⟩
abbrev S480000x256 : Shape := ⟨2, ![480000, 256]⟩
abbrev S480000x384 : Shape := ⟨2, ![480000, 384]⟩
abbrev S1x64 : Shape := ⟨2, ![1, 64]⟩
abbrev S30000x64 : Shape := ⟨2, ![30000, 64]⟩
abbrev S30000x320 : Shape := ⟨2, ![30000, 320]⟩
abbrev S8192x1 : Shape := ⟨2, ![8192, 1]⟩
abbrev S8192x256 : Shape := ⟨2, ![8192, 256]⟩
abbrev S256x128 : Shape := ⟨2, ![256, 128]⟩
abbrev S128x128 : Shape := ⟨2, ![128, 128]⟩
abbrev S8192x64 : Shape := ⟨2, ![8192, 64]⟩
abbrev S8192x1x64 : Shape := ⟨3, ![8192, 1, 64]⟩
abbrev S128x64 : Shape := ⟨2, ![128, 64]⟩
abbrev S1x128x64 : Shape := ⟨3, ![1, 128, 64]⟩
abbrev S8192x128x64 : Shape := ⟨3, ![8192, 128, 64]⟩
abbrev S1x1x64 : Shape := ⟨3, ![1, 1, 64]⟩
abbrev S1048576 : Shape := ⟨1, ![1048576]⟩
abbrev S1048576x1 : Shape := ⟨2, ![1048576, 1]⟩
abbrev S8192x8192 : Shape := ⟨2, ![8192, 8192]⟩
abbrev S1x10 : Shape := ⟨2, ![1, 10]⟩

abbrev nBuf : Space → Nat
  | .hbm => 223
  | .vmem => 0
  | .smem => 0
  | _ => 0

abbrev hbmTy0_0 (i : Nat) : BufTy := match i % 128 with
  | 0 => ⟨S30000x128, .f32⟩
  | 1 => ⟨S480000x64, .f32⟩
  | 2 => ⟨S480000, .i32⟩
  | 3 => ⟨S480000, .i32⟩
  | 4 => ⟨S8192, .i32⟩
  | 5 => ⟨S128, .i32⟩
  | 6 => ⟨S1048576x64, .f32⟩
  | 7 => ⟨S8192x128, .i1⟩
  | 8 => ⟨S192x128, .f32⟩
  | 9 => ⟨S128, .f32⟩
  | 10 => ⟨S256x256, .f32⟩
  | 11 => ⟨S256, .f32⟩
  | 12 => ⟨S384x64, .f32⟩
  | 13 => ⟨S64, .f32⟩
  | 14 => ⟨S320x256, .f32⟩
  | 15 => ⟨S256, .f32⟩
  | 16 => ⟨S128x256, .f32⟩
  | 17 => ⟨S256x256, .f32⟩
  | 18 => ⟨S256x256, .f32⟩
  | 19 => ⟨S256x256, .f32⟩
  | 20 => ⟨S256x256, .f32⟩
  | 21 => ⟨S256, .f32⟩
  | 22 => ⟨S256x64, .f32⟩
  | 23 => ⟨S256x64, .f32⟩
  | 24 => ⟨S64, .f32⟩
  | 25 => ⟨S8192x10, .f32⟩
  | 26 => ⟨S10, .f32⟩
  | 27 => ⟨S_, .i32⟩
  | 28 => ⟨S480000, .i32⟩
  | 29 => ⟨S480000, .i1⟩
  | 30 => ⟨S_, .i32⟩
  | 31 => ⟨S480000, .i32⟩
  | 32 => ⟨S480000, .i32⟩
  | 33 => ⟨S480000, .i32⟩
  | 34 => ⟨S480000x1, .i32⟩
  | 35 => ⟨S480000x128, .f32⟩
  | 36 => ⟨S480000x192, .f32⟩
  | 37 => ⟨S480000x128, .f32⟩
  | 38 => ⟨S1x128, .f32⟩
  | 39 => ⟨S480000x128, .f32⟩
  | 40 => ⟨S480000x128, .f32⟩
  | 41 => ⟨S_, .f32⟩
  | 42 => ⟨S480000x128, .f32⟩
  | 43 => ⟨S480000x128, .i1⟩
  | 44 => ⟨S_, .f32⟩
  | 45 => ⟨S480000x128, .f32⟩
  | 46 => ⟨S480000x128, .f32⟩
  | 47 => ⟨S480000x128, .f32⟩
  | 48 => ⟨S_, .f32⟩
  | 49 => ⟨S30000x128, .f32⟩
  | 50 => ⟨S480000x1, .i32⟩
  | 51 => ⟨S30000x128, .f32⟩
  | 52 => ⟨S_, .f32⟩
  | 53 => ⟨S480000x1, .f32⟩
  | 54 => ⟨S_, .f32⟩
  | 55 => ⟨S30000x1, .f32⟩
  | 56 => ⟨S480000x1, .i32⟩
  | 57 => ⟨S30000x1, .f32⟩
  | 58 => ⟨S_, .f32⟩
  | 59 => ⟨S30000x1, .f32⟩
  | 60 => ⟨S30000x1, .f32⟩
  | 61 => ⟨S30000x128, .f32⟩
  | 62 => ⟨S30000x128, .f32⟩
  | 63 => ⟨S30000x256, .f32⟩
  | 64 => ⟨S30000x256, .f32⟩
  | 65 => ⟨S1x256, .f32⟩
  | 66 => ⟨S30000x256, .f32⟩
  | 67 => ⟨S30000x256, .f32⟩
  | 68 => ⟨S_, .f32⟩
  | 69 => ⟨S30000x256, .f32⟩
  | 70 => ⟨S30000x256, .i1⟩
  | 71 => ⟨S_, .f32⟩
  | 72 => ⟨S30000x256, .f32⟩
  | 73 => ⟨S30000x256, .f32⟩
  | 74 => ⟨S30000x256, .f32⟩
  | 75 => ⟨S_, .i32⟩
  | 76 => ⟨S128, .i32⟩
  | 77 => ⟨S128, .i1⟩
  | 78 => ⟨S_, .i32⟩
  | 79 => ⟨S128, .i32⟩
  | 80 => ⟨S128, .i32⟩
  | 81 => ⟨S128, .i32⟩
  | 82 => ⟨S128x1, .i32⟩
  | 83 => ⟨S128x256, .f32⟩
  | 84 => ⟨S_, .i32⟩
  | 85 => ⟨S480000, .i32⟩
  | 86 => ⟨S480000, .i1⟩
  | 87 => ⟨S_, .i32⟩
  | 88 => ⟨S480000, .i32⟩
  | 89 => ⟨S480000, .i32⟩
  | 90 => ⟨S480000, .i32⟩
  | 91 => ⟨S480000x1, .i32⟩
  | 92 => ⟨S480000x256, .f32⟩
  | 93 => ⟨S480000x384, .f32⟩
  | 94 => ⟨S480000x64, .f32⟩
  | 95 => ⟨S1x64, .f32⟩
  | 96 => ⟨S480000x64, .f32⟩
  | 97 => ⟨S480000x64, .f32⟩
  | 98 => ⟨S_, .f32⟩
  | 99 => ⟨S480000x64, .f32⟩
  | 100 => ⟨S480000x64, .i1⟩
  | 101 => ⟨S_, .f32⟩
  | 102 => ⟨S480000x64, .f32⟩
  | 103 => ⟨S480000x64, .f32⟩
  | 104 => ⟨S480000x64, .f32⟩
  | 105 => ⟨S_, .f32⟩
  | 106 => ⟨S30000x64, .f32⟩
  | 107 => ⟨S480000x1, .i32⟩
  | 108 => ⟨S30000x64, .f32⟩
  | 109 => ⟨S_, .f32⟩
  | 110 => ⟨S480000x1, .f32⟩
  | 111 => ⟨S_, .f32⟩
  | 112 => ⟨S30000x1, .f32⟩
  | 113 => ⟨S480000x1, .i32⟩
  | 114 => ⟨S30000x1, .f32⟩
  | 115 => ⟨S_, .f32⟩
  | 116 => ⟨S30000x1, .f32⟩
  | 117 => ⟨S30000x1, .f32⟩
  | 118 => ⟨S30000x64, .f32⟩
  | 119 => ⟨S30000x64, .f32⟩
  | 120 => ⟨S30000x320, .f32⟩
  | 121 => ⟨S30000x256, .f32⟩
  | 122 => ⟨S1x256, .f32⟩
  | 123 => ⟨S30000x256, .f32⟩
  | 124 => ⟨S30000x256, .f32⟩
  | 125 => ⟨S_, .f32⟩
  | 126 => ⟨S30000x256, .f32⟩
  | 127 => ⟨S30000x256, .i1⟩
  | _ => ⟨S30000x128, .f32⟩

abbrev hbmTy0_1 (i : Nat) : BufTy := match i % 128 with
  | 0 => ⟨S_, .f32⟩
  | 1 => ⟨S30000x256, .f32⟩
  | 2 => ⟨S30000x256, .f32⟩
  | 3 => ⟨S30000x256, .f32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S8192x256, .f32⟩
  | 13 => ⟨S128x256, .f32⟩
  | 14 => ⟨S128x256, .f32⟩
  | 15 => ⟨S128x256, .f32⟩
  | 16 => ⟨S128x256, .f32⟩
  | 17 => ⟨S256x128, .f32⟩
  | 18 => ⟨S128x128, .f32⟩
  | 19 => ⟨S_, .f32⟩
  | 20 => ⟨S128x128, .f32⟩
  | 21 => ⟨S128x128, .f32⟩
  | 22 => ⟨S_, .f32⟩
  | 23 => ⟨S128, .f32⟩
  | 24 => ⟨S_, .f32⟩
  | 25 => ⟨S128, .f32⟩
  | 26 => ⟨S128, .f32⟩
  | 27 => ⟨S128x1, .f32⟩
  | 28 => ⟨S128x128, .f32⟩
  | 29 => ⟨S128x128, .f32⟩
  | 30 => ⟨S128x128, .f32⟩
  | 31 => ⟨S_, .f32⟩
  | 32 => ⟨S128, .f32⟩
  | 33 => ⟨S128x1, .f32⟩
  | 34 => ⟨S128x128, .f32⟩
  | 35 => ⟨S128x128, .f32⟩
  | 36 => ⟨S128x256, .f32⟩
  | 37 => ⟨S_, .f32⟩
  | 38 => ⟨S128x256, .f32⟩
  | 39 => ⟨S128x256, .f32⟩
  | 40 => ⟨S128x256, .f32⟩
  | 41 => ⟨S1x256, .f32⟩
  | 42 => ⟨S128x256, .f32⟩
  | 43 => ⟨S128x256, .f32⟩
  | 44 => ⟨S128x256, .f32⟩
  | 45 => ⟨S128x256, .f32⟩
  | 46 => ⟨S_, .f32⟩
  | 47 => ⟨S128x256, .f32⟩
  | 48 => ⟨S128x256, .f32⟩
  | 49 => ⟨S_, .f32⟩
  | 50 => ⟨S128x256, .f32⟩
  | 51 => ⟨S128x256, .f32⟩
  | 52 => ⟨S8192x64, .f32⟩
  | 53 => ⟨S8192x1x64, .f32⟩
  | 54 => ⟨S128x64, .f32⟩
  | 55 => ⟨S1x128x64, .f32⟩
  | 56 => ⟨S8192x128x64, .f32⟩
  | 57 => ⟨S8192x128x64, .f32⟩
  | 58 => ⟨S8192x128x64, .f32⟩
  | 59 => ⟨S1x1x64, .f32⟩
  | 60 => ⟨S8192x128x64, .f32⟩
  | 61 => ⟨S8192x128x64, .f32⟩
  | 62 => ⟨S_, .f32⟩
  | 63 => ⟨S8192x128x64, .f32⟩
  | 64 => ⟨S8192x128x64, .i1⟩
  | 65 => ⟨S_, .f32⟩
  | 66 => ⟨S8192x128x64, .f32⟩
  | 67 => ⟨S8192x128x64, .f32⟩
  | 68 => ⟨S8192x128x64, .f32⟩
  | 69 => ⟨S1048576x64, .f32⟩
  | 70 => ⟨S1048576, .i1⟩
  | 71 => ⟨S1048576x1, .i1⟩
  | 72 => ⟨S1048576x64, .i1⟩
  | 73 => ⟨S1048576x64, .f32⟩
  | 74 => ⟨S8192x128x64, .f32⟩
  | 75 => ⟨S8192x8192, .f32⟩
  | 76 => ⟨S8192x10, .f32⟩
  | 77 => ⟨S1x10, .f32⟩
  | 78 => ⟨S8192x10, .f32⟩
  | 79 => ⟨S8192x10, .f32⟩
  | 80 => ⟨S_, .f32⟩
  | 81 => ⟨S8192, .f32⟩
  | 82 => ⟨S_, .f32⟩
  | 83 => ⟨S8192, .f32⟩
  | 84 => ⟨S8192, .f32⟩
  | 85 => ⟨S8192x1, .f32⟩
  | 86 => ⟨S8192x10, .f32⟩
  | 87 => ⟨S8192x10, .f32⟩
  | 88 => ⟨S8192x10, .f32⟩
  | 89 => ⟨S_, .f32⟩
  | 90 => ⟨S8192, .f32⟩
  | 91 => ⟨S8192x1, .f32⟩
  | 92 => ⟨S8192x1, .f32⟩
  | 93 => ⟨S8192x10, .f32⟩
  | 94 => ⟨S8192x10, .f32⟩
  | _ => ⟨S30000x128, .f32⟩

abbrev hbmTy (i : Nat) : BufTy := match i / 128 with
  | 0 => hbmTy0_0 i
  | 1 => hbmTy0_1 i
  | _ => ⟨S30000x128, .f32⟩

abbrev bufTy : (tb : Table) → Fin (tcTables nBuf tb) → BufTy
  | .hbm, ⟨i, _⟩ => hbmTy i
  | _, _ => ⟨S30000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst : Ref sig .tc := ⟨.hbm, 41, rfl⟩
abbrev main_v12 : Ref sig .tc := ⟨.hbm, 42, rfl⟩
abbrev main_v13 : Ref sig .tc := ⟨.hbm, 43, rfl⟩
abbrev main_cst_1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_2 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_6 : Ref sig .tc := ⟨.hbm, 68, rfl⟩
abbrev main_v33 : Ref sig .tc := ⟨.hbm, 69, rfl⟩
abbrev main_v34 : Ref sig .tc := ⟨.hbm, 70, rfl⟩
abbrev main_cst_7 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_8 : Ref sig .tc := ⟨.hbm, 75, rfl⟩
abbrev main_v38 : Ref sig .tc := ⟨.hbm, 76, rfl⟩
abbrev main_v39 : Ref sig .tc := ⟨.hbm, 77, rfl⟩
abbrev main_c_9 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_c_10 : Ref sig .tc := ⟨.hbm, 84, rfl⟩
abbrev main_v45 : Ref sig .tc := ⟨.hbm, 85, rfl⟩
abbrev main_v46 : Ref sig .tc := ⟨.hbm, 86, rfl⟩
abbrev main_c_11 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_12 : Ref sig .tc := ⟨.hbm, 98, rfl⟩
abbrev main_v57 : Ref sig .tc := ⟨.hbm, 99, rfl⟩
abbrev main_v58 : Ref sig .tc := ⟨.hbm, 100, rfl⟩
abbrev main_cst_13 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_14 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_15 : Ref sig .tc := ⟨.hbm, 109, rfl⟩
abbrev main_v65 : Ref sig .tc := ⟨.hbm, 110, rfl⟩
abbrev main_cst_16 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_17 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_18 : Ref sig .tc := ⟨.hbm, 125, rfl⟩
abbrev main_v78 : Ref sig .tc := ⟨.hbm, 126, rfl⟩
abbrev main_v79 : Ref sig .tc := ⟨.hbm, 127, rfl⟩
abbrev main_cst_19 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_c_20 : Ref sig .tc := ⟨.hbm, 132, rfl⟩
abbrev main_v83 : Ref sig .tc := ⟨.hbm, 133, rfl⟩
abbrev main_v84 : Ref sig .tc := ⟨.hbm, 134, rfl⟩
abbrev main_c_21 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_22 : Ref sig .tc := ⟨.hbm, 147, rfl⟩
abbrev main_v96 : Ref sig .tc := ⟨.hbm, 148, rfl⟩
abbrev main_v97 : Ref sig .tc := ⟨.hbm, 149, rfl⟩
abbrev main_cst_23 : Ref sig .tc := ⟨.hbm, 150, rfl⟩
abbrev main_v98 : Ref sig .tc := ⟨.hbm, 151, rfl⟩
abbrev main_cst_24 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_25 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_26 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_cst_27 : Ref sig .tc := ⟨.hbm, 174, rfl⟩
abbrev main_v118 : Ref sig .tc := ⟨.hbm, 175, rfl⟩
abbrev main_v119 : Ref sig .tc := ⟨.hbm, 176, rfl⟩
abbrev main_cst_28 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_cst_29 : Ref sig .tc := ⟨.hbm, 190, rfl⟩
abbrev main_v132 : Ref sig .tc := ⟨.hbm, 191, rfl⟩
abbrev main_v133 : Ref sig .tc := ⟨.hbm, 192, rfl⟩
abbrev main_cst_30 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_call5_v0 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_call6_cst : Ref sig .tc := ⟨.hbm, 208, rfl⟩
abbrev main_call6_v0 : Ref sig .tc := ⟨.hbm, 209, rfl⟩
abbrev main_call6_cst_0 : Ref sig .tc := ⟨.hbm, 210, rfl⟩
abbrev main_call6_v1 : Ref sig .tc := ⟨.hbm, 211, rfl⟩
abbrev main_call6_v2 : Ref sig .tc := ⟨.hbm, 212, rfl⟩
abbrev main_call6_v3 : Ref sig .tc := ⟨.hbm, 213, rfl⟩
abbrev main_call6_v4 : Ref sig .tc := ⟨.hbm, 214, rfl⟩
abbrev main_call6_v5 : Ref sig .tc := ⟨.hbm, 215, rfl⟩
abbrev main_call6_v6 : Ref sig .tc := ⟨.hbm, 216, rfl⟩
abbrev main_call6_cst_1 : Ref sig .tc := ⟨.hbm, 217, rfl⟩
abbrev main_call6_v7 : Ref sig .tc := ⟨.hbm, 218, rfl⟩
abbrev main_call6_v8 : Ref sig .tc := ⟨.hbm, 219, rfl⟩
abbrev main_call6_v9 : Ref sig .tc := ⟨.hbm, 220, rfl⟩
abbrev main_call6_v10 : Ref sig .tc := ⟨.hbm, 221, rfl⟩
abbrev main_v147 : Ref sig .tc := ⟨.hbm, 222, rfl⟩

abbrev nD : Nat := 1
abbrev τ : Topo := Topo.v7x

variable {F : FTy → Type} [FloatOps F]

class Facts₀ : Prop where
  bcast_S_S480000 : S_.BroadcastsInDim S480000 (![] : Fin 0 → Fin S480000.rank)
  bcast_S480000_S480000x1_0 : S480000.BroadcastsInDim S480000x1 (![0] : Fin 1 → Fin S480000x1.rank)
  concatenates_S480000x128_S480000x64_S480000x192_d1 : Shape.Concatenates [S480000x128, S480000x64] S480000x192 1
  bcast_S128_S1x128_1 : S128.BroadcastsInDim S1x128 (![1] : Fin 1 → Fin S1x128.rank)
  bcast_S1x128_S480000x128_0_1 : S1x128.BroadcastsInDim S480000x128 (![0, 1] : Fin 2 → Fin S480000x128.rank)
  bcast_S_S480000x128 : S_.BroadcastsInDim S480000x128 (![] : Fin 0 → Fin S480000x128.rank)
  bcast_S_S30000x128 : S_.BroadcastsInDim S30000x128 (![] : Fin 0 → Fin S30000x128.rank)
  bcast_S_S480000x1 : S_.BroadcastsInDim S480000x1 (![] : Fin 0 → Fin S480000x1.rank)
  bcast_S_S30000x1 : S_.BroadcastsInDim S30000x1 (![] : Fin 0 → Fin S30000x1.rank)
  bcast_S30000x1_S30000x128_0_1 : S30000x1.BroadcastsInDim S30000x128 (![0, 1] : Fin 2 → Fin S30000x128.rank)
  concatenates_S30000x128_S30000x128_S30000x256_d1 : Shape.Concatenates [S30000x128, S30000x128] S30000x256 1
  bcast_S256_S1x256_1 : S256.BroadcastsInDim S1x256 (![1] : Fin 1 → Fin S1x256.rank)
  bcast_S1x256_S30000x256_0_1 : S1x256.BroadcastsInDim S30000x256 (![0, 1] : Fin 2 → Fin S30000x256.rank)
  bcast_S_S30000x256 : S_.BroadcastsInDim S30000x256 (![] : Fin 0 → Fin S30000x256.rank)
  bcast_S_S128 : S_.BroadcastsInDim S128 (![] : Fin 0 → Fin S128.rank)
  bcast_S128_S128x1_0 : S128.BroadcastsInDim S128x1 (![0] : Fin 1 → Fin S128x1.rank)
  concatenates_S480000x256_S480000x128_S480000x384_d1 : Shape.Concatenates [S480000x256, S480000x128] S480000x384 1
  bcast_S64_S1x64_1 : S64.BroadcastsInDim S1x64 (![1] : Fin 1 → Fin S1x64.rank)
  bcast_S1x64_S480000x64_0_1 : S1x64.BroadcastsInDim S480000x64 (![0, 1] : Fin 2 → Fin S480000x64.rank)
  bcast_S_S480000x64 : S_.BroadcastsInDim S480000x64 (![] : Fin 0 → Fin S480000x64.rank)
  bcast_S_S30000x64 : S_.BroadcastsInDim S30000x64 (![] : Fin 0 → Fin S30000x64.rank)
  bcast_S30000x1_S30000x64_0_1 : S30000x1.BroadcastsInDim S30000x64 (![0, 1] : Fin 2 → Fin S30000x64.rank)
  concatenates_S30000x256_S30000x64_S30000x320_d1 : Shape.Concatenates [S30000x256, S30000x64] S30000x320 1
  bcast_S_S8192 : S_.BroadcastsInDim S8192 (![] : Fin 0 → Fin S8192.rank)
  bcast_S8192_S8192x1_0 : S8192.BroadcastsInDim S8192x1 (![0] : Fin 1 → Fin S8192x1.rank)
  transposes_S128x256_S256x128_1_0 : S128x256.Transposes [1, 0] S256x128
  bcast_S_S128x128 : S_.BroadcastsInDim S128x128 (![] : Fin 0 → Fin S128x128.rank)
  reducesTo_S128x128_S128_d1 : S128x128.ReducesTo [1] S128
  h_S_ : 0 < S_.numel
  bcast_S128x1_S128x128_0_1 : S128x1.BroadcastsInDim S128x128 (![0, 1] : Fin 2 → Fin S128x128.rank)
  bcast_S_S128x256 : S_.BroadcastsInDim S128x256 (![] : Fin 0 → Fin S128x256.rank)
  bcast_S1x256_S128x256_0_1 : S1x256.BroadcastsInDim S128x256 (![0, 1] : Fin 2 → Fin S128x256.rank)
  bcast_S8192x64_S8192x1x64_0_2 : S8192x64.BroadcastsInDim S8192x1x64 (![0, 2] : Fin 2 → Fin S8192x1x64.rank)
  bcast_S128x64_S1x128x64_1_2 : S128x64.BroadcastsInDim S1x128x64 (![1, 2] : Fin 2 → Fin S1x128x64.rank)
  bcast_S8192x1x64_S8192x128x64_0_1_2 : S8192x1x64.BroadcastsInDim S8192x128x64 (![0, 1, 2] : Fin 3 → Fin S8192x128x64.rank)
  bcast_S1x128x64_S8192x128x64_0_1_2 : S1x128x64.BroadcastsInDim S8192x128x64 (![0, 1, 2] : Fin 3 → Fin S8192x128x64.rank)
  bcast_S64_S1x1x64_2 : S64.BroadcastsInDim S1x1x64 (![2] : Fin 1 → Fin S1x1x64.rank)
  bcast_S1x1x64_S8192x128x64_0_1_2 : S1x1x64.BroadcastsInDim S8192x128x64 (![0, 1, 2] : Fin 3 → Fin S8192x128x64.rank)
  bcast_S_S8192x128x64 : S_.BroadcastsInDim S8192x128x64 (![] : Fin 0 → Fin S8192x128x64.rank)
  shapeCasts_S8192x128x64_S1048576x64 : S8192x128x64.ShapeCasts S1048576x64
  shapeCasts_S8192x128_S1048576 : S8192x128.ShapeCasts S1048576
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)
  shapeCasts_S1048576x64_S8192x128x64 : S1048576x64.ShapeCasts S8192x128x64
  shapeCasts_S8192x128x64_S8192x8192 : S8192x128x64.ShapeCasts S8192x8192
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  reducesTo_S8192x10_S8192_d1 : S8192x10.ReducesTo [1] S8192
  bcast_S8192x1_S8192x10_0_1 : S8192x1.BroadcastsInDim S8192x10 (![0, 1] : Fin 2 → Fin S8192x10.rank)
  gather_S30000x128_S480000x1_S480000x128_1_0_n_n_0_1_1128_wf : GatherDims.WF S30000x128 S480000x1 S480000x128 [1] [0] [] [0] [] 1 ![1, 128]
  dot_S480000x192_S192x128_S480000x128_1_0_0_1_n_n_wf : DotDims.WF S480000x192 S192x128 S480000x128 [1] [0] [0] [1] [] []
  scatter_S30000x128_S480000x1_S480000x128_1_0_0_1_wf : ScatterDims.WF S30000x128 S480000x1 S480000x128 [1] [0] [0] 1
  scatter_S30000x1_S480000x1_S480000x1_1_0_0_1_wf : ScatterDims.WF S30000x1 S480000x1 S480000x1 [1] [0] [0] 1
  dot_S30000x256_S256x256_S30000x256_1_0_0_1_n_n_wf : DotDims.WF S30000x256 S256x256 S30000x256 [1] [0] [0] [1] [] []
  gather_S30000x256_S128x1_S128x256_1_0_n_n_0_1_1256_wf : GatherDims.WF S30000x256 S128x1 S128x256 [1] [0] [] [0] [] 1 ![1, 256]
  gather_S30000x256_S480000x1_S480000x256_1_0_n_n_0_1_1256_wf : GatherDims.WF S30000x256 S480000x1 S480000x256 [1] [0] [] [0] [] 1 ![1, 256]
  dot_S480000x384_S384x64_S480000x64_1_0_0_1_n_n_wf : DotDims.WF S480000x384 S384x64 S480000x64 [1] [0] [0] [1] [] []
  scatter_S30000x64_S480000x1_S480000x64_1_0_0_1_wf : ScatterDims.WF S30000x64 S480000x1 S480000x64 [1] [0] [0] 1
  dot_S30000x320_S320x256_S30000x256_1_0_0_1_n_n_wf : DotDims.WF S30000x320 S320x256 S30000x256 [1] [0] [0] [1] [] []
  gather_S30000x256_S8192x1_S8192x256_1_0_n_n_0_1_1256_wf : GatherDims.WF S30000x256 S8192x1 S8192x256 [1] [0] [] [0] [] 1 ![1, 256]
  dot_S128x256_S256x256_S128x256_1_0_0_1_n_n_wf : DotDims.WF S128x256 S256x256 S128x256 [1] [0] [0] [1] [] []
  dot_S128x256_S256x128_S128x128_1_0_0_1_n_n_wf : DotDims.WF S128x256 S256x128 S128x128 [1] [0] [0] [1] [] []
  dot_S128x128_S128x256_S128x256_1_0_0_1_n_n_wf : DotDims.WF S128x128 S128x256 S128x256 [1] [0] [0] [1] [] []
  dot_S8192x256_S256x64_S8192x64_1_0_0_1_n_n_wf : DotDims.WF S8192x256 S256x64 S8192x64 [1] [0] [0] [1] [] []
  dot_S128x256_S256x64_S128x64_1_0_0_1_n_n_wf : DotDims.WF S128x256 S256x64 S128x64 [1] [0] [0] [1] [] []
  dot_S8192x8192_S8192x10_S8192x10_1_0_0_1_n_n_wf : DotDims.WF S8192x8192 S8192x10 S8192x10 [1] [0] [0] [1] [] []

variable [Facts₀]

def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def dot_S480000x192_S192x128_S480000x128_1_0_0_1_n_n : DotDims S480000x192 S192x128 S480000x128 where
  lhsContracting := [1]
  rhsContracting := [0]
  lhsNonContracting := [0]
  rhsNonContracting := [1]
  lhsBatch := []
  rhsBatch := []
  wf := dot_S480000x192_S192x128_S480000x128_1_0_0_1_n_n_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def scatter_S30000x1_S480000x1_S480000x1_1_0_0_1 : ScatterDims S30000x1 S480000x1 S480000x1 where
  updateWindowDims := [1]
  insertedWindowDims := [0]
  scatterDimsToOperandDims := [0]
  indexVectorDim := 1
  wf := scatter_S30000x1_S480000x1_S480000x1_1_0_0_1_wf
def dot_S30000x256_S256x256_S30000x256_1_0_0_1_n_n : DotDims S30000x256 S256x256 S30000x256 where
  lhsContracting := [1]
  rhsContracting := [0]
  lhsNonContracting := [0]
  rhsNonContracting := [1]
  lhsBatch := []
  rhsBatch := []
  wf := dot_S30000x256_S256x256_S30000x256_1_0_0_1_n_n_wf
def gather_S30000x256_S128x1_S128x256_1_0_n_n_0_1_1256 : GatherDims S30000x256 S128x1 S128x256 where
  offsetDims := [1]
  collapsedSliceDims := [0]
  operandBatchingDims := []
  startIndicesBatchingDims := []
  startIndexMap := [0]
  indexVectorDim := 1
  sliceSizes := ![1, 256]
  wf := gather_S30000x256_S128x1_S128x256_1_0_n_n_0_1_1256_wf
def gather_S30000x256_S480000x1_S480000x256_1_0_n_n_0_1_1256 : GatherDims S30000x256 S480000x1 S480000x256 where
  offsetDims := [1]
  collapsedSliceDims := [0]
  operandBatchingDims := []
  startIndicesBatchingDims := []
  startIndexMap := [0]
  indexVectorDim := 1
  sliceSizes := ![1, 256]
  wf := gather_S30000x256_S480000x1_S480000x256_1_0_n_n_0_1_1256_wf
def dot_S480000x384_S384x64_S480000x64_1_0_0_1_n_n : DotDims S480000x384 S384x64 S480000x64 where
  lhsContracting := [1]
  rhsContracting := [0]
  lhsNonContracting := [0]
  rhsNonContracting := [1]
  lhsBatch := []
  rhsBatch := []
  wf := dot_S480000x384_S384x64_S480000x64_1_0_0_1_n_n_wf
def scatter_S30000x64_S480000x1_S480000x64_1_0_0_1 : ScatterDims S30000x64 S480000x1 S480000x64 where
  updateWindowDims := [1]
  insertedWindowDims := [0]
  scatterDimsToOperandDims := [0]
  indexVectorDim := 1
  wf := scatter_S30000x64_S480000x1_S480000x64_1_0_0_1_wf
def dot_S30000x320_S320x256_S30000x256_1_0_0_1_n_n : DotDims S30000x320 S320x256 S30000x256 where
  lhsContracting := [1]
  rhsContracting := [0]
  lhsNonContracting := [0]
  rhsNonContracting := [1]
  lhsBatch := []
  rhsBatch := []
  wf := dot_S30000x320_S320x256_S30000x256_1_0_0_1_n_n_wf
def gather_S30000x256_S8192x1_S8192x256_1_0_n_n_0_1_1256 : GatherDims S30000x256 S8192x1 S8192x256 where
  offsetDims := [1]
  collapsedSliceDims := [0]
  operandBatchingDims := []
  startIndicesBatchingDims := []
  startIndexMap := [0]
  indexVectorDim := 1
  sliceSizes := ![1, 256]
  wf := gather_S30000x256_S8192x1_S8192x256_1_0_n_n_0_1_1256_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf
def dot_S8192x8192_S8192x10_S8192x10_1_0_0_1_n_n : DotDims S8192x8192 S8192x10 S8192x10 where
  lhsContracting := [1]
  rhsContracting := [0]
  lhsNonContracting := [0]
  rhsNonContracting := [1]
  lhsBatch := []
  rhsBatch := []
  wf := dot_S8192x8192_S8192x10_S8192x10_1_0_0_1_n_n_wf

class Facts : Prop extends Facts₀ where

variable [Facts]
-- ==== Proof.KRun.lean ====
/-
  The idealized kernel's run with its two results named. @main is twelve segments — six stretches of host operations
  and six pipelined regions — and the contents of every unscoped buffer at the last boundary are the fold `W12` of those
  segments over the launch memory. Every weakly fair execution terminates, nothing faulting, in a state whose two result
  buffers hold `W12` at their references and whose argument arrays are as launched: the library's theorem for a program
  of several regions, over the generated segments, with the final state read at the two results as well as at the
  arguments.
-/
import proofs.«102082_j26070451487322_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the two results at the last boundary's contents and the
    arguments as launched. -/
theorem run : θ_run defs (onTc (τ := τ) (main (F := F))) ⟨m, fun _ => 0, ρ⟩ (fun r => ∀ c : Dev nD,
      r.2.mem ((c.tc : Thread nD τ).loc main_v97) = W12 m ρ c (Proc.devRef .tc main_v97)
      ∧ r.2.mem ((c.tc : Thread nD τ).loc main_v95) = W12 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v97 (by decide)),
       h c _ (mem_uc main_v95 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c),
       (h c _ (mem_uc main_arg25 (by decide))).trans (W12_main_arg25 m ρ c),
       (h c _ (mem_uc main_arg26 (by decide))).trans (W12_main_arg26 m ρ c)⟩)

end Cert.KernelIdeal.KRun

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.LibDotHost.lean ====
/-
  The host's matrix product read at an index. For the plain dimension numbers (rows × contraction times
  contraction × columns) a `stablehlo.dot_general`, at the ideal values, is at (a, b) the sum over the contracted
  coordinate `c` of the left operand at (a, c) times the right operand at (c, b) — the same sum a `tpu.matmul` into the
  zero accumulator is (LibMat), so a row block of the one is the matching rows of the other.
-/
import Idealize.ShloMosaic.PureOps.Ideal.Laws
import Idealize.ShloMosaic.Lib.ValueIdx
import Idealize.ShloMosaic.Lib.ValueLayout
import proofs.«102082_j26070451487322_2_alg».proof.Proof.LibMat

noncomputable section

open scoped BigOperators

namespace Cert.LibDotHost

open Idealize.ShloMosaic Idealize.ShloMosaic.ValueIdx Cert.LibMat

/-- A plain host matrix product at (a, b): the sum over the contracted coordinate. Generic in the three extents, the
    operands' formats, the precision and the witness of the dimension numbers' well-formedness. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (plainDims w) prec A B (ix2 a b) = ∑ c : Fin k, A (ix2 a c) * B (ix2 c b) := by
  show FloatOps.dotGeneral _ prec .single A B (ix2 a b) = _
  rw [Ideal.dotGeneral_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A row block of a plain `tpu.matmul` into the zero accumulator is the matching rows of the host's product: if the
    block's left operand at (p, c) is the whole left operand at (a, c) and the right operands agree on column `q` / `b`,
    then the block's product at (p, q) is the whole product at (a, b). -/
theorem matmul_block_eq_dotGeneral {m m' k n n' : ℕ} {φ₁ φ₂ ψ₁ ψ₂ : FTy}
    (w : DotDims.WF ⟨2, ![m, k]⟩ ⟨2, ![k, n]⟩ ⟨2, ![m, n]⟩ [1] [0] [0] [1] [] [])
    (w' : DotDims.WF ⟨2, ![m', k]⟩ ⟨2, ![k, n']⟩ ⟨2, ![m', n']⟩ [1] [0] [0] [1] [] [])
    (prec prec' : Option ContractPrecision)
    (x0 : FVec Ideal ⟨2, ![m, k]⟩ φ₁) (x1 : FVec Ideal ⟨2, ![k, n]⟩ φ₂)
    (X : FVec Ideal ⟨2, ![m', k]⟩ ψ₁) (W : FVec Ideal ⟨2, ![k, n']⟩ ψ₂)
    (p : Fin m) (q : Fin n) (a : Fin m') (b : Fin n')
    (h0 : ∀ c : Fin k, x0 (ix2 p c) = X (ix2 a c)) (h1 : ∀ c : Fin k, x1 (ix2 c q) = W (ix2 c b)) :
    matmul (plainDims w) prec x0 x1 (constant ⟨2, ![m, n]⟩ .f32 0x00000000#32) (ix2 p q)
      = Host.dotGeneral (plainDims w') prec' X W (ix2 a b) :=
  (matmul_plain_apply w prec x0 x1 p q).trans
    ((Finset.sum_congr rfl fun c _ => by rw [h0 c, h1 c]).trans (dotGeneral_plain_apply w' prec' X W a b).symm)

end Cert.LibDotHost

end
-- ==== Proof.Leaky.lean ====
/-
  The leaky rectifier at one extended real: v where v > 0, and the slope's word 0x3C23D70A times v elsewhere — the
  comparison, the product and the selection being the ideal instance's own, so that a vector `select (cmpf ogt v 0) v
  (slope · v)` reads at an index as this function of `v` at that index, by unfolding.
-/
import Idealize.ShloMosaic.PureOps.Ideal
import Idealize.ShloMosaic.PureOps.Vector

noncomputable section

namespace Cert.Leaky

open Idealize.ShloMosaic

/-- `v` if `v > 0`, else the slope times `v`. -/
def leaky (v : Ideal .f32) : Ideal .f32 :=
  Scalar.select (FloatOps.cmpf .ogt v (FloatOps.ofBits .f32 0x00000000#32)) v (FloatOps.mulf (FloatOps.ofBits .f32 0x3C23D70A#32) v)

end Cert.Leaky

end
-- ==== Proof.LL0.lean ====
/-
  Region 0: a row block of  leaky (A · W + b).  The region's left operand A is [480000, 192], tiled in 60 row blocks of
  8000 rows; the weights W [192, 128] and the bias b [128] are whole at every point; the output is [480000, 128] in the same row
  blocks. At the ideal values the casts to bf16 are the identity and the block's matrix product into the zero accumulator
  is, row by row, the host's product of the whole operands: row p of block t is row t·8000 + p. So, when the region's
  operands are the reference's stages, the array the region leaves is the reference's stage
  select (A·W + b > 0) (A·W + b) (slope · (A·W + b)), index by index.
-/
import proofs.«102082_j26070451487322_2_alg».proof.Proof.Gen.KernelIdeal.Frame
import proofs.«102082_j26070451487322_2_alg».proof.Proof.RefRead
import proofs.«102082_j26070451487322_2_alg».proof.Proof.LibDotHost
import proofs.«102082_j26070451487322_2_alg».proof.Proof.Leaky
import Idealize.ShloMosaic.Lib.Pipeline.Value
import Idealize.ShloMosaic.Lib.ValueIdx
import Idealize.ShloMosaic.Lib.ValueLayout

set_option maxRecDepth 16384

noncomputable section

namespace Cert.KernelIdeal.LL0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibMat Cert.LibDotHost Cert.Leaky

/-! ## The body's result at one entry -/

/-- The body's stored value at (p, q): the leaky rectifier of the block's product at (p, q) plus the bias at q. -/
theorem ker_point (v0 : Vec Ideal S8000x192 .f32) (v3 : Vec Ideal S192x128 .f32) (v6 : Vec Ideal S128 .f32) (p : Fin 8000) (q : Fin 128) :
    k0_pay1 (F := Ideal) v0 v3 v6 (ix2 p q)
      = leaky (matmul dot_S8000x192_S192x128_S8000x128_1_0_0_1_n_n none
          (truncf .bf16 (shapeCast S8000x192 v0 shapeCasts_S8000x192_S8000x192) bitsLt_bf16_f32) (truncf .bf16 v3 bitsLt_bf16_f32)
          (constant S8000x128 .f32 0x00000000#32) (ix2 p q) + v6 (ix1 q)) := by
  have hb : broadcastTo S8000x128 (shapeCast S1x128 v6 shapeCasts_S128_S1x128) broadcasts_S1x128_S8000x128 (ix2 p q) = v6 (ix1 q) :=
    (broadcastTo_1b_ab_apply _ broadcasts_S1x128_S8000x128 p q).trans (shapeCast_a_1a_apply v6 shapeCasts_S128_S1x128 0 q)
  unfold k0_pay1
  show leaky (_ + broadcastTo S8000x128 (shapeCast S1x128 v6 shapeCasts_S128_S1x128) broadcasts_S1x128_S8000x128 (ix2 p q)) = _
  rw [hb]

/-! ## The reference's stage at one entry -/

open Cert.ReferenceIdeal.Read in
/-- The reference's rectified stage at (a, q): the same function of the host's product at (a, q) and the bias at q. -/
theorem ref_point (x0 : (⟨Cert.ReferenceIdeal.S30000x128, .f32⟩ : BufTy).Contents (Elt Ideal)) (x1 : (⟨Cert.ReferenceIdeal.S480000x64, .f32⟩ : BufTy).Contents (Elt Ideal)) (x2 : (⟨Cert.ReferenceIdeal.S480000, .i32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal)) (a : Fin 480000) (q : Fin 128) :
    val_main_v16 (F := Ideal) x0 x1 x2 x8 x9 (ix2 a q)
      = leaky (Host.dotGeneral (φ₁ := .f32) (φ₂ := .f32) Cert.ReferenceIdeal.dot_S480000x192_S192x128_S480000x128_1_0_0_1_n_n none
          (val_main_v7 (F := Ideal) x0 x1 x2) x8 (ix2 a q) + x9 (ix1 q)) := by
  have hbias : val_main_v10 (F := Ideal) x9 (ix2 a q) = x9 (ix1 q) := by
    rw [val_main_v10_apply, val_main_v9_apply]
    exact congrArg x9 (funext fun d => match d with | ⟨0, _⟩ => rfl)
  show leaky (Host.dotGeneral (φ₁ := .f32) (φ₂ := .f32) _ none (val_main_v7 (F := Ideal) x0 x1 x2) x8 (ix2 a q) + val_main_v10 (F := Ideal) x9 (ix2 a q)) = _
  rw [hbias]

/-! ## One entry of a block against one entry of the reference's stage -/

/-- If row p of the block's left operand is row a of the whole one, and the weights and the bias agree on column q, the
    body's value at (p, q) is the rectified host product at (a, q). -/
theorem point_eq (v0 : Vec Ideal S8000x192 .f32) (v3 : Vec Ideal S192x128 .f32) (v6 : Vec Ideal S128 .f32)
    (X : FVec Ideal Cert.ReferenceIdeal.S480000x192 .f32) (W : FVec Ideal Cert.ReferenceIdeal.S192x128 .f32) (b : FVec Ideal Cert.ReferenceIdeal.S128 .f32)
    (p : Fin 8000) (q : Fin 128) (a : Fin 480000)
    (h0 : ∀ k : Fin 192, v0 (ix2 p k) = X (ix2 a k)) (h1 : ∀ k : Fin 192, v3 (ix2 k q) = W (ix2 k q)) (h2 : v6 (ix1 q) = b (ix1 q)) :
    k0_pay1 (F := Ideal) v0 v3 v6 (ix2 p q)
      = leaky (Host.dotGeneral (φ₁ := .f32) (φ₂ := .f32) Cert.ReferenceIdeal.dot_S480000x192_S192x128_S480000x128_1_0_0_1_n_n none X W (ix2 a q) + b (ix1 q)) := by
  rw [ker_point, h2]
  refine congrArg (fun z => leaky (z + b (ix1 q))) ?_
  refine matmul_block_eq_dotGeneral dot_S8000x192_S192x128_S8000x128_1_0_0_1_n_n.wf
    Cert.ReferenceIdeal.dot_S480000x192_S192x128_S480000x128_1_0_0_1_n_n.wf none none _ _ X W p q a q (fun k => ?_) (fun k => ?_)
  · exact (congrFun (shapeCast_self v0 shapeCasts_S8000x192_S8000x192) (ix2 p k)).trans (h0 k)
  · exact h1 k

/-! ## The windows' blocks -/

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row operand and the output move with the point, the weights and the bias
    stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Row p of the row operand's block at point t is row t·8000 + p of the array. -/
theorem blk0 (c : Dev nD) (t : Fin cfg0.N) (p : Fin 8000) (k : Fin 192) (a : Fin 480000) (ha : a.val = t.val * 8000 + p.val) :
    iblk0 V c 0 t (ix2 p k) = V c (Pipeline.arrRef spec0 0) (ix2 a k) := by
  obtain ⟨e0, e1, -⟩ := idx_facts t
  show V c (Pipeline.arrRef spec0 0) (((cfg0.win 0).blk t).view.emb (ix2 p k)) = _
  refine congrArg _ (funext fun d => Fin.ext ?_)
  match d with
  | ⟨0, _⟩ => show win0_0.index t (0 : Fin 2) * 8000 + 1 * p.val = a.val; rw [e0, ha]; omega
  | ⟨1, _⟩ => show win0_0.index t (1 : Fin 2) * 192 + 1 * k.val = k.val; rw [e1]; omega

/-- The weights' block at any point is the whole array. -/
theorem blk1 (c : Dev nD) (t : Fin cfg0.N) (k : Fin 192) (q : Fin 128) :
    iblk0 V c 1 t (ix2 k q) = V c (Pipeline.arrRef spec0 1) (ix2 k q) := by
  obtain ⟨-, -, e2, e3, -⟩ := idx_facts t
  show V c (Pipeline.arrRef spec0 1) (((cfg0.win 1).blk t).view.emb (ix2 k q)) = _
  refine congrArg _ (funext fun d => Fin.ext ?_)
  match d with
  | ⟨0, _⟩ => show win0_1.index t (0 : Fin 2) * 192 + 1 * k.val = k.val; rw [e2]; omega
  | ⟨1, _⟩ => show win0_1.index t (1 : Fin 2) * 128 + 1 * q.val = q.val; rw [e3]; omega

/-- The bias's block at any point is the whole array. -/
theorem blk2 (c : Dev nD) (t : Fin cfg0.N) (q : Fin 128) :
    iblk0 V c 2 t (ix1 q) = V c (Pipeline.arrRef spec0 2) (ix1 q) := by
  obtain ⟨-, -, -, -, e4, -⟩ := idx_facts t
  show V c (Pipeline.arrRef spec0 2) (((cfg0.win 2).blk t).view.emb (ix1 q)) = _
  refine congrArg _ (funext fun d => Fin.ext ?_)
  match d with
  | ⟨0, _⟩ => show win0_2.index t (0 : Fin 1) * 128 + 1 * q.val = q.val; rw [e4]; omega

/-! ## From blocks to the array -/

open Cert.ReferenceIdeal.Read in
/-- What point t writes back is block t of the reference's stage. -/
theorem flushed_eq (c : Dev nD) (x0 : (⟨Cert.ReferenceIdeal.S30000x128, .f32⟩ : BufTy).Contents (Elt Ideal)) (x1 : (⟨Cert.ReferenceIdeal.S480000x64, .f32⟩ : BufTy).Contents (Elt Ideal)) (x2 : (⟨Cert.ReferenceIdeal.S480000, .i32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal))
    (h0 : V c (Pipeline.arrRef spec0 0) = val_main_v7 (F := Ideal) x0 x1 x2)
    (h1 : V c (Pipeline.arrRef spec0 1) = x8) (h2 : V c (Pipeline.arrRef spec0 2) = x9) (t : Fin cfg0.N) :
    (dat0 (F := Ideal) V c).flushed 3 t
      = ((cfg0.win 3).blk t).view.read (Elt Ideal) (val_main_v16 (F := Ideal) x0 x1 x2 x8 x9) := by
  show (cfg0.win 3).cut (grid0.coords t) ((dat0 (F := Ideal) V c).after 3 t) = _
  rw [after0_3]
  unfold out0_3
  rw [View.canon_unit_zero hz2]
  simp only [View.ld_unit_zero (S := S8000x192) hz2, View.ld_unit_zero (S := S192x128) hz2, View.ld_unit_zero (S := S128) hz1]
  funext j
  obtain ⟨p, q, rfl⟩ : ∃ (p : Fin 8000) (q : Fin 128), j = ix2 p q := ⟨j 0, j 1, eq_ix2 j⟩
  obtain ⟨-, -, -, -, -, e5, e6⟩ := idx_facts t
  have ht : t.val < 60 := t.isLt
  have hp : p.val < 8000 := p.isLt
  let a : Fin 480000 := ⟨t.val * 8000 + p.val, by omega⟩
  have hemb : ((cfg0.win 3).blk t).view.emb (ix2 p q) = ix2 a q := by
    funext d; apply Fin.ext
    match d with
    | ⟨0, _⟩ => show win0_3.index t (0 : Fin 2) * 8000 + 1 * p.val = t.val * 8000 + p.val; rw [e5]; omega
    | ⟨1, _⟩ => show win0_3.index t (1 : Fin 2) * 128 + 1 * q.val = q.val; rw [e6]; omega
  show k0_pay1 (F := Ideal) (iblk0 V c 0 t) (iblk0 V c 1 t) (iblk0 V c 2 t) (ix2 p q)
      = val_main_v16 (F := Ideal) x0 x1 x2 x8 x9 (((cfg0.win 3).blk t).view.emb (ix2 p q))
  rw [hemb, ref_point]
  exact point_eq (iblk0 V c 0 t) (iblk0 V c 1 t) (iblk0 V c 2 t) (val_main_v7 (F := Ideal) x0 x1 x2) x8 x9 p q a
    (fun k => (blk0 V c t p k a rfl).trans (congrFun h0 _)) (fun k => (blk1 V c t k q).trans (congrFun h1 _))
    ((blk2 V c t q).trans (congrFun h2 _))

/-- An index of the output array is in point t's block iff each coordinate is in the block's range on its axis. -/
theorem mem_blk (t : Fin cfg0.N) (i : S480000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v8).slice (win0_3.rect t)).set ↔ _
  rw [View.set_slice_whole, Rect.mem_set_unit]
  exact Iff.rfl

/-- Every row of the output lies in the block of the point  row / 8000. -/
theorem cover (i : S480000x128.Idx) : ∃ t : Fin cfg0.N, (cfg0.win 3).flush t = true ∧ i ∈ ((cfg0.win 3).blk t).view.set := by
  have hi0 : (i 0).val < 480000 := (i 0).isLt
  have hi1 : (i 1).val < 128 := (i 1).isLt
  let t : Fin cfg0.N := ⟨(i 0).val / 8000, by show (i 0).val / 8000 < 60; omega⟩
  obtain ⟨-, -, -, -, -, e5, e6⟩ := idx_facts t
  have e5' : win0_3.index t (0 : Fin 2) = (i 0).val / 8000 := e5
  refine ⟨t, flush0_3 t, ?_⟩
  rw [mem_blk]
  intro a
  match a with
  | ⟨0, _⟩ => show win0_3.index t (0 : Fin 2) * 8000 ≤ (i 0).val ∧ (i 0).val < win0_3.index t (0 : Fin 2) * 8000 + 8000; rw [e5']; omega
  | ⟨1, _⟩ => show win0_3.index t (1 : Fin 2) * 128 ≤ (i 1).val ∧ (i 1).val < win0_3.index t (1 : Fin 2) * 128 + 128; rw [e6]; omega

open Cert.ReferenceIdeal.Read in
/-- The array the region leaves is the reference's stage, when its operands are the reference's. -/
theorem arr_eq (c : Dev nD) (x0 : (⟨Cert.ReferenceIdeal.S30000x128, .f32⟩ : BufTy).Contents (Elt Ideal)) (x1 : (⟨Cert.ReferenceIdeal.S480000x64, .f32⟩ : BufTy).Contents (Elt Ideal)) (x2 : (⟨Cert.ReferenceIdeal.S480000, .i32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal))
    (h0 : V c (Pipeline.arrRef spec0 0) = val_main_v7 (F := Ideal) x0 x1 x2)
    (h1 : V c (Pipeline.arrRef spec0 1) = x8) (h2 : V c (Pipeline.arrRef spec0 2) = x9) :
    (dat0 (F := Ideal) V c).arrAt 3 cfg0.N = val_main_v16 (F := Ideal) x0 x1 x2 x8 x9 :=
  (dat0 (F := Ideal) V c).arrAt_eq_of_cover 3 _ (fun t _ => flushed_eq V c x0 x1 x2 x8 x9 h0 h1 h2 t) cover

end Cert.KernelIdeal.LL0

end
-- ==== Proof.LL1.lean ====
/-
  Region 1: a row block of  leaky (A · W + b).  The region's left operand A is [30000, 256], tiled in 6 row blocks of
  5000 rows; the weights W [256, 256] and the bias b [256] are whole at every point; the output is [30000, 256] in the same row
  blocks. At the ideal values the casts to bf16 are the identity and the block's matrix product into the zero accumulator
  is, row by row, the host's product of the whole operands: row p of block t is row t·5000 + p. So, when the region's
  operands are the reference's stages, the array the region leaves is the reference's stage
  select (A·W + b > 0) (A·W + b) (slope · (A·W + b)), index by index.
-/
import proofs.«102082_j26070451487322_2_alg».proof.Proof.Gen.KernelIdeal.Frame
import proofs.«102082_j26070451487322_2_alg».proof.Proof.RefRead
import proofs.«102082_j26070451487322_2_alg».proof.Proof.LibDotHost
import proofs.«102082_j26070451487322_2_alg».proof.Proof.Leaky
import Idealize.ShloMosaic.Lib.Pipeline.Value
import Idealize.ShloMosaic.Lib.ValueIdx
import Idealize.ShloMosaic.Lib.ValueLayout

set_option maxRecDepth 16384

noncomputable section

namespace Cert.KernelIdeal.LL1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibMat Cert.LibDotHost Cert.Leaky

/-! ## The body's result at one entry -/

/-- The body's stored value at (p, q): the leaky rectifier of the block's product at (p, q) plus the bias at q. -/
theorem ker_point (v0 : Vec Ideal S5000x256 .f32) (v3 : Vec Ideal S256x256 .f32) (v6 : Vec Ideal S256 .f32) (p : Fin 5000) (q : Fin 256) :
    k1_pay1 (F := Ideal) v0 v3 v6 (ix2 p q)
      = leaky (matmul dot_S5000x256_S256x256_S5000x256_1_0_0_1_n_n none
          (truncf .bf16 (shapeCast S5000x256 v0 shapeCasts_S5000x256_S5000x256) bitsLt_bf16_f32) (truncf .bf16 v3 bitsLt_bf16_f32)
          (constant S5000x256 .f32 0x00000000#32) (ix2 p q) + v6 (ix1 q)) := by
  have hb : broadcastTo S5000x256 (shapeCast S1x256 v6 shapeCasts_S256_S1x256) broadcasts_S1x256_S5000x256 (ix2 p q) = v6 (ix1 q) :=
    (broadcastTo_1b_ab_apply _ broadcasts_S1x256_S5000x256 p q).trans (shapeCast_a_1a_apply v6 shapeCasts_S256_S1x256 0 q)
  unfold k1_pay1
  show leaky (_ + broadcastTo S5000x256 (shapeCast S1x256 v6 shapeCasts_S256_S1x256) broadcasts_S1x256_S5000x256 (ix2 p q)) = _
  rw [hb]

/-! ## The reference's stage at one entry -/

open Cert.ReferenceIdeal.Read in
/-- The reference's rectified stage at (a, q): the same function of the host's product at (a, q) and the bias at q. -/
theorem ref_point (x0 : (⟨Cert.ReferenceIdeal.S30000x128, .f32⟩ : BufTy).Contents (Elt Ideal)) (x1 : (⟨Cert.ReferenceIdeal.S480000x64, .f32⟩ : BufTy).Contents (Elt Ideal)) (x2 : (⟨Cert.ReferenceIdeal.S480000, .i32⟩ : BufTy).Contents (Elt Ideal)) (x3 : (⟨Cert.ReferenceIdeal.S480000, .i32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (a : Fin 30000) (q : Fin 256) :
    val_main_v37 (F := Ideal) x0 x1 x2 x3 x8 x9 x10 x11 (ix2 a q)
      = leaky (Host.dotGeneral (φ₁ := .f32) (φ₂ := .f32) Cert.ReferenceIdeal.dot_S30000x256_S256x256_S30000x256_1_0_0_1_n_n none
          (val_main_v28 (F := Ideal) x0 x1 x2 x3 x8 x9) x10 (ix2 a q) + x11 (ix1 q)) := by
  have hbias : val_main_v31 (F := Ideal) x11 (ix2 a q) = x11 (ix1 q) := by
    rw [val_main_v31_apply, val_main_v30_apply]
    exact congrArg x11 (funext fun d => match d with | ⟨0, _⟩ => rfl)
  show leaky (Host.dotGeneral (φ₁ := .f32) (φ₂ := .f32) _ none (val_main_v28 (F := Ideal) x0 x1 x2 x3 x8 x9) x10 (ix2 a q) + val_main_v31 (F := Ideal) x11 (ix2 a q)) = _
  rw [hbias]

/-! ## One entry of a block against one entry of the reference's stage -/

/-- If row p of the block's left operand is row a of the whole one, and the weights and the bias agree on column q, the
    body's value at (p, q) is the rectified host product at (a, q). -/
theorem point_eq (v0 : Vec Ideal S5000x256 .f32) (v3 : Vec Ideal S256x256 .f32) (v6 : Vec Ideal S256 .f32)
    (X : FVec Ideal Cert.ReferenceIdeal.S30000x256 .f32) (W : FVec Ideal Cert.ReferenceIdeal.S256x256 .f32) (b : FVec Ideal Cert.ReferenceIdeal.S256 .f32)
    (p : Fin 5000) (q : Fin 256) (a : Fin 30000)
    (h0 : ∀ k : Fin 256, v0 (ix2 p k) = X (ix2 a k)) (h1 : ∀ k : Fin 256, v3 (ix2 k q) = W (ix2 k q)) (h2 : v6 (ix1 q) = b (ix1 q)) :
    k1_pay1 (F := Ideal) v0 v3 v6 (ix2 p q)
      = leaky (Host.dotGeneral (φ₁ := .f32) (φ₂ := .f32) Cert.ReferenceIdeal.dot_S30000x256_S256x256_S30000x256_1_0_0_1_n_n none X W (ix2 a q) + b (ix1 q)) := by
  rw [ker_point, h2]
  refine congrArg (fun z => leaky (z + b (ix1 q))) ?_
  refine matmul_block_eq_dotGeneral dot_S5000x256_S256x256_S5000x256_1_0_0_1_n_n.wf
    Cert.ReferenceIdeal.dot_S30000x256_S256x256_S30000x256_1_0_0_1_n_n.wf none none _ _ X W p q a q (fun k => ?_) (fun k => ?_)
  · exact (congrFun (shapeCast_self v0 shapeCasts_S5000x256_S5000x256) (ix2 p k)).trans (h0 k)
  · exact h1 k

/-! ## The windows' blocks -/

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row operand and the output move with the point, the weights and the bias
    stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Row p of the row operand's block at point t is row t·5000 + p of the array. -/
theorem blk0 (c : Dev nD) (t : Fin cfg1.N) (p : Fin 5000) (k : Fin 256) (a : Fin 30000) (ha : a.val = t.val * 5000 + p.val) :
    iblk1 V c 0 t (ix2 p k) = V c (Pipeline.arrRef spec1 0) (ix2 a k) := by
  obtain ⟨e0, e1, -⟩ := idx_facts t
  show V c (Pipeline.arrRef spec1 0) (((cfg1.win 0).blk t).view.emb (ix2 p k)) = _
  refine congrArg _ (funext fun d => Fin.ext ?_)
  match d with
  | ⟨0, _⟩ => show win1_0.index t (0 : Fin 2) * 5000 + 1 * p.val = a.val; rw [e0, ha]; omega
  | ⟨1, _⟩ => show win1_0.index t (1 : Fin 2) * 256 + 1 * k.val = k.val; rw [e1]; omega

/-- The weights' block at any point is the whole array. -/
theorem blk1 (c : Dev nD) (t : Fin cfg1.N) (k : Fin 256) (q : Fin 256) :
    iblk1 V c 1 t (ix2 k q) = V c (Pipeline.arrRef spec1 1) (ix2 k q) := by
  obtain ⟨-, -, e2, e3, -⟩ := idx_facts t
  show V c (Pipeline.arrRef spec1 1) (((cfg1.win 1).blk t).view.emb (ix2 k q)) = _
  refine congrArg _ (funext fun d => Fin.ext ?_)
  match d with
  | ⟨0, _⟩ => show win1_1.index t (0 : Fin 2) * 256 + 1 * k.val = k.val; rw [e2]; omega
  | ⟨1, _⟩ => show win1_1.index t (1 : Fin 2) * 256 + 1 * q.val = q.val; rw [e3]; omega

/-- The bias's block at any point is the whole array. -/
theorem blk2 (c : Dev nD) (t : Fin cfg1.N) (q : Fin 256) :
    iblk1 V c 2 t (ix1 q) = V c (Pipeline.arrRef spec1 2) (ix1 q) := by
  obtain ⟨-, -, -, -, e4, -⟩ := idx_facts t
  show V c (Pipeline.arrRef spec1 2) (((cfg1.win 2).blk t).view.emb (ix1 q)) = _
  refine congrArg _ (funext fun d => Fin.ext ?_)
  match d with
  | ⟨0, _⟩ => show win1_2.index t (0 : Fin 1) * 256 + 1 * q.val = q.val; rw [e4]; omega

/-! ## From blocks to the array -/

open Cert.ReferenceIdeal.Read in
/-- What point t writes back is block t of the reference's stage. -/
theorem flushed_eq (c : Dev nD) (x0 : (⟨Cert.ReferenceIdeal.S30000x128, .f32⟩ : BufTy).Contents (Elt Ideal)) (x1 : (⟨Cert.ReferenceIdeal.S480000x64, .f32⟩ : BufTy).Contents (Elt Ideal)) (x2 : (⟨Cert.ReferenceIdeal.S480000, .i32⟩ : BufTy).Contents (Elt Ideal)) (x3 : (⟨Cert.ReferenceIdeal.S480000, .i32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal))
    (h0 : V c (Pipeline.arrRef spec1 0) = val_main_v28 (F := Ideal) x0 x1 x2 x3 x8 x9)
    (h1 : V c (Pipeline.arrRef spec1 1) = x10) (h2 : V c (Pipeline.arrRef spec1 2) = x11) (t : Fin cfg1.N) :
    (dat1 (F := Ideal) V c).flushed 3 t
      = ((cfg1.win 3).blk t).view.read (Elt Ideal) (val_main_v37 (F := Ideal) x0 x1 x2 x3 x8 x9 x10 x11) := by
  show (cfg1.win 3).cut (grid1.coords t) ((dat1 (F := Ideal) V c).after 3 t) = _
  rw [after1_3]
  unfold out1_3
  rw [View.canon_unit_zero hz2]
  simp only [View.ld_unit_zero (S := S5000x256) hz2, View.ld_unit_zero (S := S256x256) hz2, View.ld_unit_zero (S := S256) hz1]
  funext j
  obtain ⟨p, q, rfl⟩ : ∃ (p : Fin 5000) (q : Fin 256), j = ix2 p q := ⟨j 0, j 1, eq_ix2 j⟩
  obtain ⟨-, -, -, -, -, e5, e6⟩ := idx_facts t
  have ht : t.val < 6 := t.isLt
  have hp : p.val < 5000 := p.isLt
  let a : Fin 30000 := ⟨t.val * 5000 + p.val, by omega⟩
  have hemb : ((cfg1.win 3).blk t).view.emb (ix2 p q) = ix2 a q := by
    funext d; apply Fin.ext
    match d with
    | ⟨0, _⟩ => show win1_3.index t (0 : Fin 2) * 5000 + 1 * p.val = t.val * 5000 + p.val; rw [e5]; omega
    | ⟨1, _⟩ => show win1_3.index t (1 : Fin 2) * 256 + 1 * q.val = q.val; rw [e6]; omega
  show k1_pay1 (F := Ideal) (iblk1 V c 0 t) (iblk1 V c 1 t) (iblk1 V c 2 t) (ix2 p q)
      = val_main_v37 (F := Ideal) x0 x1 x2 x3 x8 x9 x10 x11 (((cfg1.win 3).blk t).view.emb (ix2 p q))
  rw [hemb, ref_point]
  exact point_eq (iblk1 V c 0 t) (iblk1 V c 1 t) (iblk1 V c 2 t) (val_main_v28 (F := Ideal) x0 x1 x2 x3 x8 x9) x10 x11 p q a
    (fun k => (blk0 V c t p k a rfl).trans (congrFun h0 _)) (fun k => (blk1 V c t k q).trans (congrFun h1 _))
    ((blk2 V c t q).trans (congrFun h2 _))

/-- An index of the output array is in point t's block iff each coordinate is in the block's range on its axis. -/
theorem mem_blk (t : Fin cfg1.N) (i : S30000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v21).slice (win1_3.rect t)).set ↔ _
  rw [View.set_slice_whole, Rect.mem_set_unit]
  exact Iff.rfl

/-- Every row of the output lies in the block of the point  row / 5000. -/
theorem cover (i : S30000x256.Idx) : ∃ t : Fin cfg1.N, (cfg1.win 3).flush t = true ∧ i ∈ ((cfg1.win 3).blk t).view.set := by
  have hi0 : (i 0).val < 30000 := (i 0).isLt
  have hi1 : (i 1).val < 256 := (i 1).isLt
  let t : Fin cfg1.N := ⟨(i 0).val / 5000, by show (i 0).val / 5000 < 6; omega⟩
  obtain ⟨-, -, -, -, -, e5, e6⟩ := idx_facts t
  have e5' : win1_3.index t (0 : Fin 2) = (i 0).val / 5000 := e5
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e5']; omega
  | ⟨1, _⟩ => show win1_3.index t (1 : Fin 2) * 256 ≤ (i 1).val ∧ (i 1).val < win1_3.index t (1 : Fin 2) * 256 + 256; rw [e6]; omega

open Cert.ReferenceIdeal.Read in
/-- The array the region leaves is the reference's stage, when its operands are the reference's. -/
theorem arr_eq (c : Dev nD) (x0 : (⟨Cert.ReferenceIdeal.S30000x128, .f32⟩ : BufTy).Contents (Elt Ideal)) (x1 : (⟨Cert.ReferenceIdeal.S480000x64, .f32⟩ : BufTy).Contents (Elt Ideal)) (x2 : (⟨Cert.ReferenceIdeal.S480000, .i32⟩ : BufTy).Contents (Elt Ideal)) (x3 : (⟨Cert.ReferenceIdeal.S480000, .i32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal))
    (h0 : V c (Pipeline.arrRef spec1 0) = val_main_v28 (F := Ideal) x0 x1 x2 x3 x8 x9)
    (h1 : V c (Pipeline.arrRef spec1 1) = x10) (h2 : V c (Pipeline.arrRef spec1 2) = x11) :
    (dat1 (F := Ideal) V c).arrAt 3 cfg1.N = val_main_v37 (F := Ideal) x0 x1 x2 x3 x8 x9 x10 x11 :=
  (dat1 (F := Ideal) V c).arrAt_eq_of_cover 3 _ (fun t _ => flushed_eq V c x0 x1 x2 x3 x8 x9 x10 x11 h0 h1 h2 t) cover

end Cert.KernelIdeal.LL1

end
-- ==== Proof.LL2.lean ====
/-
  Region 2: a row block of  leaky (A · W + b).  The region's left operand A is [480000, 384], tiled in 60 row blocks of
  8000 rows; the weights W [384, 64] and the bias b [64] are whole at every point; the output is [480000, 64] in the same row
  blocks. At the ideal values the casts to bf16 are the identity and the block's matrix product into the zero accumulator
  is, row by row, the host's product of the whole operands: row p of block t is row t·8000 + p. So, when the region's
  operands are the reference's stages, the array the region leaves is the reference's stage
  select (A·W + b > 0) (A·W + b) (slope · (A·W + b)), index by index.
-/
import proofs.«102082_j26070451487322_2_alg».proof.Proof.Gen.KernelIdeal.Frame
import proofs.«102082_j26070451487322_2_alg».proof.Proof.RefRead
import proofs.«102082_j26070451487322_2_alg».proof.Proof.LibDotHost
import proofs.«102082_j26070451487322_2_alg».proof.Proof.Leaky
import Idealize.ShloMosaic.Lib.Pipeline.Value
import Idealize.ShloMosaic.Lib.ValueIdx
import Idealize.ShloMosaic.Lib.ValueLayout

set_option maxRecDepth 16384

noncomputable section

namespace Cert.KernelIdeal.LL2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibMat Cert.LibDotHost Cert.Leaky

/-! ## The body's result at one entry -/

/-- The body's stored value at (p, q): the leaky rectifier of the block's product at (p, q) plus the bias at q. -/
theorem ker_point (v0 : Vec Ideal S8000x384 .f32) (v3 : Vec Ideal S384x64 .f32) (v6 : Vec Ideal S64 .f32) (p : Fin 8000) (q : Fin 64) :
    k2_pay1 (F := Ideal) v0 v3 v6 (ix2 p q)
      = leaky (matmul dot_S8000x384_S384x64_S8000x64_1_0_0_1_n_n none
          (truncf .bf16 (shapeCast S8000x384 v0 shapeCasts_S8000x384_S8000x384) bitsLt_bf16_f32) (truncf .bf16 v3 bitsLt_bf16_f32)
          (constant S8000x64 .f32 0x00000000#32) (ix2 p q) + v6 (ix1 q)) := by
  have hb : broadcastTo S8000x64 (shapeCast S1x64 v6 shapeCasts_S64_S1x64) broadcasts_S1x64_S8000x64 (ix2 p q) = v6 (ix1 q) :=
    (broadcastTo_1b_ab_apply _ broadcasts_S1x64_S8000x64 p q).trans (shapeCast_a_1a_apply v6 shapeCasts_S64_S1x64 0 q)
  unfold k2_pay1
  show leaky (_ + broadcastTo S8000x64 (shapeCast S1x64 v6 shapeCasts_S64_S1x64) broadcasts_S1x64_S8000x64 (ix2 p q)) = _
  rw [hb]

/-! ## The reference's stage at one entry -/

open Cert.ReferenceIdeal.Read in
/-- The reference's rectified stage at (a, q): the same function of the host's product at (a, q) and the bias at q. -/
theorem ref_point (x0 : (⟨Cert.ReferenceIdeal.S30000x128, .f32⟩ : BufTy).Contents (Elt Ideal)) (x1 : (⟨Cert.ReferenceIdeal.S480000x64, .f32⟩ : BufTy).Contents (Elt Ideal)) (x2 : (⟨Cert.ReferenceIdeal.S480000, .i32⟩ : BufTy).Contents (Elt Ideal)) (x3 : (⟨Cert.ReferenceIdeal.S480000, .i32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S384x64, .f32⟩ : BufTy).Contents (Elt Ideal)) (x13 : (⟨Cert.ReferenceIdeal.S64, .f32⟩ : BufTy).Contents (Elt Ideal)) (a : Fin 480000) (q : Fin 64) :
    val_main_v61 (F := Ideal) x0 x1 x2 x3 x8 x9 x10 x11 x12 x13 (ix2 a q)
      = leaky (Host.dotGeneral (φ₁ := .f32) (φ₂ := .f32) Cert.ReferenceIdeal.dot_S480000x384_S384x64_S480000x64_1_0_0_1_n_n none
          (val_main_v52 (F := Ideal) x0 x1 x2 x3 x8 x9 x10 x11) x12 (ix2 a q) + x13 (ix1 q)) := by
  have hbias : val_main_v55 (F := Ideal) x13 (ix2 a q) = x13 (ix1 q) := by
    rw [val_main_v55_apply, val_main_v54_apply]
    exact congrArg x13 (funext fun d => match d with | ⟨0, _⟩ => rfl)
  show leaky (Host.dotGeneral (φ₁ := .f32) (φ₂ := .f32) _ none (val_main_v52 (F := Ideal) x0 x1 x2 x3 x8 x9 x10 x11) x12 (ix2 a q) + val_main_v55 (F := Ideal) x13 (ix2 a q)) = _
  rw [hbias]

/-! ## One entry of a block against one entry of the reference's stage -/

/-- If row p of the block's left operand is row a of the whole one, and the weights and the bias agree on column q, the
    body's value at (p, q) is the rectified host product at (a, q). -/
theorem point_eq (v0 : Vec Ideal S8000x384 .f32) (v3 : Vec Ideal S384x64 .f32) (v6 : Vec Ideal S64 .f32)
    (X : FVec Ideal Cert.ReferenceIdeal.S480000x384 .f32) (W : FVec Ideal Cert.ReferenceIdeal.S384x64 .f32) (b : FVec Ideal Cert.ReferenceIdeal.S64 .f32)
    (p : Fin 8000) (q : Fin 64) (a : Fin 480000)
    (h0 : ∀ k : Fin 384, v0 (ix2 p k) = X (ix2 a k)) (h1 : ∀ k : Fin 384, v3 (ix2 k q) = W (ix2 k q)) (h2 : v6 (ix1 q) = b (ix1 q)) :
    k2_pay1 (F := Ideal) v0 v3 v6 (ix2 p q)
      = leaky (Host.dotGeneral (φ₁ := .f32) (φ₂ := .f32) Cert.ReferenceIdeal.dot_S480000x384_S384x64_S480000x64_1_0_0_1_n_n none X W (ix2 a q) + b (ix1 q)) := by
  rw [ker_point, h2]
  refine congrArg (fun z => leaky (z + b (ix1 q))) ?_
  refine matmul_block_eq_dotGeneral dot_S8000x384_S384x64_S8000x64_1_0_0_1_n_n.wf
    Cert.ReferenceIdeal.dot_S480000x384_S384x64_S480000x64_1_0_0_1_n_n.wf none none _ _ X W p q a q (fun k => ?_) (fun k => ?_)
  · exact (congrFun (shapeCast_self v0 shapeCasts_S8000x384_S8000x384) (ix2 p k)).trans (h0 k)
  · exact h1 k

/-! ## The windows' blocks -/

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row operand and the output move with the point, the weights and the bias
    stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Row p of the row operand's block at point t is row t·8000 + p of the array. -/
theorem blk0 (c : Dev nD) (t : Fin cfg2.N) (p : Fin 8000) (k : Fin 384) (a : Fin 480000) (ha : a.val = t.val * 8000 + p.val) :
    iblk2 V c 0 t (ix2 p k) = V c (Pipeline.arrRef spec2 0) (ix2 a k) := by
  obtain ⟨e0, e1, -⟩ := idx_facts t
  show V c (Pipeline.arrRef spec2 0) (((cfg2.win 0).blk t).view.emb (ix2 p k)) = _
  refine congrArg _ (funext fun d => Fin.ext ?_)
  match d with
  | ⟨0, _⟩ => show win2_0.index t (0 : Fin 2) * 8000 + 1 * p.val = a.val; rw [e0, ha]; omega
  | ⟨1, _⟩ => show win2_0.index t (1 : Fin 2) * 384 + 1 * k.val = k.val; rw [e1]; omega

/-- The weights' block at any point is the whole array. -/
theorem blk1 (c : Dev nD) (t : Fin cfg2.N) (k : Fin 384) (q : Fin 64) :
    iblk2 V c 1 t (ix2 k q) = V c (Pipeline.arrRef spec2 1) (ix2 k q) := by
  obtain ⟨-, -, e2, e3, -⟩ := idx_facts t
  show V c (Pipeline.arrRef spec2 1) (((cfg2.win 1).blk t).view.emb (ix2 k q)) = _
  refine congrArg _ (funext fun d => Fin.ext ?_)
  match d with
  | ⟨0, _⟩ => show win2_1.index t (0 : Fin 2) * 384 + 1 * k.val = k.val; rw [e2]; omega
  | ⟨1, _⟩ => show win2_1.index t (1 : Fin 2) * 64 + 1 * q.val = q.val; rw [e3]; omega

/-- The bias's block at any point is the whole array. -/
theorem blk2 (c : Dev nD) (t : Fin cfg2.N) (q : Fin 64) :
    iblk2 V c 2 t (ix1 q) = V c (Pipeline.arrRef spec2 2) (ix1 q) := by
  obtain ⟨-, -, -, -, e4, -⟩ := idx_facts t
  show V c (Pipeline.arrRef spec2 2) (((cfg2.win 2).blk t).view.emb (ix1 q)) = _
  refine congrArg _ (funext fun d => Fin.ext ?_)
  match d with
  | ⟨0, _⟩ => show win2_2.index t (0 : Fin 1) * 64 + 1 * q.val = q.val; rw [e4]; omega

/-! ## From blocks to the array -/

open Cert.ReferenceIdeal.Read in
/-- What point t writes back is block t of the reference's stage. -/
theorem flushed_eq (c : Dev nD) (x0 : (⟨Cert.ReferenceIdeal.S30000x128, .f32⟩ : BufTy).Contents (Elt Ideal)) (x1 : (⟨Cert.ReferenceIdeal.S480000x64, .f32⟩ : BufTy).Contents (Elt Ideal)) (x2 : (⟨Cert.ReferenceIdeal.S480000, .i32⟩ : BufTy).Contents (Elt Ideal)) (x3 : (⟨Cert.ReferenceIdeal.S480000, .i32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S384x64, .f32⟩ : BufTy).Contents (Elt Ideal)) (x13 : (⟨Cert.ReferenceIdeal.S64, .f32⟩ : BufTy).Contents (Elt Ideal))
    (h0 : V c (Pipeline.arrRef spec2 0) = val_main_v52 (F := Ideal) x0 x1 x2 x3 x8 x9 x10 x11)
    (h1 : V c (Pipeline.arrRef spec2 1) = x12) (h2 : V c (Pipeline.arrRef spec2 2) = x13) (t : Fin cfg2.N) :
    (dat2 (F := Ideal) V c).flushed 3 t
      = ((cfg2.win 3).blk t).view.read (Elt Ideal) (val_main_v61 (F := Ideal) x0 x1 x2 x3 x8 x9 x10 x11 x12 x13) := by
  show (cfg2.win 3).cut (grid2.coords t) ((dat2 (F := Ideal) V c).after 3 t) = _
  rw [after2_3]
  unfold out2_3
  rw [View.canon_unit_zero hz2]
  simp only [View.ld_unit_zero (S := S8000x384) hz2, View.ld_unit_zero (S := S384x64) hz2, View.ld_unit_zero (S := S64) hz1]
  funext j
  obtain ⟨p, q, rfl⟩ : ∃ (p : Fin 8000) (q : Fin 64), j = ix2 p q := ⟨j 0, j 1, eq_ix2 j⟩
  obtain ⟨-, -, -, -, -, e5, e6⟩ := idx_facts t
  have ht : t.val < 60 := t.isLt
  have hp : p.val < 8000 := p.isLt
  let a : Fin 480000 := ⟨t.val * 8000 + p.val, by omega⟩
  have hemb : ((cfg2.win 3).blk t).view.emb (ix2 p q) = ix2 a q := by
    funext d; apply Fin.ext
    match d with
    | ⟨0, _⟩ => show win2_3.index t (0 : Fin 2) * 8000 + 1 * p.val = t.val * 8000 + p.val; rw [e5]; omega
    | ⟨1, _⟩ => show win2_3.index t (1 : Fin 2) * 64 + 1 * q.val = q.val; rw [e6]; omega
  show k2_pay1 (F := Ideal) (iblk2 V c 0 t) (iblk2 V c 1 t) (iblk2 V c 2 t) (ix2 p q)
      = val_main_v61 (F := Ideal) x0 x1 x2 x3 x8 x9 x10 x11 x12 x13 (((cfg2.win 3).blk t).view.emb (ix2 p q))
  rw [hemb, ref_point]
  exact point_eq (iblk2 V c 0 t) (iblk2 V c 1 t) (iblk2 V c 2 t) (val_main_v52 (F := Ideal) x0 x1 x2 x3 x8 x9 x10 x11) x12 x13 p q a
    (fun k => (blk0 V c t p k a rfl).trans (congrFun h0 _)) (fun k => (blk1 V c t k q).trans (congrFun h1 _))
    ((blk2 V c t q).trans (congrFun h2 _))

/-- An index of the output array is in point t's block iff each coordinate is in the block's range on its axis. -/
theorem mem_blk (t : Fin cfg2.N) (i : S480000x64.Idx) :
    i ∈ ((cfg2.win 3).blk t).view.set ↔ ∀ a : Fin 2, win2_3.index t a * S8000x64.size a ≤ (i a).val ∧ (i a).val < win2_3.index t a * S8000x64.size a + S8000x64.size a := by
  show i ∈ ((View.whole main_v37).slice (win2_3.rect t)).set ↔ _
  rw [View.set_slice_whole, Rect.mem_set_unit]
  exact Iff.rfl

/-- Every row of the output lies in the block of the point  row / 8000. -/
theorem cover (i : S480000x64.Idx) : ∃ t : Fin cfg2.N, (cfg2.win 3).flush t = true ∧ i ∈ ((cfg2.win 3).blk t).view.set := by
  have hi0 : (i 0).val < 480000 := (i 0).isLt
  have hi1 : (i 1).val < 64 := (i 1).isLt
  let t : Fin cfg2.N := ⟨(i 0).val / 8000, by show (i 0).val / 8000 < 60; omega⟩
  obtain ⟨-, -, -, -, -, e5, e6⟩ := idx_facts t
  have e5' : win2_3.index t (0 : Fin 2) = (i 0).val / 8000 := e5
  refine ⟨t, flush2_3 t, ?_⟩
  rw [mem_blk]
  intro a
  match a with
  | ⟨0, _⟩ => show win2_3.index t (0 : Fin 2) * 8000 ≤ (i 0).val ∧ (i 0).val < win2_3.index t (0 : Fin 2) * 8000 + 8000; rw [e5']; omega
  | ⟨1, _⟩ => show win2_3.index t (1 : Fin 2) * 64 ≤ (i 1).val ∧ (i 1).val < win2_3.index t (1 : Fin 2) * 64 + 64; rw [e6]; omega

open Cert.ReferenceIdeal.Read in
/-- The array the region leaves is the reference's stage, when its operands are the reference's. -/
theorem arr_eq (c : Dev nD) (x0 : (⟨Cert.ReferenceIdeal.S30000x128, .f32⟩ : BufTy).Contents (Elt Ideal)) (x1 : (⟨Cert.ReferenceIdeal.S480000x64, .f32⟩ : BufTy).Contents (Elt Ideal)) (x2 : (⟨Cert.ReferenceIdeal.S480000, .i32⟩ : BufTy).Contents (Elt Ideal)) (x3 : (⟨Cert.ReferenceIdeal.S480000, .i32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S384x64, .f32⟩ : BufTy).Contents (Elt Ideal)) (x13 : (⟨Cert.ReferenceIdeal.S64, .f32⟩ : BufTy).Contents (Elt Ideal))
    (h0 : V c (Pipeline.arrRef spec2 0) = val_main_v52 (F := Ideal) x0 x1 x2 x3 x8 x9 x10 x11)
    (h1 : V c (Pipeline.arrRef spec2 1) = x12) (h2 : V c (Pipeline.arrRef spec2 2) = x13) :
    (dat2 (F := Ideal) V c).arrAt 3 cfg2.N = val_main_v61 (F := Ideal) x0 x1 x2 x3 x8 x9 x10 x11 x12 x13 :=
  (dat2 (F := Ideal) V c).arrAt_eq_of_cover 3 _ (fun t _ => flushed_eq V c x0 x1 x2 x3 x8 x9 x10 x11 x12 x13 h0 h1 h2 t) cover

end Cert.KernelIdeal.LL2

end
-- ==== Proof.LL3.lean ====
/-
  Region 3: a row block of  leaky (A · W + b).  The region's left operand A is [30000, 320], tiled in 6 row blocks of
  5000 rows; the weights W [320, 256] and the bias b [256] are whole at every point; the output is [30000, 256] in the same row
  blocks. At the ideal values the casts to bf16 are the identity and the block's matrix product into the zero accumulator
  is, row by row, the host's product of the whole operands: row p of block t is row t·5000 + p. So, when the region's
  operands are the reference's stages, the array the region leaves is the reference's stage
  select (A·W + b > 0) (A·W + b) (slope · (A·W + b)), index by index.
-/
import proofs.«102082_j26070451487322_2_alg».proof.Proof.Gen.KernelIdeal.Frame
import proofs.«102082_j26070451487322_2_alg».proof.Proof.RefRead
import proofs.«102082_j26070451487322_2_alg».proof.Proof.LibDotHost
import proofs.«102082_j26070451487322_2_alg».proof.Proof.Leaky
import Idealize.ShloMosaic.Lib.Pipeline.Value
import Idealize.ShloMosaic.Lib.ValueIdx
import Idealize.ShloMosaic.Lib.ValueLayout

set_option maxRecDepth 16384

noncomputable section

namespace Cert.KernelIdeal.LL3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibMat Cert.LibDotHost Cert.Leaky

/-! ## The body's result at one entry -/

/-- The body's stored value at (p, q): the leaky rectifier of the block's product at (p, q) plus the bias at q. -/
theorem ker_point (v0 : Vec Ideal S5000x320 .f32) (v3 : Vec Ideal S320x256 .f32) (v6 : Vec Ideal S256 .f32) (p : Fin 5000) (q : Fin 256) :
    k3_pay1 (F := Ideal) v0 v3 v6 (ix2 p q)
      = leaky (matmul dot_S5000x320_S320x256_S5000x256_1_0_0_1_n_n none
          (truncf .bf16 (shapeCast S5000x320 v0 shapeCasts_S5000x320_S5000x320) bitsLt_bf16_f32) (truncf .bf16 v3 bitsLt_bf16_f32)
          (constant S5000x256 .f32 0x00000000#32) (ix2 p q) + v6 (ix1 q)) := by
  have hb : broadcastTo S5000x256 (shapeCast S1x256 v6 shapeCasts_S256_S1x256) broadcasts_S1x256_S5000x256 (ix2 p q) = v6 (ix1 q) :=
    (broadcastTo_1b_ab_apply _ broadcasts_S1x256_S5000x256 p q).trans (shapeCast_a_1a_apply v6 shapeCasts_S256_S1x256 0 q)
  unfold k3_pay1
  show leaky (_ + broadcastTo S5000x256 (shapeCast S1x256 v6 shapeCasts_S256_S1x256) broadcasts_S1x256_S5000x256 (ix2 p q)) = _
  rw [hb]

/-! ## The reference's stage at one entry -/

open Cert.ReferenceIdeal.Read in
/-- The reference's rectified stage at (a, q): the same function of the host's product at (a, q) and the bias at q. -/
theorem ref_point (x0 : (⟨Cert.ReferenceIdeal.S30000x128, .f32⟩ : BufTy).Contents (Elt Ideal)) (x1 : (⟨Cert.ReferenceIdeal.S480000x64, .f32⟩ : BufTy).Contents (Elt Ideal)) (x2 : (⟨Cert.ReferenceIdeal.S480000, .i32⟩ : BufTy).Contents (Elt Ideal)) (x3 : (⟨Cert.ReferenceIdeal.S480000, .i32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S384x64, .f32⟩ : BufTy).Contents (Elt Ideal)) (x13 : (⟨Cert.ReferenceIdeal.S64, .f32⟩ : BufTy).Contents (Elt Ideal)) (x14 : (⟨Cert.ReferenceIdeal.S320x256, .f32⟩ : BufTy).Contents (Elt Ideal)) (x15 : (⟨Cert.ReferenceIdeal.S256, .f32⟩ : BufTy).Contents (Elt Ideal)) (a : Fin 30000) (q : Fin 256) :
    val_main_v82 (F := Ideal) x0 x1 x2 x3 x8 x9 x10 x11 x12 x13 x14 x15 (ix2 a q)
      = leaky (Host.dotGeneral (φ₁ := .f32) (φ₂ := .f32) Cert.ReferenceIdeal.dot_S30000x320_S320x256_S30000x256_1_0_0_1_n_n none
          (val_main_v73 (F := Ideal) x0 x1 x2 x3 x8 x9 x10 x11 x12 x13) x14 (ix2 a q) + x15 (ix1 q)) := by
  have hbias : val_main_v76 (F := Ideal) x15 (ix2 a q) = x15 (ix1 q) := by
    rw [val_main_v76_apply, val_main_v75_apply]
    exact congrArg x15 (funext fun d => match d with | ⟨0, _⟩ => rfl)
  show leaky (Host.dotGeneral (φ₁ := .f32) (φ₂ := .f32) _ none (val_main_v73 (F := Ideal) x0 x1 x2 x3 x8 x9 x10 x11 x12 x13) x14 (ix2 a q) + val_main_v76 (F := Ideal) x15 (ix2 a q)) = _
  rw [hbias]

/-! ## One entry of a block against one entry of the reference's stage -/

/-- If row p of the block's left operand is row a of the whole one, and the weights and the bias agree on column q, the
    body's value at (p, q) is the rectified host product at (a, q). -/
theorem point_eq (v0 : Vec Ideal S5000x320 .f32) (v3 : Vec Ideal S320x256 .f32) (v6 : Vec Ideal S256 .f32)
    (X : FVec Ideal Cert.ReferenceIdeal.S30000x320 .f32) (W : FVec Ideal Cert.ReferenceIdeal.S320x256 .f32) (b : FVec Ideal Cert.ReferenceIdeal.S256 .f32)
    (p : Fin 5000) (q : Fin 256) (a : Fin 30000)
    (h0 : ∀ k : Fin 320, v0 (ix2 p k) = X (ix2 a k)) (h1 : ∀ k : Fin 320, v3 (ix2 k q) = W (ix2 k q)) (h2 : v6 (ix1 q) = b (ix1 q)) :
    k3_pay1 (F := Ideal) v0 v3 v6 (ix2 p q)
      = leaky (Host.dotGeneral (φ₁ := .f32) (φ₂ := .f32) Cert.ReferenceIdeal.dot_S30000x320_S320x256_S30000x256_1_0_0_1_n_n none X W (ix2 a q) + b (ix1 q)) := by
  rw [ker_point, h2]
  refine congrArg (fun z => leaky (z + b (ix1 q))) ?_
  refine matmul_block_eq_dotGeneral dot_S5000x320_S320x256_S5000x256_1_0_0_1_n_n.wf
    Cert.ReferenceIdeal.dot_S30000x320_S320x256_S30000x256_1_0_0_1_n_n.wf none none _ _ X W p q a q (fun k => ?_) (fun k => ?_)
  · exact (congrFun (shapeCast_self v0 shapeCasts_S5000x320_S5000x320) (ix2 p k)).trans (h0 k)
  · exact h1 k

/-! ## The windows' blocks -/

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row operand and the output move with the point, the weights and the bias
    stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- Row p of the row operand's block at point t is row t·5000 + p of the array. -/
theorem blk0 (c : Dev nD) (t : Fin cfg3.N) (p : Fin 5000) (k : Fin 320) (a : Fin 30000) (ha : a.val = t.val * 5000 + p.val) :
    iblk3 V c 0 t (ix2 p k) = V c (Pipeline.arrRef spec3 0) (ix2 a k) := by
  obtain ⟨e0, e1, -⟩ := idx_facts t
  show V c (Pipeline.arrRef spec3 0) (((cfg3.win 0).blk t).view.emb (ix2 p k)) = _
  refine congrArg _ (funext fun d => Fin.ext ?_)
  match d with
  | ⟨0, _⟩ => show win3_0.index t (0 : Fin 2) * 5000 + 1 * p.val = a.val; rw [e0, ha]; omega
  | ⟨1, _⟩ => show win3_0.index t (1 : Fin 2) * 320 + 1 * k.val = k.val; rw [e1]; omega

/-- The weights' block at any point is the whole array. -/
theorem blk1 (c : Dev nD) (t : Fin cfg3.N) (k : Fin 320) (q : Fin 256) :
    iblk3 V c 1 t (ix2 k q) = V c (Pipeline.arrRef spec3 1) (ix2 k q) := by
  obtain ⟨-, -, e2, e3, -⟩ := idx_facts t
  show V c (Pipeline.arrRef spec3 1) (((cfg3.win 1).blk t).view.emb (ix2 k q)) = _
  refine congrArg _ (funext fun d => Fin.ext ?_)
  match d with
  | ⟨0, _⟩ => show win3_1.index t (0 : Fin 2) * 320 + 1 * k.val = k.val; rw [e2]; omega
  | ⟨1, _⟩ => show win3_1.index t (1 : Fin 2) * 256 + 1 * q.val = q.val; rw [e3]; omega

/-- The bias's block at any point is the whole array. -/
theorem blk2 (c : Dev nD) (t : Fin cfg3.N) (q : Fin 256) :
    iblk3 V c 2 t (ix1 q) = V c (Pipeline.arrRef spec3 2) (ix1 q) := by
  obtain ⟨-, -, -, -, e4, -⟩ := idx_facts t
  show V c (Pipeline.arrRef spec3 2) (((cfg3.win 2).blk t).view.emb (ix1 q)) = _
  refine congrArg _ (funext fun d => Fin.ext ?_)
  match d with
  | ⟨0, _⟩ => show win3_2.index t (0 : Fin 1) * 256 + 1 * q.val = q.val; rw [e4]; omega

/-! ## From blocks to the array -/

open Cert.ReferenceIdeal.Read in
/-- What point t writes back is block t of the reference's stage. -/
theorem flushed_eq (c : Dev nD) (x0 : (⟨Cert.ReferenceIdeal.S30000x128, .f32⟩ : BufTy).Contents (Elt Ideal)) (x1 : (⟨Cert.ReferenceIdeal.S480000x64, .f32⟩ : BufTy).Contents (Elt Ideal)) (x2 : (⟨Cert.ReferenceIdeal.S480000, .i32⟩ : BufTy).Contents (Elt Ideal)) (x3 : (⟨Cert.ReferenceIdeal.S480000, .i32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S384x64, .f32⟩ : BufTy).Contents (Elt Ideal)) (x13 : (⟨Cert.ReferenceIdeal.S64, .f32⟩ : BufTy).Contents (Elt Ideal)) (x14 : (⟨Cert.ReferenceIdeal.S320x256, .f32⟩ : BufTy).Contents (Elt Ideal)) (x15 : (⟨Cert.ReferenceIdeal.S256, .f32⟩ : BufTy).Contents (Elt Ideal))
    (h0 : V c (Pipeline.arrRef spec3 0) = val_main_v73 (F := Ideal) x0 x1 x2 x3 x8 x9 x10 x11 x12 x13)
    (h1 : V c (Pipeline.arrRef spec3 1) = x14) (h2 : V c (Pipeline.arrRef spec3 2) = x15) (t : Fin cfg3.N) :
    (dat3 (F := Ideal) V c).flushed 3 t
      = ((cfg3.win 3).blk t).view.read (Elt Ideal) (val_main_v82 (F := Ideal) x0 x1 x2 x3 x8 x9 x10 x11 x12 x13 x14 x15) := by
  show (cfg3.win 3).cut (grid3.coords t) ((dat3 (F := Ideal) V c).after 3 t) = _
  rw [after3_3]
  unfold out3_3
  rw [View.canon_unit_zero hz2]
  simp only [View.ld_unit_zero (S := S5000x320) hz2, View.ld_unit_zero (S := S320x256) hz2, View.ld_unit_zero (S := S256) hz1]
  funext j
  obtain ⟨p, q, rfl⟩ : ∃ (p : Fin 5000) (q : Fin 256), j = ix2 p q := ⟨j 0, j 1, eq_ix2 j⟩
  obtain ⟨-, -, -, -, -, e5, e6⟩ := idx_facts t
  have ht : t.val < 6 := t.isLt
  have hp : p.val < 5000 := p.isLt
  let a : Fin 30000 := ⟨t.val * 5000 + p.val, by omega⟩
  have hemb : ((cfg3.win 3).blk t).view.emb (ix2 p q) = ix2 a q := by
    funext d; apply Fin.ext
    match d with
    | ⟨0, _⟩ => show win3_3.index t (0 : Fin 2) * 5000 + 1 * p.val = t.val * 5000 + p.val; rw [e5]; omega
    | ⟨1, _⟩ => show win3_3.index t (1 : Fin 2) * 256 + 1 * q.val = q.val; rw [e6]; omega
  show k3_pay1 (F := Ideal) (iblk3 V c 0 t) (iblk3 V c 1 t) (iblk3 V c 2 t) (ix2 p q)
      = val_main_v82 (F := Ideal) x0 x1 x2 x3 x8 x9 x10 x11 x12 x13 x14 x15 (((cfg3.win 3).blk t).view.emb (ix2 p q))
  rw [hemb, ref_point]
  exact point_eq (iblk3 V c 0 t) (iblk3 V c 1 t) (iblk3 V c 2 t) (val_main_v73 (F := Ideal) x0 x1 x2 x3 x8 x9 x10 x11 x12 x13) x14 x15 p q a
    (fun k => (blk0 V c t p k a rfl).trans (congrFun h0 _)) (fun k => (blk1 V c t k q).trans (congrFun h1 _))
    ((blk2 V c t q).trans (congrFun h2 _))

/-- An index of the output array is in point t's block iff each coordinate is in the block's range on its axis. -/
theorem mem_blk (t : Fin cfg3.N) (i : S30000x256.Idx) :
    i ∈ ((cfg3.win 3).blk t).view.set ↔ ∀ a : Fin 2, win3_3.index t a * S5000x256.size a ≤ (i a).val ∧ (i a).val < win3_3.index t a * S5000x256.size a + S5000x256.size a := by
  show i ∈ ((View.whole main_v50).slice (win3_3.rect t)).set ↔ _
  rw [View.set_slice_whole, Rect.mem_set_unit]
  exact Iff.rfl

/-- Every row of the output lies in the block of the point  row / 5000. -/
theorem cover (i : S30000x256.Idx) : ∃ t : Fin cfg3.N, (cfg3.win 3).flush t = true ∧ i ∈ ((cfg3.win 3).blk t).view.set := by
  have hi0 : (i 0).val < 30000 := (i 0).isLt
  have hi1 : (i 1).val < 256 := (i 1).isLt
  let t : Fin cfg3.N := ⟨(i 0).val / 5000, by show (i 0).val / 5000 < 6; omega⟩
  obtain ⟨-, -, -, -, -, e5, e6⟩ := idx_facts t
  have e5' : win3_3.index t (0 : Fin 2) = (i 0).val / 5000 := e5
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; rw [e5']; omega
  | ⟨1, _⟩ => show win3_3.index t (1 : Fin 2) * 256 ≤ (i 1).val ∧ (i 1).val < win3_3.index t (1 : Fin 2) * 256 + 256; rw [e6]; omega

open Cert.ReferenceIdeal.Read in
/-- The array the region leaves is the reference's stage, when its operands are the reference's. -/
theorem arr_eq (c : Dev nD) (x0 : (⟨Cert.ReferenceIdeal.S30000x128, .f32⟩ : BufTy).Contents (Elt Ideal)) (x1 : (⟨Cert.ReferenceIdeal.S480000x64, .f32⟩ : BufTy).Contents (Elt Ideal)) (x2 : (⟨Cert.ReferenceIdeal.S480000, .i32⟩ : BufTy).Contents (Elt Ideal)) (x3 : (⟨Cert.ReferenceIdeal.S480000, .i32⟩ : BufTy).Contents (Elt Ideal)) (x8 : (⟨Cert.ReferenceIdeal.S192x128, .f32⟩ : BufTy).Contents (Elt Ideal)) (x9 : (⟨Cert.ReferenceIdeal.S128, .f32⟩ : BufTy).Contents (Elt Ideal)) (x10 : (⟨Cert.ReferenceIdeal.S256x256, .f32⟩ : BufTy).Contents (Elt Ideal)) (x11 : (⟨Cert.ReferenceIdeal.S256, .f32⟩ : BufTy).Contents (Elt Ideal)) (x12 : (⟨Cert.ReferenceIdeal.S384x64, .f32⟩ : BufTy).Contents (Elt Ideal)) (x13 : (⟨Cert.ReferenceIdeal.S64, .f32⟩ : BufTy).Contents (Elt Ideal)) (x14 : (⟨Cert.ReferenceIdeal.S320x256, .f32⟩ : BufTy).Contents (Elt Ideal)) (x15 : (⟨Cert.ReferenceIdeal.S256, .f32⟩ : BufTy).Contents (Elt Ideal))
    (h0 : V c (Pipeline.arrRef spec3 0) = val_main_v73 (F := Ideal) x0 x1 x2 x3 x8 x9 x10 x11 x12 x13)
    (h1 : V c (Pipeline.arrRef spec3 1) = x14) (h2 : V c (Pipeline.arrRef spec3 2) = x15) :
    (dat3 (F := Ideal) V c).arrAt 3 cfg3.N = val_main_v82 (F := Ideal) x0 x1 x2 x3 x8 x9 x10 x11 x12 x13 x14 x15 :=
  (dat3 (F := Ideal) V c).arrAt_eq_of_cover 3 _ (fun t _ => flushed_eq V c x0 x1 x2 x3 x8 x9 x10 x11 x12 x13 x14 x15 h0 h1 h2 t) cover

end Cert.KernelIdeal.LL3

end
-- ==== Proof.Chain.lean ====
/-
  The idealized kernel's buffers at the boundaries of @main's segments, up to the fourth region's exit. The contents at a
  boundary are a fold of the segments over the launch memory: a stretch of host operations computes its results from the
  contents before it and leaves every other buffer alone; a region leaves its output array at what its blocks wrote back
  and every other buffer — its own input arrays too — as entered. Walking the fold back: an argument array holds its
  launch contents at every boundary; each stretch's result is the reference's stage of the same name, because the stretch
  applies the reference's operations to values already identified with the reference's; and each of the four
  matrix-product regions leaves the reference's rectified stage (the region lemmas).
-/
import proofs.«102082_j26070451487322_2_alg».proof.Proof.Gen.KernelIdeal.Frame
import proofs.«102082_j26070451487322_2_alg».proof.Proof.RefRead
import proofs.«102082_j26070451487322_2_alg».proof.Proof.LL0
import proofs.«102082_j26070451487322_2_alg».proof.Proof.LL1
import proofs.«102082_j26070451487322_2_alg».proof.Proof.LL2
import proofs.«102082_j26070451487322_2_alg».proof.Proof.LL3
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Idealize.ShloMosaic.Pipeline (Dat Cfg Window)
open Cert.KernelIdeal Cert.KernelIdeal.Gen
open Cert.ReferenceIdeal.Read (val_main_v7 val_main_v16 val_main_v28 val_main_v37 val_main_v44 val_main_v52 val_main_v61 val_main_v73 val_main_v82)

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)
local notation "x13" => m ((c : Thread nD τ).loc main_arg13)
local notation "x14" => m ((c : Thread nD τ).loc main_arg14)
local notation "x15" => m ((c : Thread nD τ).loc main_arg15)
local notation "x16" => m ((c : Thread nD τ).loc main_arg16)
local notation "x17" => m ((c : Thread nD τ).loc main_arg17)
local notation "x18" => m ((c : Thread nD τ).loc main_arg18)
local notation "x19" => m ((c : Thread nD τ).loc main_arg19)
local notation "x20" => m ((c : Thread nD τ).loc main_arg20)
local notation "x21" => m ((c : Thread nD τ).loc main_arg21)
local notation "x22" => m ((c : Thread nD τ).loc main_arg22)
local notation "x23" => m ((c : Thread nD τ).loc main_arg23)
local notation "x24" => m ((c : Thread nD τ).loc main_arg24)
local notation "x25" => m ((c : Thread nD τ).loc main_arg25)
local notation "x26" => m ((c : Thread nD τ).loc main_arg26)

/-! ## An argument array that a region reads through a whole-array window is as entered at the region's exit -/

theorem in0_1 : W2 m ρ c (Proc.devRef .tc main_arg8) = W1 m ρ c (Proc.devRef .tc main_arg8) :=
  (W2_arr m ρ c 1).trans (((dat0 (V1 m ρ) c).arrAt_in 1 rfl _).trans (A_eq0 (V1 m ρ) c 1))
theorem in0_2 : W2 m ρ c (Proc.devRef .tc main_arg9) = W1 m ρ c (Proc.devRef .tc main_arg9) :=
  (W2_arr m ρ c 2).trans (((dat0 (V1 m ρ) c).arrAt_in 2 rfl _).trans (A_eq0 (V1 m ρ) c 2))
theorem in1_1 : W4 m ρ c (Proc.devRef .tc main_arg10) = W3 m ρ c (Proc.devRef .tc main_arg10) :=
  (W4_arr m ρ c 1).trans (((dat1 (V3 m ρ) c).arrAt_in 1 rfl _).trans (A_eq1 (V3 m ρ) c 1))
theorem in1_2 : W4 m ρ c (Proc.devRef .tc main_arg11) = W3 m ρ c (Proc.devRef .tc main_arg11) :=
  (W4_arr m ρ c 2).trans (((dat1 (V3 m ρ) c).arrAt_in 2 rfl _).trans (A_eq1 (V3 m ρ) c 2))
theorem in2_1 : W6 m ρ c (Proc.devRef .tc main_arg12) = W5 m ρ c (Proc.devRef .tc main_arg12) :=
  (W6_arr m ρ c 1).trans (((dat2 (V5 m ρ) c).arrAt_in 1 rfl _).trans (A_eq2 (V5 m ρ) c 1))
theorem in2_2 : W6 m ρ c (Proc.devRef .tc main_arg13) = W5 m ρ c (Proc.devRef .tc main_arg13) :=
  (W6_arr m ρ c 2).trans (((dat2 (V5 m ρ) c).arrAt_in 2 rfl _).trans (A_eq2 (V5 m ρ) c 2))
theorem in3_1 : W8 m ρ c (Proc.devRef .tc main_arg14) = W7 m ρ c (Proc.devRef .tc main_arg14) :=
  (W8_arr m ρ c 1).trans (((dat3 (V7 m ρ) c).arrAt_in 1 rfl _).trans (A_eq3 (V7 m ρ) c 1))
theorem in3_2 : W8 m ρ c (Proc.devRef .tc main_arg15) = W7 m ρ c (Proc.devRef .tc main_arg15) :=
  (W8_arr m ρ c 2).trans (((dat3 (V7 m ρ) c).arrAt_in 2 rfl _).trans (A_eq3 (V7 m ρ) c 2))

/-- Walk a buffer that nothing in between writes back through the segments. -/
macro "walk" : tactic => `(tactic| repeat (first
    | (rw [W8_of_ne]; rotate_left; decide)
    | (rw [W6_of_ne]; rotate_left; decide)
    | (rw [W4_of_ne]; rotate_left; decide)
    | (rw [W2_of_ne]; rotate_left; decide)
    | rw [in0_1]
    | rw [in0_2]
    | rw [in1_1]
    | rw [in1_2]
    | rw [in2_1]
    | rw [in2_2]
    | rw [in3_1]
    | rw [in3_2]
    | (show StableHlo.after hostOps3 (W6 _ _ _) _ = _; after_results)
    | (show StableHlo.after hostOps2 (W4 _ _ _) _ = _; after_results)
    | (show StableHlo.after hostOps1 (W2 _ _ _) _ = _; after_results)
    | (show StableHlo.after hostOps0 (W0 _ _ _) _ = _; after_results)))

/-! ## The arguments where the first eight segments read them -/

theorem a1_8 : W1 m ρ c (Proc.devRef .tc main_arg8) = x8 := by walk
theorem a1_9 : W1 m ρ c (Proc.devRef .tc main_arg9) = x9 := by walk
theorem a2_0 : W2 m ρ c (Proc.devRef .tc main_arg0) = x0 := by walk
theorem a2_3 : W2 m ρ c (Proc.devRef .tc main_arg3) = x3 := by walk
theorem a3_10 : W3 m ρ c (Proc.devRef .tc main_arg10) = x10 := by walk
theorem a3_11 : W3 m ρ c (Proc.devRef .tc main_arg11) = x11 := by walk
theorem a4_5 : W4 m ρ c (Proc.devRef .tc main_arg5) = x5 := by walk
theorem a4_2 : W4 m ρ c (Proc.devRef .tc main_arg2) = x2 := by walk
theorem a5_12 : W5 m ρ c (Proc.devRef .tc main_arg12) = x12 := by walk
theorem a5_13 : W5 m ρ c (Proc.devRef .tc main_arg13) = x13 := by walk
theorem a6_3 : W6 m ρ c (Proc.devRef .tc main_arg3) = x3 := by walk
theorem a7_14 : W7 m ρ c (Proc.devRef .tc main_arg14) = x14 := by walk
theorem a7_15 : W7 m ρ c (Proc.devRef .tc main_arg15) = x15 := by walk

/-! ## The stages, boundary by boundary -/

/-- The first edge operand: the rows of x gathered at the sources, beside e. -/
theorem s1_v7 : W1 m ρ c (Proc.devRef .tc main_v7) = val_main_v7 (F := Ideal) x0 x1 x2 := by
  show StableHlo.after hostOps0 (W0 m ρ c) (Proc.devRef .tc main_v7) = _
  after_results
  rfl

/-- Region 0 leaves the first layer's edge features. -/
theorem s2_v8 : W2 m ρ c (Proc.devRef .tc main_v8) = val_main_v16 (F := Ideal) x0 x1 x2 x8 x9 :=
  (W2_arr m ρ c 3).trans (LL0.arr_eq (V1 m ρ) c x0 x1 x2 x8 x9 (s1_v7 m ρ c) (a1_8 m ρ c) (a1_9 m ρ c))

set_option maxHeartbeats 4000000 in
/-- The first node operand: x beside the mean of the incoming edge features. -/
theorem s3_v20 : W3 m ρ c (Proc.devRef .tc main_v20) = val_main_v28 (F := Ideal) x0 x1 x2 x3 x8 x9 := by
  show StableHlo.after hostOps1 (W2 m ρ c) (Proc.devRef .tc main_v20) = _
  after_results
  rw [a2_0, a2_3, s2_v8]
  rfl

/-- Region 1 leaves the first layer's node features. -/
theorem s4_v21 : W4 m ρ c (Proc.devRef .tc main_v21) = val_main_v37 (F := Ideal) x0 x1 x2 x3 x8 x9 x10 x11 :=
  (W4_arr m ρ c 3).trans (LL1.arr_eq (V3 m ρ) c x0 x1 x2 x3 x8 x9 x10 x11 (s3_v20 m ρ c) (a3_10 m ρ c) (a3_11 m ρ c))

/-- The first layer's edge features are still there after region 1. -/
theorem s4_v8 : W4 m ρ c (Proc.devRef .tc main_v8) = val_main_v16 (F := Ideal) x0 x1 x2 x8 x9 := by
  rw [W4_of_ne m ρ c main_v8 (by decide)]
  show StableHlo.after hostOps1 (W2 m ρ c) (Proc.devRef .tc main_v8) = _
  after_results
  exact s2_v8 m ρ c

/-- The column nodes' features, gathered from the first layer's. -/
theorem s5_v28 : W5 m ρ c (Proc.devRef .tc main_v28) = val_main_v44 (F := Ideal) x0 x1 x2 x3 x5 x8 x9 x10 x11 := by
  show StableHlo.after hostOps2 (W4 m ρ c) (Proc.devRef .tc main_v28) = _
  after_results
  rw [a4_5, s4_v21]
  rfl

set_option maxHeartbeats 4000000 in
/-- The second edge operand. -/
theorem s5_v36 : W5 m ρ c (Proc.devRef .tc main_v36) = val_main_v52 (F := Ideal) x0 x1 x2 x3 x8 x9 x10 x11 := by
  show StableHlo.after hostOps2 (W4 m ρ c) (Proc.devRef .tc main_v36) = _
  after_results
  rw [a4_2, s4_v21, s4_v8]
  rfl

/-- Region 2 leaves the second layer's edge features. -/
theorem s6_v37 : W6 m ρ c (Proc.devRef .tc main_v37) = val_main_v61 (F := Ideal) x0 x1 x2 x3 x8 x9 x10 x11 x12 x13 :=
  (W6_arr m ρ c 3).trans (LL2.arr_eq (V5 m ρ) c x0 x1 x2 x3 x8 x9 x10 x11 x12 x13 (s5_v36 m ρ c) (a5_12 m ρ c) (a5_13 m ρ c))

/-- The first layer's node features are still there after region 2. -/
theorem s6_v21 : W6 m ρ c (Proc.devRef .tc main_v21) = val_main_v37 (F := Ideal) x0 x1 x2 x3 x8 x9 x10 x11 := by
  rw [W6_of_ne m ρ c main_v21 (by decide)]
  show StableHlo.after hostOps2 (W4 m ρ c) (Proc.devRef .tc main_v21) = _
  after_results
  exact s4_v21 m ρ c

/-- The column nodes' features are still there after region 2. -/
theorem s6_v28 : W6 m ρ c (Proc.devRef .tc main_v28) = val_main_v44 (F := Ideal) x0 x1 x2 x3 x5 x8 x9 x10 x11 := by
  rw [W6_of_ne m ρ c main_v28 (by decide)]
  exact s5_v28 m ρ c

set_option maxHeartbeats 4000000 in
/-- The second node operand. -/
theorem s7_v49 : W7 m ρ c (Proc.devRef .tc main_v49) = val_main_v73 (F := Ideal) x0 x1 x2 x3 x8 x9 x10 x11 x12 x13 := by
  show StableHlo.after hostOps3 (W6 m ρ c) (Proc.devRef .tc main_v49) = _
  after_results
  rw [a6_3, s6_v21, s6_v37]
  rfl

/-- Region 3 leaves the second layer's node features. -/
theorem s8_v50 : W8 m ρ c (Proc.devRef .tc main_v50) = val_main_v82 (F := Ideal) x0 x1 x2 x3 x8 x9 x10 x11 x12 x13 x14 x15 :=
  (W8_arr m ρ c 3).trans (LL3.arr_eq (V7 m ρ) c x0 x1 x2 x3 x8 x9 x10 x11 x12 x13 x14 x15 (s7_v49 m ρ c) (a7_14 m ρ c) (a7_15 m ρ c))

/-- The column nodes' features are still there after region 3. -/
theorem s8_v28 : W8 m ρ c (Proc.devRef .tc main_v28) = val_main_v44 (F := Ideal) x0 x1 x2 x3 x5 x8 x9 x10 x11 := by
  rw [W8_of_ne m ρ c main_v28 (by decide)]
  show StableHlo.after hostOps3 (W6 m ρ c) (Proc.devRef .tc main_v28) = _
  after_results
  exact s6_v28 m ρ c

end Cert.KernelIdeal.Chain

end
-- ==== Proof.Pred.lean ====
/-
  The pair-prediction region and its mask: the two arrays it leaves are the reference's.

  For every row r, column c and channel e the region computes
      pred (r, c, e)  = leaky (rp (r, e) + cp (c, e) + b e),      leaky v = v for v > 0, 0.01 · v otherwise,
      imput (r, c, e) = real (r, c, e) · m (r, c) + pred (r, c, e) · (1 − m (r, c)),
  where m (r, c) is the mask bit at (r, c) read as the number 0 or 1.  The reference forms pred by the same
  additions, comparison, product and choice on arrays broadcast to [8192, 128, 64], and imput by choosing, entry by
  entry of the [1048576, 64] arrangement, real where the bit is set and pred elsewhere.

  Over the extended reals every operation is exact, so pred agrees term by term; and for a bit m ∈ {0, 1}
      x · 1 + y · (1 − 1) = x,      x · 0 + y · (1 − 0) = y
  hold for ALL extended reals x, y (a product with 0 is 0 there, the infinities included), so the blend is the choice
  with no finiteness assumption.  The two arrangements of the reals and of the result agree because both are
  row-major: entry (r, c, e) is position (r · 128 + c) · 64 + e of either.

  The region works on 64 blocks of 128 rows; block t of each result is computed from block t of the row projections,
  of the mask and of the reals and from the whole column projections and bias, and the 64 blocks tile the result.
-/
import proofs.«102082_j26070451487322_2_alg».proof.Proof.Gen.KernelIdeal.Frame
import proofs.«102082_j26070451487322_2_alg».proof.Proof.RefRead
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Pred

open Cert.KernelIdeal Cert.KernelIdeal.Gen

section Kernel
variable (V : (c : Dev nD) → (b : Ref sig .tc) → Buf (Elt Ideal) ((c : Thread nD τ).loc b)) (c : Dev nD)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0
    ∧ win4_4.index t (0 : Fin 3) = t.val ∧ win4_4.index t (1 : Fin 3) = 0 ∧ win4_4.index t (2 : Fin 3) = 0
    ∧ win4_5.index t (0 : Fin 3) = t.val ∧ win4_5.index t (1 : Fin 3) = 0 ∧ win4_5.index t (2 : Fin 3) = 0
    ∧ win4_6.index t (0 : Fin 3) = t.val ∧ win4_6.index t (1 : Fin 3) = 0 ∧ win4_6.index t (2 : Fin 3) = 0 :=
  (by decide +kernel : ∀ t : Fin grid4.N, _)

/-! ## The mathematics

Per entry (r, c, e) the first result is leaky (rp (r, e) + cp (c, e) + b e), where leaky v is v for v > 0 and
0.01 · v otherwise; the second keeps real (r, c, e) where the mask bit at (r, c) is set and takes the first
result elsewhere. -/

/-- The leaky rectifier on one extended real, in the operations the body uses. -/
def leaky (s : Ideal .f32) : Ideal .f32 :=
  Scalar.select (FloatOps.cmpf .ogt s (FloatOps.ofBits .f32 0x00000000#32)) s
    (FloatOps.mulf (FloatOps.ofBits .f32 0x3C23D70A#32) s)

/-- Row (i 0, i 2) of the row projections. -/
def rowIdx (i : S8192x128x64.Idx) : S8192x64.Idx := ix2 (⟨(i 0).val, (i 0).isLt⟩ : Fin 8192) (⟨(i 2).val, (i 2).isLt⟩ : Fin 64)
/-- Entry (i 1, i 2) of the column projections. -/
def colIdx (i : S8192x128x64.Idx) : S128x64.Idx := ix2 (⟨(i 1).val, (i 1).isLt⟩ : Fin 128) (⟨(i 2).val, (i 2).isLt⟩ : Fin 64)
/-- Entry i 2 of the bias. -/
def biasIdx (i : S8192x128x64.Idx) : S64.Idx := ix1 (⟨(i 2).val, (i 2).isLt⟩ : Fin 64)

/-- The first result as one function of the row projections, the column projections and the bias. -/
def predG (RP : S8192x64.Idx → Ideal .f32) (CP : S128x64.Idx → Ideal .f32) (B : S64.Idx → Ideal .f32) :
    S8192x128x64.Idx → Ideal .f32 :=
  fun i => leaky (RP (rowIdx i) + CP (colIdx i) + B (biasIdx i))

/-! ## The body's first payload at an entry -/

/-- A [128, 64] block placed on axes 0 and 2 and repeated along axis 1. -/
theorem rows_bcast (x : Vec Ideal S128x64 .f32) (p q : Fin 128) (e : Fin 64) :
    broadcastTo S128x128x64 (shapeCast S128x1x64 (shapeCast S128x64 x Facts₀.shapeCasts_S128x64_S128x64)
      Facts₀.shapeCasts_S128x64_S128x1x64) Facts₀.broadcasts_S128x1x64_S128x128x64 (ix3 p q e) = x (ix2 p e) := by
  rw [shapeCast_self]
  refine (broadcastTo_apply _ Facts₀.broadcasts_S128x1x64_S128x128x64 (ix3 p q e) (ix3 p (0 : Fin 1) e) fun a => ?_).trans ?_
  · match a with
    | ⟨0, _⟩ => show p.val = if (128 : Nat) = 1 then 0 else p.val; rw [if_neg (by decide)]
    | ⟨1, _⟩ => show 0 = if (1 : Nat) = 1 then 0 else q.val; rw [if_pos rfl]
    | ⟨2, _⟩ => show e.val = if (64 : Nat) = 1 then 0 else e.val; rw [if_neg (by decide)]
  · exact shapeCast_apply x Facts₀.shapeCasts_S128x64_S128x1x64 (ix3 p (0 : Fin 1) e) (ix2 p e) (by
      rw [Shape.rowMajor_val_two, Shape.rowMajor_val_three]
      show p.val * 64 + e.val = (p.val * 1 + 0) * 64 + e.val
      omega)

/-- A [128, 64] block placed on axes 1 and 2 and repeated along axis 0. -/
theorem cols_bcast (x : Vec Ideal S128x64 .f32) (p q : Fin 128) (e : Fin 64) :
    broadcastTo S128x128x64 (shapeCast S1x128x64 (shapeCast S128x64 x Facts₀.shapeCasts_S128x64_S128x64)
      Facts₀.shapeCasts_S128x64_S1x128x64) Facts₀.broadcasts_S1x128x64_S128x128x64 (ix3 p q e) = x (ix2 q e) := by
  rw [shapeCast_self]
  refine (broadcastTo_apply _ Facts₀.broadcasts_S1x128x64_S128x128x64 (ix3 p q e) (ix3 (0 : Fin 1) q e) fun a => ?_).trans ?_
  · match a with
    | ⟨0, _⟩ => show 0 = if (1 : Nat) = 1 then 0 else p.val; rw [if_pos rfl]
    | ⟨1, _⟩ => show q.val = if (128 : Nat) = 1 then 0 else q.val; rw [if_neg (by decide)]
    | ⟨2, _⟩ => show e.val = if (64 : Nat) = 1 then 0 else e.val; rw [if_neg (by decide)]
  · exact shapeCast_apply x Facts₀.shapeCasts_S128x64_S1x128x64 (ix3 (0 : Fin 1) q e) (ix2 q e) (by
      rw [Shape.rowMajor_val_two, Shape.rowMajor_val_three]
      show q.val * 64 + e.val = (0 * 128 + q.val) * 64 + e.val
      omega)

/-- A [64] vector placed on axis 2 and repeated along axes 0 and 1. -/
theorem bias_bcast (x : Vec Ideal S64 .f32) (p q : Fin 128) (e : Fin 64) :
    broadcastTo S128x128x64 (shapeCast S1x1x64 x Facts₀.shapeCasts_S64_S1x1x64)
      Facts₀.broadcasts_S1x1x64_S128x128x64 (ix3 p q e) = x (ix1 e) := by
  refine (broadcastTo_apply _ Facts₀.broadcasts_S1x1x64_S128x128x64 (ix3 p q e) (ix3 (0 : Fin 1) (0 : Fin 1) e) fun a => ?_).trans ?_
  · match a with
    | ⟨0, _⟩ => show 0 = if (1 : Nat) = 1 then 0 else p.val; rw [if_pos rfl]
    | ⟨1, _⟩ => show 0 = if (1 : Nat) = 1 then 0 else q.val; rw [if_pos rfl]
    | ⟨2, _⟩ => show e.val = if (64 : Nat) = 1 then 0 else e.val; rw [if_neg (by decide)]
  · exact shapeCast_apply x Facts₀.shapeCasts_S64_S1x1x64 (ix3 (0 : Fin 1) (0 : Fin 1) e) (ix1 e) (by
      rw [Shape.rowMajor_val_one, Shape.rowMajor_val_three]
      show e.val = (0 * 1 + 0) * 64 + e.val
      omega)

/-- The first payload at entry (p, q, e) of the block. -/
theorem pay1_apply (v0 v2 : Vec Ideal S128x64 .f32) (v4 : Vec Ideal S64 .f32) (p q : Fin 128) (e : Fin 64) :
    k4_pay1 v0 v2 v4 (ix3 p q e) = leaky (v0 (ix2 p e) + v2 (ix2 q e) + v4 (ix1 e)) := by
  unfold k4_pay1
  exact congrArg leaky (congrArg₂ (· + ·) (congrArg₂ (· + ·) (rows_bcast v0 p q e) (cols_bcast v2 p q e)) (bias_bcast v4 p q e))

/-! ## The windows' blocks as entries of the arrays the region finds -/

/-- Point t's block of the row projections is rows 128 t … 128 t + 127. -/
theorem blk0_apply (t : Fin cfg4.N) (p : Fin 128) (e : Fin 64) (k : S8192x64.Idx)
    (hk0 : (k 0).val = t.val * 128 + p.val) (hk1 : (k 1).val = e.val) :
    (iblk4 V c 0 t : Vec Ideal S128x64 .f32) (ix2 p e) = (V c (Pipeline.arrRef spec4 0) : S8192x64.Idx → Ideal .f32) k := by
  obtain ⟨e0, e1, -⟩ := idx_facts t
  unfold iblk4
  rw [View.read_apply]
  show (V c (Pipeline.arrRef spec4 0) : S8192x64.Idx → Ideal .f32) _ = V c (Pipeline.arrRef spec4 0) k
  congr 1
  funext a
  apply Fin.ext
  match a with
  | ⟨0, _⟩ => show win4_0.index t 0 * 128 + 1 * p.val = (k 0).val; rw [e0, hk0]; omega
  | ⟨1, _⟩ => show win4_0.index t 1 * 64 + 1 * e.val = (k 1).val; rw [e1, hk1]; omega

/-- Every point's block of the column projections is the whole array. -/
theorem blk1_apply (t : Fin cfg4.N) (q : Fin 128) (e : Fin 64) (k : S128x64.Idx)
    (hk0 : (k 0).val = q.val) (hk1 : (k 1).val = e.val) :
    (iblk4 V c 1 t : Vec Ideal S128x64 .f32) (ix2 q e) = (V c (Pipeline.arrRef spec4 1) : S128x64.Idx → Ideal .f32) k := by
  obtain ⟨-, -, e0, e1, -⟩ := idx_facts t
  unfold iblk4
  rw [View.read_apply]
  show (V c (Pipeline.arrRef spec4 1) : S128x64.Idx → Ideal .f32) _ = V c (Pipeline.arrRef spec4 1) k
  congr 1
  funext a
  apply Fin.ext
  match a with
  | ⟨0, _⟩ => show win4_1.index t 0 * 128 + 1 * q.val = (k 0).val; rw [e0, hk0]; omega
  | ⟨1, _⟩ => show win4_1.index t 1 * 64 + 1 * e.val = (k 1).val; rw [e1, hk1]; omega

/-- Every point's block of the bias is the whole vector. -/
theorem blk2_apply (t : Fin cfg4.N) (e : Fin 64) (k : S64.Idx) (hk0 : (k 0).val = e.val) :
    (iblk4 V c 2 t : Vec Ideal S64 .f32) (ix1 e) = (V c (Pipeline.arrRef spec4 2) : S64.Idx → Ideal .f32) k := by
  obtain ⟨-, -, -, -, e0, -⟩ := idx_facts t
  unfold iblk4
  rw [View.read_apply]
  show (V c (Pipeline.arrRef spec4 2) : S64.Idx → Ideal .f32) _ = V c (Pipeline.arrRef spec4 2) k
  congr 1
  funext a
  apply Fin.ext
  match a with
  | ⟨0, _⟩ => show win4_2.index t 0 * 64 + 1 * e.val = (k 0).val; rw [e0, hk0]; omega

/-! ## The first result: from blocks to the array -/

/-- What point t writes back through window 5 is block t of predG of the arrays the region finds. -/
theorem flushed5_eq (t : Fin cfg4.N) :
    (dat4 V c).flushed 5 t = ((cfg4.win 5).blk t).view.read (Elt Ideal)
      (predG (V c (Pipeline.arrRef spec4 0)) (V c (Pipeline.arrRef spec4 1)) (V c (Pipeline.arrRef spec4 2))) := by
  show (cfg4.win 5).cut (grid4.coords t) ((dat4 V c).after 5 t) = _
  rw [after4_5]
  unfold out4_5
  rw [View.canon_unit_zero hz3]
  simp only [View.ld_unit_zero (S := S128x64) hz2, View.ld_unit_zero (S := S64) hz1]
  obtain ⟨-, -, -, -, -, -, -, -, -, -, e0, e1, e2, -⟩ := idx_facts t
  funext j
  show k4_pay1 (iblk4 V c 0 t) (iblk4 V c 1 t) (iblk4 V c 2 t) j
    = predG (V c (Pipeline.arrRef spec4 0)) (V c (Pipeline.arrRef spec4 1)) (V c (Pipeline.arrRef spec4 2)) (((cfg4.win 5).blk t).view.emb j)
  obtain ⟨p, q, e, rfl⟩ : ∃ (p : Fin 128) (q : Fin 128) (e : Fin 64), j = ix3 p q e := ⟨j 0, j 1, j 2, eq_ix3 j⟩
  refine (pay1_apply _ _ _ p q e).trans ?_
  have h0 : ((((cfg4.win 5).blk t).view.emb (ix3 p q e)) 0).val = t.val * 128 + p.val := by
    show win4_5.index t 0 * 128 + 1 * p.val = _; rw [e0]; omega
  have h1 : ((((cfg4.win 5).blk t).view.emb (ix3 p q e)) 1).val = q.val := by
    show win4_5.index t 1 * 128 + 1 * q.val = _; rw [e1]; omega
  have h2 : ((((cfg4.win 5).blk t).view.emb (ix3 p q e)) 2).val = e.val := by
    show win4_5.index t 2 * 64 + 1 * e.val = _; rw [e2]; omega
  unfold predG
  exact congrArg leaky (congrArg₂ (· + ·) (congrArg₂ (· + ·)
    (blk0_apply V c t p e _ h0 h2) (blk1_apply V c t q e _ h1 h2)) (blk2_apply V c t e _ h2))

/-- An entry of the array is in point t's block of window 5 iff each coordinate is in the block's range. -/
theorem mem_blk5 (t : Fin cfg4.N) (i : S8192x128x64.Idx) :
    i ∈ ((cfg4.win 5).blk t).view.set ↔ ∀ a : Fin 3, win4_5.index t a * S128x128x64.size a ≤ (i a).val ∧ (i a).val < win4_5.index t a * S128x128x64.size a + S128x128x64.size a := by
  show i ∈ ((View.whole main_v94_0).slice (win4_5.rect t)).set ↔ _
  rw [View.set_slice_whole, Rect.mem_set_unit]
  exact Iff.rfl

/-- Every entry is in the block of the point its row belongs to. -/
theorem cover5 (i : S8192x128x64.Idx) :
    ∃ t : Fin cfg4.N, (cfg4.win 5).flush t = true ∧ i ∈ ((cfg4.win 5).blk t).view.set := by
  have hi0 : (i 0).val < 8192 := (i 0).isLt
  have hi1 : (i 1).val < 128 := (i 1).isLt
  have hi2 : (i 2).val < 64 := (i 2).isLt
  have hN : cfg4.N = 64 := N_4
  let t : Fin cfg4.N := ⟨(i 0).val / 128, by rw [hN]; omega⟩
  obtain ⟨-, -, -, -, -, -, -, -, -, -, e0, e1, e2, -⟩ := idx_facts t
  have ht : t.val = (i 0).val / 128 := rfl
  refine ⟨t, flush4_5 t, ?_⟩
  rw [mem_blk5]
  intro a
  match a with
  | ⟨0, _⟩ => show win4_5.index t 0 * 128 ≤ (i 0).val ∧ (i 0).val < win4_5.index t 0 * 128 + 128; rw [e0, ht]; omega
  | ⟨1, _⟩ => show win4_5.index t 1 * 128 ≤ (i 1).val ∧ (i 1).val < win4_5.index t 1 * 128 + 128; rw [e1]; omega
  | ⟨2, _⟩ => show win4_5.index t 2 * 64 ≤ (i 2).val ∧ (i 2).val < win4_5.index t 2 * 64 + 64; rw [e2]; omega

/-- The first result array after the run, at the arrays the region finds. -/
theorem arr5_kernel :
    (dat4 V c).arrAt 5 cfg4.N
      = predG (V c (Pipeline.arrRef spec4 0)) (V c (Pipeline.arrRef spec4 1)) (V c (Pipeline.arrRef spec4 2)) :=
  (dat4 V c).arrAt_eq_of_cover 5 _ (fun t _ => flushed5_eq V c t) cover5

/-! ## The second result: the mask word as a number, and the blend -/

/-- The mask word as an extended real: 1 where the word is not zero, 0 where it is. -/
def maskF (w : BitVec 32) : Ideal .f32 := FloatOps.sitofp .f32 ((IntOp.cmpi .ne w 0#32).setWidth 32)

/-- real · m + pred · (1 − m) with m the mask word's number. -/
def blend (re pr : Ideal .f32) (w : BitVec 32) : Ideal .f32 :=
  re * maskF w + pr * (FloatOps.ofBits .f32 0x3F800000#32 - maskF w)

theorem blend_congr {a a' b b' : Ideal .f32} {w w' : BitVec 32} (ha : a = a') (hb : b = b') (hw : w = w') :
    blend a b w = blend a' b' w' := by subst ha; subst hb; subst hw; rfl

/-- The word 0x3F800000 denotes 1. -/
theorem one_word : Ideal.ofBits .f32 0x3F800000#32 = 1 := by
  simp [Ideal.ofBits, Ideal.ieee, -EReal.coe_mul]; norm_num

/-- On a mask bit widened to a word the blend is the choice: with the bit set, real · 1 + pred · (1 − 1) = real; with
    it clear, real · 0 + pred · (1 − 0) = pred. Both hold for every extended real, the infinities included, since
    x · 0 = 0 there. -/
theorem blend_bit (re pr : Ideal .f32) (b : BitVec 1) : blend re pr (b.setWidth 32) = Scalar.select b re pr := by
  rcases BitVec.eq_zero_or_eq_one b with h | h <;> subst h
  · have hm : maskF ((0#1).setWidth 32) = 0 := by
      show (((((IntOp.cmpi .ne ((0#1).setWidth 32) 0#32).setWidth 32).toInt : ℝ)) : EReal) = 0
      rw [show ((IntOp.cmpi .ne ((0#1).setWidth 32) 0#32).setWidth 32).toInt = 0 from by decide]
      norm_num
    unfold blend
    rw [hm, ValueIdx.select_zero]
    show re * 0 + pr * (Ideal.ofBits .f32 0x3F800000#32 - 0) = pr
    rw [one_word, mul_zero, zero_add, sub_zero, mul_one]
  · have hm : maskF ((1#1).setWidth 32) = 1 := by
      show (((((IntOp.cmpi .ne ((1#1).setWidth 32) 0#32).setWidth 32).toInt : ℝ)) : EReal) = 1
      rw [show ((IntOp.cmpi .ne ((1#1).setWidth 32) 0#32).setWidth 32).toInt = 1 from by decide]
      norm_num
    unfold blend
    rw [hm, ValueIdx.select_one]
    show re * 1 + pr * (Ideal.ofBits .f32 0x3F800000#32 - 1) = re
    rw [one_word, mul_one, show ((1 : EReal) - 1) = 0 from by rw [← EReal.coe_one, ← EReal.coe_sub, sub_self, EReal.coe_zero], mul_zero, add_zero]

/-- Entry (i 0, i 1) of the mask. -/
def maskIdx (i : S8192x128x64.Idx) : S8192x128.Idx := ix2 (⟨(i 0).val, (i 0).isLt⟩ : Fin 8192) (⟨(i 1).val, (i 1).isLt⟩ : Fin 128)

/-- The second result as one function of the arrays the region reads. -/
def imputG (RP : S8192x64.Idx → Ideal .f32) (CP : S128x64.Idx → Ideal .f32) (B : S64.Idx → Ideal .f32)
    (M : S8192x128.Idx → BitVec 32) (R : S8192x128x64.Idx → Ideal .f32) : S8192x128x64.Idx → Ideal .f32 :=
  fun i => blend (R i) (predG RP CP B i) (M (maskIdx i))

/-! ## The body's second payload at an entry -/

/-- A [128, 128] block placed on axes 0 and 1 and repeated along axis 2. -/
theorem mask_bcast (x : FVec Ideal S128x128 .f32) (p q : Fin 128) (e : Fin 64) :
    broadcastTo S128x128x64 (shapeCast S128x128x1 x Facts₀.shapeCasts_S128x128_S128x128x1)
      Facts₀.broadcasts_S128x128x1_S128x128x64 (ix3 p q e) = x (ix2 p q) := by
  refine (broadcastTo_apply _ Facts₀.broadcasts_S128x128x1_S128x128x64 (ix3 p q e) (ix3 p q (0 : Fin 1)) fun a => ?_).trans ?_
  · match a with
    | ⟨0, _⟩ => show p.val = if (128 : Nat) = 1 then 0 else p.val; rw [if_neg (by decide)]
    | ⟨1, _⟩ => show q.val = if (128 : Nat) = 1 then 0 else q.val; rw [if_neg (by decide)]
    | ⟨2, _⟩ => show 0 = if (1 : Nat) = 1 then 0 else e.val; rw [if_pos rfl]
  · exact shapeCast_apply x Facts₀.shapeCasts_S128x128_S128x128x1 (ix3 p q (0 : Fin 1)) (ix2 p q) (by
      rw [Shape.rowMajor_val_two, Shape.rowMajor_val_three]
      show p.val * 128 + q.val = (p.val * 128 + q.val) * 1 + 0
      omega)

/-- The same with the block subtracted from a constant first. -/
theorem comask_bcast (k : Ideal .f32) (x : FVec Ideal S128x128 .f32) (p q : Fin 128) (e : Fin 64) :
    broadcastTo S128x128x64 (subf (broadcast S128x128x1 k) (shapeCast S128x128x1 x Facts₀.shapeCasts_S128x128_S128x128x1))
      Facts₀.broadcasts_S128x128x1_S128x128x64 (ix3 p q e) = k - x (ix2 p q) := by
  refine (broadcastTo_apply _ Facts₀.broadcasts_S128x128x1_S128x128x64 (ix3 p q e) (ix3 p q (0 : Fin 1)) fun a => ?_).trans ?_
  · match a with
    | ⟨0, _⟩ => show p.val = if (128 : Nat) = 1 then 0 else p.val; rw [if_neg (by decide)]
    | ⟨1, _⟩ => show q.val = if (128 : Nat) = 1 then 0 else q.val; rw [if_neg (by decide)]
    | ⟨2, _⟩ => show 0 = if (1 : Nat) = 1 then 0 else e.val; rw [if_pos rfl]
  · exact congrArg (k - ·) (shapeCast_apply x Facts₀.shapeCasts_S128x128_S128x128x1 (ix3 p q (0 : Fin 1)) (ix2 p q) (by
      rw [Shape.rowMajor_val_two, Shape.rowMajor_val_three]
      show p.val * 128 + q.val = (p.val * 128 + q.val) * 1 + 0
      omega))

/-- The second payload at entry (p, q, e) of the block. -/
theorem pay2_apply (v0 v2 : Vec Ideal S128x64 .f32) (v4 : Vec Ideal S64 .f32) (v18 : Vec Ideal S128x128 .i32)
    (v23 : Vec Ideal S128x128x64 .f32) (p q : Fin 128) (e : Fin 64) :
    k4_pay2 v0 v2 v4 v18 v23 (ix3 p q e) = blend (v23 (ix3 p q e)) (k4_pay1 v0 v2 v4 (ix3 p q e)) (v18 (ix2 p q)) := by
  unfold k4_pay2
  exact congrArg₂ (· + ·)
    (congrArg₂ (· * ·) (congrFun (shapeCast_self v23 Facts₀.shapeCasts_S128x128x64_S128x128x64) (ix3 p q e))
      (mask_bcast (sitofp .f32 (extui 32 (cmpi .ne v18 (constantI S128x128 32 0#32)) Facts₀.natLt_1_32)) p q e))
    (congrArg (k4_pay1 v0 v2 v4 (ix3 p q e) * ·)
      (comask_bcast (Scalar.ofBits .f32 0x3F800000#32)
        (sitofp .f32 (extui 32 (cmpi .ne v18 (constantI S128x128 32 0#32)) Facts₀.natLt_1_32)) p q e))

/-! ## The mask's and the reals' blocks -/

/-- Point t's block of the mask is rows 128 t … 128 t + 127. -/
theorem blk3_apply (t : Fin cfg4.N) (p q : Fin 128) (k : S8192x128.Idx)
    (hk0 : (k 0).val = t.val * 128 + p.val) (hk1 : (k 1).val = q.val) :
    (iblk4 V c 3 t : Vec Ideal S128x128 .i32) (ix2 p q) = (V c (Pipeline.arrRef spec4 3) : S8192x128.Idx → BitVec 32) k := by
  obtain ⟨-, -, -, -, -, e0, e1, -⟩ := idx_facts t
  unfold iblk4
  rw [View.read_apply]
  show (V c (Pipeline.arrRef spec4 3) : S8192x128.Idx → BitVec 32) _ = V c (Pipeline.arrRef spec4 3) k
  congr 1
  funext a
  apply Fin.ext
  match a with
  | ⟨0, _⟩ => show win4_3.index t 0 * 128 + 1 * p.val = (k 0).val; rw [e0, hk0]; omega
  | ⟨1, _⟩ => show win4_3.index t 1 * 128 + 1 * q.val = (k 1).val; rw [e1, hk1]; omega

/-- Point t's block of the reals is rows 128 t … 128 t + 127. -/
theorem blk4_apply (t : Fin cfg4.N) (p q : Fin 128) (e : Fin 64) (k : S8192x128x64.Idx)
    (hk0 : (k 0).val = t.val * 128 + p.val) (hk1 : (k 1).val = q.val) (hk2 : (k 2).val = e.val) :
    (iblk4 V c 4 t : Vec Ideal S128x128x64 .f32) (ix3 p q e) = (V c (Pipeline.arrRef spec4 4) : S8192x128x64.Idx → Ideal .f32) k := by
  obtain ⟨-, -, -, -, -, -, -, e0, e1, e2, -⟩ := idx_facts t
  unfold iblk4
  rw [View.read_apply]
  show (V c (Pipeline.arrRef spec4 4) : S8192x128x64.Idx → Ideal .f32) _ = V c (Pipeline.arrRef spec4 4) k
  congr 1
  funext a
  apply Fin.ext
  match a with
  | ⟨0, _⟩ => show win4_4.index t 0 * 128 + 1 * p.val = (k 0).val; rw [e0, hk0]; omega
  | ⟨1, _⟩ => show win4_4.index t 1 * 128 + 1 * q.val = (k 1).val; rw [e1, hk1]; omega
  | ⟨2, _⟩ => show win4_4.index t 2 * 64 + 1 * e.val = (k 2).val; rw [e2, hk2]; omega

/-! ## The second result: from blocks to the array -/

/-- What point t writes back through window 6 is block t of imputG of the arrays the region finds. -/
theorem flushed6_eq (t : Fin cfg4.N) :
    (dat4 V c).flushed 6 t = ((cfg4.win 6).blk t).view.read (Elt Ideal)
      (imputG (V c (Pipeline.arrRef spec4 0)) (V c (Pipeline.arrRef spec4 1)) (V c (Pipeline.arrRef spec4 2))
        (V c (Pipeline.arrRef spec4 3)) (V c (Pipeline.arrRef spec4 4))) := by
  show (cfg4.win 6).cut (grid4.coords t) ((dat4 V c).after 6 t) = _
  rw [after4_6]
  unfold out4_6
  rw [View.canon_unit_zero hz3]
  simp only [View.ld_unit_zero (S := S128x64) hz2, View.ld_unit_zero (S := S64) hz1,
    View.ld_unit_zero (S := S128x128) hz2, View.ld_unit_zero (S := S128x128x64) hz3]
  obtain ⟨-, -, -, -, -, -, -, -, -, -, -, -, -, e0, e1, e2⟩ := idx_facts t
  funext j
  show k4_pay2 (iblk4 V c 0 t) (iblk4 V c 1 t) (iblk4 V c 2 t) (iblk4 V c 3 t) (iblk4 V c 4 t) j
    = imputG (V c (Pipeline.arrRef spec4 0)) (V c (Pipeline.arrRef spec4 1)) (V c (Pipeline.arrRef spec4 2))
        (V c (Pipeline.arrRef spec4 3)) (V c (Pipeline.arrRef spec4 4)) (((cfg4.win 6).blk t).view.emb j)
  obtain ⟨p, q, e, rfl⟩ : ∃ (p : Fin 128) (q : Fin 128) (e : Fin 64), j = ix3 p q e := ⟨j 0, j 1, j 2, eq_ix3 j⟩
  refine (pay2_apply _ _ _ _ _ p q e).trans ?_
  have h0 : ((((cfg4.win 6).blk t).view.emb (ix3 p q e)) 0).val = t.val * 128 + p.val := by
    show win4_6.index t 0 * 128 + 1 * p.val = _; rw [e0]; omega
  have h1 : ((((cfg4.win 6).blk t).view.emb (ix3 p q e)) 1).val = q.val := by
    show win4_6.index t 1 * 128 + 1 * q.val = _; rw [e1]; omega
  have h2 : ((((cfg4.win 6).blk t).view.emb (ix3 p q e)) 2).val = e.val := by
    show win4_6.index t 2 * 64 + 1 * e.val = _; rw [e2]; omega
  unfold imputG
  refine blend_congr (blk4_apply V c t p q e _ h0 h1 h2) ?_ (blk3_apply V c t p q _ h0 h1)
  refine (pay1_apply _ _ _ p q e).trans ?_
  unfold predG
  exact congrArg leaky (congrArg₂ (· + ·) (congrArg₂ (· + ·)
    (blk0_apply V c t p e _ h0 h2) (blk1_apply V c t q e _ h1 h2)) (blk2_apply V c t e _ h2))

/-- An entry of the array is in point t's block of window 6 iff each coordinate is in the block's range. -/
theorem mem_blk6 (t : Fin cfg4.N) (i : S8192x128x64.Idx) :
    i ∈ ((cfg4.win 6).blk t).view.set ↔ ∀ a : Fin 3, win4_6.index t a * S128x128x64.size a ≤ (i a).val ∧ (i a).val < win4_6.index t a * S128x128x64.size a + S128x128x64.size a := by
  show i ∈ ((View.whole main_v94_1).slice (win4_6.rect t)).set ↔ _
  rw [View.set_slice_whole, Rect.mem_set_unit]
  exact Iff.rfl

/-- Every entry is in the block of the point its row belongs to. -/
theorem cover6 (i : S8192x128x64.Idx) :
    ∃ t : Fin cfg4.N, (cfg4.win 6).flush t = true ∧ i ∈ ((cfg4.win 6).blk t).view.set := by
  have hi0 : (i 0).val < 8192 := (i 0).isLt
  have hi1 : (i 1).val < 128 := (i 1).isLt
  have hi2 : (i 2).val < 64 := (i 2).isLt
  have hN : cfg4.N = 64 := N_4
  let t : Fin cfg4.N := ⟨(i 0).val / 128, by rw [hN]; omega⟩
  obtain ⟨-, -, -, -, -, -, -, -, -, -, -, -, -, e0, e1, e2⟩ := idx_facts t
  have ht : t.val = (i 0).val / 128 := rfl
  refine ⟨t, flush4_6 t, ?_⟩
  rw [mem_blk6]
  intro a
  match a with
  | ⟨0, _⟩ => show win4_6.index t 0 * 128 ≤ (i 0).val ∧ (i 0).val < win4_6.index t 0 * 128 + 128; rw [e0, ht]; omega
  | ⟨1, _⟩ => show win4_6.index t 1 * 128 ≤ (i 1).val ∧ (i 1).val < win4_6.index t 1 * 128 + 128; rw [e1]; omega
  | ⟨2, _⟩ => show win4_6.index t 2 * 64 ≤ (i 2).val ∧ (i 2).val < win4_6.index t 2 * 64 + 64; rw [e2]; omega

/-- The second result array after the run, at the arrays the region finds. -/
theorem arr6_kernel :
    (dat4 V c).arrAt 6 cfg4.N
      = imputG (V c (Pipeline.arrRef spec4 0)) (V c (Pipeline.arrRef spec4 1)) (V c (Pipeline.arrRef spec4 2))
          (V c (Pipeline.arrRef spec4 3)) (V c (Pipeline.arrRef spec4 4)) :=
  (dat4 V c).arrAt_eq_of_cover 6 _ (fun t _ => flushed6_eq V c t) cover6

end Kernel

/-! ## The reference's stages are the same functions -/

/-- The reference's first result, stage by stage, is predG of its row projections, column projections and bias. -/
theorem ref_pred
    (x0 : (⟨Cert.ReferenceIdeal.S30000x128, .f32⟩ : BufTy).Contents (Elt Ideal))
    (x1 : (⟨Cert.ReferenceIdeal.S480000x64, .f32⟩ : BufTy).Contents (Elt Ideal))
    (x2 x3 : (⟨Cert.ReferenceIdeal.S480000, .i32⟩ : BufTy).Contents (Elt Ideal))
    (x4 : (⟨Cert.ReferenceIdeal.S8192, .i32⟩ : BufTy).Contents (Elt Ideal))
    (x5 : (⟨Cert.ReferenceIdeal.S128, .i32⟩ : BufTy).Contents (Elt Ideal))
    (x8 : (⟨Cert.ReferenceIdeal.S192x128, .f32⟩ : BufTy).Contents (Elt Ideal))
    (x9 : (⟨Cert.ReferenceIdeal.S128, .f32⟩ : BufTy).Contents (Elt Ideal))
    (x10 : (⟨Cert.ReferenceIdeal.S256x256, .f32⟩ : BufTy).Contents (Elt Ideal))
    (x11 : (⟨Cert.ReferenceIdeal.S256, .f32⟩ : BufTy).Contents (Elt Ideal))
    (x12 : (⟨Cert.ReferenceIdeal.S384x64, .f32⟩ : BufTy).Contents (Elt Ideal))
    (x13 : (⟨Cert.ReferenceIdeal.S64, .f32⟩ : BufTy).Contents (Elt Ideal))
    (x14 : (⟨Cert.ReferenceIdeal.S320x256, .f32⟩ : BufTy).Contents (Elt Ideal))
    (x15 : (⟨Cert.ReferenceIdeal.S256, .f32⟩ : BufTy).Contents (Elt Ideal))
    (x16 : (⟨Cert.ReferenceIdeal.S128x256, .f32⟩ : BufTy).Contents (Elt Ideal))
    (x17 x18 x19 x20 : (⟨Cert.ReferenceIdeal.S256x256, .f32⟩ : BufTy).Contents (Elt Ideal))
    (x21 : (⟨Cert.ReferenceIdeal.S256, .f32⟩ : BufTy).Contents (Elt Ideal))
    (x22 x23 : (⟨Cert.ReferenceIdeal.S256x64, .f32⟩ : BufTy).Contents (Elt Ideal))
    (x24 : (⟨Cert.ReferenceIdeal.S64, .f32⟩ : BufTy).Contents (Elt Ideal)) :
    Cert.ReferenceIdeal.Read.val_main_v136 (F := Ideal) x0 x1 x2 x3 x4 x5 x8 x9 x10 x11 x12 x13 x14 x15 x16 x17 x18 x19 x20 x21 x22 x23 x24
      = predG (Cert.ReferenceIdeal.Read.val_main_v122 (F := Ideal) x0 x1 x2 x3 x4 x8 x9 x10 x11 x12 x13 x14 x15 x22) (Cert.ReferenceIdeal.Read.val_main_v124 (F := Ideal) x0 x1 x2 x3 x5 x8 x9 x10 x11 x16 x17 x18 x19 x20 x21 x23) x24 := by
  funext i
  have hr : Cert.ReferenceIdeal.Read.idx_main_v123 (Cert.ReferenceIdeal.Read.idx_main_v126 i) = rowIdx i :=
    funext fun a => Fin.ext (by match a with | ⟨0, _⟩ => rfl | ⟨1, _⟩ => rfl)
  have hc : Cert.ReferenceIdeal.Read.idx_main_v125 (Cert.ReferenceIdeal.Read.idx_main_v127 i) = colIdx i :=
    funext fun a => Fin.ext (by match a with | ⟨0, _⟩ => rfl | ⟨1, _⟩ => rfl)
  have hb : Cert.ReferenceIdeal.Read.idx_main_v129 (Cert.ReferenceIdeal.Read.idx_main_v130 i) = biasIdx i :=
    funext fun a => Fin.ext (by match a with | ⟨0, _⟩ => rfl)
  rw [Cert.ReferenceIdeal.Read.val_main_v136_apply]
  simp only [Cert.ReferenceIdeal.Read.val_main_v133_apply, Cert.ReferenceIdeal.Read.val_main_v135_apply, Cert.ReferenceIdeal.Read.val_main_v131_apply, Cert.ReferenceIdeal.Read.val_main_v128_apply,
    Cert.ReferenceIdeal.Read.val_main_v126_apply, Cert.ReferenceIdeal.Read.val_main_v123_apply, Cert.ReferenceIdeal.Read.val_main_v127_apply, Cert.ReferenceIdeal.Read.val_main_v125_apply,
    Cert.ReferenceIdeal.Read.val_main_v130_apply, Cert.ReferenceIdeal.Read.val_main_v129_apply, Cert.ReferenceIdeal.Read.val_main_v132_apply, Cert.ReferenceIdeal.Read.val_main_v134_apply,
    Cert.ReferenceIdeal.Read.val_main_cst_29_apply, Cert.ReferenceIdeal.Read.val_main_cst_30_apply]
  generalize Cert.ReferenceIdeal.Read.val_main_v122 (F := Ideal) x0 x1 x2 x3 x4 x8 x9 x10 x11 x12 x13 x14 x15 x22 = RP
  generalize Cert.ReferenceIdeal.Read.val_main_v124 (F := Ideal) x0 x1 x2 x3 x5 x8 x9 x10 x11 x16 x17 x18 x19 x20 x21 x23 = CP
  rw [hr, hc, hb]
  rfl

/-- The reference's second result is imputG of the same, the mask bits widened to words and the reals in their
    three-axis arrangement: entry (r, c, e) of either arrangement is position (r · 128 + c) · 64 + e. -/
theorem ref_imput
    (x0 : (⟨Cert.ReferenceIdeal.S30000x128, .f32⟩ : BufTy).Contents (Elt Ideal))
    (x1 : (⟨Cert.ReferenceIdeal.S480000x64, .f32⟩ : BufTy).Contents (Elt Ideal))
    (x2 x3 : (⟨Cert.ReferenceIdeal.S480000, .i32⟩ : BufTy).Contents (Elt Ideal))
    (x4 : (⟨Cert.ReferenceIdeal.S8192, .i32⟩ : BufTy).Contents (Elt Ideal))
    (x5 : (⟨Cert.ReferenceIdeal.S128, .i32⟩ : BufTy).Contents (Elt Ideal))
    (x6 : (⟨Cert.ReferenceIdeal.S1048576x64, .f32⟩ : BufTy).Contents (Elt Ideal))
    (x7 : (⟨Cert.ReferenceIdeal.S8192x128, .i1⟩ : BufTy).Contents (Elt Ideal))
    (x8 : (⟨Cert.ReferenceIdeal.S192x128, .f32⟩ : BufTy).Contents (Elt Ideal))
    (x9 : (⟨Cert.ReferenceIdeal.S128, .f32⟩ : BufTy).Contents (Elt Ideal))
    (x10 : (⟨Cert.ReferenceIdeal.S256x256, .f32⟩ : BufTy).Contents (Elt Ideal))
    (x11 : (⟨Cert.ReferenceIdeal.S256, .f32⟩ : BufTy).Contents (Elt Ideal))
    (x12 : (⟨Cert.ReferenceIdeal.S384x64, .f32⟩ : BufTy).Contents (Elt Ideal))
    (x13 : (⟨Cert.ReferenceIdeal.S64, .f32⟩ : BufTy).Contents (Elt Ideal))
    (x14 : (⟨Cert.ReferenceIdeal.S320x256, .f32⟩ : BufTy).Contents (Elt Ideal))
    (x15 : (⟨Cert.ReferenceIdeal.S256, .f32⟩ : BufTy).Contents (Elt Ideal))
    (x16 : (⟨Cert.ReferenceIdeal.S128x256, .f32⟩ : BufTy).Contents (Elt Ideal))
    (x17 x18 x19 x20 : (⟨Cert.ReferenceIdeal.S256x256, .f32⟩ : BufTy).Contents (Elt Ideal))
    (x21 : (⟨Cert.ReferenceIdeal.S256, .f32⟩ : BufTy).Contents (Elt Ideal))
    (x22 x23 : (⟨Cert.ReferenceIdeal.S256x64, .f32⟩ : BufTy).Contents (Elt Ideal))
    (x24 : (⟨Cert.ReferenceIdeal.S64, .f32⟩ : BufTy).Contents (Elt Ideal)) :
    Cert.ReferenceIdeal.Read.val_main_v141 (F := Ideal) x0 x1 x2 x3 x4 x5 x6 x7 x8 x9 x10 x11 x12 x13 x14 x15 x16 x17 x18 x19 x20 x21 x22 x23 x24
      = imputG (Cert.ReferenceIdeal.Read.val_main_v122 (F := Ideal) x0 x1 x2 x3 x4 x8 x9 x10 x11 x12 x13 x14 x15 x22) (Cert.ReferenceIdeal.Read.val_main_v124 (F := Ideal) x0 x1 x2 x3 x5 x8 x9 x10 x11 x16 x17 x18 x19 x20 x21 x23) x24
          (extui 32 x7 Facts₀.natLt_1_32) (shapeCast S8192x128x64 x6 Facts₀.shapeCasts_S1048576x64_S8192x128x64) := by
  funext i
  have h0 : (i 0).val < 8192 := (i 0).isLt
  have h1 : (i 1).val < 128 := (i 1).isLt
  have h2 : (i 2).val < 64 := (i 2).isLt
  have h137 : Cert.ReferenceIdeal.Read.idx_main_v137 (Cert.ReferenceIdeal.Read.idx_main_v141 i) = i :=
    funext fun a => Fin.ext (by
      match a with
      | ⟨0, _⟩ => show ((((i 0).val * 128 + (i 1).val) * 64 + (i 2).val) / 64 * 64 + (((i 0).val * 128 + (i 1).val) * 64 + (i 2).val) % 64) / 8192 = (i 0).val; omega
      | ⟨1, _⟩ => show ((((i 0).val * 128 + (i 1).val) * 64 + (i 2).val) / 64 * 64 + (((i 0).val * 128 + (i 1).val) * 64 + (i 2).val) % 64) / 64 % 128 = (i 1).val; omega
      | ⟨2, _⟩ => show ((((i 0).val * 128 + (i 1).val) * 64 + (i 2).val) / 64 * 64 + (((i 0).val * 128 + (i 1).val) * 64 + (i 2).val) % 64) % 64 = (i 2).val; omega)
  have hm : Cert.ReferenceIdeal.Read.idx_main_v138 (Cert.ReferenceIdeal.Read.idx_main_v139 (Cert.ReferenceIdeal.Read.idx_main_call5_v0 (Cert.ReferenceIdeal.Read.idx_main_v141 i))) = maskIdx i :=
    funext fun a => Fin.ext (by
      match a with
      | ⟨0, _⟩ => show ((((i 0).val * 128 + (i 1).val) * 64 + (i 2).val) / 64) / 128 = (i 0).val; omega
      | ⟨1, _⟩ => show ((((i 0).val * 128 + (i 1).val) * 64 + (i 2).val) / 64) % 128 = (i 1).val; omega)
  have hre : shapeCast S8192x128x64 x6 Facts₀.shapeCasts_S1048576x64_S8192x128x64 i = x6 (Cert.ReferenceIdeal.Read.idx_main_v141 i) :=
    shapeCast_apply x6 Facts₀.shapeCasts_S1048576x64_S8192x128x64 i (Cert.ReferenceIdeal.Read.idx_main_v141 i) (by
      rw [Shape.rowMajor_val_two, Shape.rowMajor_val_three]
      show (((i 0).val * 128 + (i 1).val) * 64 + (i 2).val) / 64 * 64 + (((i 0).val * 128 + (i 1).val) * 64 + (i 2).val) % 64 = ((i 0).val * 128 + (i 1).val) * 64 + (i 2).val
      omega)
  rw [Cert.ReferenceIdeal.Read.val_main_v141_apply, Cert.ReferenceIdeal.Read.val_main_v140_apply, Cert.ReferenceIdeal.Read.val_main_call5_v0_apply, Cert.ReferenceIdeal.Read.val_main_v139_apply,
    Cert.ReferenceIdeal.Read.val_main_v138_apply, Cert.ReferenceIdeal.Read.val_main_v137_apply, h137, hm, ref_pred]
  unfold imputG
  rw [hre]
  exact (blend_bit _ _ _).symm

/-! ## The two result arrays after the run are the reference's -/

theorem arr5_eq
    (V : (c : Dev nD) → (b : Ref sig .tc) → Buf (Elt Ideal) ((c : Thread nD τ).loc b)) (c : Dev nD)
    (x0 : (⟨Cert.ReferenceIdeal.S30000x128, .f32⟩ : BufTy).Contents (Elt Ideal))
    (x1 : (⟨Cert.ReferenceIdeal.S480000x64, .f32⟩ : BufTy).Contents (Elt Ideal))
    (x2 x3 : (⟨Cert.ReferenceIdeal.S480000, .i32⟩ : BufTy).Contents (Elt Ideal))
    (x4 : (⟨Cert.ReferenceIdeal.S8192, .i32⟩ : BufTy).Contents (Elt Ideal))
    (x5 : (⟨Cert.ReferenceIdeal.S128, .i32⟩ : BufTy).Contents (Elt Ideal))
    (x8 : (⟨Cert.ReferenceIdeal.S192x128, .f32⟩ : BufTy).Contents (Elt Ideal))
    (x9 : (⟨Cert.ReferenceIdeal.S128, .f32⟩ : BufTy).Contents (Elt Ideal))
    (x10 : (⟨Cert.ReferenceIdeal.S256x256, .f32⟩ : BufTy).Contents (Elt Ideal))
    (x11 : (⟨Cert.ReferenceIdeal.S256, .f32⟩ : BufTy).Contents (Elt Ideal))
    (x12 : (⟨Cert.ReferenceIdeal.S384x64, .f32⟩ : BufTy).Contents (Elt Ideal))
    (x13 : (⟨Cert.ReferenceIdeal.S64, .f32⟩ : BufTy).Contents (Elt Ideal))
    (x14 : (⟨Cert.ReferenceIdeal.S320x256, .f32⟩ : BufTy).Contents (Elt Ideal))
    (x15 : (⟨Cert.ReferenceIdeal.S256, .f32⟩ : BufTy).Contents (Elt Ideal))
    (x16 : (⟨Cert.ReferenceIdeal.S128x256, .f32⟩ : BufTy).Contents (Elt Ideal))
    (x17 x18 x19 x20 : (⟨Cert.ReferenceIdeal.S256x256, .f32⟩ : BufTy).Contents (Elt Ideal))
    (x21 : (⟨Cert.ReferenceIdeal.S256, .f32⟩ : BufTy).Contents (Elt Ideal))
    (x22 x23 : (⟨Cert.ReferenceIdeal.S256x64, .f32⟩ : BufTy).Contents (Elt Ideal))
    (x24 : (⟨Cert.ReferenceIdeal.S64, .f32⟩ : BufTy).Contents (Elt Ideal))
    (h0 : V c (Pipeline.arrRef spec4 0) = Cert.ReferenceIdeal.Read.val_main_v122 (F := Ideal) x0 x1 x2 x3 x4 x8 x9 x10 x11 x12 x13 x14 x15 x22)
    (h1 : V c (Pipeline.arrRef spec4 1) = Cert.ReferenceIdeal.Read.val_main_v124 (F := Ideal) x0 x1 x2 x3 x5 x8 x9 x10 x11 x16 x17 x18 x19 x20 x21 x23)
    (h2 : V c (Pipeline.arrRef spec4 2) = x24) :
    (Cert.KernelIdeal.Gen.dat4 (F := Ideal) V c).arrAt 5 cfg4.N
      = Cert.ReferenceIdeal.Read.val_main_v136 (F := Ideal) x0 x1 x2 x3 x4 x5 x8 x9 x10 x11 x12 x13 x14 x15 x16 x17 x18 x19 x20 x21 x22 x23 x24 := by
  rw [arr5_kernel V c, h0, h1, h2, ref_pred]

theorem arr6_eq
    (V : (c : Dev nD) → (b : Ref sig .tc) → Buf (Elt Ideal) ((c : Thread nD τ).loc b)) (c : Dev nD)
    (x0 : (⟨Cert.ReferenceIdeal.S30000x128, .f32⟩ : BufTy).Contents (Elt Ideal))
    (x1 : (⟨Cert.ReferenceIdeal.S480000x64, .f32⟩ : BufTy).Contents (Elt Ideal))
    (x2 x3 : (⟨Cert.ReferenceIdeal.S480000, .i32⟩ : BufTy).Contents (Elt Ideal))
    (x4 : (⟨Cert.ReferenceIdeal.S8192, .i32⟩ : BufTy).Contents (Elt Ideal))
    (x5 : (⟨Cert.ReferenceIdeal.S128, .i32⟩ : BufTy).Contents (Elt Ideal))
    (x6 : (⟨Cert.ReferenceIdeal.S1048576x64, .f32⟩ : BufTy).Contents (Elt Ideal))
    (x7 : (⟨Cert.ReferenceIdeal.S8192x128, .i1⟩ : BufTy).Contents (Elt Ideal))
    (x8 : (⟨Cert.ReferenceIdeal.S192x128, .f32⟩ : BufTy).Contents (Elt Ideal))
    (x9 : (⟨Cert.ReferenceIdeal.S128, .f32⟩ : BufTy).Contents (Elt Ideal))
    (x10 : (⟨Cert.ReferenceIdeal.S256x256, .f32⟩ : BufTy).Contents (Elt Ideal))
    (x11 : (⟨Cert.ReferenceIdeal.S256, .f32⟩ : BufTy).Contents (Elt Ideal))
    (x12 : (⟨Cert.ReferenceIdeal.S384x64, .f32⟩ : BufTy).Contents (Elt Ideal))
    (x13 : (⟨Cert.ReferenceIdeal.S64, .f32⟩ : BufTy).Contents (Elt Ideal))
    (x14 : (⟨Cert.ReferenceIdeal.S320x256, .f32⟩ : BufTy).Contents (Elt Ideal))
    (x15 : (⟨Cert.ReferenceIdeal.S256, .f32⟩ : BufTy).Contents (Elt Ideal))
    (x16 : (⟨Cert.ReferenceIdeal.S128x256, .f32⟩ : BufTy).Contents (Elt Ideal))
    (x17 x18 x19 x20 : (⟨Cert.ReferenceIdeal.S256x256, .f32⟩ : BufTy).Contents (Elt Ideal))
    (x21 : (⟨Cert.ReferenceIdeal.S256, .f32⟩ : BufTy).Contents (Elt Ideal))
    (x22 x23 : (⟨Cert.ReferenceIdeal.S256x64, .f32⟩ : BufTy).Contents (Elt Ideal))
    (x24 : (⟨Cert.ReferenceIdeal.S64, .f32⟩ : BufTy).Contents (Elt Ideal))
    (h0 : V c (Pipeline.arrRef spec4 0) = Cert.ReferenceIdeal.Read.val_main_v122 (F := Ideal) x0 x1 x2 x3 x4 x8 x9 x10 x11 x12 x13 x14 x15 x22)
    (h1 : V c (Pipeline.arrRef spec4 1) = Cert.ReferenceIdeal.Read.val_main_v124 (F := Ideal) x0 x1 x2 x3 x5 x8 x9 x10 x11 x16 x17 x18 x19 x20 x21 x23)
    (h2 : V c (Pipeline.arrRef spec4 2) = x24)
    (h3 : V c (Pipeline.arrRef spec4 3) = extui 32 x7 Facts₀.natLt_1_32)
    (h4 : V c (Pipeline.arrRef spec4 4) = shapeCast S8192x128x64 x6 Facts₀.shapeCasts_S1048576x64_S8192x128x64) :
    (Cert.KernelIdeal.Gen.dat4 (F := Ideal) V c).arrAt 6 cfg4.N
      = Cert.ReferenceIdeal.Read.val_main_v141 (F := Ideal) x0 x1 x2 x3 x4 x5 x6 x7 x8 x9 x10 x11 x12 x13 x14 x15 x16 x17 x18 x19 x20 x21 x22 x23 x24 := by
  rw [arr6_kernel V c, h0, h1, h2, h3, h4, ref_imput]

end Cert.KernelIdeal.Pred
end
-- ==== Proof.LibRows.lean ====
/-
  Rows and columns of a rank-2 array, read at an index.

  For an `[a, b]` array: a reduction along axis 1 at row `r` ranges over the entries `(r, c)`, a
  reduction along axis 0 at column `c` over the entries `(r, c)`; a vector of `a` entries cast to
  the column shape `[a, 1]` reads entry `r` at `(r, 0)`, and that column broadcast to `[a, b]`
  reads it at every `(r, c)`.  The sums are plain `Finset` sums and the maxima folds of `max` from
  the accumulator's value, for the vector unit's reductions and for the host's `reduce` alike.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibRows

open Idealize.ShloMosaic Idealize.ShloMosaic.ValueIdx

variable {a b : ℕ}

/-- Row `r` with lane `k` put back at axis 1 is `(r, k)`. -/
theorem lift_axis1 (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Column `c` with row `k` put back at axis 0 is `(k, c)`. -/
theorem lift_axis0 (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A lane sum of an `[a, b]` vector, at row `r`: the sum of the row's entries. -/
theorem laneSum_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ c : Fin b, src (ix2 r c) := by
  rw [Ideal.multiReduction_add_single]
  exact Finset.sum_congr rfl fun k _ => congrArg src (lift_axis1 h r k)

/-- A lane maximum of an `[a, b]` vector, at row `r`: the fold of `max` over the row from the accumulator. -/
theorem laneMax_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  rw [Ideal.multiReduction_maximumf_single]
  have hf : (src ∘ h.lift (ix1 r)) = fun c : Fin b => src (ix2 r c) :=
    funext fun k => congrArg src (lift_axis1 h r k)
  exact congrArg (fun f => Finset.fold max (Ideal.ofBits φ acc) f (Finset.univ : Finset (Fin b))) hf

/-- A sum over the rows of an `[a, b]` vector, at column `c`. -/
theorem rowSum_apply {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ r : Fin a, src (ix2 r c) := by
  rw [Ideal.multiReduction_add_single]
  exact Finset.sum_congr rfl fun k _ => congrArg src (lift_axis0 h c k)

/-- The host's `reduce` with a maximum body along axis 1 of an f32 `[a, b]` array, at row `r`: the same fold,
    from the initial value's one entry. -/
theorem hostLaneMax_apply {u : Shape} (x : (⟨2, ![a, b]⟩ : Shape).Idx → Ideal .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun c => x (ix2 r c)) := by
  rw [Host.reduce_eq_fold_single FloatOps.maximumf x init h' h hu]
  have hf : (x ∘ h.lift (ix1 r)) = fun c : Fin b => x (ix2 r c) :=
    funext fun k => congrArg x (lift_axis1 h r k)
  exact congrArg (fun f => Finset.fold max (init (Shape.Idx.first hu)) f (Finset.univ : Finset (Fin b))) hf

/-- An `[a]` vector cast to the column shape `[a, 1]` reads, at `(r, u)`, entry `r`. -/
theorem shapeCast_a_a1_apply {α : Type} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {α : Type} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Cert.LibRows

end
-- ==== Proof.Cls.lean ====
/-
  The classifier region: a matrix product with bias followed by a row-wise log-softmax, tiled over the rows.

  The region's grid has 32 points; point `t` reads rows `256 t … 256 t + 255` of the `[8192, 8192]` activations, the
  whole `[8192, 10]` weights and the whole bias, and writes the same rows of the `[8192, 10]` result. At exact
  arithmetic the entry `(r, q)` of the result is
      (z r q - M r) - log (∑ l, exp (z r l - M r)),   z r l = (∑ k, X (r, k) · W (k, l)) + b l,
  with `M r` the maximum of row `r` of `z` as a fold of `max` from `-∞`. The reference computes the same expression of
  the same row, so the two are matched operation by operation: the matrix product as the same sum over the contracted
  coordinate, the lane maximum as the same fold, the lane sum as the same finite sum.
-/
import proofs.«102082_j26070451487322_2_alg».proof.Proof.Gen.KernelIdeal.Frame
import proofs.«102082_j26070451487322_2_alg».proof.Proof.RefRead
import proofs.«102082_j26070451487322_2_alg».proof.Proof.LibMat
import proofs.«102082_j26070451487322_2_alg».proof.Proof.LibRows

set_option maxRecDepth 16384

noncomputable section

open scoped BigOperators

namespace Cert.KernelIdeal.Cls

open Cert.KernelIdeal Idealize.ShloMosaic Idealize.ShloMosaic.TcCoe Idealize.ShloMosaic.ValueIdx
open Idealize.ShloMosaic.Pipeline (Dat Cfg Window)
open Cert.KernelIdeal.Facts₀ Cert.KernelIdeal.Facts

/-! ## One row's log-softmax

At exact arithmetic a float is an extended real. For a row of ten logits `z`, the row maximum is computed as a fold of
`max` over the lanes from `-∞`, followed by one more `max` with `-∞`; the log-softmax at lane `q` is
`(z q - M) - log (∑ l, exp (z l - M))`. Both programs compute exactly this expression of the row's logits, so the
two sides are compared operation by operation and no law of the extended reals is needed. -/

/-- The word of `-∞` in f32, read as an extended real. -/
abbrev negInf : Ideal .f32 := Ideal.ofBits .f32 0xFF800000#32

/-- The row maximum as both programs compute it. -/
def rowMax (z : Fin 10 → Ideal .f32) : Ideal .f32 :=
  max negInf ((Finset.univ : Finset (Fin 10)).fold max negInf z)

/-- The log-softmax of a row of ten logits, at lane `q`. -/
def lsm (z : Fin 10 → Ideal .f32) (q : Fin 10) : Ideal .f32 :=
  (z q - rowMax z) - Ideal.log (∑ l : Fin 10, Ideal.exp (z l - rowMax z))

/-- A row of logits: row `r` of `X` times `W`, plus the bias. -/
def logitRow {n : ℕ} (X : (⟨2, ![n, 8192]⟩ : Shape).Idx → Ideal .f32) (W : (⟨2, ![8192, 10]⟩ : Shape).Idx → Ideal .f32)
    (b : (⟨1, ![10]⟩ : Shape).Idx → Ideal .f32) (r : Fin n) (l : Fin 10) : Ideal .f32 :=
  (∑ k : Fin 8192, X (ix2 r k) * W (ix2 k l)) + b (ix1 l)

/-! ## The body's payload at an index -/

/-- The body's logits: the block's rows times the weights (the bf16 casts are the identity at exact arithmetic), plus
    the bias broadcast over the rows. -/
def logits (x0 : Vec Ideal S256x8192 .f32) (x1 : Vec Ideal S8192x10 .f32) (x2 : Vec Ideal S10 .f32) : FVec Ideal S256x10 .f32 :=
  addf (matmul dot_S256x8192_S8192x10_S256x10_1_0_0_1_n_n none
          (truncf .bf16 (shapeCast S256x8192 x0 shapeCasts_S256x8192_S256x8192) bitsLt_bf16_f32)
          (truncf .bf16 x1 bitsLt_bf16_f32) (constant S256x10 .f32 0x00000000#32))
       (broadcastTo S256x10 (shapeCast S1x10 x2 shapeCasts_S10_S1x10) broadcasts_S1x10_S256x10)

theorem logits_apply (x0 : Vec Ideal S256x8192 .f32) (x1 : Vec Ideal S8192x10 .f32) (x2 : Vec Ideal S10 .f32)
    (p : Fin 256) (l : Fin 10) : logits x0 x1 x2 (ix2 p l) = logitRow x0 x1 x2 p l := by
  unfold logits logitRow
  refine congrArg₂ (· + ·) ?_ ?_
  · refine (Cert.LibMat.matmul_plain_apply dot_S256x8192_S8192x10_S256x10_1_0_0_1_n_n_wf none _ _ p l).trans ?_
    refine Finset.sum_congr rfl fun k _ => ?_
    rw [truncf_apply, truncf_apply, shapeCast_self]
  · rw [broadcastTo_1b_ab_apply, shapeCast_a_1a_apply]

/-- The row maximum, broadcast back over the ten lanes. -/
def bmax (z : FVec Ideal S256x10 .f32) : FVec Ideal S256x10 .f32 :=
  broadcastTo S256x10 (shapeCast S256x1
    (maximumf (broadcast S256 (Scalar.ofBits (F := Ideal) .f32 0xFF800000#32))
      (multiReduction .maximumf [1] S256 z 0xFF800000#32 reduces_S256x10_S256 (.inl rfl) rfl))
    shapeCasts_S256_S256x1) broadcasts_S256x1_S256x10

theorem bmax_apply (z : FVec Ideal S256x10 .f32) (p : Fin 256) (q : Fin 10) :
    bmax z (ix2 p q) = rowMax (fun l => z (ix2 p l)) := by
  unfold bmax rowMax
  rw [Cert.LibRows.broadcastTo_a1_ab_apply, Cert.LibRows.shapeCast_a_a1_apply, maximumf_apply, broadcast_apply]
  refine congrArg (max _) ?_
  exact Cert.LibRows.laneMax_apply z _ _ _ _ p

/-- The log-softmax of the logits, as the body computes it. -/
def tail (z : FVec Ideal S256x10 .f32) : FVec Ideal S256x10 .f32 :=
  subf (subf z (bmax z))
    (broadcastTo S256x10 (log (shapeCast S256x1
      (multiReduction .add [1] S256 (exp (subf z (bmax z))) 0x00000000#32 reduces_S256x10_S256 (.inl rfl) rfl)
      shapeCasts_S256_S256x1)) broadcasts_S256x1_S256x10)

theorem tail_apply (z : FVec Ideal S256x10 .f32) (p : Fin 256) (q : Fin 10) :
    tail z (ix2 p q) = lsm (fun l => z (ix2 p l)) q := by
  have hs : multiReduction .add [1] S256 (exp (subf z (bmax z))) 0x00000000#32 reduces_S256x10_S256 (.inl rfl) rfl (ix1 p)
      = ∑ l : Fin 10, Ideal.exp (z (ix2 p l) - rowMax (fun l => z (ix2 p l))) := by
    refine (Cert.LibRows.laneSum_apply _ _ _ _ _ p).trans (Finset.sum_congr rfl fun l _ => ?_)
    show Ideal.exp (z (ix2 p l) - bmax z (ix2 p l)) = _
    rw [bmax_apply]
  unfold tail lsm
  rw [subf_apply, subf_apply, bmax_apply, Cert.LibRows.broadcastTo_a1_ab_apply]
  show _ - Ideal.log (shapeCast S256x1 _ shapeCasts_S256_S256x1 (ix2 p (0 : Fin 1))) = _
  rw [Cert.LibRows.shapeCast_a_a1_apply, hs]

/-- The payload is the log-softmax of the logits. -/
theorem pay_eq (x0 : Vec Ideal S256x8192 .f32) (x1 : Vec Ideal S8192x10 .f32) (x2 : Vec Ideal S10 .f32) :
    Gen.k5_pay1 x0 x1 x2 = tail (logits x0 x1 x2) := rfl

/-- The payload at row `p`, lane `q` of the block: the log-softmax of the block's row of logits. -/
theorem pay_apply (x0 : Vec Ideal S256x8192 .f32) (x1 : Vec Ideal S8192x10 .f32) (x2 : Vec Ideal S10 .f32)
    (p : Fin 256) (q : Fin 10) : Gen.k5_pay1 x0 x1 x2 (ix2 p q) = lsm (logitRow x0 x1 x2 p) q := by
  rw [pay_eq, tail_apply]
  exact congrArg (fun z => lsm z q) (funext fun l => logits_apply x0 x1 x2 p l)

theorem hz2 : (![0, 0] : Fin 2 → Nat) = fun _ => 0 := funext fun a => by fin_cases a <;> rfl
theorem hz1 : (![0] : Fin 1 → Nat) = fun _ => 0 := funext fun a => by fin_cases a <;> rfl

theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

theorem mem_blk (t : Fin cfg5.N) (i : S8192x10.Idx) :
    i ∈ ((cfg5.win 3).blk t).view.set ↔ ∀ a : Fin 2, win5_3.index t a * S256x10.size a ≤ (i a).val ∧ (i a).val < win5_3.index t a * S256x10.size a + S256x10.size a := by
  show i ∈ ((View.whole main_v97).slice (win5_3.rect t)).set ↔ _
  rw [View.set_slice_whole, Rect.mem_set_unit]
  exact Iff.rfl

theorem cover (i : S8192x10.Idx) : ∃ t : Fin cfg5.N, (cfg5.win 3).flush t = true ∧ i ∈ ((cfg5.win 3).blk t).view.set := by
  have hi0 : (i 0).val < 8192 := (i 0).isLt
  have hi1 : (i 1).val < 10 := (i 1).isLt
  have hN : cfg5.N = 32 := Gen.N_5
  obtain ⟨t, ht⟩ : ∃ t : Fin cfg5.N, t.val = (i 0).val / 256 := ⟨⟨(i 0).val / 256, by rw [hN]; omega⟩, rfl⟩
  refine ⟨t, Gen.flush5_3 t, ?_⟩
  rw [mem_blk]
  obtain ⟨-, -, -, -, -, e0, e1⟩ := idx_facts t
  intro a
  match a with
  | ⟨0, _⟩ => show win5_3.index t (0 : Fin 2) * 256 ≤ (i 0).val ∧ (i 0).val < win5_3.index t (0 : Fin 2) * 256 + 256; omega
  | ⟨1, _⟩ => show win5_3.index t (1 : Fin 2) * 10 ≤ (i 1).val ∧ (i 1).val < win5_3.index t (1 : Fin 2) * 10 + 10; omega

/-! ## From the blocks to the array

Point `t` of the 32 works on rows `256 t … 256 t + 255`: its block of the activations is those rows, the weights and
the bias are whole, and it writes those rows of the result. Row `r` of the result therefore depends only on row `r`
of the activations. -/

/-- Two rows of logits agree when the activations' rows do and the weights and bias are the same. -/
theorem logitRow_congr {n m : ℕ} (x0 : (⟨2, ![n, 8192]⟩ : Shape).Idx → Ideal .f32) (X : (⟨2, ![m, 8192]⟩ : Shape).Idx → Ideal .f32)
    (x1 W : (⟨2, ![8192, 10]⟩ : Shape).Idx → Ideal .f32) (x2 b : (⟨1, ![10]⟩ : Shape).Idx → Ideal .f32) (p : Fin n) (r : Fin m)
    (h0 : ∀ k : Fin 8192, x0 (ix2 p k) = X (ix2 r k)) (h1 : x1 = W) (h2 : x2 = b) :
    logitRow x0 x1 x2 p = logitRow X W b r := by
  subst h1 h2
  funext l
  unfold logitRow
  exact congrArg (· + x2 (ix1 l)) (Finset.sum_congr rfl fun k _ => congrArg (· * x1 (ix2 k l)) (h0 k))

section
variable (V : (c : Dev nD) → (b : Ref sig .tc) → Buf (Elt Ideal) ((c : Thread nD τ).loc b)) (c : Dev nD)

/-- Point `t`'s block of the activations at `(p, k)` is the array at `(256 t + p, k)`. -/
theorem blk0_read (X : S8192x8192.Idx → Ideal .f32) (hX : V c (Pipeline.arrRef spec5 0) = X)
    (t : Fin cfg5.N) (p : Fin 256) (k : Fin 8192) (r : Fin 8192) (hr : r.val = t.val * 256 + p.val) :
    Gen.iblk5 V c 0 t (ix2 p k) = X (ix2 r k) := by
  obtain ⟨e0, e1, -⟩ := idx_facts t
  show V c (Pipeline.arrRef spec5 0) (((cfg5.win 0).blk t).view.emb (ix2 p k)) = X (ix2 r k)
  rw [hX]
  refine congrArg X (funext fun a => Fin.ext ?_)
  match a with
  | ⟨0, _⟩ => show win5_0.index t (0 : Fin 2) * 256 + 1 * p.val = r.val; omega
  | ⟨1, _⟩ => show win5_0.index t (1 : Fin 2) * 8192 + 1 * k.val = k.val; omega

/-- Every point's block of the weights is the whole array. -/
theorem blk1_read (W : S8192x10.Idx → Ideal .f32) (hW : V c (Pipeline.arrRef spec5 1) = W) (t : Fin cfg5.N) :
    Gen.iblk5 V c 1 t = W := by
  obtain ⟨-, -, e0, e1, -⟩ := idx_facts t
  funext y
  show V c (Pipeline.arrRef spec5 1) (((cfg5.win 1).blk t).view.emb y) = W y
  rw [hW]
  refine congrArg W (funext fun a => Fin.ext ?_)
  match a with
  | ⟨0, _⟩ => show win5_1.index t (0 : Fin 2) * 8192 + 1 * (y 0).val = (y 0).val; omega
  | ⟨1, _⟩ => show win5_1.index t (1 : Fin 2) * 10 + 1 * (y 1).val = (y 1).val; omega

/-- Every point's block of the bias is the whole array. -/
theorem blk2_read (b : S10.Idx → Ideal .f32) (hb : V c (Pipeline.arrRef spec5 2) = b) (t : Fin cfg5.N) :
    Gen.iblk5 V c 2 t = b := by
  obtain ⟨-, -, -, -, e0, -⟩ := idx_facts t
  funext y
  show V c (Pipeline.arrRef spec5 2) (((cfg5.win 2).blk t).view.emb y) = b y
  rw [hb]
  refine congrArg b (funext fun a => Fin.ext ?_)
  match a with
  | ⟨0, _⟩ => show win5_2.index t (0 : Fin 1) * 10 + 1 * (y 0).val = (y 0).val; omega

/-- What point `t` writes back is block `t` of any array `G` whose row `r` is the log-softmax of row `r` of logits. -/
theorem flushed_eq (X : S8192x8192.Idx → Ideal .f32) (W : S8192x10.Idx → Ideal .f32) (b : S10.Idx → Ideal .f32)
    (G : S8192x10.Idx → Ideal .f32)
    (hX : V c (Pipeline.arrRef spec5 0) = X) (hW : V c (Pipeline.arrRef spec5 1) = W) (hb : V c (Pipeline.arrRef spec5 2) = b)
    (hG : ∀ (r : Fin 8192) (q : Fin 10), G (ix2 r q) = lsm (logitRow X W b r) q) (t : Fin cfg5.N) :
    (Gen.dat5 (F := Ideal) V c).flushed 3 t = ((cfg5.win 3).blk t).view.read (Elt Ideal) G := by
  show (cfg5.win 3).cut (grid5.coords t) ((Gen.dat5 (F := Ideal) V c).after 3 t) = _
  rw [Gen.after5_3]
  unfold Gen.out5_3
  rw [View.canon_unit_zero hz2]
  simp only [View.ld_unit_zero (S := S256x8192) hz2, View.ld_unit_zero (S := S8192x10) hz2, View.ld_unit_zero (S := S10) hz1]
  funext j
  obtain ⟨p, q, rfl⟩ : ∃ (p : Fin 256) (q : Fin 10), j = ix2 p q := ⟨j 0, j 1, eq_ix2 j⟩
  have ht : t.val < 32 := lt_of_lt_of_eq t.isLt (show cfg5.N = 32 from Gen.N_5)
  obtain ⟨r, hr⟩ : ∃ r : Fin 8192, r.val = t.val * 256 + p.val := ⟨⟨t.val * 256 + p.val, by omega⟩, rfl⟩
  obtain ⟨-, -, -, -, -, e0, e1⟩ := idx_facts t
  have hemb : ((cfg5.win 3).blk t).view.emb (ix2 p q) = ix2 r q := funext fun a => Fin.ext (by
    match a with
    | ⟨0, _⟩ => show win5_3.index t (0 : Fin 2) * 256 + 1 * p.val = r.val; omega
    | ⟨1, _⟩ => show win5_3.index t (1 : Fin 2) * 10 + 1 * q.val = q.val; omega)
  show Gen.k5_pay1 (Gen.iblk5 V c 0 t) (Gen.iblk5 V c 1 t) (Gen.iblk5 V c 2 t) (ix2 p q) = G (((cfg5.win 3).blk t).view.emb (ix2 p q))
  rw [hemb, hG r q]
  refine (pay_apply (Gen.iblk5 V c 0 t) (Gen.iblk5 V c 1 t) (Gen.iblk5 V c 2 t) p q).trans ?_
  exact congrArg (fun z => lsm z q)
    (logitRow_congr (Gen.iblk5 V c 0 t) X (Gen.iblk5 V c 1 t) W (Gen.iblk5 V c 2 t) b p r
      (fun k => blk0_read V c X hX t p k r hr) (blk1_read V c W hW t) (blk2_read V c b hb t))

/-- The result array after the region is any such `G`: the 32 blocks of 256 rows cover the 8192 rows. -/
theorem arrAt_eq_of (X : S8192x8192.Idx → Ideal .f32) (W : S8192x10.Idx → Ideal .f32) (b : S10.Idx → Ideal .f32)
    (G : S8192x10.Idx → Ideal .f32)
    (hX : V c (Pipeline.arrRef spec5 0) = X) (hW : V c (Pipeline.arrRef spec5 1) = W) (hb : V c (Pipeline.arrRef spec5 2) = b)
    (hG : ∀ (r : Fin 8192) (q : Fin 10), G (ix2 r q) = lsm (logitRow X W b r) q) :
    (Gen.dat5 (F := Ideal) V c).arrAt 3 cfg5.N = G :=
  (Gen.dat5 (F := Ideal) V c).arrAt_eq_of_cover 3 G (fun t _ => flushed_eq V c X W b G hX hW hb hG t) cover

end

/-! ## The reference's result at an index -/

/-- The reference's logits at row `r`: the product's sum over the contracted coordinate, plus the bias. -/
theorem ref_logits_apply
    (x0 : (⟨Cert.ReferenceIdeal.S30000x128, .f32⟩ : BufTy).Contents (Elt Ideal))
    (x1 : (⟨Cert.ReferenceIdeal.S480000x64, .f32⟩ : BufTy).Contents (Elt Ideal))
    (x2 x3 : (⟨Cert.ReferenceIdeal.S480000, .i32⟩ : BufTy).Contents (Elt Ideal))
    (x4 : (⟨Cert.ReferenceIdeal.S8192, .i32⟩ : BufTy).Contents (Elt Ideal))
    (x5 : (⟨Cert.ReferenceIdeal.S128, .i32⟩ : BufTy).Contents (Elt Ideal))
    (x6 : (⟨Cert.ReferenceIdeal.S1048576x64, .f32⟩ : BufTy).Contents (Elt Ideal))
    (x7 : (⟨Cert.ReferenceIdeal.S8192x128, .i1⟩ : BufTy).Contents (Elt Ideal))
    (x8 : (⟨Cert.ReferenceIdeal.S192x128, .f32⟩ : BufTy).Contents (Elt Ideal))
    (x9 : (⟨Cert.ReferenceIdeal.S128, .f32⟩ : BufTy).Contents (Elt Ideal))
    (x10 : (⟨Cert.ReferenceIdeal.S256x256, .f32⟩ : BufTy).Contents (Elt Ideal))
    (x11 : (⟨Cert.ReferenceIdeal.S256, .f32⟩ : BufTy).Contents (Elt Ideal))
    (x12 : (⟨Cert.ReferenceIdeal.S384x64, .f32⟩ : BufTy).Contents (Elt Ideal))
    (x13 : (⟨Cert.ReferenceIdeal.S64, .f32⟩ : BufTy).Contents (Elt Ideal))
    (x14 : (⟨Cert.ReferenceIdeal.S320x256, .f32⟩ : BufTy).Contents (Elt Ideal))
    (x15 : (⟨Cert.ReferenceIdeal.S256, .f32⟩ : BufTy).Contents (Elt Ideal))
    (x16 : (⟨Cert.ReferenceIdeal.S128x256, .f32⟩ : BufTy).Contents (Elt Ideal))
    (x17 x18 x19 x20 : (⟨Cert.ReferenceIdeal.S256x256, .f32⟩ : BufTy).Contents (Elt Ideal))
    (x21 : (⟨Cert.ReferenceIdeal.S256, .f32⟩ : BufTy).Contents (Elt Ideal))
    (x22 x23 : (⟨Cert.ReferenceIdeal.S256x64, .f32⟩ : BufTy).Contents (Elt Ideal))
    (x24 : (⟨Cert.ReferenceIdeal.S64, .f32⟩ : BufTy).Contents (Elt Ideal))
    (x25 : (⟨Cert.ReferenceIdeal.S8192x10, .f32⟩ : BufTy).Contents (Elt Ideal))
    (x26 : (⟨Cert.ReferenceIdeal.S10, .f32⟩ : BufTy).Contents (Elt Ideal))
    (r : Fin 8192) (l : Fin 10) :
    Cert.ReferenceIdeal.Read.val_main_v146 (F := Ideal) x0 x1 x2 x3 x4 x5 x6 x7 x8 x9 x10 x11 x12 x13 x14 x15 x16 x17 x18 x19 x20 x21 x22 x23 x24 x25 x26 (ix2 r l)
      = logitRow (Cert.ReferenceIdeal.Read.val_main_v142 (F := Ideal) x0 x1 x2 x3 x4 x5 x6 x7 x8 x9 x10 x11 x12 x13 x14 x15 x16 x17 x18 x19 x20 x21 x22 x23 x24) x25 x26 r l := by
  unfold logitRow
  rw [Cert.ReferenceIdeal.Read.val_main_v146_apply, Cert.ReferenceIdeal.Read.val_main_v143_apply, Cert.ReferenceIdeal.Read.val_main_v145_apply, Cert.ReferenceIdeal.Read.val_main_v144_apply]
  generalize Cert.ReferenceIdeal.Read.val_main_v142 (F := Ideal) x0 x1 x2 x3 x4 x5 x6 x7 x8 x9 x10 x11 x12 x13 x14 x15 x16 x17 x18 x19 x20 x21 x22 x23 x24 = X
  refine congrArg₂ (· + ·) (Finset.sum_congr rfl fun k _ => ?_) ?_
  · refine congrArg₂ (· * ·) (congrArg X ?_) (congrArg x25 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x26 (funext fun a => Fin.ext (by match a with | ⟨0, _⟩ => rfl))

/-- The reference's result at row `r`, lane `q`: the log-softmax of row `r` of its logits — the row maximum read as the
    fold of `max` from `-∞`, the lane sum of the exponentials as a finite sum from zero. -/
theorem ref_apply
    (x0 : (⟨Cert.ReferenceIdeal.S30000x128, .f32⟩ : BufTy).Contents (Elt Ideal))
    (x1 : (⟨Cert.ReferenceIdeal.S480000x64, .f32⟩ : BufTy).Contents (Elt Ideal))
    (x2 x3 : (⟨Cert.ReferenceIdeal.S480000, .i32⟩ : BufTy).Contents (Elt Ideal))
    (x4 : (⟨Cert.ReferenceIdeal.S8192, .i32⟩ : BufTy).Contents (Elt Ideal))
    (x5 : (⟨Cert.ReferenceIdeal.S128, .i32⟩ : BufTy).Contents (Elt Ideal))
    (x6 : (⟨Cert.ReferenceIdeal.S1048576x64, .f32⟩ : BufTy).Contents (Elt Ideal))
    (x7 : (⟨Cert.ReferenceIdeal.S8192x128, .i1⟩ : BufTy).Contents (Elt Ideal))
    (x8 : (⟨Cert.ReferenceIdeal.S192x128, .f32⟩ : BufTy).Contents (Elt Ideal))
    (x9 : (⟨Cert.ReferenceIdeal.S128, .f32⟩ : BufTy).Contents (Elt Ideal))
    (x10 : (⟨Cert.ReferenceIdeal.S256x256, .f32⟩ : BufTy).Contents (Elt Ideal))
    (x11 : (⟨Cert.ReferenceIdeal.S256, .f32⟩ : BufTy).Contents (Elt Ideal))
    (x12 : (⟨Cert.ReferenceIdeal.S384x64, .f32⟩ : BufTy).Contents (Elt Ideal))
    (x13 : (⟨Cert.ReferenceIdeal.S64, .f32⟩ : BufTy).Contents (Elt Ideal))
    (x14 : (⟨Cert.ReferenceIdeal.S320x256, .f32⟩ : BufTy).Contents (Elt Ideal))
    (x15 : (⟨Cert.ReferenceIdeal.S256, .f32⟩ : BufTy).Contents (Elt Ideal))
    (x16 : (⟨Cert.ReferenceIdeal.S128x256, .f32⟩ : BufTy).Contents (Elt Ideal))
    (x17 x18 x19 x20 : (⟨Cert.ReferenceIdeal.S256x256, .f32⟩ : BufTy).Contents (Elt Ideal))
    (x21 : (⟨Cert.ReferenceIdeal.S256, .f32⟩ : BufTy).Contents (Elt Ideal))
    (x22 x23 : (⟨Cert.ReferenceIdeal.S256x64, .f32⟩ : BufTy).Contents (Elt Ideal))
    (x24 : (⟨Cert.ReferenceIdeal.S64, .f32⟩ : BufTy).Contents (Elt Ideal))
    (x25 : (⟨Cert.ReferenceIdeal.S8192x10, .f32⟩ : BufTy).Contents (Elt Ideal))
    (x26 : (⟨Cert.ReferenceIdeal.S10, .f32⟩ : BufTy).Contents (Elt Ideal))
    (r : Fin 8192) (q : Fin 10) :
    Cert.ReferenceIdeal.Read.val_main_v147 (F := Ideal) x0 x1 x2 x3 x4 x5 x6 x7 x8 x9 x10 x11 x12 x13 x14 x15 x16 x17 x18 x19 x20 x21 x22 x23 x24 x25 x26 (ix2 r q)
      = lsm (logitRow (Cert.ReferenceIdeal.Read.val_main_v142 (F := Ideal) x0 x1 x2 x3 x4 x5 x6 x7 x8 x9 x10 x11 x12 x13 x14 x15 x16 x17 x18 x19 x20 x21 x22 x23 x24) x25 x26 r) q := by
  have hz : (fun l : Fin 10 => Cert.ReferenceIdeal.Read.val_main_v146 (F := Ideal) x0 x1 x2 x3 x4 x5 x6 x7 x8 x9 x10 x11 x12 x13 x14 x15 x16 x17 x18 x19 x20 x21 x22 x23 x24 x25 x26 (ix2 r l))
      = logitRow (Cert.ReferenceIdeal.Read.val_main_v142 (F := Ideal) x0 x1 x2 x3 x4 x5 x6 x7 x8 x9 x10 x11 x12 x13 x14 x15 x16 x17 x18 x19 x20 x21 x22 x23 x24) x25 x26 r :=
    funext fun l => ref_logits_apply x0 x1 x2 x3 x4 x5 x6 x7 x8 x9 x10 x11 x12 x13 x14 x15 x16 x17 x18 x19 x20 x21 x22 x23 x24 x25 x26 r l
  rw [← hz]
  -- the row maximum
  have hM : ∀ i : Cert.ReferenceIdeal.S8192x10.Idx, (i 0) = r →
      Cert.ReferenceIdeal.Read.val_main_call6_v4 (F := Ideal) x0 x1 x2 x3 x4 x5 x6 x7 x8 x9 x10 x11 x12 x13 x14 x15 x16 x17 x18 x19 x20 x21 x22 x23 x24 x25 x26 i
        = rowMax (fun l : Fin 10 => Cert.ReferenceIdeal.Read.val_main_v146 (F := Ideal) x0 x1 x2 x3 x4 x5 x6 x7 x8 x9 x10 x11 x12 x13 x14 x15 x16 x17 x18 x19 x20 x21 x22 x23 x24 x25 x26 (ix2 r l)) := by
    intro i hi
    rw [Cert.ReferenceIdeal.Read.val_main_call6_v4_apply, Cert.ReferenceIdeal.Read.val_main_call6_v3_apply, Cert.ReferenceIdeal.Read.val_main_call6_v2_apply, Cert.ReferenceIdeal.Read.val_main_call6_v1_apply]
    have e : Cert.ReferenceIdeal.Read.idx_main_call6_v3 (Cert.ReferenceIdeal.Read.idx_main_call6_v4 i) = ix1 r :=
      funext fun a => by match a with | ⟨0, _⟩ => exact Fin.ext (congrArg Fin.val hi)
    rw [e]
    unfold Cert.ReferenceIdeal.Read.val_main_call6_v0 rowMax
    generalize Cert.ReferenceIdeal.Read.val_main_v146 (F := Ideal) x0 x1 x2 x3 x4 x5 x6 x7 x8 x9 x10 x11 x12 x13 x14 x15 x16 x17 x18 x19 x20 x21 x22 x23 x24 x25 x26 = Z
    refine congrArg₂ max rfl ?_
    exact Cert.LibRows.hostLaneMax_apply Z _ _ (by decide) _ r
  -- the shifted logits
  have h5 : ∀ l : Fin 10, Cert.ReferenceIdeal.Read.val_main_call6_v5 (F := Ideal) x0 x1 x2 x3 x4 x5 x6 x7 x8 x9 x10 x11 x12 x13 x14 x15 x16 x17 x18 x19 x20 x21 x22 x23 x24 x25 x26 (ix2 r l)
      = Cert.ReferenceIdeal.Read.val_main_v146 (F := Ideal) x0 x1 x2 x3 x4 x5 x6 x7 x8 x9 x10 x11 x12 x13 x14 x15 x16 x17 x18 x19 x20 x21 x22 x23 x24 x25 x26 (ix2 r l)
        - rowMax (fun l : Fin 10 => Cert.ReferenceIdeal.Read.val_main_v146 (F := Ideal) x0 x1 x2 x3 x4 x5 x6 x7 x8 x9 x10 x11 x12 x13 x14 x15 x16 x17 x18 x19 x20 x21 x22 x23 x24 x25 x26 (ix2 r l)) := by
    intro l
    rw [Cert.ReferenceIdeal.Read.val_main_call6_v5_apply, hM (ix2 r l) rfl]
    rfl
  -- the lane sum of their exponentials
  have h7 : Cert.ReferenceIdeal.Read.val_main_call6_v7 (F := Ideal) x0 x1 x2 x3 x4 x5 x6 x7 x8 x9 x10 x11 x12 x13 x14 x15 x16 x17 x18 x19 x20 x21 x22 x23 x24 x25 x26 (ix1 r)
      = ∑ l : Fin 10, Ideal.exp (Cert.ReferenceIdeal.Read.val_main_v146 (F := Ideal) x0 x1 x2 x3 x4 x5 x6 x7 x8 x9 x10 x11 x12 x13 x14 x15 x16 x17 x18 x19 x20 x21 x22 x23 x24 x25 x26 (ix2 r l)
        - rowMax (fun l : Fin 10 => Cert.ReferenceIdeal.Read.val_main_v146 (F := Ideal) x0 x1 x2 x3 x4 x5 x6 x7 x8 x9 x10 x11 x12 x13 x14 x15 x16 x17 x18 x19 x20 x21 x22 x23 x24 x25 x26 (ix2 r l))) := by
    rw [Cert.ReferenceIdeal.Read.val_main_call6_v7_apply]
    refine (congrArg (· + _) (show Cert.ReferenceIdeal.Read.val_main_call6_cst_1 (F := Ideal) _ = 0 from Ideal.ofBits_zero_f32)).trans ((zero_add _).trans ?_)
    refine Finset.sum_congr rfl fun l _ => ?_
    have e : Cert.ReferenceIdeal.Read.idx_main_call6_v7 (ix1 r) l = ix2 r l :=
      funext fun a => Fin.ext (by match a with | ⟨0, _⟩ => rfl | ⟨1, _⟩ => rfl)
    rw [e, Cert.ReferenceIdeal.Read.val_main_call6_v6_apply, h5 l]
    rfl
  rw [Cert.ReferenceIdeal.Read.val_main_v147_apply, h5 q, Cert.ReferenceIdeal.Read.val_main_call6_v10_apply, Cert.ReferenceIdeal.Read.val_main_call6_v9_apply, Cert.ReferenceIdeal.Read.val_main_call6_v8_apply]
  have e : Cert.ReferenceIdeal.Read.idx_main_call6_v8 (Cert.ReferenceIdeal.Read.idx_main_call6_v10 (ix2 r q)) = ix1 r :=
    funext fun a => by match a with | ⟨0, _⟩ => rfl
  rw [e, h7]
  rfl

/-! ## The region's result is the reference's -/

/-- The classifier region leaves in its output array the reference's log-softmax stage, when it finds the reference's
    activations, the weights and the bias in its three input arrays. -/
theorem arr_eq
    (V : (c : Dev nD) → (b : Ref sig .tc) → Buf (Elt Ideal) ((c : Thread nD τ).loc b)) (c : Dev nD)
    (x0 : (⟨Cert.ReferenceIdeal.S30000x128, .f32⟩ : BufTy).Contents (Elt Ideal))
    (x1 : (⟨Cert.ReferenceIdeal.S480000x64, .f32⟩ : BufTy).Contents (Elt Ideal))
    (x2 x3 : (⟨Cert.ReferenceIdeal.S480000, .i32⟩ : BufTy).Contents (Elt Ideal))
    (x4 : (⟨Cert.ReferenceIdeal.S8192, .i32⟩ : BufTy).Contents (Elt Ideal))
    (x5 : (⟨Cert.ReferenceIdeal.S128, .i32⟩ : BufTy).Contents (Elt Ideal))
    (x6 : (⟨Cert.ReferenceIdeal.S1048576x64, .f32⟩ : BufTy).Contents (Elt Ideal))
    (x7 : (⟨Cert.ReferenceIdeal.S8192x128, .i1⟩ : BufTy).Contents (Elt Ideal))
    (x8 : (⟨Cert.ReferenceIdeal.S192x128, .f32⟩ : BufTy).Contents (Elt Ideal))
    (x9 : (⟨Cert.ReferenceIdeal.S128, .f32⟩ : BufTy).Contents (Elt Ideal))
    (x10 : (⟨Cert.ReferenceIdeal.S256x256, .f32⟩ : BufTy).Contents (Elt Ideal))
    (x11 : (⟨Cert.ReferenceIdeal.S256, .f32⟩ : BufTy).Contents (Elt Ideal))
    (x12 : (⟨Cert.ReferenceIdeal.S384x64, .f32⟩ : BufTy).Contents (Elt Ideal))
    (x13 : (⟨Cert.ReferenceIdeal.S64, .f32⟩ : BufTy).Contents (Elt Ideal))
    (x14 : (⟨Cert.ReferenceIdeal.S320x256, .f32⟩ : BufTy).Contents (Elt Ideal))
    (x15 : (⟨Cert.ReferenceIdeal.S256, .f32⟩ : BufTy).Contents (Elt Ideal))
    (x16 : (⟨Cert.ReferenceIdeal.S128x256, .f32⟩ : BufTy).Contents (Elt Ideal))
    (x17 x18 x19 x20 : (⟨Cert.ReferenceIdeal.S256x256, .f32⟩ : BufTy).Contents (Elt Ideal))
    (x21 : (⟨Cert.ReferenceIdeal.S256, .f32⟩ : BufTy).Contents (Elt Ideal))
    (x22 x23 : (⟨Cert.ReferenceIdeal.S256x64, .f32⟩ : BufTy).Contents (Elt Ideal))
    (x24 : (⟨Cert.ReferenceIdeal.S64, .f32⟩ : BufTy).Contents (Elt Ideal))
    (x25 : (⟨Cert.ReferenceIdeal.S8192x10, .f32⟩ : BufTy).Contents (Elt Ideal))
    (x26 : (⟨Cert.ReferenceIdeal.S10, .f32⟩ : BufTy).Contents (Elt Ideal))
    (h0 : V c (Pipeline.arrRef spec5 0) = Cert.ReferenceIdeal.Read.val_main_v142 (F := Ideal) x0 x1 x2 x3 x4 x5 x6 x7 x8 x9 x10 x11 x12 x13 x14 x15 x16 x17 x18 x19 x20 x21 x22 x23 x24)
    (h1 : V c (Pipeline.arrRef spec5 1) = x25)
    (h2 : V c (Pipeline.arrRef spec5 2) = x26) :
    (Cert.KernelIdeal.Gen.dat5 (F := Ideal) V c).arrAt 3 cfg5.N
      = Cert.ReferenceIdeal.Read.val_main_v147 (F := Ideal) x0 x1 x2 x3 x4 x5 x6 x7 x8 x9 x10 x11 x12 x13 x14 x15 x16 x17 x18 x19 x20 x21 x22 x23 x24 x25 x26 :=
  arrAt_eq_of V c (Cert.ReferenceIdeal.Read.val_main_v142 (F := Ideal) x0 x1 x2 x3 x4 x5 x6 x7 x8 x9 x10 x11 x12 x13 x14 x15 x16 x17 x18 x19 x20 x21 x22 x23 x24) x25 x26
    (Cert.ReferenceIdeal.Read.val_main_v147 (F := Ideal) x0 x1 x2 x3 x4 x5 x6 x7 x8 x9 x10 x11 x12 x13 x14 x15 x16 x17 x18 x19 x20 x21 x22 x23 x24 x25 x26) h0 h1 h2
    (fun r q => ref_apply x0 x1 x2 x3 x4 x5 x6 x7 x8 x9 x10 x11 x12 x13 x14 x15 x16 x17 x18 x19 x20 x21 x22 x23 x24 x25 x26 r q)

end Cert.KernelIdeal.Cls

end
-- ==== Proof.LibAfter.lean ====
/-
  The contents after a line of host operations, for a line that is two lines one after the other: folding the
  operations' results over an appended list is folding over the first part and then, from there, over the second.
-/
import Idealize.ShloMosaic.Lib.StableHlo.Run

namespace Cert.LibAfter

open Idealize.ShloMosaic Idealize.ShloMosaic.StableHlo

/-- The fold of a line's results over `l₁ ++ l₂` is the fold over `l₂` from the fold over `l₁`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

end Cert.LibAfter
-- ==== Proof.ChainB.lean ====
/-
  The idealized kernel's buffers at the boundaries of @main's segments, from the fourth region's exit to the return.
  The long stretch before the fifth region computes, by the reference's own operations, the row projections of the
  second layer's node features and the column projections of the attended column features; it also reshapes `real` and
  widens the mask's bits to words. The fifth region then leaves the predictions and the imputed values, the two reshapes
  after it are the reference's, and the sixth region leaves the row-wise log-softmax of the classifier's logits. So the
  two results at the last boundary are the reference's two result stages of the launch contents.
-/
import proofs.«102082_j26070451487322_2_alg».proof.Proof.Chain
import proofs.«102082_j26070451487322_2_alg».proof.Proof.Pred
import proofs.«102082_j26070451487322_2_alg».proof.Proof.Cls
import proofs.«102082_j26070451487322_2_alg».proof.Proof.LibAfter

set_option maxRecDepth 16384
set_option maxHeartbeats 4000000

noncomputable section

namespace Cert.KernelIdeal.Chain

open Idealize.ShloMosaic Idealize.ShloMosaic.TcCoe Idealize.SL.Sem Idealize.ShloMosaic.StableHlo
open Idealize.ShloMosaic.Pipeline (Dat Cfg Window)
open Cert.KernelIdeal Cert.KernelIdeal.Gen
open Cert.ReferenceIdeal.Read (val_main_v44 val_main_v82 val_main_v89 val_main_v90 val_main_v93 val_main_v97 val_main_v104 val_main_v122 val_main_v124 val_main_v136 val_main_v137 val_main_v141 val_main_v142 val_main_v147)

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)
local notation "x13" => m ((c : Thread nD τ).loc main_arg13)
local notation "x14" => m ((c : Thread nD τ).loc main_arg14)
local notation "x15" => m ((c : Thread nD τ).loc main_arg15)
local notation "x16" => m ((c : Thread nD τ).loc main_arg16)
local notation "x17" => m ((c : Thread nD τ).loc main_arg17)
local notation "x18" => m ((c : Thread nD τ).loc main_arg18)
local notation "x19" => m ((c : Thread nD τ).loc main_arg19)
local notation "x20" => m ((c : Thread nD τ).loc main_arg20)
local notation "x21" => m ((c : Thread nD τ).loc main_arg21)
local notation "x22" => m ((c : Thread nD τ).loc main_arg22)
local notation "x23" => m ((c : Thread nD τ).loc main_arg23)
local notation "x24" => m ((c : Thread nD τ).loc main_arg24)
local notation "x25" => m ((c : Thread nD τ).loc main_arg25)
local notation "x26" => m ((c : Thread nD τ).loc main_arg26)

theorem in4_2 : W10 m ρ c (Proc.devRef .tc main_arg24) = W9 m ρ c (Proc.devRef .tc main_arg24) :=
  (W10_arr m ρ c 2).trans (((dat4 (V9 m ρ) c).arrAt_in 2 rfl _).trans (A_eq4 (V9 m ρ) c 2))
theorem in5_1 : W12 m ρ c (Proc.devRef .tc main_arg25) = W11 m ρ c (Proc.devRef .tc main_arg25) :=
  (W12_arr m ρ c 1).trans (((dat5 (V11 m ρ) c).arrAt_in 1 rfl _).trans (A_eq5 (V11 m ρ) c 1))
theorem in5_2 : W12 m ρ c (Proc.devRef .tc main_arg26) = W11 m ρ c (Proc.devRef .tc main_arg26) :=
  (W12_arr m ρ c 2).trans (((dat5 (V11 m ρ) c).arrAt_in 2 rfl _).trans (A_eq5 (V11 m ρ) c 2))

/-- Walk a buffer that nothing in between writes back through the segments. -/
macro "walk2" : tactic => `(tactic| repeat (first
    | (rw [W12_of_ne]; rotate_left; decide)
    | (rw [W10_of_ne]; rotate_left; decide)
    | (rw [W8_of_ne]; rotate_left; decide)
    | (rw [W6_of_ne]; rotate_left; decide)
    | (rw [W4_of_ne]; rotate_left; decide)
    | (rw [W2_of_ne]; rotate_left; decide)
    | rw [in0_1]
    | rw [in0_2]
    | rw [in1_1]
    | rw [in1_2]
    | rw [in2_1]
    | rw [in2_2]
    | rw [in3_1]
    | rw [in3_2]
    | rw [in4_2]
    | rw [in5_1]
    | rw [in5_2]
    | (show StableHlo.after hostOps5 (W10 _ _ _) _ = _; after_results)
    | (show StableHlo.after hostOps4 (W8 _ _ _) _ = _; after_results)
    | (show StableHlo.after hostOps3 (W6 _ _ _) _ = _; after_results)
    | (show StableHlo.after hostOps2 (W4 _ _ _) _ = _; after_results)
    | (show StableHlo.after hostOps1 (W2 _ _ _) _ = _; after_results)
    | (show StableHlo.after hostOps0 (W0 _ _ _) _ = _; after_results)))

/-! ## The arguments where the last segments read them -/

theorem a8_4 : W8 m ρ c (Proc.devRef .tc main_arg4) = x4 := by walk2
theorem a8_6 : W8 m ρ c (Proc.devRef .tc main_arg6) = x6 := by walk2
theorem a8_7 : W8 m ρ c (Proc.devRef .tc main_arg7) = x7 := by walk2
theorem a8_16 : W8 m ρ c (Proc.devRef .tc main_arg16) = x16 := by walk2
theorem a8_17 : W8 m ρ c (Proc.devRef .tc main_arg17) = x17 := by walk2
theorem a8_18 : W8 m ρ c (Proc.devRef .tc main_arg18) = x18 := by walk2
theorem a8_19 : W8 m ρ c (Proc.devRef .tc main_arg19) = x19 := by walk2
theorem a8_20 : W8 m ρ c (Proc.devRef .tc main_arg20) = x20 := by walk2
theorem a8_21 : W8 m ρ c (Proc.devRef .tc main_arg21) = x21 := by walk2
theorem a8_22 : W8 m ρ c (Proc.devRef .tc main_arg22) = x22 := by walk2
theorem a8_23 : W8 m ρ c (Proc.devRef .tc main_arg23) = x23 := by walk2
theorem a9_24 : W9 m ρ c (Proc.devRef .tc main_arg24) = x24 := by walk2
theorem a11_25 : W11 m ρ c (Proc.devRef .tc main_arg25) = x25 := by walk2
theorem a11_26 : W11 m ρ c (Proc.devRef .tc main_arg26) = x26 := by walk2

/-! ## The long stretch before the fifth region, in four parts

The stretch is read in four consecutive parts so that a value several later operations read — the column features plus
the position table, the scaled scores, the exponentials — is named once at the end of its part instead of being
recomputed at every use. -/

section Parts

variable {F : FTy → Type} [FloatOps F]

/-- The row gather and the column features plus the position table. -/
abbrev h4A : List (HloOp τ sig (Elt F)) :=
  ( StableHlo.nullary main_c_12 (constantI S_ 32 0#32)
  :: StableHlo.unary main_c_12 main_v51 (broadcastInDim S8192 ![] bcast_S_S8192 : (⟨S_, .i32⟩ : BufTy).Contents (Elt F) → (⟨S8192, .i32⟩ : BufTy).Contents (Elt F))
  :: StableHlo.binary main_arg4 main_v51 main_v52 (cmpi .slt : (⟨S8192, .i32⟩ : BufTy).Contents (Elt F) → (⟨S8192, .i32⟩ : BufTy).Contents (Elt F) → (⟨S8192, .i1⟩ : BufTy).Contents (Elt F))
  :: StableHlo.nullary main_c_13 (constantI S_ 32 30000#32)
  :: StableHlo.unary main_c_13 main_v53 (broadcastInDim S8192 ![] bcast_S_S8192 : (⟨S_, .i32⟩ : BufTy).Contents (Elt F) → (⟨S8192, .i32⟩ : BufTy).Contents (Elt F))
  :: StableHlo.binary main_arg4 main_v53 main_v54 (addi : (⟨S8192, .i32⟩ : BufTy).Contents (Elt F) → (⟨S8192, .i32⟩ : BufTy).Contents (Elt F) → (⟨S8192, .i32⟩ : BufTy).Contents (Elt F))
  :: StableHlo.ternary main_v52 main_v54 main_arg4 main_v55 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v55 main_v56 (broadcastInDim S8192x1 ![0] bcast_S8192_S8192x1_0 : (⟨S8192, .i32⟩ : BufTy).Contents (Elt F) → (⟨S8192x1, .i32⟩ : BufTy).Contents (Elt F))
  :: StableHlo.binary main_v50 main_v56 main_v57 ((fun x i => Host.gather gather_S30000x256_S8192x1_S8192x256_1_0_n_n_0_1_1256 x i) : (⟨S30000x256, .f32⟩ : BufTy).Contents (Elt F) → (⟨S8192x1, .i32⟩ : BufTy).Contents (Elt F) → (⟨S8192x256, .f32⟩ : BufTy).Contents (Elt F))
  :: StableHlo.binary main_v28 main_arg16 main_v58 (addf : (⟨S128x256, .f32⟩ : BufTy).Contents (Elt F) → (⟨S128x256, .f32⟩ : BufTy).Contents (Elt F) → (⟨S128x256, .f32⟩ : BufTy).Contents (Elt F))
  :: [] )

/-- Queries, keys, values and the scaled scores. -/
abbrev h4B : List (HloOp τ sig (Elt F)) :=
  ( StableHlo.binary main_v58 main_arg17 main_v59 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F))
  :: StableHlo.binary main_v58 main_arg18 main_v60 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F))
  :: StableHlo.binary main_v58 main_arg19 main_v61 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F))
  :: StableHlo.unary main_v60 main_v62 ((transpose S256x128 [1, 0] · transposes_S128x256_S256x128_1_0) : (⟨S128x256, .f32⟩ : BufTy).Contents (Elt F) → (⟨S256x128, .f32⟩ : BufTy).Contents (Elt F))
  :: StableHlo.binary main_v59 main_v62 main_v63 ((fun l r => Host.dotGeneral dot_S128x256_S256x128_S128x128_1_0_0_1_n_n none l r) : (⟨S128x256, .f32⟩ : BufTy).Contents (Elt F) → (⟨S256x128, .f32⟩ : BufTy).Contents (Elt F) → (⟨S128x128, .f32⟩ : BufTy).Contents (Elt F))
  :: StableHlo.nullary main_cst_14 (constant S_ .f32 0x3D800000#32)
  :: StableHlo.unary main_cst_14 main_v64 (broadcastInDim S128x128 ![] bcast_S_S128x128 : (⟨S_, .f32⟩ : BufTy).Contents (Elt F) → (⟨S128x128, .f32⟩ : BufTy).Contents (Elt F))
  :: StableHlo.binary main_v63 main_v64 main_v65 (mulf : (⟨S128x128, .f32⟩ : BufTy).Contents (Elt F) → (⟨S128x128, .f32⟩ : BufTy).Contents (Elt F) → (⟨S128x128, .f32⟩ : BufTy).Contents (Elt F))
  :: [] )

/-- The scores less their row maxima, exponentiated. -/
abbrev h4C : List (HloOp τ sig (Elt F)) :=
  ( StableHlo.nullary main_cst_15 (constant S_ .f32 0xFF800000#32)
  :: StableHlo.binary main_v65 main_cst_15 main_v66 ((fun x v => Host.reduce FloatOps.maximumf x v reducesTo_S128x128_S128_d1 h_S_) : (⟨S128x128, .f32⟩ : BufTy).Contents (Elt F) → (⟨S_, .f32⟩ : BufTy).Contents (Elt F) → (⟨S128, .f32⟩ : BufTy).Contents (Elt F))
  :: StableHlo.nullary main_cst_16 (constant S_ .f32 0xFF800000#32)
  :: StableHlo.unary main_cst_16 main_v67 (broadcastInDim S128 ![] bcast_S_S128 : (⟨S_, .f32⟩ : BufTy).Contents (Elt F) → (⟨S128, .f32⟩ : BufTy).Contents (Elt F))
  :: StableHlo.binary main_v67 main_v66 main_v68 (maximumf : (⟨S128, .f32⟩ : BufTy).Contents (Elt F) → (⟨S128, .f32⟩ : BufTy).Contents (Elt F) → (⟨S128, .f32⟩ : BufTy).Contents (Elt F))
  :: StableHlo.unary main_v68 main_v69 (broadcastInDim S128x1 ![0] bcast_S128_S128x1_0 : (⟨S128, .f32⟩ : BufTy).Contents (Elt F) → (⟨S128x1, .f32⟩ : BufTy).Contents (Elt F))
  :: StableHlo.unary main_v69 main_v70 (broadcastInDim S128x128 ![0, 1] bcast_S128x1_S128x128_0_1 : (⟨S128x1, .f32⟩ : BufTy).Contents (Elt F) → (⟨S128x128, .f32⟩ : BufTy).Contents (Elt F))
  :: StableHlo.binary main_v65 main_v70 main_v71 (subf : (⟨S128x128, .f32⟩ : BufTy).Contents (Elt F) → (⟨S128x128, .f32⟩ : BufTy).Contents (Elt F) → (⟨S128x128, .f32⟩ : BufTy).Contents (Elt F))
  :: StableHlo.unary main_v71 main_v72 (Host.exp : (⟨S128x128, .f32⟩ : BufTy).Contents (Elt F) → (⟨S128x128, .f32⟩ : BufTy).Contents (Elt F))
  :: [] )

/-- The normalisation, the weighted values, the refinement, the two projections, the reshape and the widened mask. -/
abbrev h4D : List (HloOp τ sig (Elt F)) :=
  ( StableHlo.nullary main_cst_17 (constant S_ .f32 0x00000000#32)
  :: StableHlo.binary main_v72 main_cst_17 main_v73 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F))
  :: StableHlo.unary main_v73 main_v74 (broadcastInDim S128x1 ![0] bcast_S128_S128x1_0 : (⟨S128, .f32⟩ : BufTy).Contents (Elt F) → (⟨S128x1, .f32⟩ : BufTy).Contents (Elt F))
  :: StableHlo.unary main_v74 main_v75 (broadcastInDim S128x128 ![0, 1] bcast_S128x1_S128x128_0_1 : (⟨S128x1, .f32⟩ : BufTy).Contents (Elt F) → (⟨S128x128, .f32⟩ : BufTy).Contents (Elt F))
  :: StableHlo.binary main_v72 main_v75 main_v76 (Host.divf : (⟨S128x128, .f32⟩ : BufTy).Contents (Elt F) → (⟨S128x128, .f32⟩ : BufTy).Contents (Elt F) → (⟨S128x128, .f32⟩ : BufTy).Contents (Elt F))
  :: StableHlo.binary main_v76 main_v61 main_v77 ((fun l r => Host.dotGeneral dot_S128x128_S128x256_S128x256_1_0_0_1_n_n none l r) : (⟨S128x128, .f32⟩ : BufTy).Contents (Elt F) → (⟨S128x256, .f32⟩ : BufTy).Contents (Elt F) → (⟨S128x256, .f32⟩ : BufTy).Contents (Elt F))
  :: StableHlo.nullary main_cst_18 (constant S_ .f32 0x40000000#32)
  :: StableHlo.unary main_cst_18 main_v78 (broadcastInDim S128x256 ![] bcast_S_S128x256 : (⟨S_, .f32⟩ : BufTy).Contents (Elt F) → (⟨S128x256, .f32⟩ : BufTy).Contents (Elt F))
  :: StableHlo.binary main_v78 main_v77 main_v79 (mulf : (⟨S128x256, .f32⟩ : BufTy).Contents (Elt F) → (⟨S128x256, .f32⟩ : BufTy).Contents (Elt F) → (⟨S128x256, .f32⟩ : BufTy).Contents (Elt F))
  :: StableHlo.binary main_v79 main_arg20 main_v80 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F))
  :: StableHlo.unary main_arg21 main_v81 (broadcastInDim S1x256 ![1] bcast_S256_S1x256_1 : (⟨S256, .f32⟩ : BufTy).Contents (Elt F) → (⟨S1x256, .f32⟩ : BufTy).Contents (Elt F))
  :: StableHlo.unary main_v81 main_v82 (broadcastInDim S128x256 ![0, 1] bcast_S1x256_S128x256_0_1 : (⟨S1x256, .f32⟩ : BufTy).Contents (Elt F) → (⟨S128x256, .f32⟩ : BufTy).Contents (Elt F))
  :: StableHlo.binary main_v80 main_v82 main_v83 (addf : (⟨S128x256, .f32⟩ : BufTy).Contents (Elt F) → (⟨S128x256, .f32⟩ : BufTy).Contents (Elt F) → (⟨S128x256, .f32⟩ : BufTy).Contents (Elt F))
  :: StableHlo.unary main_v83 main_v84 (Host.negf : (⟨S128x256, .f32⟩ : BufTy).Contents (Elt F) → (⟨S128x256, .f32⟩ : BufTy).Contents (Elt F))
  :: StableHlo.unary main_v84 main_v85 (Host.exp : (⟨S128x256, .f32⟩ : BufTy).Contents (Elt F) → (⟨S128x256, .f32⟩ : BufTy).Contents (Elt F))
  :: StableHlo.nullary main_cst_19 (constant S_ .f32 0x3F800000#32)
  :: StableHlo.unary main_cst_19 main_v86 (broadcastInDim S128x256 ![] bcast_S_S128x256 : (⟨S_, .f32⟩ : BufTy).Contents (Elt F) → (⟨S128x256, .f32⟩ : BufTy).Contents (Elt F))
  :: StableHlo.binary main_v86 main_v85 main_v87 (addf : (⟨S128x256, .f32⟩ : BufTy).Contents (Elt F) → (⟨S128x256, .f32⟩ : BufTy).Contents (Elt F) → (⟨S128x256, .f32⟩ : BufTy).Contents (Elt F))
  :: StableHlo.nullary main_cst_20 (constant S_ .f32 0x3F800000#32)
  :: StableHlo.unary main_cst_20 main_v88 (broadcastInDim S128x256 ![] bcast_S_S128x256 : (⟨S_, .f32⟩ : BufTy).Contents (Elt F) → (⟨S128x256, .f32⟩ : BufTy).Contents (Elt F))
  :: StableHlo.binary main_v88 main_v87 main_v89 (Host.divf : (⟨S128x256, .f32⟩ : BufTy).Contents (Elt F) → (⟨S128x256, .f32⟩ : BufTy).Contents (Elt F) → (⟨S128x256, .f32⟩ : BufTy).Contents (Elt F))
  :: StableHlo.binary main_v57 main_arg22 main_v90 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F))
  :: StableHlo.binary main_v89 main_arg23 main_v91 ((fun l r => Host.dotGeneral dot_S128x256_S256x64_S128x64_1_0_0_1_n_n none l r) : (⟨S128x256, .f32⟩ : BufTy).Contents (Elt F) → (⟨S256x64, .f32⟩ : BufTy).Contents (Elt F) → (⟨S128x64, .f32⟩ : BufTy).Contents (Elt F))
  :: StableHlo.reshape main_arg6 main_v92 rfl shapeCasts_S1048576x64_S8192x128x64
  :: StableHlo.unary main_arg7 main_v93 ((extui 32 · natLt_1_32) : (⟨S8192x128, .i1⟩ : BufTy).Contents (Elt F) → (⟨S8192x128, .i32⟩ : BufTy).Contents (Elt F))
  :: [] )

theorem h4_split : (hostOps4 : List (HloOp τ sig (Elt F))) = h4A ++ (h4B ++ (h4C ++ h4D)) := rfl

end Parts

/-- The contents after the first part, -/
def Ua : Valuation τ sig (Elt Ideal) := StableHlo.after h4A (W8 m ρ c)
/-- after the second, -/
def Ub : Valuation τ sig (Elt Ideal) := StableHlo.after h4B (Ua m ρ c)
/-- and after the third. -/
def Uc : Valuation τ sig (Elt Ideal) := StableHlo.after h4C (Ub m ρ c)

/-- The fifth region's entry contents are the fourth part's results over the third's. -/
theorem w9_eq : W9 m ρ c = StableHlo.after h4D (Uc m ρ c) := by
  show StableHlo.after hostOps4 (W8 m ρ c) = _
  rw [h4_split, Cert.LibAfter.after_append, Cert.LibAfter.after_append, Cert.LibAfter.after_append]
  rfl

/-- The second layer's node features gathered at the rows. -/
theorem ua_v57 : Ua m ρ c (Proc.devRef .tc main_v57) = val_main_v89 (F := Ideal) x0 x1 x2 x3 x4 x8 x9 x10 x11 x12 x13 x14 x15 := by
  show StableHlo.after h4A (W8 m ρ c) (Proc.devRef .tc main_v57) = _
  after_results
  rw [a8_4, s8_v50]
  rfl

/-- The column features plus the position table. -/
theorem ua_v58 : Ua m ρ c (Proc.devRef .tc main_v58) = val_main_v90 (F := Ideal) x0 x1 x2 x3 x5 x8 x9 x10 x11 x16 := by
  show StableHlo.after h4A (W8 m ρ c) (Proc.devRef .tc main_v58) = _
  after_results
  rw [s8_v28, a8_16]
  rfl

theorem ua_arg17 : Ua m ρ c (Proc.devRef .tc main_arg17) = x17 := by
  show StableHlo.after h4A (W8 m ρ c) (Proc.devRef .tc main_arg17) = _
  after_results
  exact a8_17 m ρ c

theorem ua_arg18 : Ua m ρ c (Proc.devRef .tc main_arg18) = x18 := by
  show StableHlo.after h4A (W8 m ρ c) (Proc.devRef .tc main_arg18) = _
  after_results
  exact a8_18 m ρ c

theorem ua_arg19 : Ua m ρ c (Proc.devRef .tc main_arg19) = x19 := by
  show StableHlo.after h4A (W8 m ρ c) (Proc.devRef .tc main_arg19) = _
  after_results
  exact a8_19 m ρ c

theorem ua_arg20 : Ua m ρ c (Proc.devRef .tc main_arg20) = x20 := by
  show StableHlo.after h4A (W8 m ρ c) (Proc.devRef .tc main_arg20) = _
  after_results
  exact a8_20 m ρ c

theorem ua_arg21 : Ua m ρ c (Proc.devRef .tc main_arg21) = x21 := by
  show StableHlo.after h4A (W8 m ρ c) (Proc.devRef .tc main_arg21) = _
  after_results
  exact a8_21 m ρ c

theorem ua_arg22 : Ua m ρ c (Proc.devRef .tc main_arg22) = x22 := by
  show StableHlo.after h4A (W8 m ρ c) (Proc.devRef .tc main_arg22) = _
  after_results
  exact a8_22 m ρ c

theorem ua_arg23 : Ua m ρ c (Proc.devRef .tc main_arg23) = x23 := by
  show StableHlo.after h4A (W8 m ρ c) (Proc.devRef .tc main_arg23) = _
  after_results
  exact a8_23 m ρ c

theorem ua_arg6 : Ua m ρ c (Proc.devRef .tc main_arg6) = x6 := by
  show StableHlo.after h4A (W8 m ρ c) (Proc.devRef .tc main_arg6) = _
  after_results
  exact a8_6 m ρ c

theorem ua_arg7 : Ua m ρ c (Proc.devRef .tc main_arg7) = x7 := by
  show StableHlo.after h4A (W8 m ρ c) (Proc.devRef .tc main_arg7) = _
  after_results
  exact a8_7 m ρ c

/-- The values. -/
theorem ub_v61 : Ub m ρ c (Proc.devRef .tc main_v61) = val_main_v93 (F := Ideal) x0 x1 x2 x3 x5 x8 x9 x10 x11 x16 x19 := by
  show StableHlo.after h4B (Ua m ρ c) (Proc.devRef .tc main_v61) = _
  after_results
  rw [ua_v58, ua_arg19]
  rfl

/-- The scaled scores: queries against keys, times 1/16. -/
theorem ub_v65 : Ub m ρ c (Proc.devRef .tc main_v65) = val_main_v97 (F := Ideal) x0 x1 x2 x3 x5 x8 x9 x10 x11 x16 x17 x18 := by
  show StableHlo.after h4B (Ua m ρ c) (Proc.devRef .tc main_v65) = _
  after_results
  rw [ua_v58, ua_arg17, ua_arg18]
  rfl

theorem ub_v57 : Ub m ρ c (Proc.devRef .tc main_v57) = val_main_v89 (F := Ideal) x0 x1 x2 x3 x4 x8 x9 x10 x11 x12 x13 x14 x15 := by
  show StableHlo.after h4B (Ua m ρ c) (Proc.devRef .tc main_v57) = _
  after_results
  exact ua_v57 m ρ c

theorem ub_arg20 : Ub m ρ c (Proc.devRef .tc main_arg20) = x20 := by
  show StableHlo.after h4B (Ua m ρ c) (Proc.devRef .tc main_arg20) = _
  after_results
  exact ua_arg20 m ρ c

theorem ub_arg21 : Ub m ρ c (Proc.devRef .tc main_arg21) = x21 := by
  show StableHlo.after h4B (Ua m ρ c) (Proc.devRef .tc main_arg21) = _
  after_results
  exact ua_arg21 m ρ c

theorem ub_arg22 : Ub m ρ c (Proc.devRef .tc main_arg22) = x22 := by
  show StableHlo.after h4B (Ua m ρ c) (Proc.devRef .tc main_arg22) = _
  after_results
  exact ua_arg22 m ρ c

theorem ub_arg23 : Ub m ρ c (Proc.devRef .tc main_arg23) = x23 := by
  show StableHlo.after h4B (Ua m ρ c) (Proc.devRef .tc main_arg23) = _
  after_results
  exact ua_arg23 m ρ c

theorem ub_arg6 : Ub m ρ c (Proc.devRef .tc main_arg6) = x6 := by
  show StableHlo.after h4B (Ua m ρ c) (Proc.devRef .tc main_arg6) = _
  after_results
  exact ua_arg6 m ρ c

theorem ub_arg7 : Ub m ρ c (Proc.devRef .tc main_arg7) = x7 := by
  show StableHlo.after h4B (Ua m ρ c) (Proc.devRef .tc main_arg7) = _
  after_results
  exact ua_arg7 m ρ c

/-- The exponentials of the scores less their row maxima. -/
theorem uc_v72 : Uc m ρ c (Proc.devRef .tc main_v72) = val_main_v104 (F := Ideal) x0 x1 x2 x3 x5 x8 x9 x10 x11 x16 x17 x18 := by
  show StableHlo.after h4C (Ub m ρ c) (Proc.devRef .tc main_v72) = _
  after_results
  rw [ub_v65]
  rfl

theorem uc_v61 : Uc m ρ c (Proc.devRef .tc main_v61) = val_main_v93 (F := Ideal) x0 x1 x2 x3 x5 x8 x9 x10 x11 x16 x19 := by
  show StableHlo.after h4C (Ub m ρ c) (Proc.devRef .tc main_v61) = _
  after_results
  exact ub_v61 m ρ c

theorem uc_v57 : Uc m ρ c (Proc.devRef .tc main_v57) = val_main_v89 (F := Ideal) x0 x1 x2 x3 x4 x8 x9 x10 x11 x12 x13 x14 x15 := by
  show StableHlo.after h4C (Ub m ρ c) (Proc.devRef .tc main_v57) = _
  after_results
  exact ub_v57 m ρ c

theorem uc_arg20 : Uc m ρ c (Proc.devRef .tc main_arg20) = x20 := by
  show StableHlo.after h4C (Ub m ρ c) (Proc.devRef .tc main_arg20) = _
  after_results
  exact ub_arg20 m ρ c

theorem uc_arg21 : Uc m ρ c (Proc.devRef .tc main_arg21) = x21 := by
  show StableHlo.after h4C (Ub m ρ c) (Proc.devRef .tc main_arg21) = _
  after_results
  exact ub_arg21 m ρ c

theorem uc_arg22 : Uc m ρ c (Proc.devRef .tc main_arg22) = x22 := by
  show StableHlo.after h4C (Ub m ρ c) (Proc.devRef .tc main_arg22) = _
  after_results
  exact ub_arg22 m ρ c

theorem uc_arg23 : Uc m ρ c (Proc.devRef .tc main_arg23) = x23 := by
  show StableHlo.after h4C (Ub m ρ c) (Proc.devRef .tc main_arg23) = _
  after_results
  exact ub_arg23 m ρ c

theorem uc_arg6 : Uc m ρ c (Proc.devRef .tc main_arg6) = x6 := by
  show StableHlo.after h4C (Ub m ρ c) (Proc.devRef .tc main_arg6) = _
  after_results
  exact ub_arg6 m ρ c

theorem uc_arg7 : Uc m ρ c (Proc.devRef .tc main_arg7) = x7 := by
  show StableHlo.after h4C (Ub m ρ c) (Proc.devRef .tc main_arg7) = _
  after_results
  exact ub_arg7 m ρ c

/-! ## The stages the fifth region reads -/

/-- The row projections: the second layer's node features gathered at the rows, times Wr. -/
theorem s9_v90 : W9 m ρ c (Proc.devRef .tc main_v90) = val_main_v122 (F := Ideal) x0 x1 x2 x3 x4 x8 x9 x10 x11 x12 x13 x14 x15 x22 := by
  rw [w9_eq]
  show StableHlo.after h4D (Uc m ρ c) (Proc.devRef .tc main_v90) = _
  after_results
  rw [uc_v57, uc_arg22]
  rfl

/-- The column projections: the attended, refined column features times Wc. -/
theorem s9_v91 : W9 m ρ c (Proc.devRef .tc main_v91) = val_main_v124 (F := Ideal) x0 x1 x2 x3 x5 x8 x9 x10 x11 x16 x17 x18 x19 x20 x21 x23 := by
  rw [w9_eq]
  show StableHlo.after h4D (Uc m ρ c) (Proc.devRef .tc main_v91) = _
  after_results
  rw [uc_v72, uc_v61, uc_arg20, uc_arg21, uc_arg23]
  rfl

/-- `real` as a [rows, columns, features] array. -/
theorem s9_v92 : W9 m ρ c (Proc.devRef .tc main_v92) = shapeCast S8192x128x64 x6 Facts₀.shapeCasts_S1048576x64_S8192x128x64 := by
  rw [w9_eq]
  show StableHlo.after h4D (Uc m ρ c) (Proc.devRef .tc main_v92) = _
  after_results
  rw [uc_arg6]
  rfl

/-- The mask's bits widened to words. -/
theorem s9_v93 : W9 m ρ c (Proc.devRef .tc main_v93) = extui 32 x7 Facts₀.natLt_1_32 := by
  rw [w9_eq]
  show StableHlo.after h4D (Uc m ρ c) (Proc.devRef .tc main_v93) = _
  after_results
  rw [uc_arg7]

/-! ## The fifth region, the reshapes, the sixth region -/

/-- The fifth region's first output: the predictions. -/
theorem s10_v94_0 : W10 m ρ c (Proc.devRef .tc main_v94_0) = val_main_v136 (F := Ideal) x0 x1 x2 x3 x4 x5 x8 x9 x10 x11 x12 x13 x14 x15 x16 x17 x18 x19 x20 x21 x22 x23 x24 :=
  (W10_arr m ρ c 5).trans (Pred.arr5_eq (V9 m ρ) c x0 x1 x2 x3 x4 x5 x8 x9 x10 x11 x12 x13 x14 x15 x16 x17 x18 x19 x20 x21 x22 x23 x24 (s9_v90 m ρ c) (s9_v91 m ρ c) (a9_24 m ρ c))

/-- The fifth region's second output: `real` where the mask is set, the predictions elsewhere. -/
theorem s10_v94_1 : W10 m ρ c (Proc.devRef .tc main_v94_1) = val_main_v141 (F := Ideal) x0 x1 x2 x3 x4 x5 x6 x7 x8 x9 x10 x11 x12 x13 x14 x15 x16 x17 x18 x19 x20 x21 x22 x23 x24 :=
  (W10_arr m ρ c 6).trans (Pred.arr6_eq (V9 m ρ) c x0 x1 x2 x3 x4 x5 x6 x7 x8 x9 x10 x11 x12 x13 x14 x15 x16 x17 x18 x19 x20 x21 x22 x23 x24 (s9_v90 m ρ c) (s9_v91 m ρ c) (a9_24 m ρ c) (s9_v93 m ρ c) (s9_v92 m ρ c))

/-- The predictions, flattened: the second result. -/
theorem s11_v95 : W11 m ρ c (Proc.devRef .tc main_v95) = val_main_v137 (F := Ideal) x0 x1 x2 x3 x4 x5 x8 x9 x10 x11 x12 x13 x14 x15 x16 x17 x18 x19 x20 x21 x22 x23 x24 := by
  show StableHlo.after hostOps5 (W10 m ρ c) (Proc.devRef .tc main_v95) = _
  after_results
  rw [s10_v94_0]
  rfl

/-- The imputed values, one row per sample: the classifier's operand. -/
theorem s11_v96 : W11 m ρ c (Proc.devRef .tc main_v96) = val_main_v142 (F := Ideal) x0 x1 x2 x3 x4 x5 x6 x7 x8 x9 x10 x11 x12 x13 x14 x15 x16 x17 x18 x19 x20 x21 x22 x23 x24 := by
  show StableHlo.after hostOps5 (W10 m ρ c) (Proc.devRef .tc main_v96) = _
  after_results
  rw [s10_v94_1]
  rfl

/-- The sixth region leaves the first result: the log-softmax of the classifier's logits. -/
theorem s12_v97 : W12 m ρ c (Proc.devRef .tc main_v97) = val_main_v147 (F := Ideal) x0 x1 x2 x3 x4 x5 x6 x7 x8 x9 x10 x11 x12 x13 x14 x15 x16 x17 x18 x19 x20 x21 x22 x23 x24 x25 x26 :=
  (W12_arr m ρ c 3).trans (Cls.arr_eq (V11 m ρ) c x0 x1 x2 x3 x4 x5 x6 x7 x8 x9 x10 x11 x12 x13 x14 x15 x16 x17 x18 x19 x20 x21 x22 x23 x24 x25 x26 (s11_v96 m ρ c) (a11_25 m ρ c) (a11_26 m ρ c))

/-- The second result is untouched by the sixth region. -/
theorem s12_v95 : W12 m ρ c (Proc.devRef .tc main_v95) = val_main_v137 (F := Ideal) x0 x1 x2 x3 x4 x5 x8 x9 x10 x11 x12 x13 x14 x15 x16 x17 x18 x19 x20 x21 x22 x23 x24 :=
  (W12_of_ne m ρ c main_v95 (by decide)).trans (s11_v95 m ρ c)

end Cert.KernelIdeal.Chain

end
-- ==== Proof.Final.lean ====
/-
  The idealized kernel's run read at the reference's stages: every weakly fair execution terminates with the first
  result at the reference's log-softmax stage and the second at its flattened predictions, both as functions of the
  launch contents of the argument arrays, and the arguments unchanged — the run of the twelve segments with the last
  boundary's two result buffers identified stage by stage.
-/
import proofs.«102082_j26070451487322_2_alg».proof.Proof.KRun
import proofs.«102082_j26070451487322_2_alg».proof.Proof.ChainB

set_option maxRecDepth 16384

noncomputable section

namespace Cert.KernelIdeal.Final

open Idealize.ShloMosaic Idealize.ShloMosaic.TcCoe Idealize.SL.Sem
open Cert.KernelIdeal Cert.KernelIdeal.Gen
open Cert.ReferenceIdeal.Read (val_main_v137 val_main_v147)

/-- The two results as the reference's stages of the launch contents; the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v97) = val_main_v147 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_v95) = val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => ⟨(h c).1.trans (Chain.s12_v97 m ρ c), (h c).2.1.trans (Chain.s12_v95 m ρ c), (h c).2.2⟩)
    (KRun.run m ρ)

end Cert.KernelIdeal.Final

end
-- ==== Proof.RefRunChain.lean ====
/- The reference program's run, read stage by stage.
   @main is a straight line of 196 host operations. The library's `run_seq` says every buffer ends at the fold `after ops`
   of the operations' results over the launch contents. The fold of a concatenation is the fold of the second list over
   the fold of the first (`after_app`), so the line is cut into 12 consecutive stretches: at the stages that later
   operations read more than once, and in front of each `concatenate`, whose operands sit inside a list of
   (shape, array) pairs and are read there by `rw`. `val k` is the buffer contents after the first k stretches. For each
   stretch and each buffer a later stretch (or the result) reads, one lemma says what `val k` holds there: a stage
   written inside the stretch is its operation applied to the earlier stages, which are read from `val (k-1)` by the
   previous stretch's lemmas, and that is the stage's name `Read.val_…` by unfolding the names one level at a time; a
   buffer the stretch does not write keeps what it held (`after_of_writes_sub`). No result is ever stated as one closed
   term of the arguments. The operations of the two outlined functions (`select` after a comparison, and the
   log-softmax) are written here with the plain builders at the buffers' own types; each is the typed-reference
   operation of `ops` (`tref_…`), and `ops_split` rewrites `ops` with those equations. -/
import proofs.«102082_j26070451487322_2_alg».proof.Proof.RefRun
import proofs.«102082_j26070451487322_2_alg».proof.Proof.RefRead
import Idealize.ShloMosaic.Lib.StableHlo.Run

set_option maxRecDepth 16384

noncomputable section

namespace Cert.ReferenceIdeal.RunChain

open Cert.ReferenceIdeal Cert.ReferenceIdeal.Gen Idealize.ShloMosaic Idealize.ShloMosaic.TcCoe Idealize.SL.Sem Idealize.ShloMosaic.StableHlo
open Cert.ReferenceIdeal.Value

variable {F : FTy → Type} [FloatOps F]

/-- The fold over a concatenation: the second list's fold over the first's. -/
theorem after_app (l₁ l₂ : List (HloOp τ sig (Elt F))) :
    ∀ V : Valuation τ sig (Elt F), after (l₁ ++ l₂) V = after l₂ (after l₁ V) := by
  induction l₁ with
  | nil => intro V; rfl
  | cons op l ih => intro V; exact ih _

/-! ## The outlined functions' operations with the plain builders

`ops` writes the operations of the two outlined functions over typed references (`TRef`), whose functions are moved along the
references' type equations; at literal references those equations are `rfl` and each such operation is the plain builder's. -/

section TypedRefs

variable {Val : EltTy → Type}

/-- A typed-reference operation over references that carry their buffers' own types is the plain builder's operation:
    the transports along `rfl` are the identity. -/
theorem tref_nullary_eq (y : Ref sig .tc) (dy : y.space ≠ .host) (uy : y.isScoped = false) (v : y.ty.Contents Val) :
    (TRef.nullary (τ := τ) (TRef.of (T := y.ty) y rfl dy uy) v : HloOp τ sig Val) = nullary y v ⟨dy, uy⟩ := rfl
theorem tref_unary_eq (x y : Ref sig .tc) (dx : x.space ≠ .host) (ux : x.isScoped = false) (dy : y.space ≠ .host)
    (uy : y.isScoped = false) (f : x.ty.Contents Val → y.ty.Contents Val) :
    (TRef.unary (τ := τ) (TRef.of (T := x.ty) x rfl dx ux) (TRef.of (T := y.ty) y rfl dy uy) f : HloOp τ sig Val)
      = unary x y f ⟨dx, ux⟩ ⟨dy, uy⟩ := rfl
theorem tref_binary_eq (a b y : Ref sig .tc) (da : a.space ≠ .host) (ua : a.isScoped = false) (db : b.space ≠ .host)
    (ub : b.isScoped = false) (dy : y.space ≠ .host) (uy : y.isScoped = false)
    (f : a.ty.Contents Val → b.ty.Contents Val → y.ty.Contents Val) :
    (TRef.binary (τ := τ) (TRef.of (T := a.ty) a rfl da ua) (TRef.of (T := b.ty) b rfl db ub) (TRef.of (T := y.ty) y rfl dy uy) f :
        HloOp τ sig Val)
      = binary a b y f ⟨da, ua⟩ ⟨db, ub⟩ ⟨dy, uy⟩ := rfl
theorem tref_ternary_eq (c a b y : Ref sig .tc) (dc : c.space ≠ .host) (uc : c.isScoped = false) (da : a.space ≠ .host)
    (ua : a.isScoped = false) (db : b.space ≠ .host) (ub : b.isScoped = false) (dy : y.space ≠ .host) (uy : y.isScoped = false)
    (f : c.ty.Contents Val → a.ty.Contents Val → b.ty.Contents Val → y.ty.Contents Val) :
    (TRef.ternary (τ := τ) (TRef.of (T := c.ty) c rfl dc uc) (TRef.of (T := a.ty) a rfl da ua) (TRef.of (T := b.ty) b rfl db ub)
        (TRef.of (T := y.ty) y rfl dy uy) f : HloOp τ sig Val)
      = ternary c a b y f ⟨dc, uc⟩ ⟨da, ua⟩ ⟨db, ub⟩ ⟨dy, uy⟩ := rfl

end TypedRefs

theorem tref_main_v16 : (TRef.ternary (TRef.of (T := ⟨S480000x128, .i1⟩) main_v13) (TRef.of (T := ⟨S480000x128, .f32⟩) main_v11) (TRef.of (T := ⟨S480000x128, .f32⟩) main_v15) (TRef.of (T := ⟨S480000x128, .f32⟩) main_v16) select : HloOp τ sig (Elt F))
    = ternary main_v13 main_v11 main_v15 main_v16 (select : (⟨S480000x128, .i1⟩ : BufTy).Contents (Elt F) → (⟨S480000x128, .f32⟩ : BufTy).Contents (Elt F) → (⟨S480000x128, .f32⟩ : BufTy).Contents (Elt F) → (⟨S480000x128, .f32⟩ : BufTy).Contents (Elt F)) :=
  tref_ternary_eq _ _ _ _ _ _ _ _ _ _ _ _ _
theorem tref_main_v37 : (TRef.ternary (TRef.of (T := ⟨S30000x256, .i1⟩) main_v34) (TRef.of (T := ⟨S30000x256, .f32⟩) main_v32) (TRef.of (T := ⟨S30000x256, .f32⟩) main_v36) (TRef.of (T := ⟨S30000x256, .f32⟩) main_v37) select : HloOp τ sig (Elt F))
    = ternary main_v34 main_v32 main_v36 main_v37 (select : (⟨S30000x256, .i1⟩ : BufTy).Contents (Elt F) → (⟨S30000x256, .f32⟩ : BufTy).Contents (Elt F) → (⟨S30000x256, .f32⟩ : BufTy).Contents (Elt F) → (⟨S30000x256, .f32⟩ : BufTy).Contents (Elt F)) :=
  tref_ternary_eq _ _ _ _ _ _ _ _ _ _ _ _ _
theorem tref_main_v61 : (TRef.ternary (TRef.of (T := ⟨S480000x64, .i1⟩) main_v58) (TRef.of (T := ⟨S480000x64, .f32⟩) main_v56) (TRef.of (T := ⟨S480000x64, .f32⟩) main_v60) (TRef.of (T := ⟨S480000x64, .f32⟩) main_v61) select : HloOp τ sig (Elt F))
    = ternary main_v58 main_v56 main_v60 main_v61 (select : (⟨S480000x64, .i1⟩ : BufTy).Contents (Elt F) → (⟨S480000x64, .f32⟩ : BufTy).Contents (Elt F) → (⟨S480000x64, .f32⟩ : BufTy).Contents (Elt F) → (⟨S480000x64, .f32⟩ : BufTy).Contents (Elt F)) :=
  tref_ternary_eq _ _ _ _ _ _ _ _ _ _ _ _ _
theorem tref_main_v82 : (TRef.ternary (TRef.of (T := ⟨S30000x256, .i1⟩) main_v79) (TRef.of (T := ⟨S30000x256, .f32⟩) main_v77) (TRef.of (T := ⟨S30000x256, .f32⟩) main_v81) (TRef.of (T := ⟨S30000x256, .f32⟩) main_v82) select : HloOp τ sig (Elt F))
    = ternary main_v79 main_v77 main_v81 main_v82 (select : (⟨S30000x256, .i1⟩ : BufTy).Contents (Elt F) → (⟨S30000x256, .f32⟩ : BufTy).Contents (Elt F) → (⟨S30000x256, .f32⟩ : BufTy).Contents (Elt F) → (⟨S30000x256, .f32⟩ : BufTy).Contents (Elt F)) :=
  tref_ternary_eq _ _ _ _ _ _ _ _ _ _ _ _ _
theorem tref_main_v136 : (TRef.ternary (TRef.of (T := ⟨S8192x128x64, .i1⟩) main_v133) (TRef.of (T := ⟨S8192x128x64, .f32⟩) main_v131) (TRef.of (T := ⟨S8192x128x64, .f32⟩) main_v135) (TRef.of (T := ⟨S8192x128x64, .f32⟩) main_v136) select : HloOp τ sig (Elt F))
    = ternary main_v133 main_v131 main_v135 main_v136 (select : (⟨S8192x128x64, .i1⟩ : BufTy).Contents (Elt F) → (⟨S8192x128x64, .f32⟩ : BufTy).Contents (Elt F) → (⟨S8192x128x64, .f32⟩ : BufTy).Contents (Elt F) → (⟨S8192x128x64, .f32⟩ : BufTy).Contents (Elt F)) :=
  tref_ternary_eq _ _ _ _ _ _ _ _ _ _ _ _ _
theorem tref_main_call5_v0 : (TRef.unary (TRef.of (T := ⟨S1048576x1, .i1⟩) main_v139) (TRef.of (T := ⟨S1048576x64, .i1⟩) main_call5_v0) (broadcastInDim S1048576x64 ![0, 1] bcast_S1048576x1_S1048576x64_0_1) : HloOp τ sig (Elt F))
    = unary main_v139 main_call5_v0 ((broadcastInDim S1048576x64 ![0, 1] bcast_S1048576x1_S1048576x64_0_1) : (⟨S1048576x1, .i1⟩ : BufTy).Contents (Elt F) → (⟨S1048576x64, .i1⟩ : BufTy).Contents (Elt F)) :=
  tref_unary_eq _ _ _ _ _ _ _
theorem tref_main_v140 : (TRef.ternary (TRef.of (T := ⟨S1048576x64, .i1⟩) main_call5_v0) (TRef.of (T := ⟨S1048576x64, .f32⟩) main_arg6) (TRef.of (T := ⟨S1048576x64, .f32⟩) main_v137) (TRef.of (T := ⟨S1048576x64, .f32⟩) main_v140) select : HloOp τ sig (Elt F))
    = ternary main_call5_v0 main_arg6 main_v137 main_v140 (select : (⟨S1048576x64, .i1⟩ : BufTy).Contents (Elt F) → (⟨S1048576x64, .f32⟩ : BufTy).Contents (Elt F) → (⟨S1048576x64, .f32⟩ : BufTy).Contents (Elt F) → (⟨S1048576x64, .f32⟩ : BufTy).Contents (Elt F)) :=
  tref_ternary_eq _ _ _ _ _ _ _ _ _ _ _ _ _
theorem tref_main_call6_cst : (TRef.nullary (TRef.of (T := ⟨S_, .f32⟩) main_call6_cst) (constant S_ .f32 0xFF800000#32) : HloOp τ sig (Elt F))
    = nullary main_call6_cst (constant S_ .f32 0xFF800000#32) :=
  tref_nullary_eq _ _ _ _
theorem tref_main_call6_v0 : (TRef.binary (TRef.of (T := ⟨S8192x10, .f32⟩) main_v146) (TRef.of (T := ⟨S_, .f32⟩) main_call6_cst) (TRef.of (T := ⟨S8192, .f32⟩) main_call6_v0) (fun x v => Host.reduce FloatOps.maximumf x v reducesTo_S8192x10_S8192_d1 h_S_) : HloOp τ sig (Elt F))
    = binary main_v146 main_call6_cst main_call6_v0 ((fun x v => Host.reduce FloatOps.maximumf x v reducesTo_S8192x10_S8192_d1 h_S_) : (⟨S8192x10, .f32⟩ : BufTy).Contents (Elt F) → (⟨S_, .f32⟩ : BufTy).Contents (Elt F) → (⟨S8192, .f32⟩ : BufTy).Contents (Elt F)) :=
  tref_binary_eq _ _ _ _ _ _ _ _ _ _
theorem tref_main_call6_cst_0 : (TRef.nullary (TRef.of (T := ⟨S_, .f32⟩) main_call6_cst_0) (constant S_ .f32 0xFF800000#32) : HloOp τ sig (Elt F))
    = nullary main_call6_cst_0 (constant S_ .f32 0xFF800000#32) :=
  tref_nullary_eq _ _ _ _
theorem tref_main_call6_v1 : (TRef.unary (TRef.of (T := ⟨S_, .f32⟩) main_call6_cst_0) (TRef.of (T := ⟨S8192, .f32⟩) main_call6_v1) (broadcastInDim S8192 ![] bcast_S_S8192) : HloOp τ sig (Elt F))
    = unary main_call6_cst_0 main_call6_v1 ((broadcastInDim S8192 ![] bcast_S_S8192) : (⟨S_, .f32⟩ : BufTy).Contents (Elt F) → (⟨S8192, .f32⟩ : BufTy).Contents (Elt F)) :=
  tref_unary_eq _ _ _ _ _ _ _
theorem tref_main_call6_v2 : (TRef.binary (TRef.of (T := ⟨S8192, .f32⟩) main_call6_v1) (TRef.of (T := ⟨S8192, .f32⟩) main_call6_v0) (TRef.of (T := ⟨S8192, .f32⟩) main_call6_v2) maximumf : HloOp τ sig (Elt F))
    = binary main_call6_v1 main_call6_v0 main_call6_v2 (maximumf : (⟨S8192, .f32⟩ : BufTy).Contents (Elt F) → (⟨S8192, .f32⟩ : BufTy).Contents (Elt F) → (⟨S8192, .f32⟩ : BufTy).Contents (Elt F)) :=
  tref_binary_eq _ _ _ _ _ _ _ _ _ _
theorem tref_main_call6_v3 : (TRef.unary (TRef.of (T := ⟨S8192, .f32⟩) main_call6_v2) (TRef.of (T := ⟨S8192x1, .f32⟩) main_call6_v3) (broadcastInDim S8192x1 ![0] bcast_S8192_S8192x1_0) : HloOp τ sig (Elt F))
    = unary main_call6_v2 main_call6_v3 ((broadcastInDim S8192x1 ![0] bcast_S8192_S8192x1_0) : (⟨S8192, .f32⟩ : BufTy).Contents (Elt F) → (⟨S8192x1, .f32⟩ : BufTy).Contents (Elt F)) :=
  tref_unary_eq _ _ _ _ _ _ _
theorem tref_main_call6_v4 : (TRef.unary (TRef.of (T := ⟨S8192x1, .f32⟩) main_call6_v3) (TRef.of (T := ⟨S8192x10, .f32⟩) main_call6_v4) (broadcastInDim S8192x10 ![0, 1] bcast_S8192x1_S8192x10_0_1) : HloOp τ sig (Elt F))
    = unary main_call6_v3 main_call6_v4 ((broadcastInDim S8192x10 ![0, 1] bcast_S8192x1_S8192x10_0_1) : (⟨S8192x1, .f32⟩ : BufTy).Contents (Elt F) → (⟨S8192x10, .f32⟩ : BufTy).Contents (Elt F)) :=
  tref_unary_eq _ _ _ _ _ _ _
theorem tref_main_call6_v5 : (TRef.binary (TRef.of (T := ⟨S8192x10, .f32⟩) main_v146) (TRef.of (T := ⟨S8192x10, .f32⟩) main_call6_v4) (TRef.of (T := ⟨S8192x10, .f32⟩) main_call6_v5) subf : HloOp τ sig (Elt F))
    = binary main_v146 main_call6_v4 main_call6_v5 (subf : (⟨S8192x10, .f32⟩ : BufTy).Contents (Elt F) → (⟨S8192x10, .f32⟩ : BufTy).Contents (Elt F) → (⟨S8192x10, .f32⟩ : BufTy).Contents (Elt F)) :=
  tref_binary_eq _ _ _ _ _ _ _ _ _ _
theorem tref_main_call6_v6 : (TRef.unary (TRef.of (T := ⟨S8192x10, .f32⟩) main_call6_v5) (TRef.of (T := ⟨S8192x10, .f32⟩) main_call6_v6) Host.exp : HloOp τ sig (Elt F))
    = unary main_call6_v5 main_call6_v6 (Host.exp : (⟨S8192x10, .f32⟩ : BufTy).Contents (Elt F) → (⟨S8192x10, .f32⟩ : BufTy).Contents (Elt F)) :=
  tref_unary_eq _ _ _ _ _ _ _
theorem tref_main_call6_cst_1 : (TRef.nullary (TRef.of (T := ⟨S_, .f32⟩) main_call6_cst_1) (constant S_ .f32 0x00000000#32) : HloOp τ sig (Elt F))
    = nullary main_call6_cst_1 (constant S_ .f32 0x00000000#32) :=
  tref_nullary_eq _ _ _ _
theorem tref_main_call6_v7 : (TRef.binary (TRef.of (T := ⟨S8192x10, .f32⟩) main_call6_v6) (TRef.of (T := ⟨S_, .f32⟩) main_call6_cst_1) (TRef.of (T := ⟨S8192, .f32⟩) main_call6_v7) (fun x v => Host.reduceAdd x v reducesTo_S8192x10_S8192_d1 h_S_) : HloOp τ sig (Elt F))
    = binary main_call6_v6 main_call6_cst_1 main_call6_v7 ((fun x v => Host.reduceAdd x v reducesTo_S8192x10_S8192_d1 h_S_) : (⟨S8192x10, .f32⟩ : BufTy).Contents (Elt F) → (⟨S_, .f32⟩ : BufTy).Contents (Elt F) → (⟨S8192, .f32⟩ : BufTy).Contents (Elt F)) :=
  tref_binary_eq _ _ _ _ _ _ _ _ _ _
theorem tref_main_call6_v8 : (TRef.unary (TRef.of (T := ⟨S8192, .f32⟩) main_call6_v7) (TRef.of (T := ⟨S8192x1, .f32⟩) main_call6_v8) (broadcastInDim S8192x1 ![0] bcast_S8192_S8192x1_0) : HloOp τ sig (Elt F))
    = unary main_call6_v7 main_call6_v8 ((broadcastInDim S8192x1 ![0] bcast_S8192_S8192x1_0) : (⟨S8192, .f32⟩ : BufTy).Contents (Elt F) → (⟨S8192x1, .f32⟩ : BufTy).Contents (Elt F)) :=
  tref_unary_eq _ _ _ _ _ _ _
theorem tref_main_call6_v9 : (TRef.unary (TRef.of (T := ⟨S8192x1, .f32⟩) main_call6_v8) (TRef.of (T := ⟨S8192x1, .f32⟩) main_call6_v9) Host.log : HloOp τ sig (Elt F))
    = unary main_call6_v8 main_call6_v9 (Host.log : (⟨S8192x1, .f32⟩ : BufTy).Contents (Elt F) → (⟨S8192x1, .f32⟩ : BufTy).Contents (Elt F)) :=
  tref_unary_eq _ _ _ _ _ _ _
theorem tref_main_call6_v10 : (TRef.unary (TRef.of (T := ⟨S8192x1, .f32⟩) main_call6_v9) (TRef.of (T := ⟨S8192x10, .f32⟩) main_call6_v10) (broadcastInDim S8192x10 ![0, 1] bcast_S8192x1_S8192x10_0_1) : HloOp τ sig (Elt F))
    = unary main_call6_v9 main_call6_v10 ((broadcastInDim S8192x10 ![0, 1] bcast_S8192x1_S8192x10_0_1) : (⟨S8192x1, .f32⟩ : BufTy).Contents (Elt F) → (⟨S8192x10, .f32⟩ : BufTy).Contents (Elt F)) :=
  tref_unary_eq _ _ _ _ _ _ _
theorem tref_main_v147 : (TRef.binary (TRef.of (T := ⟨S8192x10, .f32⟩) main_call6_v5) (TRef.of (T := ⟨S8192x10, .f32⟩) main_call6_v10) (TRef.of (T := ⟨S8192x10, .f32⟩) main_v147) subf : HloOp τ sig (Elt F))
    = binary main_call6_v5 main_call6_v10 main_v147 (subf : (⟨S8192x10, .f32⟩ : BufTy).Contents (Elt F) → (⟨S8192x10, .f32⟩ : BufTy).Contents (Elt F) → (⟨S8192x10, .f32⟩ : BufTy).Contents (Elt F)) :=
  tref_binary_eq _ _ _ _ _ _ _ _ _ _

/-! ## The stretches -/

/-- Operations 0 … 8 of @main (stages main_c … main_v6). -/
def seg0 : List (HloOp τ sig (Elt F)) :=
  [ nullary main_c (constantI S_ 32 0#32),
    unary main_c main_v0 (broadcastInDim S480000 ![] bcast_S_S480000 : (⟨S_, .i32⟩ : BufTy).Contents (Elt F) → (⟨S480000, .i32⟩ : BufTy).Contents (Elt F)),
    binary main_arg2 main_v0 main_v1 (cmpi .slt : (⟨S480000, .i32⟩ : BufTy).Contents (Elt F) → (⟨S480000, .i32⟩ : BufTy).Contents (Elt F) → (⟨S480000, .i1⟩ : BufTy).Contents (Elt F)),
    nullary main_c_0 (constantI S_ 32 30000#32),
    unary main_c_0 main_v2 (broadcastInDim S480000 ![] bcast_S_S480000 : (⟨S_, .i32⟩ : BufTy).Contents (Elt F) → (⟨S480000, .i32⟩ : BufTy).Contents (Elt F)),
    binary main_arg2 main_v2 main_v3 (addi : (⟨S480000, .i32⟩ : BufTy).Contents (Elt F) → (⟨S480000, .i32⟩ : BufTy).Contents (Elt F) → (⟨S480000, .i32⟩ : BufTy).Contents (Elt F)),
    ternary main_v1 main_v3 main_arg2 main_v4 (select : (⟨S480000, .i1⟩ : BufTy).Contents (Elt F) → (⟨S480000, .i32⟩ : BufTy).Contents (Elt F) → (⟨S480000, .i32⟩ : BufTy).Contents (Elt F) → (⟨S480000, .i32⟩ : BufTy).Contents (Elt F)),
    unary main_v4 main_v5 (broadcastInDim S480000x1 ![0] bcast_S480000_S480000x1_0 : (⟨S480000, .i32⟩ : BufTy).Contents (Elt F) → (⟨S480000x1, .i32⟩ : BufTy).Contents (Elt F)),
    binary main_arg0 main_v5 main_v6 ((fun x i => Host.gather gather_S30000x128_S480000x1_S480000x128_1_0_n_n_0_1_1128 x i) : (⟨S30000x128, .f32⟩ : BufTy).Contents (Elt F) → (⟨S480000x1, .i32⟩ : BufTy).Contents (Elt F) → (⟨S480000x128, .f32⟩ : BufTy).Contents (Elt F)) ]

/-- Operations 9 … 20 of @main (stages main_v7 … main_v16). -/
def seg1 : List (HloOp τ sig (Elt F)) :=
  [ binary main_v6 main_arg1 main_v7 ((fun a b => concatenate S480000x192 1 [⟨S480000x128, a⟩, ⟨S480000x64, b⟩] concatenates_S480000x128_S480000x64_S480000x192_d1) : (⟨S480000x128, .f32⟩ : BufTy).Contents (Elt F) → (⟨S480000x64, .f32⟩ : BufTy).Contents (Elt F) → (⟨S480000x192, .f32⟩ : BufTy).Contents (Elt F)),
    binary main_v7 main_arg8 main_v8 ((fun l r => Host.dotGeneral dot_S480000x192_S192x128_S480000x128_1_0_0_1_n_n none l r) : (⟨S480000x192, .f32⟩ : BufTy).Contents (Elt F) → (⟨S192x128, .f32⟩ : BufTy).Contents (Elt F) → (⟨S480000x128, .f32⟩ : BufTy).Contents (Elt F)),
    unary main_arg9 main_v9 (broadcastInDim S1x128 ![1] bcast_S128_S1x128_1 : (⟨S128, .f32⟩ : BufTy).Contents (Elt F) → (⟨S1x128, .f32⟩ : BufTy).Contents (Elt F)),
    unary main_v9 main_v10 (broadcastInDim S480000x128 ![0, 1] bcast_S1x128_S480000x128_0_1 : (⟨S1x128, .f32⟩ : BufTy).Contents (Elt F) → (⟨S480000x128, .f32⟩ : BufTy).Contents (Elt F)),
    binary main_v8 main_v10 main_v11 (addf : (⟨S480000x128, .f32⟩ : BufTy).Contents (Elt F) → (⟨S480000x128, .f32⟩ : BufTy).Contents (Elt F) → (⟨S480000x128, .f32⟩ : BufTy).Contents (Elt F)),
    nullary main_cst (constant S_ .f32 0x00000000#32),
    unary main_cst main_v12 (broadcastInDim S480000x128 ![] bcast_S_S480000x128 : (⟨S_, .f32⟩ : BufTy).Contents (Elt F) → (⟨S480000x128, .f32⟩ : BufTy).Contents (Elt F)),
    binary main_v11 main_v12 main_v13 (cmpf .ogt : (⟨S480000x128, .f32⟩ : BufTy).Contents (Elt F) → (⟨S480000x128, .f32⟩ : BufTy).Contents (Elt F) → (⟨S480000x128, .i1⟩ : BufTy).Contents (Elt F)),
    nullary main_cst_1 (constant S_ .f32 0x3C23D70A#32),
    unary main_cst_1 main_v14 (broadcastInDim S480000x128 ![] bcast_S_S480000x128 : (⟨S_, .f32⟩ : BufTy).Contents (Elt F) → (⟨S480000x128, .f32⟩ : BufTy).Contents (Elt F)),
    binary main_v14 main_v11 main_v15 (mulf : (⟨S480000x128, .f32⟩ : BufTy).Contents (Elt F) → (⟨S480000x128, .f32⟩ : BufTy).Contents (Elt F) → (⟨S480000x128, .f32⟩ : BufTy).Contents (Elt F)),
    ternary main_v13 main_v11 main_v15 main_v16 (select : (⟨S480000x128, .i1⟩ : BufTy).Contents (Elt F) → (⟨S480000x128, .f32⟩ : BufTy).Contents (Elt F) → (⟨S480000x128, .f32⟩ : BufTy).Contents (Elt F) → (⟨S480000x128, .f32⟩ : BufTy).Contents (Elt F)) ]

/-- Operations 21 … 35 of @main (stages main_cst_2 … main_v27). -/
def seg2 : List (HloOp τ sig (Elt F)) :=
  [ nullary main_cst_2 (constant S_ .f32 0x00000000#32),
    unary main_cst_2 main_v17 (broadcastInDim S30000x128 ![] bcast_S_S30000x128 : (⟨S_, .f32⟩ : BufTy).Contents (Elt F) → (⟨S30000x128, .f32⟩ : BufTy).Contents (Elt F)),
    unary main_arg3 main_v18 (broadcastInDim S480000x1 ![0] bcast_S480000_S480000x1_0 : (⟨S480000, .i32⟩ : BufTy).Contents (Elt F) → (⟨S480000x1, .i32⟩ : BufTy).Contents (Elt F)),
    ternary main_v17 main_v18 main_v16 main_v19 ((fun x i u => Host.scatterAdd scatter_S30000x128_S480000x1_S480000x128_1_0_0_1 x i u) : (⟨S30000x128, .f32⟩ : BufTy).Contents (Elt F) → (⟨S480000x1, .i32⟩ : BufTy).Contents (Elt F) → (⟨S480000x128, .f32⟩ : BufTy).Contents (Elt F) → (⟨S30000x128, .f32⟩ : BufTy).Contents (Elt F)),
    nullary main_cst_3 (constant S_ .f32 0x3F800000#32),
    unary main_cst_3 main_v20 (broadcastInDim S480000x1 ![] bcast_S_S480000x1 : (⟨S_, .f32⟩ : BufTy).Contents (Elt F) → (⟨S480000x1, .f32⟩ : BufTy).Contents (Elt F)),
    nullary main_cst_4 (constant S_ .f32 0x00000000#32),
    unary main_cst_4 main_v21 (broadcastInDim S30000x1 ![] bcast_S_S30000x1 : (⟨S_, .f32⟩ : BufTy).Contents (Elt F) → (⟨S30000x1, .f32⟩ : BufTy).Contents (Elt F)),
    unary main_arg3 main_v22 (broadcastInDim S480000x1 ![0] bcast_S480000_S480000x1_0 : (⟨S480000, .i32⟩ : BufTy).Contents (Elt F) → (⟨S480000x1, .i32⟩ : BufTy).Contents (Elt F)),
    ternary main_v21 main_v22 main_v20 main_v23 ((fun x i u => Host.scatterAdd scatter_S30000x1_S480000x1_S480000x1_1_0_0_1 x i u) : (⟨S30000x1, .f32⟩ : BufTy).Contents (Elt F) → (⟨S480000x1, .i32⟩ : BufTy).Contents (Elt F) → (⟨S480000x1, .f32⟩ : BufTy).Contents (Elt F) → (⟨S30000x1, .f32⟩ : BufTy).Contents (Elt F)),
    nullary main_cst_5 (constant S_ .f32 0x3F800000#32),
    unary main_cst_5 main_v24 (broadcastInDim S30000x1 ![] bcast_S_S30000x1 : (⟨S_, .f32⟩ : BufTy).Contents (Elt F) → (⟨S30000x1, .f32⟩ : BufTy).Contents (Elt F)),
    binary main_v23 main_v24 main_v25 (maximumf : (⟨S30000x1, .f32⟩ : BufTy).Contents (Elt F) → (⟨S30000x1, .f32⟩ : BufTy).Contents (Elt F) → (⟨S30000x1, .f32⟩ : BufTy).Contents (Elt F)),
    unary main_v25 main_v26 (broadcastInDim S30000x128 ![0, 1] bcast_S30000x1_S30000x128_0_1 : (⟨S30000x1, .f32⟩ : BufTy).Contents (Elt F) → (⟨S30000x128, .f32⟩ : BufTy).Contents (Elt F)),
    binary main_v19 main_v26 main_v27 (Host.divf : (⟨S30000x128, .f32⟩ : BufTy).Contents (Elt F) → (⟨S30000x128, .f32⟩ : BufTy).Contents (Elt F) → (⟨S30000x128, .f32⟩ : BufTy).Contents (Elt F)) ]

/-- Operations 36 … 47 of @main (stages main_v28 … main_v37). -/
def seg3 : List (HloOp τ sig (Elt F)) :=
  [ binary main_arg0 main_v27 main_v28 ((fun a b => concatenate S30000x256 1 [⟨S30000x128, a⟩, ⟨S30000x128, b⟩] concatenates_S30000x128_S30000x128_S30000x256_d1) : (⟨S30000x128, .f32⟩ : BufTy).Contents (Elt F) → (⟨S30000x128, .f32⟩ : BufTy).Contents (Elt F) → (⟨S30000x256, .f32⟩ : BufTy).Contents (Elt F)),
    binary main_v28 main_arg10 main_v29 ((fun l r => Host.dotGeneral dot_S30000x256_S256x256_S30000x256_1_0_0_1_n_n none l r) : (⟨S30000x256, .f32⟩ : BufTy).Contents (Elt F) → (⟨S256x256, .f32⟩ : BufTy).Contents (Elt F) → (⟨S30000x256, .f32⟩ : BufTy).Contents (Elt F)),
    unary main_arg11 main_v30 (broadcastInDim S1x256 ![1] bcast_S256_S1x256_1 : (⟨S256, .f32⟩ : BufTy).Contents (Elt F) → (⟨S1x256, .f32⟩ : BufTy).Contents (Elt F)),
    unary main_v30 main_v31 (broadcastInDim S30000x256 ![0, 1] bcast_S1x256_S30000x256_0_1 : (⟨S1x256, .f32⟩ : BufTy).Contents (Elt F) → (⟨S30000x256, .f32⟩ : BufTy).Contents (Elt F)),
    binary main_v29 main_v31 main_v32 (addf : (⟨S30000x256, .f32⟩ : BufTy).Contents (Elt F) → (⟨S30000x256, .f32⟩ : BufTy).Contents (Elt F) → (⟨S30000x256, .f32⟩ : BufTy).Contents (Elt F)),
    nullary main_cst_6 (constant S_ .f32 0x00000000#32),
    unary main_cst_6 main_v33 (broadcastInDim S30000x256 ![] bcast_S_S30000x256 : (⟨S_, .f32⟩ : BufTy).Contents (Elt F) → (⟨S30000x256, .f32⟩ : BufTy).Contents (Elt F)),
    binary main_v32 main_v33 main_v34 (cmpf .ogt : (⟨S30000x256, .f32⟩ : BufTy).Contents (Elt F) → (⟨S30000x256, .f32⟩ : BufTy).Contents (Elt F) → (⟨S30000x256, .i1⟩ : BufTy).Contents (Elt F)),
    nullary main_cst_7 (constant S_ .f32 0x3C23D70A#32),
    unary main_cst_7 main_v35 (broadcastInDim S30000x256 ![] bcast_S_S30000x256 : (⟨S_, .f32⟩ : BufTy).Contents (Elt F) → (⟨S30000x256, .f32⟩ : BufTy).Contents (Elt F)),
    binary main_v35 main_v32 main_v36 (mulf : (⟨S30000x256, .f32⟩ : BufTy).Contents (Elt F) → (⟨S30000x256, .f32⟩ : BufTy).Contents (Elt F) → (⟨S30000x256, .f32⟩ : BufTy).Contents (Elt F)),
    ternary main_v34 main_v32 main_v36 main_v37 (select : (⟨S30000x256, .i1⟩ : BufTy).Contents (Elt F) → (⟨S30000x256, .f32⟩ : BufTy).Contents (Elt F) → (⟨S30000x256, .f32⟩ : BufTy).Contents (Elt F) → (⟨S30000x256, .f32⟩ : BufTy).Contents (Elt F)) ]

/-- Operations 48 … 65 of @main (stages main_c_8 … main_v51). -/
def seg4 : List (HloOp τ sig (Elt F)) :=
  [ nullary main_c_8 (constantI S_ 32 0#32),
    unary main_c_8 main_v38 (broadcastInDim S128 ![] bcast_S_S128 : (⟨S_, .i32⟩ : BufTy).Contents (Elt F) → (⟨S128, .i32⟩ : BufTy).Contents (Elt F)),
    binary main_arg5 main_v38 main_v39 (cmpi .slt : (⟨S128, .i32⟩ : BufTy).Contents (Elt F) → (⟨S128, .i32⟩ : BufTy).Contents (Elt F) → (⟨S128, .i1⟩ : BufTy).Contents (Elt F)),
    nullary main_c_9 (constantI S_ 32 30000#32),
    unary main_c_9 main_v40 (broadcastInDim S128 ![] bcast_S_S128 : (⟨S_, .i32⟩ : BufTy).Contents (Elt F) → (⟨S128, .i32⟩ : BufTy).Contents (Elt F)),
    binary main_arg5 main_v40 main_v41 (addi : (⟨S128, .i32⟩ : BufTy).Contents (Elt F) → (⟨S128, .i32⟩ : BufTy).Contents (Elt F) → (⟨S128, .i32⟩ : BufTy).Contents (Elt F)),
    ternary main_v39 main_v41 main_arg5 main_v42 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v42 main_v43 (broadcastInDim S128x1 ![0] bcast_S128_S128x1_0 : (⟨S128, .i32⟩ : BufTy).Contents (Elt F) → (⟨S128x1, .i32⟩ : BufTy).Contents (Elt F)),
    binary main_v37 main_v43 main_v44 ((fun x i => Host.gather gather_S30000x256_S128x1_S128x256_1_0_n_n_0_1_1256 x i) : (⟨S30000x256, .f32⟩ : BufTy).Contents (Elt F) → (⟨S128x1, .i32⟩ : BufTy).Contents (Elt F) → (⟨S128x256, .f32⟩ : BufTy).Contents (Elt F)),
    nullary main_c_10 (constantI S_ 32 0#32),
    unary main_c_10 main_v45 (broadcastInDim S480000 ![] bcast_S_S480000 : (⟨S_, .i32⟩ : BufTy).Contents (Elt F) → (⟨S480000, .i32⟩ : BufTy).Contents (Elt F)),
    binary main_arg2 main_v45 main_v46 (cmpi .slt : (⟨S480000, .i32⟩ : BufTy).Contents (Elt F) → (⟨S480000, .i32⟩ : BufTy).Contents (Elt F) → (⟨S480000, .i1⟩ : BufTy).Contents (Elt F)),
    nullary main_c_11 (constantI S_ 32 30000#32),
    unary main_c_11 main_v47 (broadcastInDim S480000 ![] bcast_S_S480000 : (⟨S_, .i32⟩ : BufTy).Contents (Elt F) → (⟨S480000, .i32⟩ : BufTy).Contents (Elt F)),
    binary main_arg2 main_v47 main_v48 (addi : (⟨S480000, .i32⟩ : BufTy).Contents (Elt F) → (⟨S480000, .i32⟩ : BufTy).Contents (Elt F) → (⟨S480000, .i32⟩ : BufTy).Contents (Elt F)),
    ternary main_v46 main_v48 main_arg2 main_v49 (select : (⟨S480000, .i1⟩ : BufTy).Contents (Elt F) → (⟨S480000, .i32⟩ : BufTy).Contents (Elt F) → (⟨S480000, .i32⟩ : BufTy).Contents (Elt F) → (⟨S480000, .i32⟩ : BufTy).Contents (Elt F)),
    unary main_v49 main_v50 (broadcastInDim S480000x1 ![0] bcast_S480000_S480000x1_0 : (⟨S480000, .i32⟩ : BufTy).Contents (Elt F) → (⟨S480000x1, .i32⟩ : BufTy).Contents (Elt F)),
    binary main_v37 main_v50 main_v51 ((fun x i => Host.gather gather_S30000x256_S480000x1_S480000x256_1_0_n_n_0_1_1256 x i) : (⟨S30000x256, .f32⟩ : BufTy).Contents (Elt F) → (⟨S480000x1, .i32⟩ : BufTy).Contents (Elt F) → (⟨S480000x256, .f32⟩ : BufTy).Contents (Elt F)) ]

/-- Operations 66 … 77 of @main (stages main_v52 … main_v61). -/
def seg5 : List (HloOp τ sig (Elt F)) :=
  [ binary main_v51 main_v16 main_v52 ((fun a b => concatenate S480000x384 1 [⟨S480000x256, a⟩, ⟨S480000x128, b⟩] concatenates_S480000x256_S480000x128_S480000x384_d1) : (⟨S480000x256, .f32⟩ : BufTy).Contents (Elt F) → (⟨S480000x128, .f32⟩ : BufTy).Contents (Elt F) → (⟨S480000x384, .f32⟩ : BufTy).Contents (Elt F)),
    binary main_v52 main_arg12 main_v53 ((fun l r => Host.dotGeneral dot_S480000x384_S384x64_S480000x64_1_0_0_1_n_n none l r) : (⟨S480000x384, .f32⟩ : BufTy).Contents (Elt F) → (⟨S384x64, .f32⟩ : BufTy).Contents (Elt F) → (⟨S480000x64, .f32⟩ : BufTy).Contents (Elt F)),
    unary main_arg13 main_v54 (broadcastInDim S1x64 ![1] bcast_S64_S1x64_1 : (⟨S64, .f32⟩ : BufTy).Contents (Elt F) → (⟨S1x64, .f32⟩ : BufTy).Contents (Elt F)),
    unary main_v54 main_v55 (broadcastInDim S480000x64 ![0, 1] bcast_S1x64_S480000x64_0_1 : (⟨S1x64, .f32⟩ : BufTy).Contents (Elt F) → (⟨S480000x64, .f32⟩ : BufTy).Contents (Elt F)),
    binary main_v53 main_v55 main_v56 (addf : (⟨S480000x64, .f32⟩ : BufTy).Contents (Elt F) → (⟨S480000x64, .f32⟩ : BufTy).Contents (Elt F) → (⟨S480000x64, .f32⟩ : BufTy).Contents (Elt F)),
    nullary main_cst_12 (constant S_ .f32 0x00000000#32),
    unary main_cst_12 main_v57 (broadcastInDim S480000x64 ![] bcast_S_S480000x64 : (⟨S_, .f32⟩ : BufTy).Contents (Elt F) → (⟨S480000x64, .f32⟩ : BufTy).Contents (Elt F)),
    binary main_v56 main_v57 main_v58 (cmpf .ogt : (⟨S480000x64, .f32⟩ : BufTy).Contents (Elt F) → (⟨S480000x64, .f32⟩ : BufTy).Contents (Elt F) → (⟨S480000x64, .i1⟩ : BufTy).Contents (Elt F)),
    nullary main_cst_13 (constant S_ .f32 0x3C23D70A#32),
    unary main_cst_13 main_v59 (broadcastInDim S480000x64 ![] bcast_S_S480000x64 : (⟨S_, .f32⟩ : BufTy).Contents (Elt F) → (⟨S480000x64, .f32⟩ : BufTy).Contents (Elt F)),
    binary main_v59 main_v56 main_v60 (mulf : (⟨S480000x64, .f32⟩ : BufTy).Contents (Elt F) → (⟨S480000x64, .f32⟩ : BufTy).Contents (Elt F) → (⟨S480000x64, .f32⟩ : BufTy).Contents (Elt F)),
    ternary main_v58 main_v56 main_v60 main_v61 (select : (⟨S480000x64, .i1⟩ : BufTy).Contents (Elt F) → (⟨S480000x64, .f32⟩ : BufTy).Contents (Elt F) → (⟨S480000x64, .f32⟩ : BufTy).Contents (Elt F) → (⟨S480000x64, .f32⟩ : BufTy).Contents (Elt F)) ]

/-- Operations 78 … 92 of @main (stages main_cst_14 … main_v72). -/
def seg6 : List (HloOp τ sig (Elt F)) :=
  [ nullary main_cst_14 (constant S_ .f32 0x00000000#32),
    unary main_cst_14 main_v62 (broadcastInDim S30000x64 ![] bcast_S_S30000x64 : (⟨S_, .f32⟩ : BufTy).Contents (Elt F) → (⟨S30000x64, .f32⟩ : BufTy).Contents (Elt F)),
    unary main_arg3 main_v63 (broadcastInDim S480000x1 ![0] bcast_S480000_S480000x1_0 : (⟨S480000, .i32⟩ : BufTy).Contents (Elt F) → (⟨S480000x1, .i32⟩ : BufTy).Contents (Elt F)),
    ternary main_v62 main_v63 main_v61 main_v64 ((fun x i u => Host.scatterAdd scatter_S30000x64_S480000x1_S480000x64_1_0_0_1 x i u) : (⟨S30000x64, .f32⟩ : BufTy).Contents (Elt F) → (⟨S480000x1, .i32⟩ : BufTy).Contents (Elt F) → (⟨S480000x64, .f32⟩ : BufTy).Contents (Elt F) → (⟨S30000x64, .f32⟩ : BufTy).Contents (Elt F)),
    nullary main_cst_15 (constant S_ .f32 0x3F800000#32),
    unary main_cst_15 main_v65 (broadcastInDim S480000x1 ![] bcast_S_S480000x1 : (⟨S_, .f32⟩ : BufTy).Contents (Elt F) → (⟨S480000x1, .f32⟩ : BufTy).Contents (Elt F)),
    nullary main_cst_16 (constant S_ .f32 0x00000000#32),
    unary main_cst_16 main_v66 (broadcastInDim S30000x1 ![] bcast_S_S30000x1 : (⟨S_, .f32⟩ : BufTy).Contents (Elt F) → (⟨S30000x1, .f32⟩ : BufTy).Contents (Elt F)),
    unary main_arg3 main_v67 (broadcastInDim S480000x1 ![0] bcast_S480000_S480000x1_0 : (⟨S480000, .i32⟩ : BufTy).Contents (Elt F) → (⟨S480000x1, .i32⟩ : BufTy).Contents (Elt F)),
    ternary main_v66 main_v67 main_v65 main_v68 ((fun x i u => Host.scatterAdd scatter_S30000x1_S480000x1_S480000x1_1_0_0_1 x i u) : (⟨S30000x1, .f32⟩ : BufTy).Contents (Elt F) → (⟨S480000x1, .i32⟩ : BufTy).Contents (Elt F) → (⟨S480000x1, .f32⟩ : BufTy).Contents (Elt F) → (⟨S30000x1, .f32⟩ : BufTy).Contents (Elt F)),
    nullary main_cst_17 (constant S_ .f32 0x3F800000#32),
    unary main_cst_17 main_v69 (broadcastInDim S30000x1 ![] bcast_S_S30000x1 : (⟨S_, .f32⟩ : BufTy).Contents (Elt F) → (⟨S30000x1, .f32⟩ : BufTy).Contents (Elt F)),
    binary main_v68 main_v69 main_v70 (maximumf : (⟨S30000x1, .f32⟩ : BufTy).Contents (Elt F) → (⟨S30000x1, .f32⟩ : BufTy).Contents (Elt F) → (⟨S30000x1, .f32⟩ : BufTy).Contents (Elt F)),
    unary main_v70 main_v71 (broadcastInDim S30000x64 ![0, 1] bcast_S30000x1_S30000x64_0_1 : (⟨S30000x1, .f32⟩ : BufTy).Contents (Elt F) → (⟨S30000x64, .f32⟩ : BufTy).Contents (Elt F)),
    binary main_v64 main_v71 main_v72 (Host.divf : (⟨S30000x64, .f32⟩ : BufTy).Contents (Elt F) → (⟨S30000x64, .f32⟩ : BufTy).Contents (Elt F) → (⟨S30000x64, .f32⟩ : BufTy).Contents (Elt F)) ]

/-- Operations 93 … 104 of @main (stages main_v73 … main_v82). -/
def seg7 : List (HloOp τ sig (Elt F)) :=
  [ binary main_v37 main_v72 main_v73 ((fun a b => concatenate S30000x320 1 [⟨S30000x256, a⟩, ⟨S30000x64, b⟩] concatenates_S30000x256_S30000x64_S30000x320_d1) : (⟨S30000x256, .f32⟩ : BufTy).Contents (Elt F) → (⟨S30000x64, .f32⟩ : BufTy).Contents (Elt F) → (⟨S30000x320, .f32⟩ : BufTy).Contents (Elt F)),
    binary main_v73 main_arg14 main_v74 ((fun l r => Host.dotGeneral dot_S30000x320_S320x256_S30000x256_1_0_0_1_n_n none l r) : (⟨S30000x320, .f32⟩ : BufTy).Contents (Elt F) → (⟨S320x256, .f32⟩ : BufTy).Contents (Elt F) → (⟨S30000x256, .f32⟩ : BufTy).Contents (Elt F)),
    unary main_arg15 main_v75 (broadcastInDim S1x256 ![1] bcast_S256_S1x256_1 : (⟨S256, .f32⟩ : BufTy).Contents (Elt F) → (⟨S1x256, .f32⟩ : BufTy).Contents (Elt F)),
    unary main_v75 main_v76 (broadcastInDim S30000x256 ![0, 1] bcast_S1x256_S30000x256_0_1 : (⟨S1x256, .f32⟩ : BufTy).Contents (Elt F) → (⟨S30000x256, .f32⟩ : BufTy).Contents (Elt F)),
    binary main_v74 main_v76 main_v77 (addf : (⟨S30000x256, .f32⟩ : BufTy).Contents (Elt F) → (⟨S30000x256, .f32⟩ : BufTy).Contents (Elt F) → (⟨S30000x256, .f32⟩ : BufTy).Contents (Elt F)),
    nullary main_cst_18 (constant S_ .f32 0x00000000#32),
    unary main_cst_18 main_v78 (broadcastInDim S30000x256 ![] bcast_S_S30000x256 : (⟨S_, .f32⟩ : BufTy).Contents (Elt F) → (⟨S30000x256, .f32⟩ : BufTy).Contents (Elt F)),
    binary main_v77 main_v78 main_v79 (cmpf .ogt : (⟨S30000x256, .f32⟩ : BufTy).Contents (Elt F) → (⟨S30000x256, .f32⟩ : BufTy).Contents (Elt F) → (⟨S30000x256, .i1⟩ : BufTy).Contents (Elt F)),
    nullary main_cst_19 (constant S_ .f32 0x3C23D70A#32),
    unary main_cst_19 main_v80 (broadcastInDim S30000x256 ![] bcast_S_S30000x256 : (⟨S_, .f32⟩ : BufTy).Contents (Elt F) → (⟨S30000x256, .f32⟩ : BufTy).Contents (Elt F)),
    binary main_v80 main_v77 main_v81 (mulf : (⟨S30000x256, .f32⟩ : BufTy).Contents (Elt F) → (⟨S30000x256, .f32⟩ : BufTy).Contents (Elt F) → (⟨S30000x256, .f32⟩ : BufTy).Contents (Elt F)),
    ternary main_v79 main_v77 main_v81 main_v82 (select : (⟨S30000x256, .i1⟩ : BufTy).Contents (Elt F) → (⟨S30000x256, .f32⟩ : BufTy).Contents (Elt F) → (⟨S30000x256, .f32⟩ : BufTy).Contents (Elt F) → (⟨S30000x256, .f32⟩ : BufTy).Contents (Elt F)) ]

/-- Operations 105 … 113 of @main (stages main_c_20 … main_v89). -/
def seg8 : List (HloOp τ sig (Elt F)) :=
  [ nullary main_c_20 (constantI S_ 32 0#32),
    unary main_c_20 main_v83 (broadcastInDim S8192 ![] bcast_S_S8192 : (⟨S_, .i32⟩ : BufTy).Contents (Elt F) → (⟨S8192, .i32⟩ : BufTy).Contents (Elt F)),
    binary main_arg4 main_v83 main_v84 (cmpi .slt : (⟨S8192, .i32⟩ : BufTy).Contents (Elt F) → (⟨S8192, .i32⟩ : BufTy).Contents (Elt F) → (⟨S8192, .i1⟩ : BufTy).Contents (Elt F)),
    nullary main_c_21 (constantI S_ 32 30000#32),
    unary main_c_21 main_v85 (broadcastInDim S8192 ![] bcast_S_S8192 : (⟨S_, .i32⟩ : BufTy).Contents (Elt F) → (⟨S8192, .i32⟩ : BufTy).Contents (Elt F)),
    binary main_arg4 main_v85 main_v86 (addi : (⟨S8192, .i32⟩ : BufTy).Contents (Elt F) → (⟨S8192, .i32⟩ : BufTy).Contents (Elt F) → (⟨S8192, .i32⟩ : BufTy).Contents (Elt F)),
    ternary main_v84 main_v86 main_arg4 main_v87 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v87 main_v88 (broadcastInDim S8192x1 ![0] bcast_S8192_S8192x1_0 : (⟨S8192, .i32⟩ : BufTy).Contents (Elt F) → (⟨S8192x1, .i32⟩ : BufTy).Contents (Elt F)),
    binary main_v82 main_v88 main_v89 ((fun x i => Host.gather gather_S30000x256_S8192x1_S8192x256_1_0_n_n_0_1_1256 x i) : (⟨S30000x256, .f32⟩ : BufTy).Contents (Elt F) → (⟨S8192x1, .i32⟩ : BufTy).Contents (Elt F) → (⟨S8192x256, .f32⟩ : BufTy).Contents (Elt F)) ]

/-- Operations 114 … 152 of @main (stages main_v90 … main_v121). -/
def seg9 : List (HloOp τ sig (Elt F)) :=
  [ binary main_v44 main_arg16 main_v90 (addf : (⟨S128x256, .f32⟩ : BufTy).Contents (Elt F) → (⟨S128x256, .f32⟩ : BufTy).Contents (Elt F) → (⟨S128x256, .f32⟩ : BufTy).Contents (Elt F)),
    binary main_v90 main_arg17 main_v91 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F)),
    binary main_v90 main_arg18 main_v92 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F)),
    binary main_v90 main_arg19 main_v93 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F)),
    unary main_v92 main_v94 ((transpose S256x128 [1, 0] · transposes_S128x256_S256x128_1_0) : (⟨S128x256, .f32⟩ : BufTy).Contents (Elt F) → (⟨S256x128, .f32⟩ : BufTy).Contents (Elt F)),
    binary main_v91 main_v94 main_v95 ((fun l r => Host.dotGeneral dot_S128x256_S256x128_S128x128_1_0_0_1_n_n none l r) : (⟨S128x256, .f32⟩ : BufTy).Contents (Elt F) → (⟨S256x128, .f32⟩ : BufTy).Contents (Elt F) → (⟨S128x128, .f32⟩ : BufTy).Contents (Elt F)),
    nullary main_cst_22 (constant S_ .f32 0x3D800000#32),
    unary main_cst_22 main_v96 (broadcastInDim S128x128 ![] bcast_S_S128x128 : (⟨S_, .f32⟩ : BufTy).Contents (Elt F) → (⟨S128x128, .f32⟩ : BufTy).Contents (Elt F)),
    binary main_v95 main_v96 main_v97 (mulf : (⟨S128x128, .f32⟩ : BufTy).Contents (Elt F) → (⟨S128x128, .f32⟩ : BufTy).Contents (Elt F) → (⟨S128x128, .f32⟩ : BufTy).Contents (Elt F)),
    nullary main_cst_23 (constant S_ .f32 0xFF800000#32),
    binary main_v97 main_cst_23 main_v98 ((fun x v => Host.reduce FloatOps.maximumf x v reducesTo_S128x128_S128_d1 h_S_) : (⟨S128x128, .f32⟩ : BufTy).Contents (Elt F) → (⟨S_, .f32⟩ : BufTy).Contents (Elt F) → (⟨S128, .f32⟩ : BufTy).Contents (Elt F)),
    nullary main_cst_24 (constant S_ .f32 0xFF800000#32),
    unary main_cst_24 main_v99 (broadcastInDim S128 ![] bcast_S_S128 : (⟨S_, .f32⟩ : BufTy).Contents (Elt F) → (⟨S128, .f32⟩ : BufTy).Contents (Elt F)),
    binary main_v99 main_v98 main_v100 (maximumf : (⟨S128, .f32⟩ : BufTy).Contents (Elt F) → (⟨S128, .f32⟩ : BufTy).Contents (Elt F) → (⟨S128, .f32⟩ : BufTy).Contents (Elt F)),
    unary main_v100 main_v101 (broadcastInDim S128x1 ![0] bcast_S128_S128x1_0 : (⟨S128, .f32⟩ : BufTy).Contents (Elt F) → (⟨S128x1, .f32⟩ : BufTy).Contents (Elt F)),
    unary main_v101 main_v102 (broadcastInDim S128x128 ![0, 1] bcast_S128x1_S128x128_0_1 : (⟨S128x1, .f32⟩ : BufTy).Contents (Elt F) → (⟨S128x128, .f32⟩ : BufTy).Contents (Elt F)),
    binary main_v97 main_v102 main_v103 (subf : (⟨S128x128, .f32⟩ : BufTy).Contents (Elt F) → (⟨S128x128, .f32⟩ : BufTy).Contents (Elt F) → (⟨S128x128, .f32⟩ : BufTy).Contents (Elt F)),
    unary main_v103 main_v104 (Host.exp : (⟨S128x128, .f32⟩ : BufTy).Contents (Elt F) → (⟨S128x128, .f32⟩ : BufTy).Contents (Elt F)),
    nullary main_cst_25 (constant S_ .f32 0x00000000#32),
    binary main_v104 main_cst_25 main_v105 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    unary main_v105 main_v106 (broadcastInDim S128x1 ![0] bcast_S128_S128x1_0 : (⟨S128, .f32⟩ : BufTy).Contents (Elt F) → (⟨S128x1, .f32⟩ : BufTy).Contents (Elt F)),
    unary main_v106 main_v107 (broadcastInDim S128x128 ![0, 1] bcast_S128x1_S128x128_0_1 : (⟨S128x1, .f32⟩ : BufTy).Contents (Elt F) → (⟨S128x128, .f32⟩ : BufTy).Contents (Elt F)),
    binary main_v104 main_v107 main_v108 (Host.divf : (⟨S128x128, .f32⟩ : BufTy).Contents (Elt F) → (⟨S128x128, .f32⟩ : BufTy).Contents (Elt F) → (⟨S128x128, .f32⟩ : BufTy).Contents (Elt F)),
    binary main_v108 main_v93 main_v109 ((fun l r => Host.dotGeneral dot_S128x128_S128x256_S128x256_1_0_0_1_n_n none l r) : (⟨S128x128, .f32⟩ : BufTy).Contents (Elt F) → (⟨S128x256, .f32⟩ : BufTy).Contents (Elt F) → (⟨S128x256, .f32⟩ : BufTy).Contents (Elt F)),
    nullary main_cst_26 (constant S_ .f32 0x40000000#32),
    unary main_cst_26 main_v110 (broadcastInDim S128x256 ![] bcast_S_S128x256 : (⟨S_, .f32⟩ : BufTy).Contents (Elt F) → (⟨S128x256, .f32⟩ : BufTy).Contents (Elt F)),
    binary main_v110 main_v109 main_v111 (mulf : (⟨S128x256, .f32⟩ : BufTy).Contents (Elt F) → (⟨S128x256, .f32⟩ : BufTy).Contents (Elt F) → (⟨S128x256, .f32⟩ : BufTy).Contents (Elt F)),
    binary main_v111 main_arg20 main_v112 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F)),
    unary main_arg21 main_v113 (broadcastInDim S1x256 ![1] bcast_S256_S1x256_1 : (⟨S256, .f32⟩ : BufTy).Contents (Elt F) → (⟨S1x256, .f32⟩ : BufTy).Contents (Elt F)),
    unary main_v113 main_v114 (broadcastInDim S128x256 ![0, 1] bcast_S1x256_S128x256_0_1 : (⟨S1x256, .f32⟩ : BufTy).Contents (Elt F) → (⟨S128x256, .f32⟩ : BufTy).Contents (Elt F)),
    binary main_v112 main_v114 main_v115 (addf : (⟨S128x256, .f32⟩ : BufTy).Contents (Elt F) → (⟨S128x256, .f32⟩ : BufTy).Contents (Elt F) → (⟨S128x256, .f32⟩ : BufTy).Contents (Elt F)),
    unary main_v115 main_v116 (Host.negf : (⟨S128x256, .f32⟩ : BufTy).Contents (Elt F) → (⟨S128x256, .f32⟩ : BufTy).Contents (Elt F)),
    unary main_v116 main_v117 (Host.exp : (⟨S128x256, .f32⟩ : BufTy).Contents (Elt F) → (⟨S128x256, .f32⟩ : BufTy).Contents (Elt F)),
    nullary main_cst_27 (constant S_ .f32 0x3F800000#32),
    unary main_cst_27 main_v118 (broadcastInDim S128x256 ![] bcast_S_S128x256 : (⟨S_, .f32⟩ : BufTy).Contents (Elt F) → (⟨S128x256, .f32⟩ : BufTy).Contents (Elt F)),
    binary main_v118 main_v117 main_v119 (addf : (⟨S128x256, .f32⟩ : BufTy).Contents (Elt F) → (⟨S128x256, .f32⟩ : BufTy).Contents (Elt F) → (⟨S128x256, .f32⟩ : BufTy).Contents (Elt F)),
    nullary main_cst_28 (constant S_ .f32 0x3F800000#32),
    unary main_cst_28 main_v120 (broadcastInDim S128x256 ![] bcast_S_S128x256 : (⟨S_, .f32⟩ : BufTy).Contents (Elt F) → (⟨S128x256, .f32⟩ : BufTy).Contents (Elt F)),
    binary main_v120 main_v119 main_v121 (Host.divf : (⟨S128x256, .f32⟩ : BufTy).Contents (Elt F) → (⟨S128x256, .f32⟩ : BufTy).Contents (Elt F) → (⟨S128x256, .f32⟩ : BufTy).Contents (Elt F)) ]

/-- Operations 153 … 170 of @main (stages main_v122 … main_v137). -/
def seg10 : List (HloOp τ sig (Elt F)) :=
  [ binary main_v89 main_arg22 main_v122 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    unary main_v122 main_v123 (broadcastInDim S8192x1x64 ![0, 2] bcast_S8192x64_S8192x1x64_0_2 : (⟨S8192x64, .f32⟩ : BufTy).Contents (Elt F) → (⟨S8192x1x64, .f32⟩ : BufTy).Contents (Elt F)),
    binary main_v121 main_arg23 main_v124 ((fun l r => Host.dotGeneral dot_S128x256_S256x64_S128x64_1_0_0_1_n_n none l r) : (⟨S128x256, .f32⟩ : BufTy).Contents (Elt F) → (⟨S256x64, .f32⟩ : BufTy).Contents (Elt F) → (⟨S128x64, .f32⟩ : BufTy).Contents (Elt F)),
    unary main_v124 main_v125 (broadcastInDim S1x128x64 ![1, 2] bcast_S128x64_S1x128x64_1_2 : (⟨S128x64, .f32⟩ : BufTy).Contents (Elt F) → (⟨S1x128x64, .f32⟩ : BufTy).Contents (Elt F)),
    unary main_v123 main_v126 (broadcastInDim S8192x128x64 ![0, 1, 2] bcast_S8192x1x64_S8192x128x64_0_1_2 : (⟨S8192x1x64, .f32⟩ : BufTy).Contents (Elt F) → (⟨S8192x128x64, .f32⟩ : BufTy).Contents (Elt F)),
    unary main_v125 main_v127 (broadcastInDim S8192x128x64 ![0, 1, 2] bcast_S1x128x64_S8192x128x64_0_1_2 : (⟨S1x128x64, .f32⟩ : BufTy).Contents (Elt F) → (⟨S8192x128x64, .f32⟩ : BufTy).Contents (Elt F)),
    binary main_v126 main_v127 main_v128 (addf : (⟨S8192x128x64, .f32⟩ : BufTy).Contents (Elt F) → (⟨S8192x128x64, .f32⟩ : BufTy).Contents (Elt F) → (⟨S8192x128x64, .f32⟩ : BufTy).Contents (Elt F)),
    unary main_arg24 main_v129 (broadcastInDim S1x1x64 ![2] bcast_S64_S1x1x64_2 : (⟨S64, .f32⟩ : BufTy).Contents (Elt F) → (⟨S1x1x64, .f32⟩ : BufTy).Contents (Elt F)),
    unary main_v129 main_v130 (broadcastInDim S8192x128x64 ![0, 1, 2] bcast_S1x1x64_S8192x128x64_0_1_2 : (⟨S1x1x64, .f32⟩ : BufTy).Contents (Elt F) → (⟨S8192x128x64, .f32⟩ : BufTy).Contents (Elt F)),
    binary main_v128 main_v130 main_v131 (addf : (⟨S8192x128x64, .f32⟩ : BufTy).Contents (Elt F) → (⟨S8192x128x64, .f32⟩ : BufTy).Contents (Elt F) → (⟨S8192x128x64, .f32⟩ : BufTy).Contents (Elt F)),
    nullary main_cst_29 (constant S_ .f32 0x00000000#32),
    unary main_cst_29 main_v132 (broadcastInDim S8192x128x64 ![] bcast_S_S8192x128x64 : (⟨S_, .f32⟩ : BufTy).Contents (Elt F) → (⟨S8192x128x64, .f32⟩ : BufTy).Contents (Elt F)),
    binary main_v131 main_v132 main_v133 (cmpf .ogt : (⟨S8192x128x64, .f32⟩ : BufTy).Contents (Elt F) → (⟨S8192x128x64, .f32⟩ : BufTy).Contents (Elt F) → (⟨S8192x128x64, .i1⟩ : BufTy).Contents (Elt F)),
    nullary main_cst_30 (constant S_ .f32 0x3C23D70A#32),
    unary main_cst_30 main_v134 (broadcastInDim S8192x128x64 ![] bcast_S_S8192x128x64 : (⟨S_, .f32⟩ : BufTy).Contents (Elt F) → (⟨S8192x128x64, .f32⟩ : BufTy).Contents (Elt F)),
    binary main_v134 main_v131 main_v135 (mulf : (⟨S8192x128x64, .f32⟩ : BufTy).Contents (Elt F) → (⟨S8192x128x64, .f32⟩ : BufTy).Contents (Elt F) → (⟨S8192x128x64, .f32⟩ : BufTy).Contents (Elt F)),
    ternary main_v133 main_v131 main_v135 main_v136 (select : (⟨S8192x128x64, .i1⟩ : BufTy).Contents (Elt F) → (⟨S8192x128x64, .f32⟩ : BufTy).Contents (Elt F) → (⟨S8192x128x64, .f32⟩ : BufTy).Contents (Elt F) → (⟨S8192x128x64, .f32⟩ : BufTy).Contents (Elt F)),
    reshape main_v136 main_v137 rfl shapeCasts_S8192x128x64_S1048576x64 ]

/-- Operations 171 … 195 of @main (stages main_v138 … main_v147). -/
def seg11 : List (HloOp τ sig (Elt F)) :=
  [ reshape main_arg7 main_v138 rfl shapeCasts_S8192x128_S1048576,
    unary main_v138 main_v139 (broadcastInDim S1048576x1 ![0] bcast_S1048576_S1048576x1_0 : (⟨S1048576, .i1⟩ : BufTy).Contents (Elt F) → (⟨S1048576x1, .i1⟩ : BufTy).Contents (Elt F)),
    unary main_v139 main_call5_v0 ((broadcastInDim S1048576x64 ![0, 1] bcast_S1048576x1_S1048576x64_0_1) : (⟨S1048576x1, .i1⟩ : BufTy).Contents (Elt F) → (⟨S1048576x64, .i1⟩ : BufTy).Contents (Elt F)),
    ternary main_call5_v0 main_arg6 main_v137 main_v140 (select : (⟨S1048576x64, .i1⟩ : BufTy).Contents (Elt F) → (⟨S1048576x64, .f32⟩ : BufTy).Contents (Elt F) → (⟨S1048576x64, .f32⟩ : BufTy).Contents (Elt F) → (⟨S1048576x64, .f32⟩ : BufTy).Contents (Elt F)),
    reshape main_v140 main_v141 rfl shapeCasts_S1048576x64_S8192x128x64,
    reshape main_v141 main_v142 rfl shapeCasts_S8192x128x64_S8192x8192,
    binary main_v142 main_arg25 main_v143 ((fun l r => Host.dotGeneral dot_S8192x8192_S8192x10_S8192x10_1_0_0_1_n_n none l r) : (⟨S8192x8192, .f32⟩ : BufTy).Contents (Elt F) → (⟨S8192x10, .f32⟩ : BufTy).Contents (Elt F) → (⟨S8192x10, .f32⟩ : BufTy).Contents (Elt F)),
    unary main_arg26 main_v144 (broadcastInDim S1x10 ![1] bcast_S10_S1x10_1 : (⟨S10, .f32⟩ : BufTy).Contents (Elt F) → (⟨S1x10, .f32⟩ : BufTy).Contents (Elt F)),
    unary main_v144 main_v145 (broadcastInDim S8192x10 ![0, 1] bcast_S1x10_S8192x10_0_1 : (⟨S1x10, .f32⟩ : BufTy).Contents (Elt F) → (⟨S8192x10, .f32⟩ : BufTy).Contents (Elt F)),
    binary main_v143 main_v145 main_v146 (addf : (⟨S8192x10, .f32⟩ : BufTy).Contents (Elt F) → (⟨S8192x10, .f32⟩ : BufTy).Contents (Elt F) → (⟨S8192x10, .f32⟩ : BufTy).Contents (Elt F)),
    nullary main_call6_cst (constant S_ .f32 0xFF800000#32),
    binary main_v146 main_call6_cst main_call6_v0 ((fun x v => Host.reduce FloatOps.maximumf x v reducesTo_S8192x10_S8192_d1 h_S_) : (⟨S8192x10, .f32⟩ : BufTy).Contents (Elt F) → (⟨S_, .f32⟩ : BufTy).Contents (Elt F) → (⟨S8192, .f32⟩ : BufTy).Contents (Elt F)),
    nullary main_call6_cst_0 (constant S_ .f32 0xFF800000#32),
    unary main_call6_cst_0 main_call6_v1 ((broadcastInDim S8192 ![] bcast_S_S8192) : (⟨S_, .f32⟩ : BufTy).Contents (Elt F) → (⟨S8192, .f32⟩ : BufTy).Contents (Elt F)),
    binary main_call6_v1 main_call6_v0 main_call6_v2 (maximumf : (⟨S8192, .f32⟩ : BufTy).Contents (Elt F) → (⟨S8192, .f32⟩ : BufTy).Contents (Elt F) → (⟨S8192, .f32⟩ : BufTy).Contents (Elt F)),
    unary main_call6_v2 main_call6_v3 ((broadcastInDim S8192x1 ![0] bcast_S8192_S8192x1_0) : (⟨S8192, .f32⟩ : BufTy).Contents (Elt F) → (⟨S8192x1, .f32⟩ : BufTy).Contents (Elt F)),
    unary main_call6_v3 main_call6_v4 ((broadcastInDim S8192x10 ![0, 1] bcast_S8192x1_S8192x10_0_1) : (⟨S8192x1, .f32⟩ : BufTy).Contents (Elt F) → (⟨S8192x10, .f32⟩ : BufTy).Contents (Elt F)),
    binary main_v146 main_call6_v4 main_call6_v5 (subf : (⟨S8192x10, .f32⟩ : BufTy).Contents (Elt F) → (⟨S8192x10, .f32⟩ : BufTy).Contents (Elt F) → (⟨S8192x10, .f32⟩ : BufTy).Contents (Elt F)),
    unary main_call6_v5 main_call6_v6 (Host.exp : (⟨S8192x10, .f32⟩ : BufTy).Contents (Elt F) → (⟨S8192x10, .f32⟩ : BufTy).Contents (Elt F)),
    nullary main_call6_cst_1 (constant S_ .f32 0x00000000#32),
    binary main_call6_v6 main_call6_cst_1 main_call6_v7 ((fun x v => Host.reduceAdd x v reducesTo_S8192x10_S8192_d1 h_S_) : (⟨S8192x10, .f32⟩ : BufTy).Contents (Elt F) → (⟨S_, .f32⟩ : BufTy).Contents (Elt F) → (⟨S8192, .f32⟩ : BufTy).Contents (Elt F)),
    unary main_call6_v7 main_call6_v8 ((broadcastInDim S8192x1 ![0] bcast_S8192_S8192x1_0) : (⟨S8192, .f32⟩ : BufTy).Contents (Elt F) → (⟨S8192x1, .f32⟩ : BufTy).Contents (Elt F)),
    unary main_call6_v8 main_call6_v9 (Host.log : (⟨S8192x1, .f32⟩ : BufTy).Contents (Elt F) → (⟨S8192x1, .f32⟩ : BufTy).Contents (Elt F)),
    unary main_call6_v9 main_call6_v10 ((broadcastInDim S8192x10 ![0, 1] bcast_S8192x1_S8192x10_0_1) : (⟨S8192x1, .f32⟩ : BufTy).Contents (Elt F) → (⟨S8192x10, .f32⟩ : BufTy).Contents (Elt F)),
    binary main_call6_v5 main_call6_v10 main_v147 (subf : (⟨S8192x10, .f32⟩ : BufTy).Contents (Elt F) → (⟨S8192x10, .f32⟩ : BufTy).Contents (Elt F) → (⟨S8192x10, .f32⟩ : BufTy).Contents (Elt F)) ]

/-- @main's operations are the stretches, in order. -/
theorem ops_split : (ops : List (HloOp τ sig (Elt F))) = seg0 ++ (seg1 ++ (seg2 ++ (seg3 ++ (seg4 ++ (seg5 ++ (seg6 ++ (seg7 ++ (seg8 ++ (seg9 ++ (seg10 ++ (seg11))))))))))) := by
  unfold ops
  rw [tref_main_v16, tref_main_v37, tref_main_v61, tref_main_v82, tref_main_v136, tref_main_call5_v0, tref_main_v140, tref_main_call6_cst, tref_main_call6_v0, tref_main_call6_cst_0, tref_main_call6_v1, tref_main_call6_v2, tref_main_call6_v3, tref_main_call6_v4, tref_main_call6_v5, tref_main_call6_v6, tref_main_call6_cst_1, tref_main_call6_v7, tref_main_call6_v8, tref_main_call6_v9, tref_main_call6_v10, tref_main_v147]
  rfl

/-- The buffer contents at launch. -/
def val0 (m : (ℓ : Loc nD τ sig) → Buf (Elt F) ℓ) (c : Dev nD) : Valuation τ sig (Elt F) := launchContents m c
theorem val0_main_arg0 (m : (ℓ : Loc nD τ sig) → Buf (Elt F) ℓ) (c : Dev nD) : val0 m c (no_index (Proc.devRef .tc main_arg0)) = m ((c.tc : Thread nD τ).loc main_arg0) := rfl
theorem val0_main_arg1 (m : (ℓ : Loc nD τ sig) → Buf (Elt F) ℓ) (c : Dev nD) : val0 m c (no_index (Proc.devRef .tc main_arg1)) = m ((c.tc : Thread nD τ).loc main_arg1) := rfl
theorem val0_main_arg2 (m : (ℓ : Loc nD τ sig) → Buf (Elt F) ℓ) (c : Dev nD) : val0 m c (no_index (Proc.devRef .tc main_arg2)) = m ((c.tc : Thread nD τ).loc main_arg2) := rfl
theorem val0_main_arg3 (m : (ℓ : Loc nD τ sig) → Buf (Elt F) ℓ) (c : Dev nD) : val0 m c (no_index (Proc.devRef .tc main_arg3)) = m ((c.tc : Thread nD τ).loc main_arg3) := rfl
theorem val0_main_arg4 (m : (ℓ : Loc nD τ sig) → Buf (Elt F) ℓ) (c : Dev nD) : val0 m c (no_index (Proc.devRef .tc main_arg4)) = m ((c.tc : Thread nD τ).loc main_arg4) := rfl
theorem val0_main_arg5 (m : (ℓ : Loc nD τ sig) → Buf (Elt F) ℓ) (c : Dev nD) : val0 m c (no_index (Proc.devRef .tc main_arg5)) = m ((c.tc : Thread nD τ).loc main_arg5) := rfl
theorem val0_main_arg6 (m : (ℓ : Loc nD τ sig) → Buf (Elt F) ℓ) (c : Dev nD) : val0 m c (no_index (Proc.devRef .tc main_arg6)) = m ((c.tc : Thread nD τ).loc main_arg6) := rfl
theorem val0_main_arg7 (m : (ℓ : Loc nD τ sig) → Buf (Elt F) ℓ) (c : Dev nD) : val0 m c (no_index (Proc.devRef .tc main_arg7)) = m ((c.tc : Thread nD τ).loc main_arg7) := rfl
theorem val0_main_arg8 (m : (ℓ : Loc nD τ sig) → Buf (Elt F) ℓ) (c : Dev nD) : val0 m c (no_index (Proc.devRef .tc main_arg8)) = m ((c.tc : Thread nD τ).loc main_arg8) := rfl
theorem val0_main_arg9 (m : (ℓ : Loc nD τ sig) → Buf (Elt F) ℓ) (c : Dev nD) : val0 m c (no_index (Proc.devRef .tc main_arg9)) = m ((c.tc : Thread nD τ).loc main_arg9) := rfl
theorem val0_main_arg10 (m : (ℓ : Loc nD τ sig) → Buf (Elt F) ℓ) (c : Dev nD) : val0 m c (no_index (Proc.devRef .tc main_arg10)) = m ((c.tc : Thread nD τ).loc main_arg10) := rfl
theorem val0_main_arg11 (m : (ℓ : Loc nD τ sig) → Buf (Elt F) ℓ) (c : Dev nD) : val0 m c (no_index (Proc.devRef .tc main_arg11)) = m ((c.tc : Thread nD τ).loc main_arg11) := rfl
theorem val0_main_arg12 (m : (ℓ : Loc nD τ sig) → Buf (Elt F) ℓ) (c : Dev nD) : val0 m c (no_index (Proc.devRef .tc main_arg12)) = m ((c.tc : Thread nD τ).loc main_arg12) := rfl
theorem val0_main_arg13 (m : (ℓ : Loc nD τ sig) → Buf (Elt F) ℓ) (c : Dev nD) : val0 m c (no_index (Proc.devRef .tc main_arg13)) = m ((c.tc : Thread nD τ).loc main_arg13) := rfl
theorem val0_main_arg14 (m : (ℓ : Loc nD τ sig) → Buf (Elt F) ℓ) (c : Dev nD) : val0 m c (no_index (Proc.devRef .tc main_arg14)) = m ((c.tc : Thread nD τ).loc main_arg14) := rfl
theorem val0_main_arg15 (m : (ℓ : Loc nD τ sig) → Buf (Elt F) ℓ) (c : Dev nD) : val0 m c (no_index (Proc.devRef .tc main_arg15)) = m ((c.tc : Thread nD τ).loc main_arg15) := rfl
theorem val0_main_arg16 (m : (ℓ : Loc nD τ sig) → Buf (Elt F) ℓ) (c : Dev nD) : val0 m c (no_index (Proc.devRef .tc main_arg16)) = m ((c.tc : Thread nD τ).loc main_arg16) := rfl
theorem val0_main_arg17 (m : (ℓ : Loc nD τ sig) → Buf (Elt F) ℓ) (c : Dev nD) : val0 m c (no_index (Proc.devRef .tc main_arg17)) = m ((c.tc : Thread nD τ).loc main_arg17) := rfl
theorem val0_main_arg18 (m : (ℓ : Loc nD τ sig) → Buf (Elt F) ℓ) (c : Dev nD) : val0 m c (no_index (Proc.devRef .tc main_arg18)) = m ((c.tc : Thread nD τ).loc main_arg18) := rfl
theorem val0_main_arg19 (m : (ℓ : Loc nD τ sig) → Buf (Elt F) ℓ) (c : Dev nD) : val0 m c (no_index (Proc.devRef .tc main_arg19)) = m ((c.tc : Thread nD τ).loc main_arg19) := rfl
theorem val0_main_arg20 (m : (ℓ : Loc nD τ sig) → Buf (Elt F) ℓ) (c : Dev nD) : val0 m c (no_index (Proc.devRef .tc main_arg20)) = m ((c.tc : Thread nD τ).loc main_arg20) := rfl
theorem val0_main_arg21 (m : (ℓ : Loc nD τ sig) → Buf (Elt F) ℓ) (c : Dev nD) : val0 m c (no_index (Proc.devRef .tc main_arg21)) = m ((c.tc : Thread nD τ).loc main_arg21) := rfl
theorem val0_main_arg22 (m : (ℓ : Loc nD τ sig) → Buf (Elt F) ℓ) (c : Dev nD) : val0 m c (no_index (Proc.devRef .tc main_arg22)) = m ((c.tc : Thread nD τ).loc main_arg22) := rfl
theorem val0_main_arg23 (m : (ℓ : Loc nD τ sig) → Buf (Elt F) ℓ) (c : Dev nD) : val0 m c (no_index (Proc.devRef .tc main_arg23)) = m ((c.tc : Thread nD τ).loc main_arg23) := rfl
theorem val0_main_arg24 (m : (ℓ : Loc nD τ sig) → Buf (Elt F) ℓ) (c : Dev nD) : val0 m c (no_index (Proc.devRef .tc main_arg24)) = m ((c.tc : Thread nD τ).loc main_arg24) := rfl
theorem val0_main_arg25 (m : (ℓ : Loc nD τ sig) → Buf (Elt F) ℓ) (c : Dev nD) : val0 m c (no_index (Proc.devRef .tc main_arg25)) = m ((c.tc : Thread nD τ).loc main_arg25) := rfl
theorem val0_main_arg26 (m : (ℓ : Loc nD τ sig) → Buf (Elt F) ℓ) (c : Dev nD) : val0 m c (no_index (Proc.devRef .tc main_arg26)) = m ((c.tc : Thread nD τ).loc main_arg26) := rfl

/-- The buffer contents after the first 1 stretch. -/
def val1 (m : (ℓ : Loc nD τ sig) → Buf (Elt F) ℓ) (c : Dev nD) : Valuation τ sig (Elt F) := after seg0 (val0 m c)
/-- The buffers stretch 0 writes. -/
abbrev seg0_W : List (Ref sig .tc) := [main_c, main_v0, main_v1, main_c_0, main_v2, main_v3, main_v4, main_v5, main_v6]
theorem seg0_writes : (seg0 : List (HloOp τ sig (Elt F))).Forall fun op => op.writes ⊆ (seg0_W.map (Proc.devRef (τ := τ) .tc)).toFinset := by
  simp only [seg0, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 0 does not write keeps its contents through it. -/
theorem val1_keep (m : (ℓ : Loc nD τ sig) → Buf (Elt F) ℓ) (c : Dev nD) (r : Ref sig .tc) (h : r ∉ seg0_W) :
    val1 m c (Proc.devRef .tc r) = val0 m c (Proc.devRef .tc r) :=
  after_of_writes_sub seg0 _ seg0_writes h
theorem val1_main_arg0 (m : (ℓ : Loc nD τ sig) → Buf (Elt F) ℓ) (c : Dev nD) : val1 m c (no_index (Proc.devRef .tc main_arg0)) = m ((c.tc : Thread nD τ).loc main_arg0) :=
  (val1_keep m c main_arg0 (by decide)).trans (val0_main_arg0 m c)
theorem val1_main_arg1 (m : (ℓ : Loc nD τ sig) → Buf (Elt F) ℓ) (c : Dev nD) : val1 m c (no_index (Proc.devRef .tc main_arg1)) = m ((c.tc : Thread nD τ).loc main_arg1) :=
  (val1_keep m c main_arg1 (by decide)).trans (val0_main_arg1 m c)
theorem val1_main_arg2 (m : (ℓ : Loc nD τ sig) → Buf (Elt F) ℓ) (c : Dev nD) : val1 m c (no_index (Proc.devRef .tc main_arg2)) = m ((c.tc : Thread nD τ).loc main_arg2) :=
  (val1_keep m c main_arg2 (by decide)).trans (val0_main_arg2 m c)
theorem val1_main_arg3 (m : (ℓ : Loc nD τ sig) → Buf (Elt F) ℓ) (c : Dev nD) : val1 m c (no_index (Proc.devRef .tc main_arg3)) = m ((c.tc : Thread nD τ).loc main_arg3) :=
  (val1_keep m c main_arg3 (by decide)).trans (val0_main_arg3 m c)
theorem val1_main_arg4 (m : (ℓ : Loc nD τ sig) → Buf (Elt F) ℓ) (c : Dev nD) : val1 m c (no_index (Proc.devRef .tc main_arg4)) = m ((c.tc : Thread nD τ).loc main_arg4) :=
  (val1_keep m c main_arg4 (by decide)).trans (val0_main_arg4 m c)
theorem val1_main_arg5 (m : (ℓ : Loc nD τ sig) → Buf (Elt F) ℓ) (c : Dev nD) : val1 m c (no_index (Proc.devRef .tc main_arg5)) = m ((c.tc : Thread nD τ).loc main_arg5) :=
  (val1_keep m c main_arg5 (by decide)).trans (val0_main_arg5 m c)
theorem val1_main_arg6 (m : (ℓ : Loc nD τ sig) → Buf (Elt F) ℓ) (c : Dev nD) : val1 m c (no_index (Proc.devRef .tc main_arg6)) = m ((c.tc : Thread nD τ).loc main_arg6) :=
  (val1_keep m c main_arg6 (by decide)).trans (val0_main_arg6 m c)
theorem val1_main_arg7 (m : (ℓ : Loc nD τ sig) → Buf (Elt F) ℓ) (c : Dev nD) : val1 m c (no_index (Proc.devRef .tc main_arg7)) = m ((c.tc : Thread nD τ).loc main_arg7) :=
  (val1_keep m c main_arg7 (by decide)).trans (val0_main_arg7 m c)
theorem val1_main_arg8 (m : (ℓ : Loc nD τ sig) → Buf (Elt F) ℓ) (c : Dev nD) : val1 m c (no_index (Proc.devRef .tc main_arg8)) = m ((c.tc : Thread nD τ).loc main_arg8) :=
  (val1_keep m c main_arg8 (by decide)).trans (val0_main_arg8 m c)
theorem val1_main_arg9 (m : (ℓ : Loc nD τ sig) → Buf (Elt F) ℓ) (c : Dev nD) : val1 m c (no_index (Proc.devRef .tc main_arg9)) = m ((c.tc : Thread nD τ).loc main_arg9) :=
  (val1_keep m c main_arg9 (by decide)).trans (val0_main_arg9 m c)
theorem val1_main_arg10 (m : (ℓ : Loc nD τ sig) → Buf (Elt F) ℓ) (c : Dev nD) : val1 m c (no_index (Proc.devRef .tc main_arg10)) = m ((c.tc : Thread nD τ).loc main_arg10) :=
  (val1_keep m c main_arg10 (by decide)).trans (val0_main_arg10 m c)
theorem val1_main_arg11 (m : (ℓ : Loc nD τ sig) → Buf (Elt F) ℓ) (c : Dev nD) : val1 m c (no_index (Proc.devRef .tc main_arg11)) = m ((c.tc : Thread nD τ).loc main_arg11) :=
  (val1_keep m c main_arg11 (by decide)).trans (val0_main_arg11 m c)
theorem val1_main_arg12 (m : (ℓ : Loc nD τ sig) → Buf (Elt F) ℓ) (c : Dev nD) : val1 m c (no_index (Proc.devRef .tc main_arg12)) = m ((c.tc : Thread nD τ).loc main_arg12) :=
  (val1_keep m c main_arg12 (by decide)).trans (val0_main_arg12 m c)
theorem val1_main_arg13 (m : (ℓ : Loc nD τ sig) → Buf (Elt F) ℓ) (c : Dev nD) : val1 m c (no_index (Proc.devRef .tc main_arg13)) = m ((c.tc : Thread nD τ).loc main_arg13) :=
  (val1_keep m c main_arg13 (by decide)).trans (val0_main_arg13 m c)
theorem val1_main_arg14 (m : (ℓ : Loc nD τ sig) → Buf (Elt F) ℓ) (c : Dev nD) : val1 m c (no_index (Proc.devRef .tc main_arg14)) = m ((c.tc : Thread nD τ).loc main_arg14) :=
  (val1_keep m c main_arg14 (by decide)).trans (val0_main_arg14 m c)
theorem val1_main_arg15 (m : (ℓ : Loc nD τ sig) → Buf (Elt F) ℓ) (c : Dev nD) : val1 m c (no_index (Proc.devRef .tc main_arg15)) = m ((c.tc : Thread nD τ).loc main_arg15) :=
  (val1_keep m c main_arg15 (by decide)).trans (val0_main_arg15 m c)
theorem val1_main_arg16 (m : (ℓ : Loc nD τ sig) → Buf (Elt F) ℓ) (c : Dev nD) : val1 m c (no_index (Proc.devRef .tc main_arg16)) = m ((c.tc : Thread nD τ).loc main_arg16) :=
  (val1_keep m c main_arg16 (by decide)).trans (val0_main_arg16 m c)
theorem val1_main_arg17 (m : (ℓ : Loc nD τ sig) → Buf (Elt F) ℓ) (c : Dev nD) : val1 m c (no_index (Proc.devRef .tc main_arg17)) = m ((c.tc : Thread nD τ).loc main_arg17) :=
  (val1_keep m c main_arg17 (by decide)).trans (val0_main_arg17 m c)
theorem val1_main_arg18 (m : (ℓ : Loc nD τ sig) → Buf (Elt F) ℓ) (c : Dev nD) : val1 m c (no_index (Proc.devRef .tc main_arg18)) = m ((c.tc : Thread nD τ).loc main_arg18) :=
  (val1_keep m c main_arg18 (by decide)).trans (val0_main_arg18 m c)
theorem val1_main_arg19 (m : (ℓ : Loc nD τ sig) → Buf (Elt F) ℓ) (c : Dev nD) : val1 m c (no_index (Proc.devRef .tc main_arg19)) = m ((c.tc : Thread nD τ).loc main_arg19) :=
  (val1_keep m c main_arg19 (by decide)).trans (val0_main_arg19 m c)
theorem val1_main_arg20 (m : (ℓ : Loc nD τ sig) → Buf (Elt F) ℓ) (c : Dev nD) : val1 m c (no_index (Proc.devRef .tc main_arg20)) = m ((c.tc : Thread nD τ).loc main_arg20) :=
  (val1_keep m c main_arg20 (by decide)).trans (val0_main_arg20 m c)
theorem val1_main_arg21 (m : (ℓ : Loc nD τ sig) → Buf (Elt F) ℓ) (c : Dev nD) : val1 m c (no_index (Proc.devRef .tc main_arg21)) = m ((c.tc : Thread nD τ).loc main_arg21) :=
  (val1_keep m c main_arg21 (by decide)).trans (val0_main_arg21 m c)
theorem val1_main_arg22 (m : (ℓ : Loc nD τ sig) → Buf (Elt F) ℓ) (c : Dev nD) : val1 m c (no_index (Proc.devRef .tc main_arg22)) = m ((c.tc : Thread nD τ).loc main_arg22) :=
  (val1_keep m c main_arg22 (by decide)).trans (val0_main_arg22 m c)
theorem val1_main_arg23 (m : (ℓ : Loc nD τ sig) → Buf (Elt F) ℓ) (c : Dev nD) : val1 m c (no_index (Proc.devRef .tc main_arg23)) = m ((c.tc : Thread nD τ).loc main_arg23) :=
  (val1_keep m c main_arg23 (by decide)).trans (val0_main_arg23 m c)
theorem val1_main_arg24 (m : (ℓ : Loc nD τ sig) → Buf (Elt F) ℓ) (c : Dev nD) : val1 m c (no_index (Proc.devRef .tc main_arg24)) = m ((c.tc : Thread nD τ).loc main_arg24) :=
  (val1_keep m c main_arg24 (by decide)).trans (val0_main_arg24 m c)
theorem val1_main_arg25 (m : (ℓ : Loc nD τ sig) → Buf (Elt F) ℓ) (c : Dev nD) : val1 m c (no_index (Proc.devRef .tc main_arg25)) = m ((c.tc : Thread nD τ).loc main_arg25) :=
  (val1_keep m c main_arg25 (by decide)).trans (val0_main_arg25 m c)
theorem val1_main_arg26 (m : (ℓ : Loc nD τ sig) → Buf (Elt F) ℓ) (c : Dev nD) : val1 m c (no_index (Proc.devRef .tc main_arg26)) = m ((c.tc : Thread nD τ).loc main_arg26) :=
  (val1_keep m c main_arg26 (by decide)).trans (val0_main_arg26 m c)
set_option maxHeartbeats 2000000 in
theorem val1_main_v6 (m : (ℓ : Loc nD τ sig) → Buf (Elt F) ℓ) (c : Dev nD) : val1 m c (no_index (Proc.devRef .tc main_v6)) = Read.val_main_v6 (F := F) (m ((c.tc : Thread nD τ).loc main_arg0)) (m ((c.tc : Thread nD τ).loc main_arg2)) := by
  unfold val1
  simp only [seg0]
  after_results_simp
  (try simp only [val0_main_arg2, val0_main_arg0])
  rfl

/-- The buffer contents after the first 2 stretches. -/
def val2 (m : (ℓ : Loc nD τ sig) → Buf (Elt F) ℓ) (c : Dev nD) : Valuation τ sig (Elt F) := after seg1 (val1 m c)
/-- The buffers stretch 1 writes. -/
abbrev seg1_W : List (Ref sig .tc) := [main_v7, main_v8, main_v9, main_v10, main_v11, main_cst, main_v12, main_v13, main_cst_1, main_v14, main_v15, main_v16]
theorem seg1_writes : (seg1 : List (HloOp τ sig (Elt F))).Forall fun op => op.writes ⊆ (seg1_W.map (Proc.devRef (τ := τ) .tc)).toFinset := by
  simp only [seg1, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 1 does not write keeps its contents through it. -/
theorem val2_keep (m : (ℓ : Loc nD τ sig) → Buf (Elt F) ℓ) (c : Dev nD) (r : Ref sig .tc) (h : r ∉ seg1_W) :
    val2 m c (Proc.devRef .tc r) = val1 m c (Proc.devRef .tc r) :=
  after_of_writes_sub seg1 _ seg1_writes h
theorem val2_main_arg0 (m : (ℓ : Loc nD τ sig) → Buf (Elt F) ℓ) (c : Dev nD) : val2 m c (no_index (Proc.devRef .tc main_arg0)) = m ((c.tc : Thread nD τ).loc main_arg0) :=
  (val2_keep m c main_arg0 (by decide)).trans (val1_main_arg0 m c)
theorem val2_main_arg1 (m : (ℓ : Loc nD τ sig) → Buf (Elt F) ℓ) (c : Dev nD) : val2 m c (no_index (Proc.devRef .tc main_arg1)) = m ((c.tc : Thread nD τ).loc main_arg1) :=
  (val2_keep m c main_arg1 (by decide)).trans (val1_main_arg1 m c)
theorem val2_main_arg2 (m : (ℓ : Loc nD τ sig) → Buf (Elt F) ℓ) (c : Dev nD) : val2 m c (no_index (Proc.devRef .tc main_arg2)) = m ((c.tc : Thread nD τ).loc main_arg2) :=
  (val2_keep m c main_arg2 (by decide)).trans (val1_main_arg2 m c)
theorem val2_main_arg3 (m : (ℓ : Loc nD τ sig) → Buf (Elt F) ℓ) (c : Dev nD) : val2 m c (no_index (Proc.devRef .tc main_arg3)) = m ((c.tc : Thread nD τ).loc main_arg3) :=
  (val2_keep m c main_arg3 (by decide)).trans (val1_main_arg3 m c)
theorem val2_main_arg4 (m : (ℓ : Loc nD τ sig) → Buf (Elt F) ℓ) (c : Dev nD) : val2 m c (no_index (Proc.devRef .tc main_arg4)) = m ((c.tc : Thread nD τ).loc main_arg4) :=
  (val2_keep m c main_arg4 (by decide)).trans (val1_main_arg4 m c)
theorem val2_main_arg5 (m : (ℓ : Loc nD τ sig) → Buf (Elt F) ℓ) (c : Dev nD) : val2 m c (no_index (Proc.devRef .tc main_arg5)) = m ((c.tc : Thread nD τ).loc main_arg5) :=
  (val2_keep m c main_arg5 (by decide)).trans (val1_main_arg5 m c)
theorem val2_main_arg6 (m : (ℓ : Loc nD τ sig) → Buf (Elt F) ℓ) (c : Dev nD) : val2 m c (no_index (Proc.devRef .tc main_arg6)) = m ((c.tc : Thread nD τ).loc main_arg6) :=
  (val2_keep m c main_arg6 (by decide)).trans (val1_main_arg6 m c)
theorem val2_main_arg7 (m : (ℓ : Loc nD τ sig) → Buf (Elt F) ℓ) (c : Dev nD) : val2 m c (no_index (Proc.devRef .tc main_arg7)) = m ((c.tc : Thread nD τ).loc main_arg7) :=
  (val2_keep m c main_arg7 (by decide)).trans (val1_main_arg7 m c)
theorem val2_main_arg8 (m : (ℓ : Loc nD τ sig) → Buf (Elt F) ℓ) (c : Dev nD) : val2 m c (no_index (Proc.devRef .tc main_arg8)) = m ((c.tc : Thread nD τ).loc main_arg8) :=
  (val2_keep m c main_arg8 (by decide)).trans (val1_main_arg8 m c)
theorem val2_main_arg9 (m : (ℓ : Loc nD τ sig) → Buf (Elt F) ℓ) (c : Dev nD) : val2 m c (no_index (Proc.devRef .tc main_arg9)) = m ((c.tc : Thread nD τ).loc main_arg9) :=
  (val2_keep m c main_arg9 (by decide)).trans (val1_main_arg9 m c)
theorem val2_main_arg10 (m : (ℓ : Loc nD τ sig) → Buf (Elt F) ℓ) (c : Dev nD) : val2 m c (no_index (Proc.devRef .tc main_arg10)) = m ((c.tc : Thread nD τ).loc main_arg10) :=
  (val2_keep m c main_arg10 (by decide)).trans (val1_main_arg10 m c)
theorem val2_main_arg11 (m : (ℓ : Loc nD τ sig) → Buf (Elt F) ℓ) (c : Dev nD) : val2 m c (no_index (Proc.devRef .tc main_arg11)) = m ((c.tc : Thread nD τ).loc main_arg11) :=
  (val2_keep m c main_arg11 (by decide)).trans (val1_main_arg11 m c)
theorem val2_main_arg12 (m : (ℓ : Loc nD τ sig) → Buf (Elt F) ℓ) (c : Dev nD) : val2 m c (no_index (Proc.devRef .tc main_arg12)) = m ((c.tc : Thread nD τ).loc main_arg12) :=
  (val2_keep m c main_arg12 (by decide)).trans (val1_main_arg12 m c)
theorem val2_main_arg13 (m : (ℓ : Loc nD τ sig) → Buf (Elt F) ℓ) (c : Dev nD) : val2 m c (no_index (Proc.devRef .tc main_arg13)) = m ((c.tc : Thread nD τ).loc main_arg13) :=
  (val2_keep m c main_arg13 (by decide)).trans (val1_main_arg13 m c)
theorem val2_main_arg14 (m : (ℓ : Loc nD τ sig) → Buf (Elt F) ℓ) (c : Dev nD) : val2 m c (no_index (Proc.devRef .tc main_arg14)) = m ((c.tc : Thread nD τ).loc main_arg14) :=
  (val2_keep m c main_arg14 (by decide)).trans (val1_main_arg14 m c)
theorem val2_main_arg15 (m : (ℓ : Loc nD τ sig) → Buf (Elt F) ℓ) (c : Dev nD) : val2 m c (no_index (Proc.devRef .tc main_arg15)) = m ((c.tc : Thread nD τ).loc main_arg15) :=
  (val2_keep m c main_arg15 (by decide)).trans (val1_main_arg15 m c)
theorem val2_main_arg16 (m : (ℓ : Loc nD τ sig) → Buf (Elt F) ℓ) (c : Dev nD) : val2 m c (no_index (Proc.devRef .tc main_arg16)) = m ((c.tc : Thread nD τ).loc main_arg16) :=
  (val2_keep m c main_arg16 (by decide)).trans (val1_main_arg16 m c)
theorem val2_main_arg17 (m : (ℓ : Loc nD τ sig) → Buf (Elt F) ℓ) (c : Dev nD) : val2 m c (no_index (Proc.devRef .tc main_arg17)) = m ((c.tc : Thread nD τ).loc main_arg17) :=
  (val2_keep m c main_arg17 (by decide)).trans (val1_main_arg17 m c)
theorem val2_main_arg18 (m : (ℓ : Loc nD τ sig) → Buf (Elt F) ℓ) (c : Dev nD) : val2 m c (no_index (Proc.devRef .tc main_arg18)) = m ((c.tc : Thread nD τ).loc main_arg18) :=
  (val2_keep m c main_arg18 (by decide)).trans (val1_main_arg18 m c)
theorem val2_main_arg19 (m : (ℓ : Loc nD τ sig) → Buf (Elt F) ℓ) (c : Dev nD) : val2 m c (no_index (Proc.devRef .tc main_arg19)) = m ((c.tc : Thread nD τ).loc main_arg19) :=
  (val2_keep m c main_arg19 (by decide)).trans (val1_main_arg19 m c)
theorem val2_main_arg20 (m : (ℓ : Loc nD τ sig) → Buf (Elt F) ℓ) (c : Dev nD) : val2 m c (no_index (Proc.devRef .tc main_arg20)) = m ((c.tc : Thread nD τ).loc main_arg20) :=
  (val2_keep m c main_arg20 (by decide)).trans (val1_main_arg20 m c)
theorem val2_main_arg21 (m : (ℓ : Loc nD τ sig) → Buf (Elt F) ℓ) (c : Dev nD) : val2 m c (no_index (Proc.devRef .tc main_arg21)) = m ((c.tc : Thread nD τ).loc main_arg21) :=
  (val2_keep m c main_arg21 (by decide)).trans (val1_main_arg21 m c)
theorem val2_main_arg22 (m : (ℓ : Loc nD τ sig) → Buf (Elt F) ℓ) (c : Dev nD) : val2 m c (no_index (Proc.devRef .tc main_arg22)) = m ((c.tc : Thread nD τ).loc main_arg22) :=
  (val2_keep m c main_arg22 (by decide)).trans (val1_main_arg22 m c)
theorem val2_main_arg23 (m : (ℓ : Loc nD τ sig) → Buf (Elt F) ℓ) (c : Dev nD) : val2 m c (no_index (Proc.devRef .tc main_arg23)) = m ((c.tc : Thread nD τ).loc main_arg23) :=
  (val2_keep m c main_arg23 (by decide)).trans (val1_main_arg23 m c)
theorem val2_main_arg24 (m : (ℓ : Loc nD τ sig) → Buf (Elt F) ℓ) (c : Dev nD) : val2 m c (no_index (Proc.devRef .tc main_arg24)) = m ((c.tc : Thread nD τ).loc main_arg24) :=
  (val2_keep m c main_arg24 (by decide)).trans (val1_main_arg24 m c)
theorem val2_main_arg25 (m : (ℓ : Loc nD τ sig) → Buf (Elt F) ℓ) (c : Dev nD) : val2 m c (no_index (Proc.devRef .tc main_arg25)) = m ((c.tc : Thread nD τ).loc main_arg25) :=
  (val2_keep m c main_arg25 (by decide)).trans (val1_main_arg25 m c)
theorem val2_main_arg26 (m : (ℓ : Loc nD τ sig) → Buf (Elt F) ℓ) (c : Dev nD) : val2 m c (no_index (Proc.devRef .tc main_arg26)) = m ((c.tc : Thread nD τ).loc main_arg26) :=
  (val2_keep m c main_arg26 (by decide)).trans (val1_main_arg26 m c)
set_option maxHeartbeats 2000000 in
theorem val2_main_v16 (m : (ℓ : Loc nD τ sig) → Buf (Elt F) ℓ) (c : Dev nD) : val2 m c (no_index (Proc.devRef .tc main_v16)) = Read.val_main_v16 (F := F) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) := by
  unfold val2
  simp only [seg1]
  after_results_simp
  (try simp only [val1_main_arg9, val1_main_arg8, val1_main_arg1, val1_main_v6])
  rw [val1_main_v6]
  rw [val1_main_arg1]
  rfl

/-- The buffer contents after the first 3 stretches. -/
def val3 (m : (ℓ : Loc nD τ sig) → Buf (Elt F) ℓ) (c : Dev nD) : Valuation τ sig (Elt F) := after seg2 (val2 m c)
/-- The buffers stretch 2 writes. -/
abbrev seg2_W : List (Ref sig .tc) := [main_cst_2, main_v17, main_v18, main_v19, main_cst_3, main_v20, main_cst_4, main_v21, main_v22, main_v23, main_cst_5, main_v24, main_v25, main_v26, main_v27]
theorem seg2_writes : (seg2 : List (HloOp τ sig (Elt F))).Forall fun op => op.writes ⊆ (seg2_W.map (Proc.devRef (τ := τ) .tc)).toFinset := by
  simp only [seg2, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 2 does not write keeps its contents through it. -/
theorem val3_keep (m : (ℓ : Loc nD τ sig) → Buf (Elt F) ℓ) (c : Dev nD) (r : Ref sig .tc) (h : r ∉ seg2_W) :
    val3 m c (Proc.devRef .tc r) = val2 m c (Proc.devRef .tc r) :=
  after_of_writes_sub seg2 _ seg2_writes h
theorem val3_main_arg0 (m : (ℓ : Loc nD τ sig) → Buf (Elt F) ℓ) (c : Dev nD) : val3 m c (no_index (Proc.devRef .tc main_arg0)) = m ((c.tc : Thread nD τ).loc main_arg0) :=
  (val3_keep m c main_arg0 (by decide)).trans (val2_main_arg0 m c)
theorem val3_main_arg1 (m : (ℓ : Loc nD τ sig) → Buf (Elt F) ℓ) (c : Dev nD) : val3 m c (no_index (Proc.devRef .tc main_arg1)) = m ((c.tc : Thread nD τ).loc main_arg1) :=
  (val3_keep m c main_arg1 (by decide)).trans (val2_main_arg1 m c)
theorem val3_main_arg2 (m : (ℓ : Loc nD τ sig) → Buf (Elt F) ℓ) (c : Dev nD) : val3 m c (no_index (Proc.devRef .tc main_arg2)) = m ((c.tc : Thread nD τ).loc main_arg2) :=
  (val3_keep m c main_arg2 (by decide)).trans (val2_main_arg2 m c)
theorem val3_main_arg3 (m : (ℓ : Loc nD τ sig) → Buf (Elt F) ℓ) (c : Dev nD) : val3 m c (no_index (Proc.devRef .tc main_arg3)) = m ((c.tc : Thread nD τ).loc main_arg3) :=
  (val3_keep m c main_arg3 (by decide)).trans (val2_main_arg3 m c)
theorem val3_main_arg4 (m : (ℓ : Loc nD τ sig) → Buf (Elt F) ℓ) (c : Dev nD) : val3 m c (no_index (Proc.devRef .tc main_arg4)) = m ((c.tc : Thread nD τ).loc main_arg4) :=
  (val3_keep m c main_arg4 (by decide)).trans (val2_main_arg4 m c)
theorem val3_main_arg5 (m : (ℓ : Loc nD τ sig) → Buf (Elt F) ℓ) (c : Dev nD) : val3 m c (no_index (Proc.devRef .tc main_arg5)) = m ((c.tc : Thread nD τ).loc main_arg5) :=
  (val3_keep m c main_arg5 (by decide)).trans (val2_main_arg5 m c)
theorem val3_main_arg6 (m : (ℓ : Loc nD τ sig) → Buf (Elt F) ℓ) (c : Dev nD) : val3 m c (no_index (Proc.devRef .tc main_arg6)) = m ((c.tc : Thread nD τ).loc main_arg6) :=
  (val3_keep m c main_arg6 (by decide)).trans (val2_main_arg6 m c)
theorem val3_main_arg7 (m : (ℓ : Loc nD τ sig) → Buf (Elt F) ℓ) (c : Dev nD) : val3 m c (no_index (Proc.devRef .tc main_arg7)) = m ((c.tc : Thread nD τ).loc main_arg7) :=
  (val3_keep m c main_arg7 (by decide)).trans (val2_main_arg7 m c)
theorem val3_main_arg8 (m : (ℓ : Loc nD τ sig) → Buf (Elt F) ℓ) (c : Dev nD) : val3 m c (no_index (Proc.devRef .tc main_arg8)) = m ((c.tc : Thread nD τ).loc main_arg8) :=
  (val3_keep m c main_arg8 (by decide)).trans (val2_main_arg8 m c)
theorem val3_main_arg9 (m : (ℓ : Loc nD τ sig) → Buf (Elt F) ℓ) (c : Dev nD) : val3 m c (no_index (Proc.devRef .tc main_arg9)) = m ((c.tc : Thread nD τ).loc main_arg9) :=
  (val3_keep m c main_arg9 (by decide)).trans (val2_main_arg9 m c)
theorem val3_main_arg10 (m : (ℓ : Loc nD τ sig) → Buf (Elt F) ℓ) (c : Dev nD) : val3 m c (no_index (Proc.devRef .tc main_arg10)) = m ((c.tc : Thread nD τ).loc main_arg10) :=
  (val3_keep m c main_arg10 (by decide)).trans (val2_main_arg10 m c)
theorem val3_main_arg11 (m : (ℓ : Loc nD τ sig) → Buf (Elt F) ℓ) (c : Dev nD) : val3 m c (no_index (Proc.devRef .tc main_arg11)) = m ((c.tc : Thread nD τ).loc main_arg11) :=
  (val3_keep m c main_arg11 (by decide)).trans (val2_main_arg11 m c)
theorem val3_main_arg12 (m : (ℓ : Loc nD τ sig) → Buf (Elt F) ℓ) (c : Dev nD) : val3 m c (no_index (Proc.devRef .tc main_arg12)) = m ((c.tc : Thread nD τ).loc main_arg12) :=
  (val3_keep m c main_arg12 (by decide)).trans (val2_main_arg12 m c)
theorem val3_main_arg13 (m : (ℓ : Loc nD τ sig) → Buf (Elt F) ℓ) (c : Dev nD) : val3 m c (no_index (Proc.devRef .tc main_arg13)) = m ((c.tc : Thread nD τ).loc main_arg13) :=
  (val3_keep m c main_arg13 (by decide)).trans (val2_main_arg13 m c)
theorem val3_main_arg14 (m : (ℓ : Loc nD τ sig) → Buf (Elt F) ℓ) (c : Dev nD) : val3 m c (no_index (Proc.devRef .tc main_arg14)) = m ((c.tc : Thread nD τ).loc main_arg14) :=
  (val3_keep m c main_arg14 (by decide)).trans (val2_main_arg14 m c)
theorem val3_main_arg15 (m : (ℓ : Loc nD τ sig) → Buf (Elt F) ℓ) (c : Dev nD) : val3 m c (no_index (Proc.devRef .tc main_arg15)) = m ((c.tc : Thread nD τ).loc main_arg15) :=
  (val3_keep m c main_arg15 (by decide)).trans (val2_main_arg15 m c)
theorem val3_main_arg16 (m : (ℓ : Loc nD τ sig) → Buf (Elt F) ℓ) (c : Dev nD) : val3 m c (no_index (Proc.devRef .tc main_arg16)) = m ((c.tc : Thread nD τ).loc main_arg16) :=
  (val3_keep m c main_arg16 (by decide)).trans (val2_main_arg16 m c)
theorem val3_main_arg17 (m : (ℓ : Loc nD τ sig) → Buf (Elt F) ℓ) (c : Dev nD) : val3 m c (no_index (Proc.devRef .tc main_arg17)) = m ((c.tc : Thread nD τ).loc main_arg17) :=
  (val3_keep m c main_arg17 (by decide)).trans (val2_main_arg17 m c)
theorem val3_main_arg18 (m : (ℓ : Loc nD τ sig) → Buf (Elt F) ℓ) (c : Dev nD) : val3 m c (no_index (Proc.devRef .tc main_arg18)) = m ((c.tc : Thread nD τ).loc main_arg18) :=
  (val3_keep m c main_arg18 (by decide)).trans (val2_main_arg18 m c)
theorem val3_main_arg19 (m : (ℓ : Loc nD τ sig) → Buf (Elt F) ℓ) (c : Dev nD) : val3 m c (no_index (Proc.devRef .tc main_arg19)) = m ((c.tc : Thread nD τ).loc main_arg19) :=
  (val3_keep m c main_arg19 (by decide)).trans (val2_main_arg19 m c)
theorem val3_main_arg20 (m : (ℓ : Loc nD τ sig) → Buf (Elt F) ℓ) (c : Dev nD) : val3 m c (no_index (Proc.devRef .tc main_arg20)) = m ((c.tc : Thread nD τ).loc main_arg20) :=
  (val3_keep m c main_arg20 (by decide)).trans (val2_main_arg20 m c)
theorem val3_main_arg21 (m : (ℓ : Loc nD τ sig) → Buf (Elt F) ℓ) (c : Dev nD) : val3 m c (no_index (Proc.devRef .tc main_arg21)) = m ((c.tc : Thread nD τ).loc main_arg21) :=
  (val3_keep m c main_arg21 (by decide)).trans (val2_main_arg21 m c)
theorem val3_main_arg22 (m : (ℓ : Loc nD τ sig) → Buf (Elt F) ℓ) (c : Dev nD) : val3 m c (no_index (Proc.devRef .tc main_arg22)) = m ((c.tc : Thread nD τ).loc main_arg22) :=
  (val3_keep m c main_arg22 (by decide)).trans (val2_main_arg22 m c)
theorem val3_main_arg23 (m : (ℓ : Loc nD τ sig) → Buf (Elt F) ℓ) (c : Dev nD) : val3 m c (no_index (Proc.devRef .tc main_arg23)) = m ((c.tc : Thread nD τ).loc main_arg23) :=
  (val3_keep m c main_arg23 (by decide)).trans (val2_main_arg23 m c)
theorem val3_main_arg24 (m : (ℓ : Loc nD τ sig) → Buf (Elt F) ℓ) (c : Dev nD) : val3 m c (no_index (Proc.devRef .tc main_arg24)) = m ((c.tc : Thread nD τ).loc main_arg24) :=
  (val3_keep m c main_arg24 (by decide)).trans (val2_main_arg24 m c)
theorem val3_main_arg25 (m : (ℓ : Loc nD τ sig) → Buf (Elt F) ℓ) (c : Dev nD) : val3 m c (no_index (Proc.devRef .tc main_arg25)) = m ((c.tc : Thread nD τ).loc main_arg25) :=
  (val3_keep m c main_arg25 (by decide)).trans (val2_main_arg25 m c)
theorem val3_main_arg26 (m : (ℓ : Loc nD τ sig) → Buf (Elt F) ℓ) (c : Dev nD) : val3 m c (no_index (Proc.devRef .tc main_arg26)) = m ((c.tc : Thread nD τ).loc main_arg26) :=
  (val3_keep m c main_arg26 (by decide)).trans (val2_main_arg26 m c)
theorem val3_main_v16 (m : (ℓ : Loc nD τ sig) → Buf (Elt F) ℓ) (c : Dev nD) : val3 m c (no_index (Proc.devRef .tc main_v16)) = Read.val_main_v16 (F := F) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) :=
  (val3_keep m c main_v16 (by decide)).trans (val2_main_v16 m c)
set_option maxHeartbeats 2000000 in
theorem val3_main_v27 (m : (ℓ : Loc nD τ sig) → Buf (Elt F) ℓ) (c : Dev nD) : val3 m c (no_index (Proc.devRef .tc main_v27)) = Read.val_main_v27 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) := by
  unfold val3
  simp only [seg2]
  after_results_simp
  (try simp only [val2_main_arg3, val2_main_v16])
  rfl

/-- The buffer contents after the first 4 stretches. -/
def val4 (m : (ℓ : Loc nD τ sig) → Buf (Elt F) ℓ) (c : Dev nD) : Valuation τ sig (Elt F) := after seg3 (val3 m c)
/-- The buffers stretch 3 writes. -/
abbrev seg3_W : List (Ref sig .tc) := [main_v28, main_v29, main_v30, main_v31, main_v32, main_cst_6, main_v33, main_v34, main_cst_7, main_v35, main_v36, main_v37]
theorem seg3_writes : (seg3 : List (HloOp τ sig (Elt F))).Forall fun op => op.writes ⊆ (seg3_W.map (Proc.devRef (τ := τ) .tc)).toFinset := by
  simp only [seg3, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 3 does not write keeps its contents through it. -/
theorem val4_keep (m : (ℓ : Loc nD τ sig) → Buf (Elt F) ℓ) (c : Dev nD) (r : Ref sig .tc) (h : r ∉ seg3_W) :
    val4 m c (Proc.devRef .tc r) = val3 m c (Proc.devRef .tc r) :=
  after_of_writes_sub seg3 _ seg3_writes h
theorem val4_main_arg0 (m : (ℓ : Loc nD τ sig) → Buf (Elt F) ℓ) (c : Dev nD) : val4 m c (no_index (Proc.devRef .tc main_arg0)) = m ((c.tc : Thread nD τ).loc main_arg0) :=
  (val4_keep m c main_arg0 (by decide)).trans (val3_main_arg0 m c)
theorem val4_main_arg1 (m : (ℓ : Loc nD τ sig) → Buf (Elt F) ℓ) (c : Dev nD) : val4 m c (no_index (Proc.devRef .tc main_arg1)) = m ((c.tc : Thread nD τ).loc main_arg1) :=
  (val4_keep m c main_arg1 (by decide)).trans (val3_main_arg1 m c)
theorem val4_main_arg2 (m : (ℓ : Loc nD τ sig) → Buf (Elt F) ℓ) (c : Dev nD) : val4 m c (no_index (Proc.devRef .tc main_arg2)) = m ((c.tc : Thread nD τ).loc main_arg2) :=
  (val4_keep m c main_arg2 (by decide)).trans (val3_main_arg2 m c)
theorem val4_main_arg3 (m : (ℓ : Loc nD τ sig) → Buf (Elt F) ℓ) (c : Dev nD) : val4 m c (no_index (Proc.devRef .tc main_arg3)) = m ((c.tc : Thread nD τ).loc main_arg3) :=
  (val4_keep m c main_arg3 (by decide)).trans (val3_main_arg3 m c)
theorem val4_main_arg4 (m : (ℓ : Loc nD τ sig) → Buf (Elt F) ℓ) (c : Dev nD) : val4 m c (no_index (Proc.devRef .tc main_arg4)) = m ((c.tc : Thread nD τ).loc main_arg4) :=
  (val4_keep m c main_arg4 (by decide)).trans (val3_main_arg4 m c)
theorem val4_main_arg5 (m : (ℓ : Loc nD τ sig) → Buf (Elt F) ℓ) (c : Dev nD) : val4 m c (no_index (Proc.devRef .tc main_arg5)) = m ((c.tc : Thread nD τ).loc main_arg5) :=
  (val4_keep m c main_arg5 (by decide)).trans (val3_main_arg5 m c)
theorem val4_main_arg6 (m : (ℓ : Loc nD τ sig) → Buf (Elt F) ℓ) (c : Dev nD) : val4 m c (no_index (Proc.devRef .tc main_arg6)) = m ((c.tc : Thread nD τ).loc main_arg6) :=
  (val4_keep m c main_arg6 (by decide)).trans (val3_main_arg6 m c)
theorem val4_main_arg7 (m : (ℓ : Loc nD τ sig) → Buf (Elt F) ℓ) (c : Dev nD) : val4 m c (no_index (Proc.devRef .tc main_arg7)) = m ((c.tc : Thread nD τ).loc main_arg7) :=
  (val4_keep m c main_arg7 (by decide)).trans (val3_main_arg7 m c)
theorem val4_main_arg8 (m : (ℓ : Loc nD τ sig) → Buf (Elt F) ℓ) (c : Dev nD) : val4 m c (no_index (Proc.devRef .tc main_arg8)) = m ((c.tc : Thread nD τ).loc main_arg8) :=
  (val4_keep m c main_arg8 (by decide)).trans (val3_main_arg8 m c)
theorem val4_main_arg9 (m : (ℓ : Loc nD τ sig) → Buf (Elt F) ℓ) (c : Dev nD) : val4 m c (no_index (Proc.devRef .tc main_arg9)) = m ((c.tc : Thread nD τ).loc main_arg9) :=
  (val4_keep m c main_arg9 (by decide)).trans (val3_main_arg9 m c)
theorem val4_main_arg10 (m : (ℓ : Loc nD τ sig) → Buf (Elt F) ℓ) (c : Dev nD) : val4 m c (no_index (Proc.devRef .tc main_arg10)) = m ((c.tc : Thread nD τ).loc main_arg10) :=
  (val4_keep m c main_arg10 (by decide)).trans (val3_main_arg10 m c)
theorem val4_main_arg11 (m : (ℓ : Loc nD τ sig) → Buf (Elt F) ℓ) (c : Dev nD) : val4 m c (no_index (Proc.devRef .tc main_arg11)) = m ((c.tc : Thread nD τ).loc main_arg11) :=
  (val4_keep m c main_arg11 (by decide)).trans (val3_main_arg11 m c)
theorem val4_main_arg12 (m : (ℓ : Loc nD τ sig) → Buf (Elt F) ℓ) (c : Dev nD) : val4 m c (no_index (Proc.devRef .tc main_arg12)) = m ((c.tc : Thread nD τ).loc main_arg12) :=
  (val4_keep m c main_arg12 (by decide)).trans (val3_main_arg12 m c)
theorem val4_main_arg13 (m : (ℓ : Loc nD τ sig) → Buf (Elt F) ℓ) (c : Dev nD) : val4 m c (no_index (Proc.devRef .tc main_arg13)) = m ((c.tc : Thread nD τ).loc main_arg13) :=
  (val4_keep m c main_arg13 (by decide)).trans (val3_main_arg13 m c)
theorem val4_main_arg14 (m : (ℓ : Loc nD τ sig) → Buf (Elt F) ℓ) (c : Dev nD) : val4 m c (no_index (Proc.devRef .tc main_arg14)) = m ((c.tc : Thread nD τ).loc main_arg14) :=
  (val4_keep m c main_arg14 (by decide)).trans (val3_main_arg14 m c)
theorem val4_main_arg15 (m : (ℓ : Loc nD τ sig) → Buf (Elt F) ℓ) (c : Dev nD) : val4 m c (no_index (Proc.devRef .tc main_arg15)) = m ((c.tc : Thread nD τ).loc main_arg15) :=
  (val4_keep m c main_arg15 (by decide)).trans (val3_main_arg15 m c)
theorem val4_main_arg16 (m : (ℓ : Loc nD τ sig) → Buf (Elt F) ℓ) (c : Dev nD) : val4 m c (no_index (Proc.devRef .tc main_arg16)) = m ((c.tc : Thread nD τ).loc main_arg16) :=
  (val4_keep m c main_arg16 (by decide)).trans (val3_main_arg16 m c)
theorem val4_main_arg17 (m : (ℓ : Loc nD τ sig) → Buf (Elt F) ℓ) (c : Dev nD) : val4 m c (no_index (Proc.devRef .tc main_arg17)) = m ((c.tc : Thread nD τ).loc main_arg17) :=
  (val4_keep m c main_arg17 (by decide)).trans (val3_main_arg17 m c)
theorem val4_main_arg18 (m : (ℓ : Loc nD τ sig) → Buf (Elt F) ℓ) (c : Dev nD) : val4 m c (no_index (Proc.devRef .tc main_arg18)) = m ((c.tc : Thread nD τ).loc main_arg18) :=
  (val4_keep m c main_arg18 (by decide)).trans (val3_main_arg18 m c)
theorem val4_main_arg19 (m : (ℓ : Loc nD τ sig) → Buf (Elt F) ℓ) (c : Dev nD) : val4 m c (no_index (Proc.devRef .tc main_arg19)) = m ((c.tc : Thread nD τ).loc main_arg19) :=
  (val4_keep m c main_arg19 (by decide)).trans (val3_main_arg19 m c)
theorem val4_main_arg20 (m : (ℓ : Loc nD τ sig) → Buf (Elt F) ℓ) (c : Dev nD) : val4 m c (no_index (Proc.devRef .tc main_arg20)) = m ((c.tc : Thread nD τ).loc main_arg20) :=
  (val4_keep m c main_arg20 (by decide)).trans (val3_main_arg20 m c)
theorem val4_main_arg21 (m : (ℓ : Loc nD τ sig) → Buf (Elt F) ℓ) (c : Dev nD) : val4 m c (no_index (Proc.devRef .tc main_arg21)) = m ((c.tc : Thread nD τ).loc main_arg21) :=
  (val4_keep m c main_arg21 (by decide)).trans (val3_main_arg21 m c)
theorem val4_main_arg22 (m : (ℓ : Loc nD τ sig) → Buf (Elt F) ℓ) (c : Dev nD) : val4 m c (no_index (Proc.devRef .tc main_arg22)) = m ((c.tc : Thread nD τ).loc main_arg22) :=
  (val4_keep m c main_arg22 (by decide)).trans (val3_main_arg22 m c)
theorem val4_main_arg23 (m : (ℓ : Loc nD τ sig) → Buf (Elt F) ℓ) (c : Dev nD) : val4 m c (no_index (Proc.devRef .tc main_arg23)) = m ((c.tc : Thread nD τ).loc main_arg23) :=
  (val4_keep m c main_arg23 (by decide)).trans (val3_main_arg23 m c)
theorem val4_main_arg24 (m : (ℓ : Loc nD τ sig) → Buf (Elt F) ℓ) (c : Dev nD) : val4 m c (no_index (Proc.devRef .tc main_arg24)) = m ((c.tc : Thread nD τ).loc main_arg24) :=
  (val4_keep m c main_arg24 (by decide)).trans (val3_main_arg24 m c)
theorem val4_main_arg25 (m : (ℓ : Loc nD τ sig) → Buf (Elt F) ℓ) (c : Dev nD) : val4 m c (no_index (Proc.devRef .tc main_arg25)) = m ((c.tc : Thread nD τ).loc main_arg25) :=
  (val4_keep m c main_arg25 (by decide)).trans (val3_main_arg25 m c)
theorem val4_main_arg26 (m : (ℓ : Loc nD τ sig) → Buf (Elt F) ℓ) (c : Dev nD) : val4 m c (no_index (Proc.devRef .tc main_arg26)) = m ((c.tc : Thread nD τ).loc main_arg26) :=
  (val4_keep m c main_arg26 (by decide)).trans (val3_main_arg26 m c)
theorem val4_main_v16 (m : (ℓ : Loc nD τ sig) → Buf (Elt F) ℓ) (c : Dev nD) : val4 m c (no_index (Proc.devRef .tc main_v16)) = Read.val_main_v16 (F := F) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) :=
  (val4_keep m c main_v16 (by decide)).trans (val3_main_v16 m c)
set_option maxHeartbeats 2000000 in
theorem val4_main_v37 (m : (ℓ : Loc nD τ sig) → Buf (Elt F) ℓ) (c : Dev nD) : val4 m c (no_index (Proc.devRef .tc main_v37)) = Read.val_main_v37 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) := by
  unfold val4
  simp only [seg3]
  after_results_simp
  (try simp only [val3_main_arg11, val3_main_arg10, val3_main_v27, val3_main_arg0])
  rw [val3_main_arg0]
  rw [val3_main_v27]
  rfl

/-- The buffer contents after the first 5 stretches. -/
def val5 (m : (ℓ : Loc nD τ sig) → Buf (Elt F) ℓ) (c : Dev nD) : Valuation τ sig (Elt F) := after seg4 (val4 m c)
/-- The buffers stretch 4 writes. -/
abbrev seg4_W : List (Ref sig .tc) := [main_c_8, main_v38, main_v39, main_c_9, main_v40, main_v41, main_v42, main_v43, main_v44, main_c_10, main_v45, main_v46, main_c_11, main_v47, main_v48, main_v49, main_v50, main_v51]
theorem seg4_writes : (seg4 : List (HloOp τ sig (Elt F))).Forall fun op => op.writes ⊆ (seg4_W.map (Proc.devRef (τ := τ) .tc)).toFinset := by
  simp only [seg4, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 4 does not write keeps its contents through it. -/
theorem val5_keep (m : (ℓ : Loc nD τ sig) → Buf (Elt F) ℓ) (c : Dev nD) (r : Ref sig .tc) (h : r ∉ seg4_W) :
    val5 m c (Proc.devRef .tc r) = val4 m c (Proc.devRef .tc r) :=
  after_of_writes_sub seg4 _ seg4_writes h
theorem val5_main_arg0 (m : (ℓ : Loc nD τ sig) → Buf (Elt F) ℓ) (c : Dev nD) : val5 m c (no_index (Proc.devRef .tc main_arg0)) = m ((c.tc : Thread nD τ).loc main_arg0) :=
  (val5_keep m c main_arg0 (by decide)).trans (val4_main_arg0 m c)
theorem val5_main_arg1 (m : (ℓ : Loc nD τ sig) → Buf (Elt F) ℓ) (c : Dev nD) : val5 m c (no_index (Proc.devRef .tc main_arg1)) = m ((c.tc : Thread nD τ).loc main_arg1) :=
  (val5_keep m c main_arg1 (by decide)).trans (val4_main_arg1 m c)
theorem val5_main_arg2 (m : (ℓ : Loc nD τ sig) → Buf (Elt F) ℓ) (c : Dev nD) : val5 m c (no_index (Proc.devRef .tc main_arg2)) = m ((c.tc : Thread nD τ).loc main_arg2) :=
  (val5_keep m c main_arg2 (by decide)).trans (val4_main_arg2 m c)
theorem val5_main_arg3 (m : (ℓ : Loc nD τ sig) → Buf (Elt F) ℓ) (c : Dev nD) : val5 m c (no_index (Proc.devRef .tc main_arg3)) = m ((c.tc : Thread nD τ).loc main_arg3) :=
  (val5_keep m c main_arg3 (by decide)).trans (val4_main_arg3 m c)
theorem val5_main_arg4 (m : (ℓ : Loc nD τ sig) → Buf (Elt F) ℓ) (c : Dev nD) : val5 m c (no_index (Proc.devRef .tc main_arg4)) = m ((c.tc : Thread nD τ).loc main_arg4) :=
  (val5_keep m c main_arg4 (by decide)).trans (val4_main_arg4 m c)
theorem val5_main_arg5 (m : (ℓ : Loc nD τ sig) → Buf (Elt F) ℓ) (c : Dev nD) : val5 m c (no_index (Proc.devRef .tc main_arg5)) = m ((c.tc : Thread nD τ).loc main_arg5) :=
  (val5_keep m c main_arg5 (by decide)).trans (val4_main_arg5 m c)
theorem val5_main_arg6 (m : (ℓ : Loc nD τ sig) → Buf (Elt F) ℓ) (c : Dev nD) : val5 m c (no_index (Proc.devRef .tc main_arg6)) = m ((c.tc : Thread nD τ).loc main_arg6) :=
  (val5_keep m c main_arg6 (by decide)).trans (val4_main_arg6 m c)
theorem val5_main_arg7 (m : (ℓ : Loc nD τ sig) → Buf (Elt F) ℓ) (c : Dev nD) : val5 m c (no_index (Proc.devRef .tc main_arg7)) = m ((c.tc : Thread nD τ).loc main_arg7) :=
  (val5_keep m c main_arg7 (by decide)).trans (val4_main_arg7 m c)
theorem val5_main_arg8 (m : (ℓ : Loc nD τ sig) → Buf (Elt F) ℓ) (c : Dev nD) : val5 m c (no_index (Proc.devRef .tc main_arg8)) = m ((c.tc : Thread nD τ).loc main_arg8) :=
  (val5_keep m c main_arg8 (by decide)).trans (val4_main_arg8 m c)
theorem val5_main_arg9 (m : (ℓ : Loc nD τ sig) → Buf (Elt F) ℓ) (c : Dev nD) : val5 m c (no_index (Proc.devRef .tc main_arg9)) = m ((c.tc : Thread nD τ).loc main_arg9) :=
  (val5_keep m c main_arg9 (by decide)).trans (val4_main_arg9 m c)
theorem val5_main_arg10 (m : (ℓ : Loc nD τ sig) → Buf (Elt F) ℓ) (c : Dev nD) : val5 m c (no_index (Proc.devRef .tc main_arg10)) = m ((c.tc : Thread nD τ).loc main_arg10) :=
  (val5_keep m c main_arg10 (by decide)).trans (val4_main_arg10 m c)
theorem val5_main_arg11 (m : (ℓ : Loc nD τ sig) → Buf (Elt F) ℓ) (c : Dev nD) : val5 m c (no_index (Proc.devRef .tc main_arg11)) = m ((c.tc : Thread nD τ).loc main_arg11) :=
  (val5_keep m c main_arg11 (by decide)).trans (val4_main_arg11 m c)
theorem val5_main_arg12 (m : (ℓ : Loc nD τ sig) → Buf (Elt F) ℓ) (c : Dev nD) : val5 m c (no_index (Proc.devRef .tc main_arg12)) = m ((c.tc : Thread nD τ).loc main_arg12) :=
  (val5_keep m c main_arg12 (by decide)).trans (val4_main_arg12 m c)
theorem val5_main_arg13 (m : (ℓ : Loc nD τ sig) → Buf (Elt F) ℓ) (c : Dev nD) : val5 m c (no_index (Proc.devRef .tc main_arg13)) = m ((c.tc : Thread nD τ).loc main_arg13) :=
  (val5_keep m c main_arg13 (by decide)).trans (val4_main_arg13 m c)
theorem val5_main_arg14 (m : (ℓ : Loc nD τ sig) → Buf (Elt F) ℓ) (c : Dev nD) : val5 m c (no_index (Proc.devRef .tc main_arg14)) = m ((c.tc : Thread nD τ).loc main_arg14) :=
  (val5_keep m c main_arg14 (by decide)).trans (val4_main_arg14 m c)
theorem val5_main_arg15 (m : (ℓ : Loc nD τ sig) → Buf (Elt F) ℓ) (c : Dev nD) : val5 m c (no_index (Proc.devRef .tc main_arg15)) = m ((c.tc : Thread nD τ).loc main_arg15) :=
  (val5_keep m c main_arg15 (by decide)).trans (val4_main_arg15 m c)
theorem val5_main_arg16 (m : (ℓ : Loc nD τ sig) → Buf (Elt F) ℓ) (c : Dev nD) : val5 m c (no_index (Proc.devRef .tc main_arg16)) = m ((c.tc : Thread nD τ).loc main_arg16) :=
  (val5_keep m c main_arg16 (by decide)).trans (val4_main_arg16 m c)
theorem val5_main_arg17 (m : (ℓ : Loc nD τ sig) → Buf (Elt F) ℓ) (c : Dev nD) : val5 m c (no_index (Proc.devRef .tc main_arg17)) = m ((c.tc : Thread nD τ).loc main_arg17) :=
  (val5_keep m c main_arg17 (by decide)).trans (val4_main_arg17 m c)
theorem val5_main_arg18 (m : (ℓ : Loc nD τ sig) → Buf (Elt F) ℓ) (c : Dev nD) : val5 m c (no_index (Proc.devRef .tc main_arg18)) = m ((c.tc : Thread nD τ).loc main_arg18) :=
  (val5_keep m c main_arg18 (by decide)).trans (val4_main_arg18 m c)
theorem val5_main_arg19 (m : (ℓ : Loc nD τ sig) → Buf (Elt F) ℓ) (c : Dev nD) : val5 m c (no_index (Proc.devRef .tc main_arg19)) = m ((c.tc : Thread nD τ).loc main_arg19) :=
  (val5_keep m c main_arg19 (by decide)).trans (val4_main_arg19 m c)
theorem val5_main_arg20 (m : (ℓ : Loc nD τ sig) → Buf (Elt F) ℓ) (c : Dev nD) : val5 m c (no_index (Proc.devRef .tc main_arg20)) = m ((c.tc : Thread nD τ).loc main_arg20) :=
  (val5_keep m c main_arg20 (by decide)).trans (val4_main_arg20 m c)
theorem val5_main_arg21 (m : (ℓ : Loc nD τ sig) → Buf (Elt F) ℓ) (c : Dev nD) : val5 m c (no_index (Proc.devRef .tc main_arg21)) = m ((c.tc : Thread nD τ).loc main_arg21) :=
  (val5_keep m c main_arg21 (by decide)).trans (val4_main_arg21 m c)
theorem val5_main_arg22 (m : (ℓ : Loc nD τ sig) → Buf (Elt F) ℓ) (c : Dev nD) : val5 m c (no_index (Proc.devRef .tc main_arg22)) = m ((c.tc : Thread nD τ).loc main_arg22) :=
  (val5_keep m c main_arg22 (by decide)).trans (val4_main_arg22 m c)
theorem val5_main_arg23 (m : (ℓ : Loc nD τ sig) → Buf (Elt F) ℓ) (c : Dev nD) : val5 m c (no_index (Proc.devRef .tc main_arg23)) = m ((c.tc : Thread nD τ).loc main_arg23) :=
  (val5_keep m c main_arg23 (by decide)).trans (val4_main_arg23 m c)
theorem val5_main_arg24 (m : (ℓ : Loc nD τ sig) → Buf (Elt F) ℓ) (c : Dev nD) : val5 m c (no_index (Proc.devRef .tc main_arg24)) = m ((c.tc : Thread nD τ).loc main_arg24) :=
  (val5_keep m c main_arg24 (by decide)).trans (val4_main_arg24 m c)
theorem val5_main_arg25 (m : (ℓ : Loc nD τ sig) → Buf (Elt F) ℓ) (c : Dev nD) : val5 m c (no_index (Proc.devRef .tc main_arg25)) = m ((c.tc : Thread nD τ).loc main_arg25) :=
  (val5_keep m c main_arg25 (by decide)).trans (val4_main_arg25 m c)
theorem val5_main_arg26 (m : (ℓ : Loc nD τ sig) → Buf (Elt F) ℓ) (c : Dev nD) : val5 m c (no_index (Proc.devRef .tc main_arg26)) = m ((c.tc : Thread nD τ).loc main_arg26) :=
  (val5_keep m c main_arg26 (by decide)).trans (val4_main_arg26 m c)
theorem val5_main_v16 (m : (ℓ : Loc nD τ sig) → Buf (Elt F) ℓ) (c : Dev nD) : val5 m c (no_index (Proc.devRef .tc main_v16)) = Read.val_main_v16 (F := F) (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg9)) :=
  (val5_keep m c main_v16 (by decide)).trans (val4_main_v16 m c)
theorem val5_main_v37 (m : (ℓ : Loc nD τ sig) → Buf (Elt F) ℓ) (c : Dev nD) : val5 m c (no_index (Proc.devRef .tc main_v37)) = Read.val_main_v37 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) :=
  (val5_keep m c main_v37 (by decide)).trans (val4_main_v37 m c)
set_option maxHeartbeats 2000000 in
theorem val5_main_v44 (m : (ℓ : Loc nD τ sig) → Buf (Elt F) ℓ) (c : Dev nD) : val5 m c (no_index (Proc.devRef .tc main_v44)) = Read.val_main_v44 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) := by
  unfold val5
  simp only [seg4]
  after_results_simp
  (try simp only [val4_main_arg5, val4_main_v37])
  rfl
set_option maxHeartbeats 2000000 in
theorem val5_main_v51 (m : (ℓ : Loc nD τ sig) → Buf (Elt F) ℓ) (c : Dev nD) : val5 m c (no_index (Proc.devRef .tc main_v51)) = Read.val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) := by
  unfold val5
  simp only [seg4]
  after_results_simp
  (try simp only [val4_main_arg2, val4_main_v37])
  rfl

/-- The buffer contents after the first 6 stretches. -/
def val6 (m : (ℓ : Loc nD τ sig) → Buf (Elt F) ℓ) (c : Dev nD) : Valuation τ sig (Elt F) := after seg5 (val5 m c)
/-- The buffers stretch 5 writes. -/
abbrev seg5_W : List (Ref sig .tc) := [main_v52, main_v53, main_v54, main_v55, main_v56, main_cst_12, main_v57, main_v58, main_cst_13, main_v59, main_v60, main_v61]
theorem seg5_writes : (seg5 : List (HloOp τ sig (Elt F))).Forall fun op => op.writes ⊆ (seg5_W.map (Proc.devRef (τ := τ) .tc)).toFinset := by
  simp only [seg5, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 5 does not write keeps its contents through it. -/
theorem val6_keep (m : (ℓ : Loc nD τ sig) → Buf (Elt F) ℓ) (c : Dev nD) (r : Ref sig .tc) (h : r ∉ seg5_W) :
    val6 m c (Proc.devRef .tc r) = val5 m c (Proc.devRef .tc r) :=
  after_of_writes_sub seg5 _ seg5_writes h
theorem val6_main_arg0 (m : (ℓ : Loc nD τ sig) → Buf (Elt F) ℓ) (c : Dev nD) : val6 m c (no_index (Proc.devRef .tc main_arg0)) = m ((c.tc : Thread nD τ).loc main_arg0) :=
  (val6_keep m c main_arg0 (by decide)).trans (val5_main_arg0 m c)
theorem val6_main_arg1 (m : (ℓ : Loc nD τ sig) → Buf (Elt F) ℓ) (c : Dev nD) : val6 m c (no_index (Proc.devRef .tc main_arg1)) = m ((c.tc : Thread nD τ).loc main_arg1) :=
  (val6_keep m c main_arg1 (by decide)).trans (val5_main_arg1 m c)
theorem val6_main_arg2 (m : (ℓ : Loc nD τ sig) → Buf (Elt F) ℓ) (c : Dev nD) : val6 m c (no_index (Proc.devRef .tc main_arg2)) = m ((c.tc : Thread nD τ).loc main_arg2) :=
  (val6_keep m c main_arg2 (by decide)).trans (val5_main_arg2 m c)
theorem val6_main_arg3 (m : (ℓ : Loc nD τ sig) → Buf (Elt F) ℓ) (c : Dev nD) : val6 m c (no_index (Proc.devRef .tc main_arg3)) = m ((c.tc : Thread nD τ).loc main_arg3) :=
  (val6_keep m c main_arg3 (by decide)).trans (val5_main_arg3 m c)
theorem val6_main_arg4 (m : (ℓ : Loc nD τ sig) → Buf (Elt F) ℓ) (c : Dev nD) : val6 m c (no_index (Proc.devRef .tc main_arg4)) = m ((c.tc : Thread nD τ).loc main_arg4) :=
  (val6_keep m c main_arg4 (by decide)).trans (val5_main_arg4 m c)
theorem val6_main_arg5 (m : (ℓ : Loc nD τ sig) → Buf (Elt F) ℓ) (c : Dev nD) : val6 m c (no_index (Proc.devRef .tc main_arg5)) = m ((c.tc : Thread nD τ).loc main_arg5) :=
  (val6_keep m c main_arg5 (by decide)).trans (val5_main_arg5 m c)
theorem val6_main_arg6 (m : (ℓ : Loc nD τ sig) → Buf (Elt F) ℓ) (c : Dev nD) : val6 m c (no_index (Proc.devRef .tc main_arg6)) = m ((c.tc : Thread nD τ).loc main_arg6) :=
  (val6_keep m c main_arg6 (by decide)).trans (val5_main_arg6 m c)
theorem val6_main_arg7 (m : (ℓ : Loc nD τ sig) → Buf (Elt F) ℓ) (c : Dev nD) : val6 m c (no_index (Proc.devRef .tc main_arg7)) = m ((c.tc : Thread nD τ).loc main_arg7) :=
  (val6_keep m c main_arg7 (by decide)).trans (val5_main_arg7 m c)
theorem val6_main_arg8 (m : (ℓ : Loc nD τ sig) → Buf (Elt F) ℓ) (c : Dev nD) : val6 m c (no_index (Proc.devRef .tc main_arg8)) = m ((c.tc : Thread nD τ).loc main_arg8) :=
  (val6_keep m c main_arg8 (by decide)).trans (val5_main_arg8 m c)
theorem val6_main_arg9 (m : (ℓ : Loc nD τ sig) → Buf (Elt F) ℓ) (c : Dev nD) : val6 m c (no_index (Proc.devRef .tc main_arg9)) = m ((c.tc : Thread nD τ).loc main_arg9) :=
  (val6_keep m c main_arg9 (by decide)).trans (val5_main_arg9 m c)
theorem val6_main_arg10 (m : (ℓ : Loc nD τ sig) → Buf (Elt F) ℓ) (c : Dev nD) : val6 m c (no_index (Proc.devRef .tc main_arg10)) = m ((c.tc : Thread nD τ).loc main_arg10) :=
  (val6_keep m c main_arg10 (by decide)).trans (val5_main_arg10 m c)
theorem val6_main_arg11 (m : (ℓ : Loc nD τ sig) → Buf (Elt F) ℓ) (c : Dev nD) : val6 m c (no_index (Proc.devRef .tc main_arg11)) = m ((c.tc : Thread nD τ).loc main_arg11) :=
  (val6_keep m c main_arg11 (by decide)).trans (val5_main_arg11 m c)
theorem val6_main_arg12 (m : (ℓ : Loc nD τ sig) → Buf (Elt F) ℓ) (c : Dev nD) : val6 m c (no_index (Proc.devRef .tc main_arg12)) = m ((c.tc : Thread nD τ).loc main_arg12) :=
  (val6_keep m c main_arg12 (by decide)).trans (val5_main_arg12 m c)
theorem val6_main_arg13 (m : (ℓ : Loc nD τ sig) → Buf (Elt F) ℓ) (c : Dev nD) : val6 m c (no_index (Proc.devRef .tc main_arg13)) = m ((c.tc : Thread nD τ).loc main_arg13) :=
  (val6_keep m c main_arg13 (by decide)).trans (val5_main_arg13 m c)
theorem val6_main_arg14 (m : (ℓ : Loc nD τ sig) → Buf (Elt F) ℓ) (c : Dev nD) : val6 m c (no_index (Proc.devRef .tc main_arg14)) = m ((c.tc : Thread nD τ).loc main_arg14) :=
  (val6_keep m c main_arg14 (by decide)).trans (val5_main_arg14 m c)
theorem val6_main_arg15 (m : (ℓ : Loc nD τ sig) → Buf (Elt F) ℓ) (c : Dev nD) : val6 m c (no_index (Proc.devRef .tc main_arg15)) = m ((c.tc : Thread nD τ).loc main_arg15) :=
  (val6_keep m c main_arg15 (by decide)).trans (val5_main_arg15 m c)
theorem val6_main_arg16 (m : (ℓ : Loc nD τ sig) → Buf (Elt F) ℓ) (c : Dev nD) : val6 m c (no_index (Proc.devRef .tc main_arg16)) = m ((c.tc : Thread nD τ).loc main_arg16) :=
  (val6_keep m c main_arg16 (by decide)).trans (val5_main_arg16 m c)
theorem val6_main_arg17 (m : (ℓ : Loc nD τ sig) → Buf (Elt F) ℓ) (c : Dev nD) : val6 m c (no_index (Proc.devRef .tc main_arg17)) = m ((c.tc : Thread nD τ).loc main_arg17) :=
  (val6_keep m c main_arg17 (by decide)).trans (val5_main_arg17 m c)
theorem val6_main_arg18 (m : (ℓ : Loc nD τ sig) → Buf (Elt F) ℓ) (c : Dev nD) : val6 m c (no_index (Proc.devRef .tc main_arg18)) = m ((c.tc : Thread nD τ).loc main_arg18) :=
  (val6_keep m c main_arg18 (by decide)).trans (val5_main_arg18 m c)
theorem val6_main_arg19 (m : (ℓ : Loc nD τ sig) → Buf (Elt F) ℓ) (c : Dev nD) : val6 m c (no_index (Proc.devRef .tc main_arg19)) = m ((c.tc : Thread nD τ).loc main_arg19) :=
  (val6_keep m c main_arg19 (by decide)).trans (val5_main_arg19 m c)
theorem val6_main_arg20 (m : (ℓ : Loc nD τ sig) → Buf (Elt F) ℓ) (c : Dev nD) : val6 m c (no_index (Proc.devRef .tc main_arg20)) = m ((c.tc : Thread nD τ).loc main_arg20) :=
  (val6_keep m c main_arg20 (by decide)).trans (val5_main_arg20 m c)
theorem val6_main_arg21 (m : (ℓ : Loc nD τ sig) → Buf (Elt F) ℓ) (c : Dev nD) : val6 m c (no_index (Proc.devRef .tc main_arg21)) = m ((c.tc : Thread nD τ).loc main_arg21) :=
  (val6_keep m c main_arg21 (by decide)).trans (val5_main_arg21 m c)
theorem val6_main_arg22 (m : (ℓ : Loc nD τ sig) → Buf (Elt F) ℓ) (c : Dev nD) : val6 m c (no_index (Proc.devRef .tc main_arg22)) = m ((c.tc : Thread nD τ).loc main_arg22) :=
  (val6_keep m c main_arg22 (by decide)).trans (val5_main_arg22 m c)
theorem val6_main_arg23 (m : (ℓ : Loc nD τ sig) → Buf (Elt F) ℓ) (c : Dev nD) : val6 m c (no_index (Proc.devRef .tc main_arg23)) = m ((c.tc : Thread nD τ).loc main_arg23) :=
  (val6_keep m c main_arg23 (by decide)).trans (val5_main_arg23 m c)
theorem val6_main_arg24 (m : (ℓ : Loc nD τ sig) → Buf (Elt F) ℓ) (c : Dev nD) : val6 m c (no_index (Proc.devRef .tc main_arg24)) = m ((c.tc : Thread nD τ).loc main_arg24) :=
  (val6_keep m c main_arg24 (by decide)).trans (val5_main_arg24 m c)
theorem val6_main_arg25 (m : (ℓ : Loc nD τ sig) → Buf (Elt F) ℓ) (c : Dev nD) : val6 m c (no_index (Proc.devRef .tc main_arg25)) = m ((c.tc : Thread nD τ).loc main_arg25) :=
  (val6_keep m c main_arg25 (by decide)).trans (val5_main_arg25 m c)
theorem val6_main_arg26 (m : (ℓ : Loc nD τ sig) → Buf (Elt F) ℓ) (c : Dev nD) : val6 m c (no_index (Proc.devRef .tc main_arg26)) = m ((c.tc : Thread nD τ).loc main_arg26) :=
  (val6_keep m c main_arg26 (by decide)).trans (val5_main_arg26 m c)
theorem val6_main_v37 (m : (ℓ : Loc nD τ sig) → Buf (Elt F) ℓ) (c : Dev nD) : val6 m c (no_index (Proc.devRef .tc main_v37)) = Read.val_main_v37 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) :=
  (val6_keep m c main_v37 (by decide)).trans (val5_main_v37 m c)
theorem val6_main_v44 (m : (ℓ : Loc nD τ sig) → Buf (Elt F) ℓ) (c : Dev nD) : val6 m c (no_index (Proc.devRef .tc main_v44)) = Read.val_main_v44 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) :=
  (val6_keep m c main_v44 (by decide)).trans (val5_main_v44 m c)
set_option maxHeartbeats 2000000 in
theorem val6_main_v61 (m : (ℓ : Loc nD τ sig) → Buf (Elt F) ℓ) (c : Dev nD) : val6 m c (no_index (Proc.devRef .tc main_v61)) = Read.val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold val6
  simp only [seg5]
  after_results_simp
  (try simp only [val5_main_arg13, val5_main_arg12, val5_main_v16, val5_main_v51])
  rw [val5_main_v51]
  rw [val5_main_v16]
  rfl

/-- The buffer contents after the first 7 stretches. -/
def val7 (m : (ℓ : Loc nD τ sig) → Buf (Elt F) ℓ) (c : Dev nD) : Valuation τ sig (Elt F) := after seg6 (val6 m c)
/-- The buffers stretch 6 writes. -/
abbrev seg6_W : List (Ref sig .tc) := [main_cst_14, main_v62, main_v63, main_v64, main_cst_15, main_v65, main_cst_16, main_v66, main_v67, main_v68, main_cst_17, main_v69, main_v70, main_v71, main_v72]
theorem seg6_writes : (seg6 : List (HloOp τ sig (Elt F))).Forall fun op => op.writes ⊆ (seg6_W.map (Proc.devRef (τ := τ) .tc)).toFinset := by
  simp only [seg6, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 6 does not write keeps its contents through it. -/
theorem val7_keep (m : (ℓ : Loc nD τ sig) → Buf (Elt F) ℓ) (c : Dev nD) (r : Ref sig .tc) (h : r ∉ seg6_W) :
    val7 m c (Proc.devRef .tc r) = val6 m c (Proc.devRef .tc r) :=
  after_of_writes_sub seg6 _ seg6_writes h
theorem val7_main_arg0 (m : (ℓ : Loc nD τ sig) → Buf (Elt F) ℓ) (c : Dev nD) : val7 m c (no_index (Proc.devRef .tc main_arg0)) = m ((c.tc : Thread nD τ).loc main_arg0) :=
  (val7_keep m c main_arg0 (by decide)).trans (val6_main_arg0 m c)
theorem val7_main_arg1 (m : (ℓ : Loc nD τ sig) → Buf (Elt F) ℓ) (c : Dev nD) : val7 m c (no_index (Proc.devRef .tc main_arg1)) = m ((c.tc : Thread nD τ).loc main_arg1) :=
  (val7_keep m c main_arg1 (by decide)).trans (val6_main_arg1 m c)
theorem val7_main_arg2 (m : (ℓ : Loc nD τ sig) → Buf (Elt F) ℓ) (c : Dev nD) : val7 m c (no_index (Proc.devRef .tc main_arg2)) = m ((c.tc : Thread nD τ).loc main_arg2) :=
  (val7_keep m c main_arg2 (by decide)).trans (val6_main_arg2 m c)
theorem val7_main_arg3 (m : (ℓ : Loc nD τ sig) → Buf (Elt F) ℓ) (c : Dev nD) : val7 m c (no_index (Proc.devRef .tc main_arg3)) = m ((c.tc : Thread nD τ).loc main_arg3) :=
  (val7_keep m c main_arg3 (by decide)).trans (val6_main_arg3 m c)
theorem val7_main_arg4 (m : (ℓ : Loc nD τ sig) → Buf (Elt F) ℓ) (c : Dev nD) : val7 m c (no_index (Proc.devRef .tc main_arg4)) = m ((c.tc : Thread nD τ).loc main_arg4) :=
  (val7_keep m c main_arg4 (by decide)).trans (val6_main_arg4 m c)
theorem val7_main_arg5 (m : (ℓ : Loc nD τ sig) → Buf (Elt F) ℓ) (c : Dev nD) : val7 m c (no_index (Proc.devRef .tc main_arg5)) = m ((c.tc : Thread nD τ).loc main_arg5) :=
  (val7_keep m c main_arg5 (by decide)).trans (val6_main_arg5 m c)
theorem val7_main_arg6 (m : (ℓ : Loc nD τ sig) → Buf (Elt F) ℓ) (c : Dev nD) : val7 m c (no_index (Proc.devRef .tc main_arg6)) = m ((c.tc : Thread nD τ).loc main_arg6) :=
  (val7_keep m c main_arg6 (by decide)).trans (val6_main_arg6 m c)
theorem val7_main_arg7 (m : (ℓ : Loc nD τ sig) → Buf (Elt F) ℓ) (c : Dev nD) : val7 m c (no_index (Proc.devRef .tc main_arg7)) = m ((c.tc : Thread nD τ).loc main_arg7) :=
  (val7_keep m c main_arg7 (by decide)).trans (val6_main_arg7 m c)
theorem val7_main_arg8 (m : (ℓ : Loc nD τ sig) → Buf (Elt F) ℓ) (c : Dev nD) : val7 m c (no_index (Proc.devRef .tc main_arg8)) = m ((c.tc : Thread nD τ).loc main_arg8) :=
  (val7_keep m c main_arg8 (by decide)).trans (val6_main_arg8 m c)
theorem val7_main_arg9 (m : (ℓ : Loc nD τ sig) → Buf (Elt F) ℓ) (c : Dev nD) : val7 m c (no_index (Proc.devRef .tc main_arg9)) = m ((c.tc : Thread nD τ).loc main_arg9) :=
  (val7_keep m c main_arg9 (by decide)).trans (val6_main_arg9 m c)
theorem val7_main_arg10 (m : (ℓ : Loc nD τ sig) → Buf (Elt F) ℓ) (c : Dev nD) : val7 m c (no_index (Proc.devRef .tc main_arg10)) = m ((c.tc : Thread nD τ).loc main_arg10) :=
  (val7_keep m c main_arg10 (by decide)).trans (val6_main_arg10 m c)
theorem val7_main_arg11 (m : (ℓ : Loc nD τ sig) → Buf (Elt F) ℓ) (c : Dev nD) : val7 m c (no_index (Proc.devRef .tc main_arg11)) = m ((c.tc : Thread nD τ).loc main_arg11) :=
  (val7_keep m c main_arg11 (by decide)).trans (val6_main_arg11 m c)
theorem val7_main_arg12 (m : (ℓ : Loc nD τ sig) → Buf (Elt F) ℓ) (c : Dev nD) : val7 m c (no_index (Proc.devRef .tc main_arg12)) = m ((c.tc : Thread nD τ).loc main_arg12) :=
  (val7_keep m c main_arg12 (by decide)).trans (val6_main_arg12 m c)
theorem val7_main_arg13 (m : (ℓ : Loc nD τ sig) → Buf (Elt F) ℓ) (c : Dev nD) : val7 m c (no_index (Proc.devRef .tc main_arg13)) = m ((c.tc : Thread nD τ).loc main_arg13) :=
  (val7_keep m c main_arg13 (by decide)).trans (val6_main_arg13 m c)
theorem val7_main_arg14 (m : (ℓ : Loc nD τ sig) → Buf (Elt F) ℓ) (c : Dev nD) : val7 m c (no_index (Proc.devRef .tc main_arg14)) = m ((c.tc : Thread nD τ).loc main_arg14) :=
  (val7_keep m c main_arg14 (by decide)).trans (val6_main_arg14 m c)
theorem val7_main_arg15 (m : (ℓ : Loc nD τ sig) → Buf (Elt F) ℓ) (c : Dev nD) : val7 m c (no_index (Proc.devRef .tc main_arg15)) = m ((c.tc : Thread nD τ).loc main_arg15) :=
  (val7_keep m c main_arg15 (by decide)).trans (val6_main_arg15 m c)
theorem val7_main_arg16 (m : (ℓ : Loc nD τ sig) → Buf (Elt F) ℓ) (c : Dev nD) : val7 m c (no_index (Proc.devRef .tc main_arg16)) = m ((c.tc : Thread nD τ).loc main_arg16) :=
  (val7_keep m c main_arg16 (by decide)).trans (val6_main_arg16 m c)
theorem val7_main_arg17 (m : (ℓ : Loc nD τ sig) → Buf (Elt F) ℓ) (c : Dev nD) : val7 m c (no_index (Proc.devRef .tc main_arg17)) = m ((c.tc : Thread nD τ).loc main_arg17) :=
  (val7_keep m c main_arg17 (by decide)).trans (val6_main_arg17 m c)
theorem val7_main_arg18 (m : (ℓ : Loc nD τ sig) → Buf (Elt F) ℓ) (c : Dev nD) : val7 m c (no_index (Proc.devRef .tc main_arg18)) = m ((c.tc : Thread nD τ).loc main_arg18) :=
  (val7_keep m c main_arg18 (by decide)).trans (val6_main_arg18 m c)
theorem val7_main_arg19 (m : (ℓ : Loc nD τ sig) → Buf (Elt F) ℓ) (c : Dev nD) : val7 m c (no_index (Proc.devRef .tc main_arg19)) = m ((c.tc : Thread nD τ).loc main_arg19) :=
  (val7_keep m c main_arg19 (by decide)).trans (val6_main_arg19 m c)
theorem val7_main_arg20 (m : (ℓ : Loc nD τ sig) → Buf (Elt F) ℓ) (c : Dev nD) : val7 m c (no_index (Proc.devRef .tc main_arg20)) = m ((c.tc : Thread nD τ).loc main_arg20) :=
  (val7_keep m c main_arg20 (by decide)).trans (val6_main_arg20 m c)
theorem val7_main_arg21 (m : (ℓ : Loc nD τ sig) → Buf (Elt F) ℓ) (c : Dev nD) : val7 m c (no_index (Proc.devRef .tc main_arg21)) = m ((c.tc : Thread nD τ).loc main_arg21) :=
  (val7_keep m c main_arg21 (by decide)).trans (val6_main_arg21 m c)
theorem val7_main_arg22 (m : (ℓ : Loc nD τ sig) → Buf (Elt F) ℓ) (c : Dev nD) : val7 m c (no_index (Proc.devRef .tc main_arg22)) = m ((c.tc : Thread nD τ).loc main_arg22) :=
  (val7_keep m c main_arg22 (by decide)).trans (val6_main_arg22 m c)
theorem val7_main_arg23 (m : (ℓ : Loc nD τ sig) → Buf (Elt F) ℓ) (c : Dev nD) : val7 m c (no_index (Proc.devRef .tc main_arg23)) = m ((c.tc : Thread nD τ).loc main_arg23) :=
  (val7_keep m c main_arg23 (by decide)).trans (val6_main_arg23 m c)
theorem val7_main_arg24 (m : (ℓ : Loc nD τ sig) → Buf (Elt F) ℓ) (c : Dev nD) : val7 m c (no_index (Proc.devRef .tc main_arg24)) = m ((c.tc : Thread nD τ).loc main_arg24) :=
  (val7_keep m c main_arg24 (by decide)).trans (val6_main_arg24 m c)
theorem val7_main_arg25 (m : (ℓ : Loc nD τ sig) → Buf (Elt F) ℓ) (c : Dev nD) : val7 m c (no_index (Proc.devRef .tc main_arg25)) = m ((c.tc : Thread nD τ).loc main_arg25) :=
  (val7_keep m c main_arg25 (by decide)).trans (val6_main_arg25 m c)
theorem val7_main_arg26 (m : (ℓ : Loc nD τ sig) → Buf (Elt F) ℓ) (c : Dev nD) : val7 m c (no_index (Proc.devRef .tc main_arg26)) = m ((c.tc : Thread nD τ).loc main_arg26) :=
  (val7_keep m c main_arg26 (by decide)).trans (val6_main_arg26 m c)
theorem val7_main_v37 (m : (ℓ : Loc nD τ sig) → Buf (Elt F) ℓ) (c : Dev nD) : val7 m c (no_index (Proc.devRef .tc main_v37)) = Read.val_main_v37 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) :=
  (val7_keep m c main_v37 (by decide)).trans (val6_main_v37 m c)
theorem val7_main_v44 (m : (ℓ : Loc nD τ sig) → Buf (Elt F) ℓ) (c : Dev nD) : val7 m c (no_index (Proc.devRef .tc main_v44)) = Read.val_main_v44 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) :=
  (val7_keep m c main_v44 (by decide)).trans (val6_main_v44 m c)
set_option maxHeartbeats 2000000 in
theorem val7_main_v72 (m : (ℓ : Loc nD τ sig) → Buf (Elt F) ℓ) (c : Dev nD) : val7 m c (no_index (Proc.devRef .tc main_v72)) = Read.val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold val7
  simp only [seg6]
  after_results_simp
  (try simp only [val6_main_arg3, val6_main_v61])
  rfl

/-- The buffer contents after the first 8 stretches. -/
def val8 (m : (ℓ : Loc nD τ sig) → Buf (Elt F) ℓ) (c : Dev nD) : Valuation τ sig (Elt F) := after seg7 (val7 m c)
/-- The buffers stretch 7 writes. -/
abbrev seg7_W : List (Ref sig .tc) := [main_v73, main_v74, main_v75, main_v76, main_v77, main_cst_18, main_v78, main_v79, main_cst_19, main_v80, main_v81, main_v82]
theorem seg7_writes : (seg7 : List (HloOp τ sig (Elt F))).Forall fun op => op.writes ⊆ (seg7_W.map (Proc.devRef (τ := τ) .tc)).toFinset := by
  simp only [seg7, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 7 does not write keeps its contents through it. -/
theorem val8_keep (m : (ℓ : Loc nD τ sig) → Buf (Elt F) ℓ) (c : Dev nD) (r : Ref sig .tc) (h : r ∉ seg7_W) :
    val8 m c (Proc.devRef .tc r) = val7 m c (Proc.devRef .tc r) :=
  after_of_writes_sub seg7 _ seg7_writes h
theorem val8_main_arg0 (m : (ℓ : Loc nD τ sig) → Buf (Elt F) ℓ) (c : Dev nD) : val8 m c (no_index (Proc.devRef .tc main_arg0)) = m ((c.tc : Thread nD τ).loc main_arg0) :=
  (val8_keep m c main_arg0 (by decide)).trans (val7_main_arg0 m c)
theorem val8_main_arg1 (m : (ℓ : Loc nD τ sig) → Buf (Elt F) ℓ) (c : Dev nD) : val8 m c (no_index (Proc.devRef .tc main_arg1)) = m ((c.tc : Thread nD τ).loc main_arg1) :=
  (val8_keep m c main_arg1 (by decide)).trans (val7_main_arg1 m c)
theorem val8_main_arg2 (m : (ℓ : Loc nD τ sig) → Buf (Elt F) ℓ) (c : Dev nD) : val8 m c (no_index (Proc.devRef .tc main_arg2)) = m ((c.tc : Thread nD τ).loc main_arg2) :=
  (val8_keep m c main_arg2 (by decide)).trans (val7_main_arg2 m c)
theorem val8_main_arg3 (m : (ℓ : Loc nD τ sig) → Buf (Elt F) ℓ) (c : Dev nD) : val8 m c (no_index (Proc.devRef .tc main_arg3)) = m ((c.tc : Thread nD τ).loc main_arg3) :=
  (val8_keep m c main_arg3 (by decide)).trans (val7_main_arg3 m c)
theorem val8_main_arg4 (m : (ℓ : Loc nD τ sig) → Buf (Elt F) ℓ) (c : Dev nD) : val8 m c (no_index (Proc.devRef .tc main_arg4)) = m ((c.tc : Thread nD τ).loc main_arg4) :=
  (val8_keep m c main_arg4 (by decide)).trans (val7_main_arg4 m c)
theorem val8_main_arg5 (m : (ℓ : Loc nD τ sig) → Buf (Elt F) ℓ) (c : Dev nD) : val8 m c (no_index (Proc.devRef .tc main_arg5)) = m ((c.tc : Thread nD τ).loc main_arg5) :=
  (val8_keep m c main_arg5 (by decide)).trans (val7_main_arg5 m c)
theorem val8_main_arg6 (m : (ℓ : Loc nD τ sig) → Buf (Elt F) ℓ) (c : Dev nD) : val8 m c (no_index (Proc.devRef .tc main_arg6)) = m ((c.tc : Thread nD τ).loc main_arg6) :=
  (val8_keep m c main_arg6 (by decide)).trans (val7_main_arg6 m c)
theorem val8_main_arg7 (m : (ℓ : Loc nD τ sig) → Buf (Elt F) ℓ) (c : Dev nD) : val8 m c (no_index (Proc.devRef .tc main_arg7)) = m ((c.tc : Thread nD τ).loc main_arg7) :=
  (val8_keep m c main_arg7 (by decide)).trans (val7_main_arg7 m c)
theorem val8_main_arg8 (m : (ℓ : Loc nD τ sig) → Buf (Elt F) ℓ) (c : Dev nD) : val8 m c (no_index (Proc.devRef .tc main_arg8)) = m ((c.tc : Thread nD τ).loc main_arg8) :=
  (val8_keep m c main_arg8 (by decide)).trans (val7_main_arg8 m c)
theorem val8_main_arg9 (m : (ℓ : Loc nD τ sig) → Buf (Elt F) ℓ) (c : Dev nD) : val8 m c (no_index (Proc.devRef .tc main_arg9)) = m ((c.tc : Thread nD τ).loc main_arg9) :=
  (val8_keep m c main_arg9 (by decide)).trans (val7_main_arg9 m c)
theorem val8_main_arg10 (m : (ℓ : Loc nD τ sig) → Buf (Elt F) ℓ) (c : Dev nD) : val8 m c (no_index (Proc.devRef .tc main_arg10)) = m ((c.tc : Thread nD τ).loc main_arg10) :=
  (val8_keep m c main_arg10 (by decide)).trans (val7_main_arg10 m c)
theorem val8_main_arg11 (m : (ℓ : Loc nD τ sig) → Buf (Elt F) ℓ) (c : Dev nD) : val8 m c (no_index (Proc.devRef .tc main_arg11)) = m ((c.tc : Thread nD τ).loc main_arg11) :=
  (val8_keep m c main_arg11 (by decide)).trans (val7_main_arg11 m c)
theorem val8_main_arg12 (m : (ℓ : Loc nD τ sig) → Buf (Elt F) ℓ) (c : Dev nD) : val8 m c (no_index (Proc.devRef .tc main_arg12)) = m ((c.tc : Thread nD τ).loc main_arg12) :=
  (val8_keep m c main_arg12 (by decide)).trans (val7_main_arg12 m c)
theorem val8_main_arg13 (m : (ℓ : Loc nD τ sig) → Buf (Elt F) ℓ) (c : Dev nD) : val8 m c (no_index (Proc.devRef .tc main_arg13)) = m ((c.tc : Thread nD τ).loc main_arg13) :=
  (val8_keep m c main_arg13 (by decide)).trans (val7_main_arg13 m c)
theorem val8_main_arg14 (m : (ℓ : Loc nD τ sig) → Buf (Elt F) ℓ) (c : Dev nD) : val8 m c (no_index (Proc.devRef .tc main_arg14)) = m ((c.tc : Thread nD τ).loc main_arg14) :=
  (val8_keep m c main_arg14 (by decide)).trans (val7_main_arg14 m c)
theorem val8_main_arg15 (m : (ℓ : Loc nD τ sig) → Buf (Elt F) ℓ) (c : Dev nD) : val8 m c (no_index (Proc.devRef .tc main_arg15)) = m ((c.tc : Thread nD τ).loc main_arg15) :=
  (val8_keep m c main_arg15 (by decide)).trans (val7_main_arg15 m c)
theorem val8_main_arg16 (m : (ℓ : Loc nD τ sig) → Buf (Elt F) ℓ) (c : Dev nD) : val8 m c (no_index (Proc.devRef .tc main_arg16)) = m ((c.tc : Thread nD τ).loc main_arg16) :=
  (val8_keep m c main_arg16 (by decide)).trans (val7_main_arg16 m c)
theorem val8_main_arg17 (m : (ℓ : Loc nD τ sig) → Buf (Elt F) ℓ) (c : Dev nD) : val8 m c (no_index (Proc.devRef .tc main_arg17)) = m ((c.tc : Thread nD τ).loc main_arg17) :=
  (val8_keep m c main_arg17 (by decide)).trans (val7_main_arg17 m c)
theorem val8_main_arg18 (m : (ℓ : Loc nD τ sig) → Buf (Elt F) ℓ) (c : Dev nD) : val8 m c (no_index (Proc.devRef .tc main_arg18)) = m ((c.tc : Thread nD τ).loc main_arg18) :=
  (val8_keep m c main_arg18 (by decide)).trans (val7_main_arg18 m c)
theorem val8_main_arg19 (m : (ℓ : Loc nD τ sig) → Buf (Elt F) ℓ) (c : Dev nD) : val8 m c (no_index (Proc.devRef .tc main_arg19)) = m ((c.tc : Thread nD τ).loc main_arg19) :=
  (val8_keep m c main_arg19 (by decide)).trans (val7_main_arg19 m c)
theorem val8_main_arg20 (m : (ℓ : Loc nD τ sig) → Buf (Elt F) ℓ) (c : Dev nD) : val8 m c (no_index (Proc.devRef .tc main_arg20)) = m ((c.tc : Thread nD τ).loc main_arg20) :=
  (val8_keep m c main_arg20 (by decide)).trans (val7_main_arg20 m c)
theorem val8_main_arg21 (m : (ℓ : Loc nD τ sig) → Buf (Elt F) ℓ) (c : Dev nD) : val8 m c (no_index (Proc.devRef .tc main_arg21)) = m ((c.tc : Thread nD τ).loc main_arg21) :=
  (val8_keep m c main_arg21 (by decide)).trans (val7_main_arg21 m c)
theorem val8_main_arg22 (m : (ℓ : Loc nD τ sig) → Buf (Elt F) ℓ) (c : Dev nD) : val8 m c (no_index (Proc.devRef .tc main_arg22)) = m ((c.tc : Thread nD τ).loc main_arg22) :=
  (val8_keep m c main_arg22 (by decide)).trans (val7_main_arg22 m c)
theorem val8_main_arg23 (m : (ℓ : Loc nD τ sig) → Buf (Elt F) ℓ) (c : Dev nD) : val8 m c (no_index (Proc.devRef .tc main_arg23)) = m ((c.tc : Thread nD τ).loc main_arg23) :=
  (val8_keep m c main_arg23 (by decide)).trans (val7_main_arg23 m c)
theorem val8_main_arg24 (m : (ℓ : Loc nD τ sig) → Buf (Elt F) ℓ) (c : Dev nD) : val8 m c (no_index (Proc.devRef .tc main_arg24)) = m ((c.tc : Thread nD τ).loc main_arg24) :=
  (val8_keep m c main_arg24 (by decide)).trans (val7_main_arg24 m c)
theorem val8_main_arg25 (m : (ℓ : Loc nD τ sig) → Buf (Elt F) ℓ) (c : Dev nD) : val8 m c (no_index (Proc.devRef .tc main_arg25)) = m ((c.tc : Thread nD τ).loc main_arg25) :=
  (val8_keep m c main_arg25 (by decide)).trans (val7_main_arg25 m c)
theorem val8_main_arg26 (m : (ℓ : Loc nD τ sig) → Buf (Elt F) ℓ) (c : Dev nD) : val8 m c (no_index (Proc.devRef .tc main_arg26)) = m ((c.tc : Thread nD τ).loc main_arg26) :=
  (val8_keep m c main_arg26 (by decide)).trans (val7_main_arg26 m c)
theorem val8_main_v44 (m : (ℓ : Loc nD τ sig) → Buf (Elt F) ℓ) (c : Dev nD) : val8 m c (no_index (Proc.devRef .tc main_v44)) = Read.val_main_v44 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) :=
  (val8_keep m c main_v44 (by decide)).trans (val7_main_v44 m c)
set_option maxHeartbeats 2000000 in
theorem val8_main_v82 (m : (ℓ : Loc nD τ sig) → Buf (Elt F) ℓ) (c : Dev nD) : val8 m c (no_index (Proc.devRef .tc main_v82)) = Read.val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold val8
  simp only [seg7]
  after_results_simp
  (try simp only [val7_main_arg15, val7_main_arg14, val7_main_v72, val7_main_v37])
  rw [val7_main_v37]
  rw [val7_main_v72]
  rfl

/-- The buffer contents after the first 9 stretches. -/
def val9 (m : (ℓ : Loc nD τ sig) → Buf (Elt F) ℓ) (c : Dev nD) : Valuation τ sig (Elt F) := after seg8 (val8 m c)
/-- The buffers stretch 8 writes. -/
abbrev seg8_W : List (Ref sig .tc) := [main_c_20, main_v83, main_v84, main_c_21, main_v85, main_v86, main_v87, main_v88, main_v89]
theorem seg8_writes : (seg8 : List (HloOp τ sig (Elt F))).Forall fun op => op.writes ⊆ (seg8_W.map (Proc.devRef (τ := τ) .tc)).toFinset := by
  simp only [seg8, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 8 does not write keeps its contents through it. -/
theorem val9_keep (m : (ℓ : Loc nD τ sig) → Buf (Elt F) ℓ) (c : Dev nD) (r : Ref sig .tc) (h : r ∉ seg8_W) :
    val9 m c (Proc.devRef .tc r) = val8 m c (Proc.devRef .tc r) :=
  after_of_writes_sub seg8 _ seg8_writes h
theorem val9_main_arg0 (m : (ℓ : Loc nD τ sig) → Buf (Elt F) ℓ) (c : Dev nD) : val9 m c (no_index (Proc.devRef .tc main_arg0)) = m ((c.tc : Thread nD τ).loc main_arg0) :=
  (val9_keep m c main_arg0 (by decide)).trans (val8_main_arg0 m c)
theorem val9_main_arg1 (m : (ℓ : Loc nD τ sig) → Buf (Elt F) ℓ) (c : Dev nD) : val9 m c (no_index (Proc.devRef .tc main_arg1)) = m ((c.tc : Thread nD τ).loc main_arg1) :=
  (val9_keep m c main_arg1 (by decide)).trans (val8_main_arg1 m c)
theorem val9_main_arg2 (m : (ℓ : Loc nD τ sig) → Buf (Elt F) ℓ) (c : Dev nD) : val9 m c (no_index (Proc.devRef .tc main_arg2)) = m ((c.tc : Thread nD τ).loc main_arg2) :=
  (val9_keep m c main_arg2 (by decide)).trans (val8_main_arg2 m c)
theorem val9_main_arg3 (m : (ℓ : Loc nD τ sig) → Buf (Elt F) ℓ) (c : Dev nD) : val9 m c (no_index (Proc.devRef .tc main_arg3)) = m ((c.tc : Thread nD τ).loc main_arg3) :=
  (val9_keep m c main_arg3 (by decide)).trans (val8_main_arg3 m c)
theorem val9_main_arg4 (m : (ℓ : Loc nD τ sig) → Buf (Elt F) ℓ) (c : Dev nD) : val9 m c (no_index (Proc.devRef .tc main_arg4)) = m ((c.tc : Thread nD τ).loc main_arg4) :=
  (val9_keep m c main_arg4 (by decide)).trans (val8_main_arg4 m c)
theorem val9_main_arg5 (m : (ℓ : Loc nD τ sig) → Buf (Elt F) ℓ) (c : Dev nD) : val9 m c (no_index (Proc.devRef .tc main_arg5)) = m ((c.tc : Thread nD τ).loc main_arg5) :=
  (val9_keep m c main_arg5 (by decide)).trans (val8_main_arg5 m c)
theorem val9_main_arg6 (m : (ℓ : Loc nD τ sig) → Buf (Elt F) ℓ) (c : Dev nD) : val9 m c (no_index (Proc.devRef .tc main_arg6)) = m ((c.tc : Thread nD τ).loc main_arg6) :=
  (val9_keep m c main_arg6 (by decide)).trans (val8_main_arg6 m c)
theorem val9_main_arg7 (m : (ℓ : Loc nD τ sig) → Buf (Elt F) ℓ) (c : Dev nD) : val9 m c (no_index (Proc.devRef .tc main_arg7)) = m ((c.tc : Thread nD τ).loc main_arg7) :=
  (val9_keep m c main_arg7 (by decide)).trans (val8_main_arg7 m c)
theorem val9_main_arg8 (m : (ℓ : Loc nD τ sig) → Buf (Elt F) ℓ) (c : Dev nD) : val9 m c (no_index (Proc.devRef .tc main_arg8)) = m ((c.tc : Thread nD τ).loc main_arg8) :=
  (val9_keep m c main_arg8 (by decide)).trans (val8_main_arg8 m c)
theorem val9_main_arg9 (m : (ℓ : Loc nD τ sig) → Buf (Elt F) ℓ) (c : Dev nD) : val9 m c (no_index (Proc.devRef .tc main_arg9)) = m ((c.tc : Thread nD τ).loc main_arg9) :=
  (val9_keep m c main_arg9 (by decide)).trans (val8_main_arg9 m c)
theorem val9_main_arg10 (m : (ℓ : Loc nD τ sig) → Buf (Elt F) ℓ) (c : Dev nD) : val9 m c (no_index (Proc.devRef .tc main_arg10)) = m ((c.tc : Thread nD τ).loc main_arg10) :=
  (val9_keep m c main_arg10 (by decide)).trans (val8_main_arg10 m c)
theorem val9_main_arg11 (m : (ℓ : Loc nD τ sig) → Buf (Elt F) ℓ) (c : Dev nD) : val9 m c (no_index (Proc.devRef .tc main_arg11)) = m ((c.tc : Thread nD τ).loc main_arg11) :=
  (val9_keep m c main_arg11 (by decide)).trans (val8_main_arg11 m c)
theorem val9_main_arg12 (m : (ℓ : Loc nD τ sig) → Buf (Elt F) ℓ) (c : Dev nD) : val9 m c (no_index (Proc.devRef .tc main_arg12)) = m ((c.tc : Thread nD τ).loc main_arg12) :=
  (val9_keep m c main_arg12 (by decide)).trans (val8_main_arg12 m c)
theorem val9_main_arg13 (m : (ℓ : Loc nD τ sig) → Buf (Elt F) ℓ) (c : Dev nD) : val9 m c (no_index (Proc.devRef .tc main_arg13)) = m ((c.tc : Thread nD τ).loc main_arg13) :=
  (val9_keep m c main_arg13 (by decide)).trans (val8_main_arg13 m c)
theorem val9_main_arg14 (m : (ℓ : Loc nD τ sig) → Buf (Elt F) ℓ) (c : Dev nD) : val9 m c (no_index (Proc.devRef .tc main_arg14)) = m ((c.tc : Thread nD τ).loc main_arg14) :=
  (val9_keep m c main_arg14 (by decide)).trans (val8_main_arg14 m c)
theorem val9_main_arg15 (m : (ℓ : Loc nD τ sig) → Buf (Elt F) ℓ) (c : Dev nD) : val9 m c (no_index (Proc.devRef .tc main_arg15)) = m ((c.tc : Thread nD τ).loc main_arg15) :=
  (val9_keep m c main_arg15 (by decide)).trans (val8_main_arg15 m c)
theorem val9_main_arg16 (m : (ℓ : Loc nD τ sig) → Buf (Elt F) ℓ) (c : Dev nD) : val9 m c (no_index (Proc.devRef .tc main_arg16)) = m ((c.tc : Thread nD τ).loc main_arg16) :=
  (val9_keep m c main_arg16 (by decide)).trans (val8_main_arg16 m c)
theorem val9_main_arg17 (m : (ℓ : Loc nD τ sig) → Buf (Elt F) ℓ) (c : Dev nD) : val9 m c (no_index (Proc.devRef .tc main_arg17)) = m ((c.tc : Thread nD τ).loc main_arg17) :=
  (val9_keep m c main_arg17 (by decide)).trans (val8_main_arg17 m c)
theorem val9_main_arg18 (m : (ℓ : Loc nD τ sig) → Buf (Elt F) ℓ) (c : Dev nD) : val9 m c (no_index (Proc.devRef .tc main_arg18)) = m ((c.tc : Thread nD τ).loc main_arg18) :=
  (val9_keep m c main_arg18 (by decide)).trans (val8_main_arg18 m c)
theorem val9_main_arg19 (m : (ℓ : Loc nD τ sig) → Buf (Elt F) ℓ) (c : Dev nD) : val9 m c (no_index (Proc.devRef .tc main_arg19)) = m ((c.tc : Thread nD τ).loc main_arg19) :=
  (val9_keep m c main_arg19 (by decide)).trans (val8_main_arg19 m c)
theorem val9_main_arg20 (m : (ℓ : Loc nD τ sig) → Buf (Elt F) ℓ) (c : Dev nD) : val9 m c (no_index (Proc.devRef .tc main_arg20)) = m ((c.tc : Thread nD τ).loc main_arg20) :=
  (val9_keep m c main_arg20 (by decide)).trans (val8_main_arg20 m c)
theorem val9_main_arg21 (m : (ℓ : Loc nD τ sig) → Buf (Elt F) ℓ) (c : Dev nD) : val9 m c (no_index (Proc.devRef .tc main_arg21)) = m ((c.tc : Thread nD τ).loc main_arg21) :=
  (val9_keep m c main_arg21 (by decide)).trans (val8_main_arg21 m c)
theorem val9_main_arg22 (m : (ℓ : Loc nD τ sig) → Buf (Elt F) ℓ) (c : Dev nD) : val9 m c (no_index (Proc.devRef .tc main_arg22)) = m ((c.tc : Thread nD τ).loc main_arg22) :=
  (val9_keep m c main_arg22 (by decide)).trans (val8_main_arg22 m c)
theorem val9_main_arg23 (m : (ℓ : Loc nD τ sig) → Buf (Elt F) ℓ) (c : Dev nD) : val9 m c (no_index (Proc.devRef .tc main_arg23)) = m ((c.tc : Thread nD τ).loc main_arg23) :=
  (val9_keep m c main_arg23 (by decide)).trans (val8_main_arg23 m c)
theorem val9_main_arg24 (m : (ℓ : Loc nD τ sig) → Buf (Elt F) ℓ) (c : Dev nD) : val9 m c (no_index (Proc.devRef .tc main_arg24)) = m ((c.tc : Thread nD τ).loc main_arg24) :=
  (val9_keep m c main_arg24 (by decide)).trans (val8_main_arg24 m c)
theorem val9_main_arg25 (m : (ℓ : Loc nD τ sig) → Buf (Elt F) ℓ) (c : Dev nD) : val9 m c (no_index (Proc.devRef .tc main_arg25)) = m ((c.tc : Thread nD τ).loc main_arg25) :=
  (val9_keep m c main_arg25 (by decide)).trans (val8_main_arg25 m c)
theorem val9_main_arg26 (m : (ℓ : Loc nD τ sig) → Buf (Elt F) ℓ) (c : Dev nD) : val9 m c (no_index (Proc.devRef .tc main_arg26)) = m ((c.tc : Thread nD τ).loc main_arg26) :=
  (val9_keep m c main_arg26 (by decide)).trans (val8_main_arg26 m c)
theorem val9_main_v44 (m : (ℓ : Loc nD τ sig) → Buf (Elt F) ℓ) (c : Dev nD) : val9 m c (no_index (Proc.devRef .tc main_v44)) = Read.val_main_v44 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) :=
  (val9_keep m c main_v44 (by decide)).trans (val8_main_v44 m c)
set_option maxHeartbeats 2000000 in
theorem val9_main_v89 (m : (ℓ : Loc nD τ sig) → Buf (Elt F) ℓ) (c : Dev nD) : val9 m c (no_index (Proc.devRef .tc main_v89)) = Read.val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold val9
  simp only [seg8]
  after_results_simp
  (try simp only [val8_main_arg4, val8_main_v82])
  rfl

/-- The buffer contents after the first 10 stretches. -/
def val10 (m : (ℓ : Loc nD τ sig) → Buf (Elt F) ℓ) (c : Dev nD) : Valuation τ sig (Elt F) := after seg9 (val9 m c)
/-- The buffers stretch 9 writes. -/
abbrev seg9_W : List (Ref sig .tc) := [main_v90, main_v91, main_v92, main_v93, main_v94, main_v95, main_cst_22, main_v96, main_v97, main_cst_23, main_v98, main_cst_24, main_v99, main_v100, main_v101, main_v102, main_v103, main_v104, main_cst_25, main_v105, main_v106, main_v107, main_v108, main_v109, main_cst_26, main_v110, main_v111, main_v112, main_v113, main_v114, main_v115, main_v116, main_v117, main_cst_27, main_v118, main_v119, main_cst_28, main_v120, main_v121]
theorem seg9_writes : (seg9 : List (HloOp τ sig (Elt F))).Forall fun op => op.writes ⊆ (seg9_W.map (Proc.devRef (τ := τ) .tc)).toFinset := by
  simp only [seg9, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 9 does not write keeps its contents through it. -/
theorem val10_keep (m : (ℓ : Loc nD τ sig) → Buf (Elt F) ℓ) (c : Dev nD) (r : Ref sig .tc) (h : r ∉ seg9_W) :
    val10 m c (Proc.devRef .tc r) = val9 m c (Proc.devRef .tc r) :=
  after_of_writes_sub seg9 _ seg9_writes h
theorem val10_main_arg0 (m : (ℓ : Loc nD τ sig) → Buf (Elt F) ℓ) (c : Dev nD) : val10 m c (no_index (Proc.devRef .tc main_arg0)) = m ((c.tc : Thread nD τ).loc main_arg0) :=
  (val10_keep m c main_arg0 (by decide)).trans (val9_main_arg0 m c)
theorem val10_main_arg1 (m : (ℓ : Loc nD τ sig) → Buf (Elt F) ℓ) (c : Dev nD) : val10 m c (no_index (Proc.devRef .tc main_arg1)) = m ((c.tc : Thread nD τ).loc main_arg1) :=
  (val10_keep m c main_arg1 (by decide)).trans (val9_main_arg1 m c)
theorem val10_main_arg2 (m : (ℓ : Loc nD τ sig) → Buf (Elt F) ℓ) (c : Dev nD) : val10 m c (no_index (Proc.devRef .tc main_arg2)) = m ((c.tc : Thread nD τ).loc main_arg2) :=
  (val10_keep m c main_arg2 (by decide)).trans (val9_main_arg2 m c)
theorem val10_main_arg3 (m : (ℓ : Loc nD τ sig) → Buf (Elt F) ℓ) (c : Dev nD) : val10 m c (no_index (Proc.devRef .tc main_arg3)) = m ((c.tc : Thread nD τ).loc main_arg3) :=
  (val10_keep m c main_arg3 (by decide)).trans (val9_main_arg3 m c)
theorem val10_main_arg4 (m : (ℓ : Loc nD τ sig) → Buf (Elt F) ℓ) (c : Dev nD) : val10 m c (no_index (Proc.devRef .tc main_arg4)) = m ((c.tc : Thread nD τ).loc main_arg4) :=
  (val10_keep m c main_arg4 (by decide)).trans (val9_main_arg4 m c)
theorem val10_main_arg5 (m : (ℓ : Loc nD τ sig) → Buf (Elt F) ℓ) (c : Dev nD) : val10 m c (no_index (Proc.devRef .tc main_arg5)) = m ((c.tc : Thread nD τ).loc main_arg5) :=
  (val10_keep m c main_arg5 (by decide)).trans (val9_main_arg5 m c)
theorem val10_main_arg6 (m : (ℓ : Loc nD τ sig) → Buf (Elt F) ℓ) (c : Dev nD) : val10 m c (no_index (Proc.devRef .tc main_arg6)) = m ((c.tc : Thread nD τ).loc main_arg6) :=
  (val10_keep m c main_arg6 (by decide)).trans (val9_main_arg6 m c)
theorem val10_main_arg7 (m : (ℓ : Loc nD τ sig) → Buf (Elt F) ℓ) (c : Dev nD) : val10 m c (no_index (Proc.devRef .tc main_arg7)) = m ((c.tc : Thread nD τ).loc main_arg7) :=
  (val10_keep m c main_arg7 (by decide)).trans (val9_main_arg7 m c)
theorem val10_main_arg8 (m : (ℓ : Loc nD τ sig) → Buf (Elt F) ℓ) (c : Dev nD) : val10 m c (no_index (Proc.devRef .tc main_arg8)) = m ((c.tc : Thread nD τ).loc main_arg8) :=
  (val10_keep m c main_arg8 (by decide)).trans (val9_main_arg8 m c)
theorem val10_main_arg9 (m : (ℓ : Loc nD τ sig) → Buf (Elt F) ℓ) (c : Dev nD) : val10 m c (no_index (Proc.devRef .tc main_arg9)) = m ((c.tc : Thread nD τ).loc main_arg9) :=
  (val10_keep m c main_arg9 (by decide)).trans (val9_main_arg9 m c)
theorem val10_main_arg10 (m : (ℓ : Loc nD τ sig) → Buf (Elt F) ℓ) (c : Dev nD) : val10 m c (no_index (Proc.devRef .tc main_arg10)) = m ((c.tc : Thread nD τ).loc main_arg10) :=
  (val10_keep m c main_arg10 (by decide)).trans (val9_main_arg10 m c)
theorem val10_main_arg11 (m : (ℓ : Loc nD τ sig) → Buf (Elt F) ℓ) (c : Dev nD) : val10 m c (no_index (Proc.devRef .tc main_arg11)) = m ((c.tc : Thread nD τ).loc main_arg11) :=
  (val10_keep m c main_arg11 (by decide)).trans (val9_main_arg11 m c)
theorem val10_main_arg12 (m : (ℓ : Loc nD τ sig) → Buf (Elt F) ℓ) (c : Dev nD) : val10 m c (no_index (Proc.devRef .tc main_arg12)) = m ((c.tc : Thread nD τ).loc main_arg12) :=
  (val10_keep m c main_arg12 (by decide)).trans (val9_main_arg12 m c)
theorem val10_main_arg13 (m : (ℓ : Loc nD τ sig) → Buf (Elt F) ℓ) (c : Dev nD) : val10 m c (no_index (Proc.devRef .tc main_arg13)) = m ((c.tc : Thread nD τ).loc main_arg13) :=
  (val10_keep m c main_arg13 (by decide)).trans (val9_main_arg13 m c)
theorem val10_main_arg14 (m : (ℓ : Loc nD τ sig) → Buf (Elt F) ℓ) (c : Dev nD) : val10 m c (no_index (Proc.devRef .tc main_arg14)) = m ((c.tc : Thread nD τ).loc main_arg14) :=
  (val10_keep m c main_arg14 (by decide)).trans (val9_main_arg14 m c)
theorem val10_main_arg15 (m : (ℓ : Loc nD τ sig) → Buf (Elt F) ℓ) (c : Dev nD) : val10 m c (no_index (Proc.devRef .tc main_arg15)) = m ((c.tc : Thread nD τ).loc main_arg15) :=
  (val10_keep m c main_arg15 (by decide)).trans (val9_main_arg15 m c)
theorem val10_main_arg16 (m : (ℓ : Loc nD τ sig) → Buf (Elt F) ℓ) (c : Dev nD) : val10 m c (no_index (Proc.devRef .tc main_arg16)) = m ((c.tc : Thread nD τ).loc main_arg16) :=
  (val10_keep m c main_arg16 (by decide)).trans (val9_main_arg16 m c)
theorem val10_main_arg17 (m : (ℓ : Loc nD τ sig) → Buf (Elt F) ℓ) (c : Dev nD) : val10 m c (no_index (Proc.devRef .tc main_arg17)) = m ((c.tc : Thread nD τ).loc main_arg17) :=
  (val10_keep m c main_arg17 (by decide)).trans (val9_main_arg17 m c)
theorem val10_main_arg18 (m : (ℓ : Loc nD τ sig) → Buf (Elt F) ℓ) (c : Dev nD) : val10 m c (no_index (Proc.devRef .tc main_arg18)) = m ((c.tc : Thread nD τ).loc main_arg18) :=
  (val10_keep m c main_arg18 (by decide)).trans (val9_main_arg18 m c)
theorem val10_main_arg19 (m : (ℓ : Loc nD τ sig) → Buf (Elt F) ℓ) (c : Dev nD) : val10 m c (no_index (Proc.devRef .tc main_arg19)) = m ((c.tc : Thread nD τ).loc main_arg19) :=
  (val10_keep m c main_arg19 (by decide)).trans (val9_main_arg19 m c)
theorem val10_main_arg20 (m : (ℓ : Loc nD τ sig) → Buf (Elt F) ℓ) (c : Dev nD) : val10 m c (no_index (Proc.devRef .tc main_arg20)) = m ((c.tc : Thread nD τ).loc main_arg20) :=
  (val10_keep m c main_arg20 (by decide)).trans (val9_main_arg20 m c)
theorem val10_main_arg21 (m : (ℓ : Loc nD τ sig) → Buf (Elt F) ℓ) (c : Dev nD) : val10 m c (no_index (Proc.devRef .tc main_arg21)) = m ((c.tc : Thread nD τ).loc main_arg21) :=
  (val10_keep m c main_arg21 (by decide)).trans (val9_main_arg21 m c)
theorem val10_main_arg22 (m : (ℓ : Loc nD τ sig) → Buf (Elt F) ℓ) (c : Dev nD) : val10 m c (no_index (Proc.devRef .tc main_arg22)) = m ((c.tc : Thread nD τ).loc main_arg22) :=
  (val10_keep m c main_arg22 (by decide)).trans (val9_main_arg22 m c)
theorem val10_main_arg23 (m : (ℓ : Loc nD τ sig) → Buf (Elt F) ℓ) (c : Dev nD) : val10 m c (no_index (Proc.devRef .tc main_arg23)) = m ((c.tc : Thread nD τ).loc main_arg23) :=
  (val10_keep m c main_arg23 (by decide)).trans (val9_main_arg23 m c)
theorem val10_main_arg24 (m : (ℓ : Loc nD τ sig) → Buf (Elt F) ℓ) (c : Dev nD) : val10 m c (no_index (Proc.devRef .tc main_arg24)) = m ((c.tc : Thread nD τ).loc main_arg24) :=
  (val10_keep m c main_arg24 (by decide)).trans (val9_main_arg24 m c)
theorem val10_main_arg25 (m : (ℓ : Loc nD τ sig) → Buf (Elt F) ℓ) (c : Dev nD) : val10 m c (no_index (Proc.devRef .tc main_arg25)) = m ((c.tc : Thread nD τ).loc main_arg25) :=
  (val10_keep m c main_arg25 (by decide)).trans (val9_main_arg25 m c)
theorem val10_main_arg26 (m : (ℓ : Loc nD τ sig) → Buf (Elt F) ℓ) (c : Dev nD) : val10 m c (no_index (Proc.devRef .tc main_arg26)) = m ((c.tc : Thread nD τ).loc main_arg26) :=
  (val10_keep m c main_arg26 (by decide)).trans (val9_main_arg26 m c)
theorem val10_main_v89 (m : (ℓ : Loc nD τ sig) → Buf (Elt F) ℓ) (c : Dev nD) : val10 m c (no_index (Proc.devRef .tc main_v89)) = Read.val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (val10_keep m c main_v89 (by decide)).trans (val9_main_v89 m c)
set_option maxHeartbeats 2000000 in
theorem val10_main_v121 (m : (ℓ : Loc nD τ sig) → Buf (Elt F) ℓ) (c : Dev nD) : val10 m c (no_index (Proc.devRef .tc main_v121)) = Read.val_main_v121 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  unfold val10
  simp only [seg9]
  after_results_simp
  (try simp only [val9_main_arg21, val9_main_arg20, val9_main_arg19, val9_main_arg16, val9_main_v44, val9_main_arg18, val9_main_arg17])
  rfl

/-- The buffer contents after the first 11 stretches. -/
def val11 (m : (ℓ : Loc nD τ sig) → Buf (Elt F) ℓ) (c : Dev nD) : Valuation τ sig (Elt F) := after seg10 (val10 m c)
/-- The buffers stretch 10 writes. -/
abbrev seg10_W : List (Ref sig .tc) := [main_v122, main_v123, main_v124, main_v125, main_v126, main_v127, main_v128, main_v129, main_v130, main_v131, main_cst_29, main_v132, main_v133, main_cst_30, main_v134, main_v135, main_v136, main_v137]
theorem seg10_writes : (seg10 : List (HloOp τ sig (Elt F))).Forall fun op => op.writes ⊆ (seg10_W.map (Proc.devRef (τ := τ) .tc)).toFinset := by
  simp only [seg10, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 10 does not write keeps its contents through it. -/
theorem val11_keep (m : (ℓ : Loc nD τ sig) → Buf (Elt F) ℓ) (c : Dev nD) (r : Ref sig .tc) (h : r ∉ seg10_W) :
    val11 m c (Proc.devRef .tc r) = val10 m c (Proc.devRef .tc r) :=
  after_of_writes_sub seg10 _ seg10_writes h
theorem val11_main_arg0 (m : (ℓ : Loc nD τ sig) → Buf (Elt F) ℓ) (c : Dev nD) : val11 m c (no_index (Proc.devRef .tc main_arg0)) = m ((c.tc : Thread nD τ).loc main_arg0) :=
  (val11_keep m c main_arg0 (by decide)).trans (val10_main_arg0 m c)
theorem val11_main_arg1 (m : (ℓ : Loc nD τ sig) → Buf (Elt F) ℓ) (c : Dev nD) : val11 m c (no_index (Proc.devRef .tc main_arg1)) = m ((c.tc : Thread nD τ).loc main_arg1) :=
  (val11_keep m c main_arg1 (by decide)).trans (val10_main_arg1 m c)
theorem val11_main_arg2 (m : (ℓ : Loc nD τ sig) → Buf (Elt F) ℓ) (c : Dev nD) : val11 m c (no_index (Proc.devRef .tc main_arg2)) = m ((c.tc : Thread nD τ).loc main_arg2) :=
  (val11_keep m c main_arg2 (by decide)).trans (val10_main_arg2 m c)
theorem val11_main_arg3 (m : (ℓ : Loc nD τ sig) → Buf (Elt F) ℓ) (c : Dev nD) : val11 m c (no_index (Proc.devRef .tc main_arg3)) = m ((c.tc : Thread nD τ).loc main_arg3) :=
  (val11_keep m c main_arg3 (by decide)).trans (val10_main_arg3 m c)
theorem val11_main_arg4 (m : (ℓ : Loc nD τ sig) → Buf (Elt F) ℓ) (c : Dev nD) : val11 m c (no_index (Proc.devRef .tc main_arg4)) = m ((c.tc : Thread nD τ).loc main_arg4) :=
  (val11_keep m c main_arg4 (by decide)).trans (val10_main_arg4 m c)
theorem val11_main_arg5 (m : (ℓ : Loc nD τ sig) → Buf (Elt F) ℓ) (c : Dev nD) : val11 m c (no_index (Proc.devRef .tc main_arg5)) = m ((c.tc : Thread nD τ).loc main_arg5) :=
  (val11_keep m c main_arg5 (by decide)).trans (val10_main_arg5 m c)
theorem val11_main_arg6 (m : (ℓ : Loc nD τ sig) → Buf (Elt F) ℓ) (c : Dev nD) : val11 m c (no_index (Proc.devRef .tc main_arg6)) = m ((c.tc : Thread nD τ).loc main_arg6) :=
  (val11_keep m c main_arg6 (by decide)).trans (val10_main_arg6 m c)
theorem val11_main_arg7 (m : (ℓ : Loc nD τ sig) → Buf (Elt F) ℓ) (c : Dev nD) : val11 m c (no_index (Proc.devRef .tc main_arg7)) = m ((c.tc : Thread nD τ).loc main_arg7) :=
  (val11_keep m c main_arg7 (by decide)).trans (val10_main_arg7 m c)
theorem val11_main_arg8 (m : (ℓ : Loc nD τ sig) → Buf (Elt F) ℓ) (c : Dev nD) : val11 m c (no_index (Proc.devRef .tc main_arg8)) = m ((c.tc : Thread nD τ).loc main_arg8) :=
  (val11_keep m c main_arg8 (by decide)).trans (val10_main_arg8 m c)
theorem val11_main_arg9 (m : (ℓ : Loc nD τ sig) → Buf (Elt F) ℓ) (c : Dev nD) : val11 m c (no_index (Proc.devRef .tc main_arg9)) = m ((c.tc : Thread nD τ).loc main_arg9) :=
  (val11_keep m c main_arg9 (by decide)).trans (val10_main_arg9 m c)
theorem val11_main_arg10 (m : (ℓ : Loc nD τ sig) → Buf (Elt F) ℓ) (c : Dev nD) : val11 m c (no_index (Proc.devRef .tc main_arg10)) = m ((c.tc : Thread nD τ).loc main_arg10) :=
  (val11_keep m c main_arg10 (by decide)).trans (val10_main_arg10 m c)
theorem val11_main_arg11 (m : (ℓ : Loc nD τ sig) → Buf (Elt F) ℓ) (c : Dev nD) : val11 m c (no_index (Proc.devRef .tc main_arg11)) = m ((c.tc : Thread nD τ).loc main_arg11) :=
  (val11_keep m c main_arg11 (by decide)).trans (val10_main_arg11 m c)
theorem val11_main_arg12 (m : (ℓ : Loc nD τ sig) → Buf (Elt F) ℓ) (c : Dev nD) : val11 m c (no_index (Proc.devRef .tc main_arg12)) = m ((c.tc : Thread nD τ).loc main_arg12) :=
  (val11_keep m c main_arg12 (by decide)).trans (val10_main_arg12 m c)
theorem val11_main_arg13 (m : (ℓ : Loc nD τ sig) → Buf (Elt F) ℓ) (c : Dev nD) : val11 m c (no_index (Proc.devRef .tc main_arg13)) = m ((c.tc : Thread nD τ).loc main_arg13) :=
  (val11_keep m c main_arg13 (by decide)).trans (val10_main_arg13 m c)
theorem val11_main_arg14 (m : (ℓ : Loc nD τ sig) → Buf (Elt F) ℓ) (c : Dev nD) : val11 m c (no_index (Proc.devRef .tc main_arg14)) = m ((c.tc : Thread nD τ).loc main_arg14) :=
  (val11_keep m c main_arg14 (by decide)).trans (val10_main_arg14 m c)
theorem val11_main_arg15 (m : (ℓ : Loc nD τ sig) → Buf (Elt F) ℓ) (c : Dev nD) : val11 m c (no_index (Proc.devRef .tc main_arg15)) = m ((c.tc : Thread nD τ).loc main_arg15) :=
  (val11_keep m c main_arg15 (by decide)).trans (val10_main_arg15 m c)
theorem val11_main_arg16 (m : (ℓ : Loc nD τ sig) → Buf (Elt F) ℓ) (c : Dev nD) : val11 m c (no_index (Proc.devRef .tc main_arg16)) = m ((c.tc : Thread nD τ).loc main_arg16) :=
  (val11_keep m c main_arg16 (by decide)).trans (val10_main_arg16 m c)
theorem val11_main_arg17 (m : (ℓ : Loc nD τ sig) → Buf (Elt F) ℓ) (c : Dev nD) : val11 m c (no_index (Proc.devRef .tc main_arg17)) = m ((c.tc : Thread nD τ).loc main_arg17) :=
  (val11_keep m c main_arg17 (by decide)).trans (val10_main_arg17 m c)
theorem val11_main_arg18 (m : (ℓ : Loc nD τ sig) → Buf (Elt F) ℓ) (c : Dev nD) : val11 m c (no_index (Proc.devRef .tc main_arg18)) = m ((c.tc : Thread nD τ).loc main_arg18) :=
  (val11_keep m c main_arg18 (by decide)).trans (val10_main_arg18 m c)
theorem val11_main_arg19 (m : (ℓ : Loc nD τ sig) → Buf (Elt F) ℓ) (c : Dev nD) : val11 m c (no_index (Proc.devRef .tc main_arg19)) = m ((c.tc : Thread nD τ).loc main_arg19) :=
  (val11_keep m c main_arg19 (by decide)).trans (val10_main_arg19 m c)
theorem val11_main_arg20 (m : (ℓ : Loc nD τ sig) → Buf (Elt F) ℓ) (c : Dev nD) : val11 m c (no_index (Proc.devRef .tc main_arg20)) = m ((c.tc : Thread nD τ).loc main_arg20) :=
  (val11_keep m c main_arg20 (by decide)).trans (val10_main_arg20 m c)
theorem val11_main_arg21 (m : (ℓ : Loc nD τ sig) → Buf (Elt F) ℓ) (c : Dev nD) : val11 m c (no_index (Proc.devRef .tc main_arg21)) = m ((c.tc : Thread nD τ).loc main_arg21) :=
  (val11_keep m c main_arg21 (by decide)).trans (val10_main_arg21 m c)
theorem val11_main_arg22 (m : (ℓ : Loc nD τ sig) → Buf (Elt F) ℓ) (c : Dev nD) : val11 m c (no_index (Proc.devRef .tc main_arg22)) = m ((c.tc : Thread nD τ).loc main_arg22) :=
  (val11_keep m c main_arg22 (by decide)).trans (val10_main_arg22 m c)
theorem val11_main_arg23 (m : (ℓ : Loc nD τ sig) → Buf (Elt F) ℓ) (c : Dev nD) : val11 m c (no_index (Proc.devRef .tc main_arg23)) = m ((c.tc : Thread nD τ).loc main_arg23) :=
  (val11_keep m c main_arg23 (by decide)).trans (val10_main_arg23 m c)
theorem val11_main_arg24 (m : (ℓ : Loc nD τ sig) → Buf (Elt F) ℓ) (c : Dev nD) : val11 m c (no_index (Proc.devRef .tc main_arg24)) = m ((c.tc : Thread nD τ).loc main_arg24) :=
  (val11_keep m c main_arg24 (by decide)).trans (val10_main_arg24 m c)
theorem val11_main_arg25 (m : (ℓ : Loc nD τ sig) → Buf (Elt F) ℓ) (c : Dev nD) : val11 m c (no_index (Proc.devRef .tc main_arg25)) = m ((c.tc : Thread nD τ).loc main_arg25) :=
  (val11_keep m c main_arg25 (by decide)).trans (val10_main_arg25 m c)
theorem val11_main_arg26 (m : (ℓ : Loc nD τ sig) → Buf (Elt F) ℓ) (c : Dev nD) : val11 m c (no_index (Proc.devRef .tc main_arg26)) = m ((c.tc : Thread nD τ).loc main_arg26) :=
  (val11_keep m c main_arg26 (by decide)).trans (val10_main_arg26 m c)
set_option maxHeartbeats 2000000 in
theorem val11_main_v137 (m : (ℓ : Loc nD τ sig) → Buf (Elt F) ℓ) (c : Dev nD) : val11 m c (no_index (Proc.devRef .tc main_v137)) = Read.val_main_v137 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  unfold val11
  simp only [seg10]
  after_results_simp
  (try simp only [val10_main_arg24, val10_main_arg23, val10_main_v121, val10_main_arg22, val10_main_v89])
  rfl

/-- The buffer contents after the first 12 stretches. -/
def val12 (m : (ℓ : Loc nD τ sig) → Buf (Elt F) ℓ) (c : Dev nD) : Valuation τ sig (Elt F) := after seg11 (val11 m c)
/-- The buffers stretch 11 writes. -/
abbrev seg11_W : List (Ref sig .tc) := [main_v138, main_v139, main_call5_v0, main_v140, main_v141, main_v142, main_v143, main_v144, main_v145, main_v146, main_call6_cst, main_call6_v0, main_call6_cst_0, main_call6_v1, main_call6_v2, main_call6_v3, main_call6_v4, main_call6_v5, main_call6_v6, main_call6_cst_1, main_call6_v7, main_call6_v8, main_call6_v9, main_call6_v10, main_v147]
theorem seg11_writes : (seg11 : List (HloOp τ sig (Elt F))).Forall fun op => op.writes ⊆ (seg11_W.map (Proc.devRef (τ := τ) .tc)).toFinset := by
  simp only [seg11, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 11 does not write keeps its contents through it. -/
theorem val12_keep (m : (ℓ : Loc nD τ sig) → Buf (Elt F) ℓ) (c : Dev nD) (r : Ref sig .tc) (h : r ∉ seg11_W) :
    val12 m c (Proc.devRef .tc r) = val11 m c (Proc.devRef .tc r) :=
  after_of_writes_sub seg11 _ seg11_writes h
theorem val12_main_arg0 (m : (ℓ : Loc nD τ sig) → Buf (Elt F) ℓ) (c : Dev nD) : val12 m c (no_index (Proc.devRef .tc main_arg0)) = m ((c.tc : Thread nD τ).loc main_arg0) :=
  (val12_keep m c main_arg0 (by decide)).trans (val11_main_arg0 m c)
theorem val12_main_arg1 (m : (ℓ : Loc nD τ sig) → Buf (Elt F) ℓ) (c : Dev nD) : val12 m c (no_index (Proc.devRef .tc main_arg1)) = m ((c.tc : Thread nD τ).loc main_arg1) :=
  (val12_keep m c main_arg1 (by decide)).trans (val11_main_arg1 m c)
theorem val12_main_arg2 (m : (ℓ : Loc nD τ sig) → Buf (Elt F) ℓ) (c : Dev nD) : val12 m c (no_index (Proc.devRef .tc main_arg2)) = m ((c.tc : Thread nD τ).loc main_arg2) :=
  (val12_keep m c main_arg2 (by decide)).trans (val11_main_arg2 m c)
theorem val12_main_arg3 (m : (ℓ : Loc nD τ sig) → Buf (Elt F) ℓ) (c : Dev nD) : val12 m c (no_index (Proc.devRef .tc main_arg3)) = m ((c.tc : Thread nD τ).loc main_arg3) :=
  (val12_keep m c main_arg3 (by decide)).trans (val11_main_arg3 m c)
theorem val12_main_arg4 (m : (ℓ : Loc nD τ sig) → Buf (Elt F) ℓ) (c : Dev nD) : val12 m c (no_index (Proc.devRef .tc main_arg4)) = m ((c.tc : Thread nD τ).loc main_arg4) :=
  (val12_keep m c main_arg4 (by decide)).trans (val11_main_arg4 m c)
theorem val12_main_arg5 (m : (ℓ : Loc nD τ sig) → Buf (Elt F) ℓ) (c : Dev nD) : val12 m c (no_index (Proc.devRef .tc main_arg5)) = m ((c.tc : Thread nD τ).loc main_arg5) :=
  (val12_keep m c main_arg5 (by decide)).trans (val11_main_arg5 m c)
theorem val12_main_arg6 (m : (ℓ : Loc nD τ sig) → Buf (Elt F) ℓ) (c : Dev nD) : val12 m c (no_index (Proc.devRef .tc main_arg6)) = m ((c.tc : Thread nD τ).loc main_arg6) :=
  (val12_keep m c main_arg6 (by decide)).trans (val11_main_arg6 m c)
theorem val12_main_arg7 (m : (ℓ : Loc nD τ sig) → Buf (Elt F) ℓ) (c : Dev nD) : val12 m c (no_index (Proc.devRef .tc main_arg7)) = m ((c.tc : Thread nD τ).loc main_arg7) :=
  (val12_keep m c main_arg7 (by decide)).trans (val11_main_arg7 m c)
theorem val12_main_arg8 (m : (ℓ : Loc nD τ sig) → Buf (Elt F) ℓ) (c : Dev nD) : val12 m c (no_index (Proc.devRef .tc main_arg8)) = m ((c.tc : Thread nD τ).loc main_arg8) :=
  (val12_keep m c main_arg8 (by decide)).trans (val11_main_arg8 m c)
theorem val12_main_arg9 (m : (ℓ : Loc nD τ sig) → Buf (Elt F) ℓ) (c : Dev nD) : val12 m c (no_index (Proc.devRef .tc main_arg9)) = m ((c.tc : Thread nD τ).loc main_arg9) :=
  (val12_keep m c main_arg9 (by decide)).trans (val11_main_arg9 m c)
theorem val12_main_arg10 (m : (ℓ : Loc nD τ sig) → Buf (Elt F) ℓ) (c : Dev nD) : val12 m c (no_index (Proc.devRef .tc main_arg10)) = m ((c.tc : Thread nD τ).loc main_arg10) :=
  (val12_keep m c main_arg10 (by decide)).trans (val11_main_arg10 m c)
theorem val12_main_arg11 (m : (ℓ : Loc nD τ sig) → Buf (Elt F) ℓ) (c : Dev nD) : val12 m c (no_index (Proc.devRef .tc main_arg11)) = m ((c.tc : Thread nD τ).loc main_arg11) :=
  (val12_keep m c main_arg11 (by decide)).trans (val11_main_arg11 m c)
theorem val12_main_arg12 (m : (ℓ : Loc nD τ sig) → Buf (Elt F) ℓ) (c : Dev nD) : val12 m c (no_index (Proc.devRef .tc main_arg12)) = m ((c.tc : Thread nD τ).loc main_arg12) :=
  (val12_keep m c main_arg12 (by decide)).trans (val11_main_arg12 m c)
theorem val12_main_arg13 (m : (ℓ : Loc nD τ sig) → Buf (Elt F) ℓ) (c : Dev nD) : val12 m c (no_index (Proc.devRef .tc main_arg13)) = m ((c.tc : Thread nD τ).loc main_arg13) :=
  (val12_keep m c main_arg13 (by decide)).trans (val11_main_arg13 m c)
theorem val12_main_arg14 (m : (ℓ : Loc nD τ sig) → Buf (Elt F) ℓ) (c : Dev nD) : val12 m c (no_index (Proc.devRef .tc main_arg14)) = m ((c.tc : Thread nD τ).loc main_arg14) :=
  (val12_keep m c main_arg14 (by decide)).trans (val11_main_arg14 m c)
theorem val12_main_arg15 (m : (ℓ : Loc nD τ sig) → Buf (Elt F) ℓ) (c : Dev nD) : val12 m c (no_index (Proc.devRef .tc main_arg15)) = m ((c.tc : Thread nD τ).loc main_arg15) :=
  (val12_keep m c main_arg15 (by decide)).trans (val11_main_arg15 m c)
theorem val12_main_arg16 (m : (ℓ : Loc nD τ sig) → Buf (Elt F) ℓ) (c : Dev nD) : val12 m c (no_index (Proc.devRef .tc main_arg16)) = m ((c.tc : Thread nD τ).loc main_arg16) :=
  (val12_keep m c main_arg16 (by decide)).trans (val11_main_arg16 m c)
theorem val12_main_arg17 (m : (ℓ : Loc nD τ sig) → Buf (Elt F) ℓ) (c : Dev nD) : val12 m c (no_index (Proc.devRef .tc main_arg17)) = m ((c.tc : Thread nD τ).loc main_arg17) :=
  (val12_keep m c main_arg17 (by decide)).trans (val11_main_arg17 m c)
theorem val12_main_arg18 (m : (ℓ : Loc nD τ sig) → Buf (Elt F) ℓ) (c : Dev nD) : val12 m c (no_index (Proc.devRef .tc main_arg18)) = m ((c.tc : Thread nD τ).loc main_arg18) :=
  (val12_keep m c main_arg18 (by decide)).trans (val11_main_arg18 m c)
theorem val12_main_arg19 (m : (ℓ : Loc nD τ sig) → Buf (Elt F) ℓ) (c : Dev nD) : val12 m c (no_index (Proc.devRef .tc main_arg19)) = m ((c.tc : Thread nD τ).loc main_arg19) :=
  (val12_keep m c main_arg19 (by decide)).trans (val11_main_arg19 m c)
theorem val12_main_arg20 (m : (ℓ : Loc nD τ sig) → Buf (Elt F) ℓ) (c : Dev nD) : val12 m c (no_index (Proc.devRef .tc main_arg20)) = m ((c.tc : Thread nD τ).loc main_arg20) :=
  (val12_keep m c main_arg20 (by decide)).trans (val11_main_arg20 m c)
theorem val12_main_arg21 (m : (ℓ : Loc nD τ sig) → Buf (Elt F) ℓ) (c : Dev nD) : val12 m c (no_index (Proc.devRef .tc main_arg21)) = m ((c.tc : Thread nD τ).loc main_arg21) :=
  (val12_keep m c main_arg21 (by decide)).trans (val11_main_arg21 m c)
theorem val12_main_arg22 (m : (ℓ : Loc nD τ sig) → Buf (Elt F) ℓ) (c : Dev nD) : val12 m c (no_index (Proc.devRef .tc main_arg22)) = m ((c.tc : Thread nD τ).loc main_arg22) :=
  (val12_keep m c main_arg22 (by decide)).trans (val11_main_arg22 m c)
theorem val12_main_arg23 (m : (ℓ : Loc nD τ sig) → Buf (Elt F) ℓ) (c : Dev nD) : val12 m c (no_index (Proc.devRef .tc main_arg23)) = m ((c.tc : Thread nD τ).loc main_arg23) :=
  (val12_keep m c main_arg23 (by decide)).trans (val11_main_arg23 m c)
theorem val12_main_arg24 (m : (ℓ : Loc nD τ sig) → Buf (Elt F) ℓ) (c : Dev nD) : val12 m c (no_index (Proc.devRef .tc main_arg24)) = m ((c.tc : Thread nD τ).loc main_arg24) :=
  (val12_keep m c main_arg24 (by decide)).trans (val11_main_arg24 m c)
theorem val12_main_arg25 (m : (ℓ : Loc nD τ sig) → Buf (Elt F) ℓ) (c : Dev nD) : val12 m c (no_index (Proc.devRef .tc main_arg25)) = m ((c.tc : Thread nD τ).loc main_arg25) :=
  (val12_keep m c main_arg25 (by decide)).trans (val11_main_arg25 m c)
theorem val12_main_arg26 (m : (ℓ : Loc nD τ sig) → Buf (Elt F) ℓ) (c : Dev nD) : val12 m c (no_index (Proc.devRef .tc main_arg26)) = m ((c.tc : Thread nD τ).loc main_arg26) :=
  (val12_keep m c main_arg26 (by decide)).trans (val11_main_arg26 m c)
theorem val12_main_v137 (m : (ℓ : Loc nD τ sig) → Buf (Elt F) ℓ) (c : Dev nD) : val12 m c (no_index (Proc.devRef .tc main_v137)) = Read.val_main_v137 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (val12_keep m c main_v137 (by decide)).trans (val11_main_v137 m c)
set_option maxHeartbeats 2000000 in
theorem val12_main_v147 (m : (ℓ : Loc nD τ sig) → Buf (Elt F) ℓ) (c : Dev nD) : val12 m c (no_index (Proc.devRef .tc main_v147)) = Read.val_main_v147 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) := by
  unfold val12
  simp only [seg11]
  after_results_simp
  (try simp only [val11_main_arg26, val11_main_arg25, val11_main_v137, val11_main_arg6, val11_main_arg7])
  rfl

/-- The whole line's fold is the last stretch's contents. -/
theorem after_ops (m : (ℓ : Loc nD τ sig) → Buf (Elt F) ℓ) (c : Dev nD) : after (ops : List (HloOp τ sig (Elt F))) (launchContents m c) = val12 m c := by
  rw [ops_split]; simp only [after_app]; rfl

/-- On every device, from any memory with zero counters: every weakly fair execution of @main terminates with each result
    at its stage's value `Read.val_…` of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v147) = Read.val_main_v147 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_v137) = Read.val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun r h c => ⟨(h c main_v147).trans ((congrFun (after_ops m c) _).trans (val12_main_v147 m c)),
      (h c main_v137).trans ((congrFun (after_ops m c) _).trans (val12_main_v137 m c)),
      (h c main_arg0).trans ((congrFun (after_ops m c) _).trans (val12_main_arg0 m c)),
      (h c main_arg1).trans ((congrFun (after_ops m c) _).trans (val12_main_arg1 m c)),
      (h c main_arg2).trans ((congrFun (after_ops m c) _).trans (val12_main_arg2 m c)),
      (h c main_arg3).trans ((congrFun (after_ops m c) _).trans (val12_main_arg3 m c)),
      (h c main_arg4).trans ((congrFun (after_ops m c) _).trans (val12_main_arg4 m c)),
      (h c main_arg5).trans ((congrFun (after_ops m c) _).trans (val12_main_arg5 m c)),
      (h c main_arg6).trans ((congrFun (after_ops m c) _).trans (val12_main_arg6 m c)),
      (h c main_arg7).trans ((congrFun (after_ops m c) _).trans (val12_main_arg7 m c)),
      (h c main_arg8).trans ((congrFun (after_ops m c) _).trans (val12_main_arg8 m c)),
      (h c main_arg9).trans ((congrFun (after_ops m c) _).trans (val12_main_arg9 m c)),
      (h c main_arg10).trans ((congrFun (after_ops m c) _).trans (val12_main_arg10 m c)),
      (h c main_arg11).trans ((congrFun (after_ops m c) _).trans (val12_main_arg11 m c)),
      (h c main_arg12).trans ((congrFun (after_ops m c) _).trans (val12_main_arg12 m c)),
      (h c main_arg13).trans ((congrFun (after_ops m c) _).trans (val12_main_arg13 m c)),
      (h c main_arg14).trans ((congrFun (after_ops m c) _).trans (val12_main_arg14 m c)),
      (h c main_arg15).trans ((congrFun (after_ops m c) _).trans (val12_main_arg15 m c)),
      (h c main_arg16).trans ((congrFun (after_ops m c) _).trans (val12_main_arg16 m c)),
      (h c main_arg17).trans ((congrFun (after_ops m c) _).trans (val12_main_arg17 m c)),
      (h c main_arg18).trans ((congrFun (after_ops m c) _).trans (val12_main_arg18 m c)),
      (h c main_arg19).trans ((congrFun (after_ops m c) _).trans (val12_main_arg19 m c)),
      (h c main_arg20).trans ((congrFun (after_ops m c) _).trans (val12_main_arg20 m c)),
      (h c main_arg21).trans ((congrFun (after_ops m c) _).trans (val12_main_arg21 m c)),
      (h c main_arg22).trans ((congrFun (after_ops m c) _).trans (val12_main_arg22 m c)),
      (h c main_arg23).trans ((congrFun (after_ops m c) _).trans (val12_main_arg23 m c)),
      (h c main_arg24).trans ((congrFun (after_ops m c) _).trans (val12_main_arg24 m c)),
      (h c main_arg25).trans ((congrFun (after_ops m c) _).trans (val12_main_arg25 m c)),
      (h c main_arg26).trans ((congrFun (after_ops m c) _).trans (val12_main_arg26 m c))⟩)
    (run_seq scopedRefs_eq scopedSems_eq defs main (fun _ => ops) main_eq (fun _ => ops_sub) m ρ)

end Cert.ReferenceIdeal.RunChain

end
-- ==== Proof.lean ====
/-
  The certificate's claim. The kernel computes two rounds of edge-and-node message passing, a small self-attention over
  the column nodes, a row-by-column outer sum with a leaky rectifier, a masked choice between given and predicted edge
  features, and a linear classifier with a row-wise log-softmax; four matrix products with bias and rectifier, the outer
  sum with the masked choice, and the classifier run as pipelined regions, everything else as host operations shared word
  for word with the reference. At the ideal values the regions' casts to bf16 are the identity, a row block of a matrix
  product into the zero accumulator is the matching rows of the whole product, the arithmetic choice
  real · b + pred · (1 − b) for a bit b is the selection (0 · x = 0 on the extended reals), and the row-wise log-softmax is
  the same expression row by row; so each region leaves the reference's stage and the two programs end with equal results.
  The three frames are the generated ones (the reference's is its run with the results dropped); the idealization rewrote
  nothing, so `preserves` is trivial.
-/
import proofs.«102082_j26070451487322_2_alg».proof.Defs
import proofs.«102082_j26070451487322_2_alg».proof.Proof.Gen.Kernel
import proofs.«102082_j26070451487322_2_alg».proof.Proof.Gen.Kernel.Skeleton
import proofs.«102082_j26070451487322_2_alg».proof.Proof.Gen.Kernel.Launch
import proofs.«102082_j26070451487322_2_alg».proof.Proof.Gen.Kernel.Points
import proofs.«102082_j26070451487322_2_alg».proof.Proof.Gen.Kernel.Frame
import proofs.«102082_j26070451487322_2_alg».proof.Proof.Gen.KernelIdeal
import proofs.«102082_j26070451487322_2_alg».proof.Proof.Gen.KernelIdeal.Skeleton
import proofs.«102082_j26070451487322_2_alg».proof.Proof.Gen.KernelIdeal.Launch
import proofs.«102082_j26070451487322_2_alg».proof.Proof.Gen.KernelIdeal.Points
import proofs.«102082_j26070451487322_2_alg».proof.Proof.Gen.KernelIdeal.Frame
import proofs.«102082_j26070451487322_2_alg».proof.Proof.Gen.ReferenceIdeal
import proofs.«102082_j26070451487322_2_alg».proof.Proof.Gen.Pre_finite_inputs
import proofs.«102082_j26070451487322_2_alg».proof.Proof.Final
import proofs.«102082_j26070451487322_2_alg».proof.Proof.RefRunChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the two results dropped. -/
theorem frame_referenceIdeal : Cert.frame_ReferenceIdeal := fun m ρ _ =>
  (θ_run Cert.ReferenceIdeal.defs _ _).mono (fun _ h c => (h c).2.2) (Cert.ReferenceIdeal.RunChain.run m ρ)

/-- Both programs end at the reference's two result stages of the (agreeing) argument arrays. -/
theorem algebraic : Cert.algebraic_KernelIdeal_ReferenceIdeal := by
  intro m ρ m' ρ' _ hagree
  refine ⟨_, _, Cert.KernelIdeal.Final.run m ρ, ?_⟩
  refine (θ_run Cert.ReferenceIdeal.defs _ _).mono (fun r h c => ?_) (Cert.ReferenceIdeal.RunChain.run m' ρ')
  obtain ⟨e0, e1, e2, e3, e4, e5, e6, e7, e8, e9, e10, e11, e12, e13, e14, e15, e16, e17, e18, e19, e20, e21, e22, e23, e24, e25, e26⟩ := hagree c
  refine ⟨?_, ?_, (h c).2.2⟩
  · rw [(h c).1]; simp only [e0, e1, e2, e3, e4, e5, e6, e7, e8, e9, e10, e11, e12, e13, e14, e15, e16, e17, e18, e19, e20, e21, e22, e23, e24, e25, e26]
  · rw [(h c).2.1]; simp only [e0, e1, e2, e3, e4, e5, e6, e7, e8, e9, e10, e11, e12, e13, e14, e15, e16, e17, e18, e19, e20, e21, e22, e23, e24, e25, e26]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
